-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v18_0)) (v2 : (c : Dev Cert.KernelIdeal.nD) → Buf (Elt Ideal) ((c.tc : Thread Cert.KernelIdeal.nD Cert.KernelIdeal.τ).loc Cert.KernelIdeal.main_v18_1)) (v3 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v18_0) = v1 c
          ∧ r.2.mem ((c.tc : Thread Cert.KernelIdeal.nD Cert.KernelIdeal.τ).loc Cert.KernelIdeal.main_v18_1) = v2 c
          ∧ r.2.mem ((c.tc : Thread Cert.KernelIdeal.nD Cert.KernelIdeal.τ).loc Cert.KernelIdeal.main_v8_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_v37) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4096 : Shape := ⟨2, ![1, 4096]⟩
abbrev S4096x4096 : Shape := ⟨2, ![4096, 4096]⟩
abbrev S4096 : Shape := ⟨1, ![4096]⟩
abbrev S4096x1 : Shape := ⟨2, ![4096, 1]⟩
abbrev S1 : Shape := ⟨1, ![1]⟩
abbrev S_ : Shape := ⟨0, ![]⟩

class Facts : Prop where
  bcast_S_S1x4096 : S_.BroadcastsInDim S1x4096 (![] : Fin 0 → Fin S1x4096.rank)
  reducesTo_S1x4096_S_d0_1 : S1x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x1 : S_.BroadcastsInDim S4096x1 (![] : Fin 0 → Fin S4096x1.rank)
  reducesTo_S4096x1_S_d0_1 : S4096x1.ReducesTo [0, 1] S_
  bcast_S_S1 : S_.BroadcastsInDim S1 (![] : Fin 0 → Fin S1.rank)
  reducesTo_S1_S_d0 : S1.ReducesTo [0] S_

variable [Facts]

def fn_part7 {F : FTy → Type} [FloatOps F] (main_arg25 : FVec F S1 .f32) (main_arg26 : FVec F S4096x4096 .f32) (main_v118 : IVec S_ 1) (main_v119 : FVec F S4096 .f32) : IVec S_ 1 :=
  let main_cst_46 : FVec F S_ .f32 := constant S_ .f32 0x7F800000#32
  let main_v120 : FVec F S4096 .f32 := broadcastInDim S4096 ![] bcast_S_S4096 main_cst_46
  let main_v121 : IVec S4096 1 := cmpf .olt main_v119 main_v120
  let main_c_47 : IVec S_ 1 := constantI S_ 1 1#1
  let main_v122 : IVec S_ 1 := (fun x v => Host.reduce IntOp.andi x v reducesTo_S4096_S_d0 h_S_) main_v121 main_c_47
  let main_v123 : IVec S_ 1 := andi main_v118 main_v122
  let main_v124 : FVec F S1 .f32 := Host.absf main_arg25
  let main_cst_48 : FVec F S_ .f32 := constant S_ .f32 0x7F800000#32
  let main_v125 : FVec F S1 .f32 := broadcastInDim S1 ![] bcast_S_S1 main_cst_48
  let main_v126 : IVec S1 1 := cmpf .olt main_v124 main_v125
  let main_c_49 : IVec S_ 1 := constantI S_ 1 1#1
  let main_v127 : IVec S_ 1 := (fun x v => Host.reduce IntOp.andi x v reducesTo_S1_S_d0 h_S_) main_v126 main_c_49
  let main_v128 : IVec S_ 1 := andi main_v123 main_v127
  let main_v129 : FVec F S4096x4096 .f32 := Host.absf main_arg26
  let main_cst_50 : FVec F S_ .f32 := constant S_ .f32 0x7F800000#32
  let main_v130 : FVec F S4096x4096 .f32 := broadcastInDim S4096x4096 ![] bcast_S_S4096x4096 main_cst_50
  let main_v131 : IVec S4096x4096 1 := cmpf .olt main_v129 main_v130
  let main_c_51 : IVec S_ 1 := constantI S_ 1 1#1
  let main_v132 : IVec S_ 1 := (fun x v => Host.reduce IntOp.andi x v reducesTo_S4096x4096_S_d0_1 h_S_) main_v131 main_c_51
  let main_v133 : IVec S_ 1 := andi main_v128 main_v132
  main_v133

def fn_part6 {F : FTy → Type} [FloatOps F] (main_arg21 : FVec F S4096x1 .f32) (main_arg22 : FVec F S1 .f32) (main_arg23 : FVec F S1x4096 .f32) (main_arg24 : FVec F S4096 .f32) (main_arg25 : FVec F S1 .f32) (main_arg26 : FVec F S4096x4096 .f32) (main_v98 : IVec S_ 1) (main_v101 : IVec S4096 1) (main_c_39 : IVec S_ 1) : IVec S_ 1 :=
  let main_v102 : IVec S_ 1 := (fun x v => Host.reduce IntOp.andi x v reducesTo_S4096_S_d0 h_S_) main_v101 main_c_39
  let main_v103 : IVec S_ 1 := andi main_v98 main_v102
  let main_v104 : FVec F S4096x1 .f32 := Host.absf main_arg21
  let main_cst_40 : FVec F S_ .f32 := constant S_ .f32 0x7F800000#32
  let main_v105 : FVec F S4096x1 .f32 := broadcastInDim S4096x1 ![] bcast_S_S4096x1 main_cst_40
  let main_v106 : IVec S4096x1 1 := cmpf .olt main_v104 main_v105
  let main_c_41 : IVec S_ 1 := constantI S_ 1 1#1
  let main_v107 : IVec S_ 1 := (fun x v => Host.reduce IntOp.andi x v reducesTo_S4096x1_S_d0_1 h_S_) main_v106 main_c_41
  let main_v108 : IVec S_ 1 := andi main_v103 main_v107
  let main_v109 : FVec F S1 .f32 := Host.absf main_arg22
  let main_cst_42 : FVec F S_ .f32 := constant S_ .f32 0x7F800000#32
  let main_v110 : FVec F S1 .f32 := broadcastInDim S1 ![] bcast_S_S1 main_cst_42
  let main_v111 : IVec S1 1 := cmpf .olt main_v109 main_v110
  let main_c_43 : IVec S_ 1 := constantI S_ 1 1#1
  let main_v112 : IVec S_ 1 := (fun x v => Host.reduce IntOp.andi x v reducesTo_S1_S_d0 h_S_) main_v111 main_c_43
  let main_v113 : IVec S_ 1 := andi main_v108 main_v112
  let main_v114 : FVec F S1x4096 .f32 := Host.absf main_arg23
  let main_cst_44 : FVec F S_ .f32 := constant S_ .f32 0x7F800000#32
  let main_v115 : FVec F S1x4096 .f32 := broadcastInDim S1x4096 ![] bcast_S_S1x4096 main_cst_44
  let main_v116 : IVec S1x4096 1 := cmpf .olt main_v114 main_v115
  let main_c_45 : IVec S_ 1 := constantI S_ 1 1#1
  let main_v117 : IVec S_ 1 := (fun x v => Host.reduce IntOp.andi x v reducesTo_S1x4096_S_d0_1 h_S_) main_v116 main_c_45
  let main_v118 : IVec S_ 1 := andi main_v113 main_v117
  let main_v119 : FVec F S4096 .f32 := Host.absf main_arg24
  fn_part7 (F := F) main_arg25 main_arg26 main_v118 main_v119

def fn_part5 {F : FTy → Type} [FloatOps F] (main_arg18 : FVec F S4096 .f32) (main_arg19 : FVec F S4096x4096 .f32) (main_arg20 : FVec F S4096 .f32) (main_arg21 : FVec F S4096x1 .f32) (main_arg22 : FVec F S1 .f32) (main_arg23 : FVec F S1x4096 .f32) (main_arg24 : FVec F S4096 .f32) (main_arg25 : FVec F S1 .f32) (main_arg26 : FVec F S4096x4096 .f32) (main_v83 : IVec S_ 1) (main_v84 : FVec F S4096x4096 .f32) (main_cst_32 : FVec F S_ .f32) : IVec S_ 1 :=
  let main_v85 : FVec F S4096x4096 .f32 := broadcastInDim S4096x4096 ![] bcast_S_S4096x4096 main_cst_32
  let main_v86 : IVec S4096x4096 1 := cmpf .olt main_v84 main_v85
  let main_c_33 : IVec S_ 1 := constantI S_ 1 1#1
  let main_v87 : IVec S_ 1 := (fun x v => Host.reduce IntOp.andi x v reducesTo_S4096x4096_S_d0_1 h_S_) main_v86 main_c_33
  let main_v88 : IVec S_ 1 := andi main_v83 main_v87
  let main_v89 : FVec F S4096 .f32 := Host.absf main_arg18
  let main_cst_34 : FVec F S_ .f32 := constant S_ .f32 0x7F800000#32
  let main_v90 : FVec F S4096 .f32 := broadcastInDim S4096 ![] bcast_S_S4096 main_cst_34
  let main_v91 : IVec S4096 1 := cmpf .olt main_v89 main_v90
  let main_c_35 : IVec S_ 1 := constantI S_ 1 1#1
  let main_v92 : IVec S_ 1 := (fun x v => Host.reduce IntOp.andi x v reducesTo_S4096_S_d0 h_S_) main_v91 main_c_35
  let main_v93 : IVec S_ 1 := andi main_v88 main_v92
  let main_v94 : FVec F S4096x4096 .f32 := Host.absf main_arg19
  let main_cst_36 : FVec F S_ .f32 := constant S_ .f32 0x7F800000#32
  let main_v95 : FVec F S4096x4096 .f32 := broadcastInDim S4096x4096 ![] bcast_S_S4096x4096 main_cst_36
  let main_v96 : IVec S4096x4096 1 := cmpf .olt main_v94 main_v95
  let main_c_37 : IVec S_ 1 := constantI S_ 1 1#1
  let main_v97 : IVec S_ 1 := (fun x v => Host.reduce IntOp.andi x v reducesTo_S4096x4096_S_d0_1 h_S_) main_v96 main_c_37
  let main_v98 : IVec S_ 1 := andi main_v93 main_v97
  let main_v99 : FVec F S4096 .f32 := Host.absf main_arg20
  let main_cst_38 : FVec F S_ .f32 := constant S_ .f32 0x7F800000#32
  let main_v100 : FVec F S4096 .f32 := broadcastInDim S4096 ![] bcast_S_S4096 main_cst_38
  let main_v101 : IVec S4096 1 := cmpf .olt main_v99 main_v100
  let main_c_39 : IVec S_ 1 := constantI S_ 1 1#1
  fn_part6 (F := F) main_arg21 main_arg22 main_arg23 main_arg24 main_arg25 main_arg26 main_v98 main_v101 main_c_39

def fn_part4 {F : FTy → Type} [FloatOps F] (main_arg14 : FVec F S4096 .f32) (main_arg15 : FVec F S4096x4096 .f32) (main_arg16 : FVec F S4096 .f32) (main_arg17 : FVec F S4096x4096 .f32) (main_arg18 : FVec F S4096 .f32) (main_arg19 : FVec F S4096x4096 .f32) (main_arg20 : FVec F S4096 .f32) (main_arg21 : FVec F S4096x1 .f32) (main_arg22 : FVec F S1 .f32) (main_arg23 : FVec F S1x4096 .f32) (main_arg24 : FVec F S4096 .f32) (main_arg25 : FVec F S1 .f32) (main_arg26 : FVec F S4096x4096 .f32) (main_v63 : IVec S_ 1) (main_v67 : IVec S_ 1) : IVec S_ 1 :=
  let main_v68 : IVec S_ 1 := andi main_v63 main_v67
  let main_v69 : FVec F S4096 .f32 := Host.absf main_arg14
  let main_cst_26 : FVec F S_ .f32 := constant S_ .f32 0x7F800000#32
  let main_v70 : FVec F S4096 .f32 := broadcastInDim S4096 ![] bcast_S_S4096 main_cst_26
  let main_v71 : IVec S4096 1 := cmpf .olt main_v69 main_v70
  let main_c_27 : IVec S_ 1 := constantI S_ 1 1#1
  let main_v72 : IVec S_ 1 := (fun x v => Host.reduce IntOp.andi x v reducesTo_S4096_S_d0 h_S_) main_v71 main_c_27
  let main_v73 : IVec S_ 1 := andi main_v68 main_v72
  let main_v74 : FVec F S4096x4096 .f32 := Host.absf main_arg15
  let main_cst_28 : FVec F S_ .f32 := constant S_ .f32 0x7F800000#32
  let main_v75 : FVec F S4096x4096 .f32 := broadcastInDim S4096x4096 ![] bcast_S_S4096x4096 main_cst_28
  let main_v76 : IVec S4096x4096 1 := cmpf .olt main_v74 main_v75
  let main_c_29 : IVec S_ 1 := constantI S_ 1 1#1
  let main_v77 : IVec S_ 1 := (fun x v => Host.reduce IntOp.andi x v reducesTo_S4096x4096_S_d0_1 h_S_) main_v76 main_c_29
  let main_v78 : IVec S_ 1 := andi main_v73 main_v77
  let main_v79 : FVec F S4096 .f32 := Host.absf main_arg16
  let main_cst_30 : FVec F S_ .f32 := constant S_ .f32 0x7F800000#32
  let main_v80 : FVec F S4096 .f32 := broadcastInDim S4096 ![] bcast_S_S4096 main_cst_30
  let main_v81 : IVec S4096 1 := cmpf .olt main_v79 main_v80
  let main_c_31 : IVec S_ 1 := constantI S_ 1 1#1
  let main_v82 : IVec S_ 1 := (fun x v => Host.reduce IntOp.andi x v reducesTo_S4096_S_d0 h_S_) main_v81 main_c_31
  let main_v83 : IVec S_ 1 := andi main_v78 main_v82
  let main_v84 : FVec F S4096x4096 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_v83 main_v84 main_cst_32

def fn_part3 {F : FTy → Type} [FloatOps F] (main_arg11 : FVec F S4096x4096 .f32) (main_arg12 : FVec F S4096 .f32) (main_arg13 : FVec F S4096x4096 .f32) (main_arg14 : FVec F S4096 .f32) (main_arg15 : FVec F S4096x4096 .f32) (main_arg16 : FVec F S4096 .f32) (main_arg17 : FVec F S4096x4096 .f32) (main_arg18 : FVec F S4096 .f32) (main_arg19 : FVec F S4096x4096 .f32) (main_arg20 : FVec F S4096 .f32) (main_arg21 : FVec F S4096x1 .f32) (main_arg22 : FVec F S1 .f32) (main_arg23 : FVec F S1x4096 .f32) (main_arg24 : FVec F S4096 .f32) (main_arg25 : FVec F S1 .f32) (main_arg26 : FVec F S4096x4096 .f32) (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  let main_v54 : FVec F S4096x4096 .f32 := Host.absf main_arg11
  let main_cst_20 : FVec F S_ .f32 := constant S_ .f32 0x7F800000#32
  let main_v55 : FVec F S4096x4096 .f32 := broadcastInDim S4096x4096 ![] bcast_S_S4096x4096 main_cst_20
  let main_v56 : IVec S4096x4096 1 := cmpf .olt main_v54 main_v55
  let main_c_21 : IVec S_ 1 := constantI S_ 1 1#1
  let main_v57 : IVec S_ 1 := (fun x v => Host.reduce IntOp.andi x v reducesTo_S4096x4096_S_d0_1 h_S_) main_v56 main_c_21
  let main_v58 : IVec S_ 1 := andi main_v53 main_v57
  let main_v59 : FVec F S4096 .f32 := Host.absf main_arg12
  let main_cst_22 : FVec F S_ .f32 := constant S_ .f32 0x7F800000#32
  let main_v60 : FVec F S4096 .f32 := broadcastInDim S4096 ![] bcast_S_S4096 main_cst_22
  let main_v61 : IVec S4096 1 := cmpf .olt main_v59 main_v60
  let main_c_23 : IVec S_ 1 := constantI S_ 1 1#1
  let main_v62 : IVec S_ 1 := (fun x v => Host.reduce IntOp.andi x v reducesTo_S4096_S_d0 h_S_) main_v61 main_c_23
  let main_v63 : IVec S_ 1 := andi main_v58 main_v62
  let main_v64 : FVec F S4096x4096 .f32 := Host.absf main_arg13
  let main_cst_24 : FVec F S_ .f32 := constant S_ .f32 0x7F800000#32
  let main_v65 : FVec F S4096x4096 .f32 := broadcastInDim S4096x4096 ![] bcast_S_S4096x4096 main_cst_24
  let main_v66 : IVec S4096x4096 1 := cmpf .olt main_v64 main_v65
  let main_c_25 : IVec S_ 1 := constantI S_ 1 1#1
  let main_v67 : IVec S_ 1 := (fun x v => Host.reduce IntOp.andi x v reducesTo_S4096x4096_S_d0_1 h_S_) main_v66 main_c_25
  fn_part4 (F := F) main_arg14 main_arg15 main_arg16 main_arg17 main_arg18 main_arg19 main_arg20 main_arg21 main_arg22 main_arg23 main_arg24 main_arg25 main_arg26 main_v63 main_v67

def fn_part2 {F : FTy → Type} [FloatOps F] (main_arg7 : FVec F S4096x4096 .f32) (main_arg8 : FVec F S4096 .f32) (main_arg9 : FVec F S4096x4096 .f32) (main_arg10 : FVec F S4096 .f32) (main_arg11 : FVec F S4096x4096 .f32) (main_arg12 : FVec F S4096 .f32) (main_arg13 : FVec F S4096x4096 .f32) (main_arg14 : FVec F S4096 .f32) (main_arg15 : FVec F S4096x4096 .f32) (main_arg16 : FVec F S4096 .f32) (main_arg17 : FVec F S4096x4096 .f32) (main_arg18 : FVec F S4096 .f32) (main_arg19 : FVec F S4096x4096 .f32) (main_arg20 : FVec F S4096 .f32) (main_arg21 : FVec F S4096x1 .f32) (main_arg22 : FVec F S1 .f32) (main_arg23 : FVec F S1x4096 .f32) (main_arg24 : FVec F S4096 .f32) (main_arg25 : FVec F S1 .f32) (main_arg26 : FVec F S4096x4096 .f32) (main_v33 : IVec S_ 1) : IVec S_ 1 :=
  let main_v34 : FVec F S4096x4096 .f32 := Host.absf main_arg7
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S4096x4096 .f32 := Host.absf main_arg9
  let main_cst_16 : FVec F S_ .f32 := constant S_ .f32 0x7F800000#32
  let main_v45 : FVec F S4096x4096 .f32 := broadcastInDim S4096x4096 ![] bcast_S_S4096x4096 main_cst_16
  let main_v46 : IVec S4096x4096 1 := cmpf .olt main_v44 main_v45
  let main_c_17 : IVec S_ 1 := constantI S_ 1 1#1
  let main_v47 : IVec S_ 1 := (fun x v => Host.reduce IntOp.andi x v reducesTo_S4096x4096_S_d0_1 h_S_) main_v46 main_c_17
  let main_v48 : IVec S_ 1 := andi main_v43 main_v47
  let main_v49 : FVec F S4096 .f32 := Host.absf main_arg10
  let main_cst_18 : FVec F S_ .f32 := constant S_ .f32 0x7F800000#32
  let main_v50 : FVec F S4096 .f32 := broadcastInDim S4096 ![] bcast_S_S4096 main_cst_18
  fn_part3 (F := F) main_arg11 main_arg12 main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg4 : FVec F S4096x4096 .f32) (main_arg5 : FVec F S4096x4096 .f32) (main_arg6 : FVec F S4096 .f32) (main_arg7 : FVec F S4096x4096 .f32) (main_arg8 : FVec F S4096 .f32) (main_arg9 : FVec F S4096x4096 .f32) (main_arg10 : FVec F S4096 .f32) (main_arg11 : FVec F S4096x4096 .f32) (main_arg12 : FVec F S4096 .f32) (main_arg13 : FVec F S4096x4096 .f32) (main_arg14 : FVec F S4096 .f32) (main_arg15 : FVec F S4096x4096 .f32) (main_arg16 : FVec F S4096 .f32) (main_arg17 : FVec F S4096x4096 .f32) (main_arg18 : FVec F S4096 .f32) (main_arg19 : FVec F S4096x4096 .f32) (main_arg20 : FVec F S4096 .f32) (main_arg21 : FVec F S4096x1 .f32) (main_arg22 : FVec F S1 .f32) (main_arg23 : FVec F S1x4096 .f32) (main_arg24 : FVec F S4096 .f32) (main_arg25 : FVec F S1 .f32) (main_arg26 : FVec F S4096x4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S1x4096 .f32) (main_arg1 : FVec F S1x4096 .f32) (main_arg2 : FVec F S1x4096 .f32) (main_arg3 : FVec F S4096x4096 .f32) (main_arg4 : FVec F S4096x4096 .f32) (main_arg5 : FVec F S4096x4096 .f32) (main_arg6 : FVec F S4096 .f32) (main_arg7 : FVec F S4096x4096 .f32) (main_arg8 : FVec F S4096 .f32) (main_arg9 : FVec F S4096x4096 .f32) (main_arg10 : FVec F S4096 .f32) (main_arg11 : FVec F S4096x4096 .f32) (main_arg12 : FVec F S4096 .f32) (main_arg13 : FVec F S4096x4096 .f32) (main_arg14 : FVec F S4096 .f32) (main_arg15 : FVec F S4096x4096 .f32) (main_arg16 : FVec F S4096 .f32) (main_arg17 : FVec F S4096x4096 .f32) (main_arg18 : FVec F S4096 .f32) (main_arg19 : FVec F S4096x4096 .f32) (main_arg20 : FVec F S4096 .f32) (main_arg21 : FVec F S4096x1 .f32) (main_arg22 : FVec F S1 .f32) (main_arg23 : FVec F S1x4096 .f32) (main_arg24 : FVec F S4096 .f32) (main_arg25 : FVec F S1 .f32) (main_arg26 : FVec F S4096x4096 .f32) : IVec S_ 1 :=
  let main_v0 : FVec F S1x4096 .f32 := Host.absf main_arg0
  let main_cst : FVec F S_ .f32 := constant S_ .f32 0x7F800000#32
  let main_v1 : FVec F S1x4096 .f32 := broadcastInDim S1x4096 ![] bcast_S_S1x4096 main_cst
  let main_v2 : IVec S1x4096 1 := cmpf .olt main_v0 main_v1
  let main_c : IVec S_ 1 := constantI S_ 1 1#1
  let main_v3 : IVec S_ 1 := (fun x v => Host.reduce IntOp.andi x v reducesTo_S1x4096_S_d0_1 h_S_) main_v2 main_c
  let main_v4 : FVec F S1x4096 .f32 := Host.absf main_arg1
  let main_cst_0 : FVec F S_ .f32 := constant S_ .f32 0x7F800000#32
  let main_v5 : FVec F S1x4096 .f32 := broadcastInDim S1x4096 ![] bcast_S_S1x4096 main_cst_0
  let main_v6 : IVec S1x4096 1 := cmpf .olt main_v4 main_v5
  let main_c_1 : IVec S_ 1 := constantI S_ 1 1#1
  let main_v7 : IVec S_ 1 := (fun x v => Host.reduce IntOp.andi x v reducesTo_S1x4096_S_d0_1 h_S_) main_v6 main_c_1
  let main_v8 : IVec S_ 1 := andi main_v3 main_v7
  let main_v9 : FVec F S1x4096 .f32 := Host.absf main_arg2
  let main_cst_2 : FVec F S_ .f32 := constant S_ .f32 0x7F800000#32
  let main_v10 : FVec F S1x4096 .f32 := broadcastInDim S1x4096 ![] bcast_S_S1x4096 main_cst_2
  let main_v11 : IVec S1x4096 1 := cmpf .olt main_v9 main_v10
  let main_c_3 : IVec S_ 1 := constantI S_ 1 1#1
  let main_v12 : IVec S_ 1 := (fun x v => Host.reduce IntOp.andi x v reducesTo_S1x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S1x4096 : Shape := ⟨2, ![1, 4096]⟩
abbrev S4096x4096 : Shape := ⟨2, ![4096, 4096]⟩
abbrev S4096 : Shape := ⟨1, ![4096]⟩
abbrev S4096x1 : Shape := ⟨2, ![4096, 1]⟩
abbrev S1 : Shape := ⟨1, ![1]⟩
abbrev S1x128 : Shape := ⟨2, ![1, 128]⟩
abbrev S128x4096 : Shape := ⟨2, ![128, 4096]⟩
abbrev S1x1 : Shape := ⟨2, ![1, 1]⟩
abbrev S1024x1024 : Shape := ⟨2, ![1024, 1024]⟩
abbrev S1x1024 : Shape := ⟨2, ![1, 1024]⟩
abbrev S1024x1 : Shape := ⟨2, ![1024, 1]⟩

abbrev nBuf : Space → Nat
  | .hbm => 49
  | .vmem => 55
  | .smem => 0
  | _ => 0

abbrev bufTy : (tb : Table) → Fin (tcTables nBuf tb) → BufTy
  | .hbm, ⟨0, _⟩ => ⟨S1x4096, .f32⟩
  | .hbm, ⟨1, _⟩ => ⟨S1x4096, .f32⟩
  | .hbm, ⟨2, _⟩ => ⟨S1x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096, .f32⟩
  | .hbm, ⟨7, _⟩ => ⟨S4096x4096, .f32⟩
  | .hbm, ⟨8, _⟩ => ⟨S4096, .f32⟩
  | .hbm, ⟨9, _⟩ => ⟨S4096x4096, .f32⟩
  | .hbm, ⟨10, _⟩ => ⟨S4096, .f32⟩
  | .hbm, ⟨11, _⟩ => ⟨S4096x4096, .f32⟩
  | .hbm, ⟨12, _⟩ => ⟨S4096, .f32⟩
  | .hbm, ⟨13, _⟩ => ⟨S4096x4096, .f32⟩
  | .hbm, ⟨14, _⟩ => ⟨S4096, .f32⟩
  | .hbm, ⟨15, _⟩ => ⟨S4096x4096, .f32⟩
  | .hbm, ⟨16, _⟩ => ⟨S4096, .f32⟩
  | .hbm, ⟨17, _⟩ => ⟨S4096x4096, .f32⟩
  | .hbm, ⟨18, _⟩ => ⟨S4096, .f32⟩
  | .hbm, ⟨19, _⟩ => ⟨S4096x4096, .f32⟩
  | .hbm, ⟨20, _⟩ => ⟨S4096, .f32⟩
  | .hbm, ⟨21, _⟩ => ⟨S4096x1, .f32⟩
  | .hbm, ⟨22, _⟩ => ⟨S1, .f32⟩
  | .hbm, ⟨23, _⟩ => ⟨S1x4096, .f32⟩
  | .hbm, ⟨24, _⟩ => ⟨S4096, .f32⟩
  | .hbm, ⟨25, _⟩ => ⟨S1, .f32⟩
  | .hbm, ⟨26, _⟩ => ⟨S4096x4096, .f32⟩
  | .hbm, ⟨27, _⟩ => ⟨S1x4096, .f32⟩
  | .hbm, ⟨28, _⟩ => ⟨S1x4096, .f32⟩
  | .hbm, ⟨29, _⟩ => ⟨S1x4096, .f32⟩
  | .hbm, ⟨30, _⟩ => ⟨S1x4096, .f32⟩
  | .hbm, ⟨31, _⟩ => ⟨S1x4096, .f32⟩
  | .hbm, ⟨32, _⟩ => ⟨S1x4096, .f32⟩
  | .hbm, ⟨33, _⟩ => ⟨S1x4096, .f32⟩
  | .hbm, ⟨34, _⟩ => ⟨S1x4096, .f32⟩
  | .hbm, ⟨35, _⟩ => ⟨S1x4096, .f32⟩
  | .hbm, ⟨36, _⟩ => ⟨S1x4096, .f32⟩
  | .hbm, ⟨37, _⟩ => ⟨S1x4096, .f32⟩
  | .hbm, ⟨38, _⟩ => ⟨S1x1, .f32⟩
  | .hbm, ⟨39, _⟩ => ⟨S1x1, .f32⟩
  | .hbm, ⟨40, _⟩ => ⟨S1x1, .f32⟩
  | .hbm, ⟨41, _⟩ => ⟨S1x1, .f32⟩
  | .hbm, ⟨42, _⟩ => ⟨S1x4096, .f32⟩
  | .hbm, ⟨43, _⟩ => ⟨S1x4096, .f32⟩
  | .hbm, ⟨44, _⟩ => ⟨S1x4096, .f32⟩
  | .hbm, ⟨45, _⟩ => ⟨S4096x1, .f32⟩
  | .hbm, ⟨46, _⟩ => ⟨S1x1, .f32⟩
  | .hbm, ⟨47, _⟩ => ⟨S4096x4096, .f32⟩
  | .hbm, ⟨48, _⟩ => ⟨S4096x4096, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .f32⟩
  | .local _ .vmem, ⟨10, _⟩ => ⟨S128x4096, .f32⟩
  | .local _ .vmem, ⟨11, _⟩ => ⟨S128x4096, .f32⟩
  | .local _ .vmem, ⟨12, _⟩ => ⟨S128x4096, .f32⟩
  | .local _ .vmem, ⟨13, _⟩ => ⟨S128x4096, .f32⟩
  | .local _ .vmem, ⟨14, _⟩ => ⟨S128x4096, .f32⟩
  | .local _ .vmem, ⟨15, _⟩ => ⟨S128x4096, .f32⟩
  | .local _ .vmem, ⟨16, _⟩ => ⟨S128x4096, .f32⟩
  | .local _ .vmem, ⟨17, _⟩ => ⟨S128x4096, .f32⟩
  | .local _ .vmem, ⟨18, _⟩ => ⟨S128x4096, .f32⟩
  | .local _ .vmem, ⟨19, _⟩ => ⟨S128x4096, .f32⟩
  | .local _ .vmem, ⟨20, _⟩ => ⟨S128x4096, .f32⟩
  | .local _ .vmem, ⟨21, _⟩ => ⟨S128x4096, .f32⟩
  | .local _ .vmem, ⟨22, _⟩ => ⟨S128x4096, .f32⟩
  | .local _ .vmem, ⟨23, _⟩ => ⟨S128x4096, .f32⟩
  | .local _ .vmem, ⟨24, _⟩ => ⟨S1x4096, .f32⟩
  | .local _ .vmem, ⟨25, _⟩ => ⟨S1x4096, .f32⟩
  | .local _ .vmem, ⟨26, _⟩ => ⟨S1x4096, .f32⟩
  | .local _ .vmem, ⟨27, _⟩ => ⟨S1x4096, .f32⟩
  | .local _ .vmem, ⟨28, _⟩ => ⟨S1x4096, .f32⟩
  | .local _ .vmem, ⟨29, _⟩ => ⟨S1x4096, .f32⟩
  | .local _ .vmem, ⟨30, _⟩ => ⟨S1x4096, .f32⟩
  | .local _ .vmem, ⟨31, _⟩ => ⟨S1x4096, .f32⟩
  | .local _ .vmem, ⟨32, _⟩ => ⟨S1x4096, .f32⟩
  | .local _ .vmem, ⟨33, _⟩ => ⟨S1x4096, .f32⟩
  | .local _ .vmem, ⟨34, _⟩ => ⟨S1x4096, .f32⟩
  | .local _ .vmem, ⟨35, _⟩ => ⟨S1x4096, .f32⟩
  | .local _ .vmem, ⟨36, _⟩ => ⟨S1x4096, .f32⟩
  | .local _ .vmem, ⟨37, _⟩ => ⟨S1x4096, .f32⟩
  | .local _ .vmem, ⟨38, _⟩ => ⟨S1x4096, .f32⟩
  | .local _ .vmem, ⟨39, _⟩ => ⟨S1x4096, .f32⟩
  | .local _ .vmem, ⟨40, _⟩ => ⟨S1024x1024, .f32⟩
  | .local _ .vmem, ⟨41, _⟩ => ⟨S1024x1024, .f32⟩
  | .local _ .vmem, ⟨42, _⟩ => ⟨S1024x1024, .f32⟩
  | .local _ .vmem, ⟨43, _⟩ => ⟨S1024x1024, .f32⟩
  | .local _ .vmem, ⟨44, _⟩ => ⟨S1x1024, .f32⟩
  | .local _ .vmem, ⟨45, _⟩ => ⟨S1x1024, .f32⟩
  | .local _ .vmem, ⟨46, _⟩ => ⟨S1x1024, .f32⟩
  | .local _ .vmem, ⟨47, _⟩ => ⟨S1x1024, .f32⟩
  | .local _ .vmem, ⟨48, _⟩ => ⟨S1024x1, .f32⟩
  | .local _ .vmem, ⟨49, _⟩ => ⟨S1024x1, .f32⟩
  | .local _ .vmem, ⟨50, _⟩ => ⟨S1x1, .f32⟩
  | .local _ .vmem, ⟨51, _⟩ => ⟨S1024x1024, .f32⟩
  | .local _ .vmem, ⟨52, _⟩ => ⟨S1024x1024, .f32⟩
  | .local _ .vmem, ⟨53, _⟩ => ⟨S1024x1024, .f32⟩
  | .local _ .vmem, ⟨54, _⟩ => ⟨S1024x1024, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8_0 : Ref sig .tc := ⟨.hbm, 35, rfl⟩
abbrev main_v8_1 : Ref sig .tc := ⟨.hbm, 36, rfl⟩
abbrev main_v8_2 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18_0 : Ref sig .tc := ⟨.hbm, 47, rfl⟩
abbrev main_v18_1 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg19_0 : Ref sig .tc := ⟨.vmem, 31, rfl⟩
abbrev cc0_stg20_0 : Ref sig .tc := ⟨.vmem, 32, rfl⟩
abbrev cc0_stg21_0 : Ref sig .tc := ⟨.vmem, 33, rfl⟩
abbrev cc0_stg22_0 : Ref sig .tc := ⟨.vmem, 34, rfl⟩
abbrev cc0_stg23_0 : Ref sig .tc := ⟨.vmem, 35, rfl⟩
abbrev cc0_scratch0 : Ref sig .tc := ⟨.vmem, 36, rfl⟩
abbrev cc0_scratch1 : Ref sig .tc := ⟨.vmem, 37, rfl⟩
abbrev cc0_scratch2 : Ref sig .tc := ⟨.vmem, 38, rfl⟩
abbrev cc0_scratch3 : Ref sig .tc := ⟨.vmem, 39, rfl⟩
abbrev cc1_stg0_0 : Ref sig .tc := ⟨.vmem, 40, rfl⟩
abbrev cc1_stg0_1 : Ref sig .tc := ⟨.vmem, 41, rfl⟩
abbrev cc1_stg1_0 : Ref sig .tc := ⟨.vmem, 42, rfl⟩
abbrev cc1_stg1_1 : Ref sig .tc := ⟨.vmem, 43, rfl⟩
abbrev cc1_stg2_0 : Ref sig .tc := ⟨.vmem, 44, rfl⟩
abbrev cc1_stg2_1 : Ref sig .tc := ⟨.vmem, 45, rfl⟩
abbrev cc1_stg3_0 : Ref sig .tc := ⟨.vmem, 46, rfl⟩
abbrev cc1_stg3_1 : Ref sig .tc := ⟨.vmem, 47, rfl⟩
abbrev cc1_stg4_0 : Ref sig .tc := ⟨.vmem, 48, rfl⟩
abbrev cc1_stg4_1 : Ref sig .tc := ⟨.vmem, 49, rfl⟩
abbrev cc1_stg5_0 : Ref sig .tc := ⟨.vmem, 50, rfl⟩
abbrev cc1_stg6_0 : Ref sig .tc := ⟨.vmem, 51, rfl⟩
abbrev cc1_stg6_1 : Ref sig .tc := ⟨.vmem, 52, rfl⟩
abbrev cc1_stg7_0 : Ref sig .tc := ⟨.vmem, 53, rfl⟩
abbrev cc1_stg7_1 : Ref sig .tc := ⟨.vmem, 54, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem16_0 : DmaSem sig := 28
abbrev cc0_sem17_0 : DmaSem sig := 29
abbrev cc0_sem18_0 : DmaSem sig := 30
abbrev cc0_sem19_0 : DmaSem sig := 31
abbrev cc0_sem20_0 : DmaSem sig := 32
abbrev cc0_sem21_0 : DmaSem sig := 33
abbrev cc0_sem22_0 : DmaSem sig := 34
abbrev cc0_sem23_0 : DmaSem sig := 35
abbrev cc1_sem0_0 : DmaSem sig := 36
abbrev cc1_sem0_1 : DmaSem sig := 37
abbrev cc1_sem1_0 : DmaSem sig := 38
abbrev cc1_sem1_1 : DmaSem sig := 39
abbrev cc1_sem2_0 : DmaSem sig := 40
abbrev cc1_sem2_1 : DmaSem sig := 41
abbrev cc1_sem3_0 : DmaSem sig := 42
abbrev cc1_sem3_1 : DmaSem sig := 43
abbrev cc1_sem4_0 : DmaSem sig := 44
abbrev cc1_sem4_1 : DmaSem sig := 45
abbrev cc1_sem5_0 : DmaSem sig := 46
abbrev cc1_sem6_0 : DmaSem sig := 47
abbrev cc1_sem6_1 : DmaSem sig := 48
abbrev cc1_sem7_0 : DmaSem sig := 49
abbrev cc1_sem7_1 : DmaSem sig := 50

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v61 : BitVec 1 := Scalar.cmpi .eq arg0 c31_i32
  let v62 : BitVec 32 := Scalar.extui v61
  let c0_i32_48 : BitVec 32 := 0#32
  let v63 : BitVec 1 := Scalar.cmpi .ne v62 c0_i32_48
  v63

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x4096 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x4096 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x4096 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x4096 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x4096 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x4096 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x4096 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x4096 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x4096 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x4096 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x4096 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x4096 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1024x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1024x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

class Facts₀ : Prop where
  shapeCasts_S4096_S1x4096 : S4096.ShapeCasts S1x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x128_S1x128_0_0 : ∀ a, (![0, 0] : Fin 2 → Nat) a + S1x128.size a ≤ S1x128.size a
  h_S1x128 : 0 < S1x128.numel
  bitsLt_bf16_f32 : FTy.bits .bf16 < FTy.bits .f32
  inb_S128x4096_S128x4096_0_0 : ∀ a, (![0, 0] : Fin 2 → Nat) a + S128x4096.size a ≤ S128x4096.size a
  h_S128x4096 : 0 < S128x4096.numel
  bcast_S1_S1x1_1 : S1.BroadcastsInDim S1x1 (![1] : Fin 1 → Fin S1x1.rank)
  bcast_S4096_S1x4096_1 : S4096.BroadcastsInDim S1x4096 (![1] : Fin 1 → Fin S1x4096.rank)
  transposes_S1x4096_S4096x1_1_0 : S1x4096.Transposes [1, 0] S4096x1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  broadcasts_S1x1_S1024x1024 : S1x1.Broadcasts S1024x1024
  dot_S1x128_S128x4096_S1x4096_1_0_0_1_n_n_wf : DotDims.WF S1x128 S128x4096 S1x4096 [1] [0] [0] [1] [] []
  dot_S1x4096_S4096x1_S1x1_1_0_0_1_n_n_wf : DotDims.WF S1x4096 S4096x1 S1x1 [1] [0] [0] [1] [] []
  dot_S1x1_S1x4096_S1x4096_1_0_0_1_n_n_wf : DotDims.WF S1x1 S1x4096 S1x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128.size a ≤ S1x4096.size a
  hwx0_0 : ∀ i : grid0.Coords, EltTy.bits .f32 = 32 ∨ (Rect.block (s := S1x4096) S1x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x4096.size a
  hwx0_1 : ∀ i : grid0.Coords, EltTy.bits .f32 = 32 ∨ (Rect.block (s := S1x4096) S1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S4096x4096.size a
  hwx0_2 : ∀ i : grid0.Coords, EltTy.bits .f32 = 32 ∨ (Rect.block (s := S4096x4096) S128x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S4096x4096.size a
  hwx0_3 : ∀ i : grid0.Coords, EltTy.bits .f32 = 32 ∨ (Rect.block (s := S4096x4096) S128x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S4096x4096.size a
  hwx0_4 : ∀ i : grid0.Coords, EltTy.bits .f32 = 32 ∨ (Rect.block (s := S4096x4096) S128x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x4096.size a ≤ S4096x4096.size a
  hwx0_5 : ∀ i : grid0.Coords, EltTy.bits .f32 = 32 ∨ (Rect.block (s := S4096x4096) S128x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x4096.size a ≤ S4096x4096.size a
  hwx0_6 : ∀ i : grid0.Coords, EltTy.bits .f32 = 32 ∨ (Rect.block (s := S4096x4096) S128x4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x4096.size a ≤ S4096x4096.size a
  hwx0_7 : ∀ i : grid0.Coords, EltTy.bits .f32 = 32 ∨ (Rect.block (s := S4096x4096) S128x4096.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x4096.size a ≤ S4096x4096.size a
  hwx0_8 : ∀ i : grid0.Coords, EltTy.bits .f32 = 32 ∨ (Rect.block (s := S4096x4096) S128x4096.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x4096.size a ≤ S4096x4096.size a
  hwx0_9 : ∀ i : grid0.Coords, EltTy.bits .f32 = 32 ∨ (Rect.block (s := S4096x4096) S128x4096.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x4096.size a ≤ S4096x4096.size a
  hwx0_10 : ∀ i : grid0.Coords, EltTy.bits .f32 = 32 ∨ (Rect.block (s := S4096x4096) S128x4096.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x4096.size a ≤ S4096x4096.size a
  hwx0_11 : ∀ i : grid0.Coords, EltTy.bits .f32 = 32 ∨ (Rect.block (s := S4096x4096) S128x4096.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x4096.size a ≤ S1x4096.size a
  hwx0_12 : ∀ i : grid0.Coords, EltTy.bits .f32 = 32 ∨ (Rect.block (s := S1x4096) S1x4096.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x4096.size a ≤ S1x4096.size a
  hwx0_13 : ∀ i : grid0.Coords, EltTy.bits .f32 = 32 ∨ (Rect.block (s := S1x4096) S1x4096.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x4096.size a ≤ S1x4096.size a
  hwx0_14 : ∀ i : grid0.Coords, EltTy.bits .f32 = 32 ∨ (Rect.block (s := S1x4096) S1x4096.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x4096.size a ≤ S1x4096.size a
  hwx0_15 : ∀ i : grid0.Coords, EltTy.bits .f32 = 32 ∨ (Rect.block (s := S1x4096) S1x4096.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x4096.size a ≤ S1x4096.size a
  hwx0_16 : ∀ i : grid0.Coords, EltTy.bits .f32 = 32 ∨ (Rect.block (s := S1x4096) S1x4096.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x4096.size a ≤ S1x4096.size a
  hwx0_17 : ∀ i : grid0.Coords, EltTy.bits .f32 = 32 ∨ (Rect.block (s := S1x4096) S1x4096.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x4096.size a ≤ S1x4096.size a
  hwx0_18 : ∀ i : grid0.Coords, EltTy.bits .f32 = 32 ∨ (Rect.block (s := S1x4096) S1x4096.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x4096.size a ≤ S1x4096.size a
  hwx0_19 : ∀ i : grid0.Coords, EltTy.bits .f32 = 32 ∨ (Rect.block (s := S1x4096) S1x4096.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x4096.size a ≤ S1x4096.size a
  hwx0_20 : ∀ i : grid0.Coords, EltTy.bits .f32 = 32 ∨ (Rect.block (s := S1x4096) S1x4096.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x4096.size a ≤ S1x4096.size a
  hwx0_21 : ∀ i : grid0.Coords, EltTy.bits .f32 = 32 ∨ (Rect.block (s := S1x4096) S1x4096.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1x4096.size a ≤ S1x4096.size a
  hwx0_22 : ∀ i : grid0.Coords, EltTy.bits .f32 = 32 ∨ (Rect.block (s := S1x4096) S1x4096.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S1x4096.size a ≤ S1x4096.size a
  hwx0_23 : ∀ i : grid0.Coords, EltTy.bits .f32 = 32 ∨ (Rect.block (s := S1x4096) S1x4096.size (cc0_transform_23 i) (hinb0_23 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x4096.size a
  hwx1_0 : ∀ i : grid1.Coords, EltTy.bits .f32 = 32 ∨ (Rect.block (s := S4096x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .f32 = 32 ∨ (Rect.block (s := S4096x4096) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x4096.size a
  hwx1_3 : ∀ i : grid1.Coords, EltTy.bits .f32 = 32 ∨ (Rect.block (s := S1x4096) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S4096x1.size a
  hwx1_4 : ∀ i : grid1.Coords, EltTy.bits .f32 = 32 ∨ (Rect.block (s := S4096x1) S1024x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x1024.size a ≤ S4096x4096.size a
  hwx1_6 : ∀ i : grid1.Coords, EltTy.bits .f32 = 32 ∨ (Rect.block (s := S4096x4096) S1024x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x1024.size a ≤ S4096x4096.size a
  hwx1_7 : ∀ i : grid1.Coords, EltTy.bits .f32 = 32 ∨ (Rect.block (s := S4096x4096) S1024x1024.size (cc1_transform_7 i) (hinb1_7 i)).WholeWords (EltTy.packing .f32)

variable [Facts₀]

def dot_S1x128_S128x4096_S1x4096_1_0_0_1_n_n : DotDims S1x128 S128x4096 S1x4096 where
  lhsContracting := [1]
  rhsContracting := [0]
  lhsNonContracting := [0]
  rhsNonContracting := [1]
  lhsBatch := []
  rhsBatch := []
  wf := dot_S1x128_S128x4096_S1x4096_1_0_0_1_n_n_wf
def dot_S1x4096_S4096x1_S1x1_1_0_0_1_n_n : DotDims S1x4096 S4096x1 S1x1 where
  lhsContracting := [1]
  rhsContracting := [0]
  lhsNonContracting := [0]
  rhsNonContracting := [1]
  lhsBatch := []
  rhsBatch := []
  wf := dot_S1x4096_S4096x1_S1x1_1_0_0_1_n_n_wf
def dot_S1x1_S1x4096_S1x4096_1_0_0_1_n_n : DotDims S1x1 S1x4096 S1x4096 where
  lhsContracting := [1]
  rhsContracting := [0]
  lhsNonContracting := [0]
  rhsNonContracting := [1]
  lhsBatch := []
  rhsBatch := []
  wf := dot_S1x1_S1x4096_S1x4096_1_0_0_1_n_n_wf

abbrev win0_0 : Pipeline.Window sig grid0 :=
  Pipeline.Window.ofSpec (Memref.whole main_arg0) S1x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S128x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S128x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg11) S128x4096.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg13) S128x4096.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg15) S128x4096.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg17) S128x4096.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg19) S128x4096.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg26) S128x4096.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_arg3) S128x4096.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v0) S1x4096.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v1) S1x4096.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v2) S1x4096.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v3) S1x4096.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v4) S1x4096.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v5) S1x4096.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v6) S1x4096.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v7) S1x4096.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg2) S1x4096.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v8_0) S1x4096.size cc0_transform_21 reads0_21 true true 1 stage0_21 sem0_21
    hrank0 hreads0_21 hinb0_21 nbuf0_21 (Memref.isWhole_whole _) hwx0_21 hstage0_21

abbrev win0_22 : Pipeline.Window sig grid0 :=
  Pipeline.Window.ofSpec (Memref.whole main_v8_1) S1x4096.size cc0_transform_22 reads0_22 true true 1 stage0_22 sem0_22
    hrank0 hreads0_22 hinb0_22 nbuf0_22 (Memref.isWhole_whole _) hwx0_22 hstage0_22

abbrev win0_23 : Pipeline.Window sig grid0 :=
  Pipeline.Window.ofSpec (Memref.whole main_v8_2) S1x4096.size cc0_transform_23 reads0_23 true true 1 stage0_23 sem0_23
    hrank0 hreads0_23 hinb0_23 nbuf0_23 (Memref.isWhole_whole _) hwx0_23 hstage0_23

abbrev win0 : Fin 24 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | ⟨_ + 24, h⟩ => absurd h (Nat.not_lt.2 (Nat.le_add_left _ _))
abbrev spec0 : Fin 24 → Pipeline.WinSpec sig grid0.rank := fun w => (win0 w).toWinSpec

abbrev idle0 : Fin 24 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun _ => false | 17 => fun _ => false | 18 => fun _ => false | 19 => fun _ => false | 20 => fun _ => false | 21 => fun i => !(k0_cond2 i == 1#1) | 22 => fun i => !(k0_cond2 i == 1#1) | 23 => fun i => !(k0_cond2 i == 1#1) | ⟨_ + 24, h⟩ => absurd h (Nat.not_lt.2 (Nat.le_add_left _ _))

abbrev win1_0 : Pipeline.Window sig grid1 :=
  Pipeline.Window.ofSpec (Memref.whole main_arg3) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8_2) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v16) S1024x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18_0) S1024x1024.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v18_1) S1024x1024.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S1x4096 : Shape := ⟨2, ![1, 4096]⟩
abbrev S4096x4096 : Shape := ⟨2, ![4096, 4096]⟩
abbrev S4096 : Shape := ⟨1, ![4096]⟩
abbrev S4096x1 : Shape := ⟨2, ![4096, 1]⟩
abbrev S1 : Shape := ⟨1, ![1]⟩
abbrev S1x1 : Shape := ⟨2, ![1, 1]⟩
abbrev S_ : Shape := ⟨0, ![]⟩

abbrev nBuf : Space → Nat
  | .hbm => 97
  | .vmem => 0
  | .smem => 0
  | _ => 0

abbrev bufTy : (tb : Table) → Fin (tcTables nBuf tb) → BufTy
  | .hbm, ⟨0, _⟩ => ⟨S1x4096, .f32⟩
  | .hbm, ⟨1, _⟩ => ⟨S1x4096, .f32⟩
  | .hbm, ⟨2, _⟩ => ⟨S1x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096, .f32⟩
  | .hbm, ⟨7, _⟩ => ⟨S4096x4096, .f32⟩
  | .hbm, ⟨8, _⟩ => ⟨S4096, .f32⟩
  | .hbm, ⟨9, _⟩ => ⟨S4096x4096, .f32⟩
  | .hbm, ⟨10, _⟩ => ⟨S4096, .f32⟩
  | .hbm, ⟨11, _⟩ => ⟨S4096x4096, .f32⟩
  | .hbm, ⟨12, _⟩ => ⟨S4096, .f32⟩
  | .hbm, ⟨13, _⟩ => ⟨S4096x4096, .f32⟩
  | .hbm, ⟨14, _⟩ => ⟨S4096, .f32⟩
  | .hbm, ⟨15, _⟩ => ⟨S4096x4096, .f32⟩
  | .hbm, ⟨16, _⟩ => ⟨S4096, .f32⟩
  | .hbm, ⟨17, _⟩ => ⟨S4096x4096, .f32⟩
  | .hbm, ⟨18, _⟩ => ⟨S4096, .f32⟩
  | .hbm, ⟨19, _⟩ => ⟨S4096x4096, .f32⟩
  | .hbm, ⟨20, _⟩ => ⟨S4096, .f32⟩
  | .hbm, ⟨21, _⟩ => ⟨S4096x1, .f32⟩
  | .hbm, ⟨22, _⟩ => ⟨S1, .f32⟩
  | .hbm, ⟨23, _⟩ => ⟨S1x4096, .f32⟩
  | .hbm, ⟨24, _⟩ => ⟨S4096, .f32⟩
  | .hbm, ⟨25, _⟩ => ⟨S1, .f32⟩
  | .hbm, ⟨26, _⟩ => ⟨S4096x4096, .f32⟩
  | .hbm, ⟨27, _⟩ => ⟨S4096x4096, .f32⟩
  | .hbm, ⟨28, _⟩ => ⟨S1x4096, .f32⟩
  | .hbm, ⟨29, _⟩ => ⟨S1x4096, .f32⟩
  | .hbm, ⟨30, _⟩ => ⟨S1x4096, .f32⟩
  | .hbm, ⟨31, _⟩ => ⟨S1x4096, .f32⟩
  | .hbm, ⟨32, _⟩ => ⟨S1x4096, .f32⟩
  | .hbm, ⟨33, _⟩ => ⟨S1x4096, .f32⟩
  | .hbm, ⟨34, _⟩ => ⟨S1x4096, .f32⟩
  | .hbm, ⟨35, _⟩ => ⟨S1x4096, .f32⟩
  | .hbm, ⟨36, _⟩ => ⟨S1x4096, .f32⟩
  | .hbm, ⟨37, _⟩ => ⟨S1x4096, .f32⟩
  | .hbm, ⟨38, _⟩ => ⟨S1x4096, .f32⟩
  | .hbm, ⟨39, _⟩ => ⟨S1x4096, .f32⟩
  | .hbm, ⟨40, _⟩ => ⟨S1x4096, .f32⟩
  | .hbm, ⟨41, _⟩ => ⟨S1x4096, .f32⟩
  | .hbm, ⟨42, _⟩ => ⟨S1x4096, .f32⟩
  | .hbm, ⟨43, _⟩ => ⟨S1x4096, .f32⟩
  | .hbm, ⟨44, _⟩ => ⟨S1x4096, .f32⟩
  | .hbm, ⟨45, _⟩ => ⟨S1x4096, .f32⟩
  | .hbm, ⟨46, _⟩ => ⟨S1x4096, .f32⟩
  | .hbm, ⟨47, _⟩ => ⟨S1x4096, .f32⟩
  | .hbm, ⟨48, _⟩ => ⟨S1x4096, .f32⟩
  | .hbm, ⟨49, _⟩ => ⟨S1x4096, .f32⟩
  | .hbm, ⟨50, _⟩ => ⟨S1x4096, .f32⟩
  | .hbm, ⟨51, _⟩ => ⟨S1x4096, .f32⟩
  | .hbm, ⟨52, _⟩ => ⟨S1x4096, .f32⟩
  | .hbm, ⟨53, _⟩ => ⟨S1x4096, .f32⟩
  | .hbm, ⟨54, _⟩ => ⟨S1x4096, .f32⟩
  | .hbm, ⟨55, _⟩ => ⟨S1x4096, .f32⟩
  | .hbm, ⟨56, _⟩ => ⟨S1x4096, .f32⟩
  | .hbm, ⟨57, _⟩ => ⟨S1x4096, .f32⟩
  | .hbm, ⟨58, _⟩ => ⟨S1x4096, .f32⟩
  | .hbm, ⟨59, _⟩ => ⟨S1x4096, .f32⟩
  | .hbm, ⟨60, _⟩ => ⟨S1x4096, .f32⟩
  | .hbm, ⟨61, _⟩ => ⟨S1x4096, .f32⟩
  | .hbm, ⟨62, _⟩ => ⟨S1x4096, .f32⟩
  | .hbm, ⟨63, _⟩ => ⟨S1x4096, .f32⟩
  | .hbm, ⟨64, _⟩ => ⟨S1x4096, .f32⟩
  | .hbm, ⟨65, _⟩ => ⟨S1x4096, .f32⟩
  | .hbm, ⟨66, _⟩ => ⟨S1x4096, .f32⟩
  | .hbm, ⟨67, _⟩ => ⟨S1x1, .f32⟩
  | .hbm, ⟨68, _⟩ => ⟨S1x1, .f32⟩
  | .hbm, ⟨69, _⟩ => ⟨S1x1, .f32⟩
  | .hbm, ⟨70, _⟩ => ⟨S1x1, .f32⟩
  | .hbm, ⟨71, _⟩ => ⟨S1x4096, .f32⟩
  | .hbm, ⟨72, _⟩ => ⟨S1x4096, .f32⟩
  | .hbm, ⟨73, _⟩ => ⟨S1x4096, .f32⟩
  | .hbm, ⟨74, _⟩ => ⟨S4096x4096, .f32⟩
  | .hbm, ⟨75, _⟩ => ⟨S4096x4096, .f32⟩
  | .hbm, ⟨76, _⟩ => ⟨S4096x4096, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S4096x4096, .f32⟩
  | .hbm, ⟨81, _⟩ => ⟨S4096x4096, .f32⟩
  | .hbm, ⟨82, _⟩ => ⟨S_, .f32⟩
  | .hbm, ⟨83, _⟩ => ⟨S4096x4096, .f32⟩
  | .hbm, ⟨84, _⟩ => ⟨S4096x4096, .f32⟩
  | .hbm, ⟨85, _⟩ => ⟨S_, .f32⟩
  | .hbm, ⟨86, _⟩ => ⟨S1, .f32⟩
  | .hbm, ⟨87, _⟩ => ⟨S1, .f32⟩
  | .hbm, ⟨88, _⟩ => ⟨S1x1, .f32⟩
  | .hbm, ⟨89, _⟩ => ⟨S4096x4096, .f32⟩
  | .hbm, ⟨90, _⟩ => ⟨S4096x4096, .f32⟩
  | .hbm, ⟨91, _⟩ => ⟨S4096x1, .f32⟩
  | .hbm, ⟨92, _⟩ => ⟨S4096x4096, .f32⟩
  | .hbm, ⟨93, _⟩ => ⟨S1x1, .f32⟩
  | .hbm, ⟨94, _⟩ => ⟨S4096x4096, .f32⟩
  | .hbm, ⟨95, _⟩ => ⟨S4096x4096, .f32⟩
  | .hbm, ⟨96, _⟩ => ⟨S4096x4096, .f32⟩
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst : Ref sig .tc := ⟨.hbm, 77, rfl⟩
abbrev main_cst_0 : Ref sig .tc := ⟨.hbm, 78, rfl⟩
abbrev main_call0_v0 : Ref sig .tc := ⟨.hbm, 79, rfl⟩
abbrev main_call0_v1 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_v50 : Ref sig .tc := ⟨.hbm, 84, rfl⟩
abbrev main_cst_1 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1_S1x1_1 : S1.BroadcastsInDim S1x1 (![1] : Fin 1 → Fin S1x1.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  bcast_S_S1 : S_.BroadcastsInDim S1 (![] : Fin 0 → Fin S1.rank)
  bcast_S1x1_S4096x4096_0_1 : S1x1.BroadcastsInDim S4096x4096 (![0, 1] : Fin 2 → Fin S4096x4096.rank)
  transposes_S1x4096_S4096x1_1_0 : S1x4096.Transposes [1, 0] S4096x1
  dot_S1x4096_S4096x4096_S1x4096_1_0_0_1_n_n_wf : DotDims.WF S1x4096 S4096x4096 S1x4096 [1] [0] [0] [1] [] []
  dot_S1x4096_S4096x1_S1x1_1_0_0_1_n_n_wf : DotDims.WF S1x4096 S4096x1 S1x1 [1] [0] [0] [1] [] []
  dot_S1x1_S1x4096_S1x4096_1_0_0_1_n_n_wf : DotDims.WF S1x1 S1x4096 S1x4096 [1] [0] [0] [1] [] []
  dot_S4096x1_S1x4096_S4096x4096_1_0_0_1_n_n_wf : DotDims.WF S4096x1 S1x4096 S4096x4096 [1] [0] [0] [1] [] []

variable [Facts₀]

def dot_S1x4096_S4096x4096_S1x4096_1_0_0_1_n_n : DotDims S1x4096 S4096x4096 S1x4096 where
  lhsContracting := [1]
  rhsContracting := [0]
  lhsNonContracting := [0]
  rhsNonContracting := [1]
  lhsBatch := []
  rhsBatch := []
  wf := dot_S1x4096_S4096x4096_S1x4096_1_0_0_1_n_n_wf
def dot_S1x4096_S4096x1_S1x1_1_0_0_1_n_n : DotDims S1x4096 S4096x1 S1x1 where
  lhsContracting := [1]
  rhsContracting := [0]
  lhsNonContracting := [0]
  rhsNonContracting := [1]
  lhsBatch := []
  rhsBatch := []
  wf := dot_S1x4096_S4096x1_S1x1_1_0_0_1_n_n_wf
def dot_S1x1_S1x4096_S1x4096_1_0_0_1_n_n : DotDims S1x1 S1x4096 S1x4096 where
  lhsContracting := [1]
  rhsContracting := [0]
  lhsNonContracting := [0]
  rhsNonContracting := [1]
  lhsBatch := []
  rhsBatch := []
  wf := dot_S1x1_S1x4096_S1x4096_1_0_0_1_n_n_wf
def dot_S4096x1_S1x4096_S4096x4096_1_0_0_1_n_n : DotDims S4096x1 S1x4096 S4096x4096 where
  lhsContracting := [1]
  rhsContracting := [0]
  lhsNonContracting := [0]
  rhsNonContracting := [1]
  lhsBatch := []
  rhsBatch := []
  wf := dot_S4096x1_S1x4096_S4096x4096_1_0_0_1_n_n_wf

class Facts : Prop extends Facts₀ where

variable [Facts]
-- ==== Proof.Bits.Phase1Cases.lean ====
import proofs.«169774_j34978213659000_2_alg».proof.Proof.Gen.Kernel.Launch
import proofs.«169774_j34978213659000_2_alg».proof.Proof.Gen.Kernel.Skeleton
import proofs.«169774_j34978213659000_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Phase1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # Phase 1 (the gate accumulation): its grid cases and its buffers

The phase-1 kernel runs on a grid of 32 points, one per block of 128 rows of the eight gate matrices. At the
first point it zeroes its four accumulators, at every point it adds that block's partial products into them, and at
the last point it adds the biases, applies the nonlinearities and stores the three results. So a point is in one of
three cases — first, middle, last — told apart by two tests on the grid coordinate. -/

/-- The test "this is the first point", as the body computes it from the grid coordinate. -/
abbrev cond0_0 (i : grid0.Coords) : Prop := (Scalar.cmpi .ne (Scalar.extui (Scalar.cmpi .eq (BitVec.ofNat 32 (i 0).val) 0#32)) 0#32) = 1#1
/-- It holds exactly at point 0. -/
theorem hcond0_0 : ∀ t : Fin cfg0.N, cond0_0 (grid0.coords t) ↔ t.val % 32 = 0 :=
  (by decide +kernel : ∀ t : Fin grid0.N, cond0_0 (grid0.coords t) ↔ t.val % 32 = 0)

/-- The test "this is the last point". -/
abbrev cond0_1 (i : grid0.Coords) : Prop := k0_cond2 i = 1#1
/-- It holds exactly at point 31. -/
theorem hcond0_1 : ∀ t : Fin cfg0.N, cond0_1 (grid0.coords t) ↔ t.val % 32 = 31 :=
  (by decide +kernel : ∀ t : Fin grid0.N, cond0_1 (grid0.coords t) ↔ t.val % 32 = 31)

/-! ## Where the windows are idle

The twenty-one input windows (x and r by column block, the ten matrices by row block, the eight biases and the cell
state whole) are never idle. The three output windows are stored only at the last point: elsewhere they are idle and
not written back. -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
theorem liveAt0_10 : ∀ t : Fin cfg0.N, cfg0.idle 10 (grid0.coords t) = false := by decide +kernel
theorem liveAt0_11 : ∀ t : Fin cfg0.N, cfg0.idle 11 (grid0.coords t) = false := by decide +kernel
theorem liveAt0_12 : ∀ t : Fin cfg0.N, cfg0.idle 12 (grid0.coords t) = false := by decide +kernel
theorem liveAt0_13 : ∀ t : Fin cfg0.N, cfg0.idle 13 (grid0.coords t) = false := by decide +kernel
theorem liveAt0_14 : ∀ t : Fin cfg0.N, cfg0.idle 14 (grid0.coords t) = false := by decide +kernel
theorem liveAt0_15 : ∀ t : Fin cfg0.N, cfg0.idle 15 (grid0.coords t) = false := by decide +kernel
theorem liveAt0_16 : ∀ t : Fin cfg0.N, cfg0.idle 16 (grid0.coords t) = false := by decide +kernel
theorem liveAt0_17 : ∀ t : Fin cfg0.N, cfg0.idle 17 (grid0.coords t) = false := by decide +kernel
theorem liveAt0_18 : ∀ t : Fin cfg0.N, cfg0.idle 18 (grid0.coords t) = false := by decide +kernel
theorem liveAt0_19 : ∀ t : Fin cfg0.N, cfg0.idle 19 (grid0.coords t) = false := by decide +kernel
theorem liveAt0_20 : ∀ t : Fin cfg0.N, cfg0.idle 20 (grid0.coords t) = false := by decide +kernel

/-- The output window of h: idle and not written back at the first point, -/
theorem idleAt0_21_first : ∀ t : Fin cfg0.N, cond0_0 (grid0.coords t) → ¬cond0_1 (grid0.coords t) → cfg0.idle 21 (grid0.coords t) = true := by decide +kernel
theorem noFlush0_21_first : ∀ t : Fin cfg0.N, cond0_0 (grid0.coords t) → ¬cond0_1 (grid0.coords t) → (cfg0.win 21).flush t = false := by decide +kernel
/-- and at the middle points; -/
theorem idleAt0_21_mid : ∀ t : Fin cfg0.N, ¬cond0_0 (grid0.coords t) → ¬cond0_1 (grid0.coords t) → cfg0.idle 21 (grid0.coords t) = true := by decide +kernel
theorem noFlush0_21_mid : ∀ t : Fin cfg0.N, ¬cond0_0 (grid0.coords t) → ¬cond0_1 (grid0.coords t) → (cfg0.win 21).flush t = false := by decide +kernel
/-- live at the last. -/
theorem liveAt0_21_last : ∀ t : Fin cfg0.N, ¬cond0_0 (grid0.coords t) → cond0_1 (grid0.coords t) → cfg0.idle 21 (grid0.coords t) = false := by decide +kernel

/-- The same for the output window of the new cell state, -/
theorem idleAt0_22_first : ∀ t : Fin cfg0.N, cond0_0 (grid0.coords t) → ¬cond0_1 (grid0.coords t) → cfg0.idle 22 (grid0.coords t) = true := by decide +kernel
theorem noFlush0_22_first : ∀ t : Fin cfg0.N, cond0_0 (grid0.coords t) → ¬cond0_1 (grid0.coords t) → (cfg0.win 22).flush t = false := by decide +kernel
theorem idleAt0_22_mid : ∀ t : Fin cfg0.N, ¬cond0_0 (grid0.coords t) → ¬cond0_1 (grid0.coords t) → cfg0.idle 22 (grid0.coords t) = true := by decide +kernel
theorem noFlush0_22_mid : ∀ t : Fin cfg0.N, ¬cond0_0 (grid0.coords t) → ¬cond0_1 (grid0.coords t) → (cfg0.win 22).flush t = false := by decide +kernel
theorem liveAt0_22_last : ∀ t : Fin cfg0.N, ¬cond0_0 (grid0.coords t) → cond0_1 (grid0.coords t) → cfg0.idle 22 (grid0.coords t) = false := by decide +kernel

/-- and for the output window of the input gate's activation. -/
theorem idleAt0_23_first : ∀ t : Fin cfg0.N, cond0_0 (grid0.coords t) → ¬cond0_1 (grid0.coords t) → cfg0.idle 23 (grid0.coords t) = true := by decide +kernel
theorem noFlush0_23_first : ∀ t : Fin cfg0.N, cond0_0 (grid0.coords t) → ¬cond0_1 (grid0.coords t) → (cfg0.win 23).flush t = false := by decide +kernel
theorem idleAt0_23_mid : ∀ t : Fin cfg0.N, ¬cond0_0 (grid0.coords t) → ¬cond0_1 (grid0.coords t) → cfg0.idle 23 (grid0.coords t) = true := by decide +kernel
theorem noFlush0_23_mid : ∀ t : Fin cfg0.N, ¬cond0_0 (grid0.coords t) → ¬cond0_1 (grid0.coords t) → (cfg0.win 23).flush t = false := by decide +kernel
theorem liveAt0_23_last : ∀ t : Fin cfg0.N, ¬cond0_0 (grid0.coords t) → cond0_1 (grid0.coords t) → cfg0.idle 23 (grid0.coords t) = false := by decide +kernel

/-! ## The staging memrefs at a point, and the four accumulators -/

/-- The column blocks of x and of the recurrent trace. -/
abbrev ms0_0 (t : Fin cfg0.N) : Memref sig .tc .vmem S1x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128 .f32 := win0_1.stage (cfg0.slots t 1)
abbrev hs0_1 (t : Fin cfg0.N) : (ms0_1 t).IsWhole := hstage0_1 ((cfg0.slots t 1).cast nbuf0_1)
/-- The row blocks of the eight gate matrices, of the plasticity coefficients and of the Hebbian trace. -/
abbrev ms0_2 (t : Fin cfg0.N) : Memref sig .tc .vmem S128x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x4096 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x4096 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x4096 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x4096 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x4096 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x4096 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x4096 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S128x4096 .f32 := win0_11.stage (cfg0.slots t 11)
abbrev hs0_11 (t : Fin cfg0.N) : (ms0_11 t).IsWhole := hstage0_11 ((cfg0.slots t 11).cast nbuf0_11)
/-- The eight biases and the cell state, whole rows. -/
abbrev ms0_12 (t : Fin cfg0.N) : Memref sig .tc .vmem S1x4096 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x4096 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x4096 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x4096 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x4096 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x4096 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x4096 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x4096 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1x4096 .f32 := win0_20.stage (cfg0.slots t 20)
abbrev hs0_20 (t : Fin cfg0.N) : (ms0_20 t).IsWhole := hstage0_20 ((cfg0.slots t 20).cast nbuf0_20)
/-- The three results: h, the new cell state, the input gate's activation. -/
abbrev ms0_21 (t : Fin cfg0.N) : Memref sig .tc .vmem S1x4096 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S1x4096 .f32 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S1x4096 .f32 := win0_23.stage (cfg0.slots t 23)
abbrev hs0_23 (t : Fin cfg0.N) : (ms0_23 t).IsWhole := hstage0_23 ((cfg0.slots t 23).cast nbuf0_23)

/-- The four accumulators (for the input gate with its plastic term, and for the j, f and o gates): whole scoped
    buffers of the kernel's own, carried from one grid point to the next. -/
abbrev scM0_0 : Memref sig .tc .vmem S1x4096 .f32 := Memref.whole cc0_scratch0
abbrev scM0_1 : Memref sig .tc .vmem S1x4096 .f32 := Memref.whole cc0_scratch1
abbrev scM0_2 : Memref sig .tc .vmem S1x4096 .f32 := Memref.whole cc0_scratch2
abbrev scM0_3 : Memref sig .tc .vmem S1x4096 .f32 := Memref.whole cc0_scratch3
/-- The accumulators as views: what each holds is stated through its view. -/
abbrev VS0_0 : View sig .tc .vmem S1x4096 .f32 := scM0_0.view
abbrev VS0_1 : View sig .tc .vmem S1x4096 .f32 := scM0_1.view
abbrev VS0_2 : View sig .tc .vmem S1x4096 .f32 := scM0_2.view
abbrev VS0_3 : View sig .tc .vmem S1x4096 .f32 := scM0_3.view
/-- The one staging buffer of each output window, through which its contents are stated. -/
abbrev VO0_21 : View sig .tc .vmem S1x4096 .f32 := (Memref.whole cc0_stg21_0 : Memref sig .tc .vmem S1x4096 .f32).view
abbrev VO0_22 : View sig .tc .vmem S1x4096 .f32 := (Memref.whole cc0_stg22_0 : Memref sig .tc .vmem S1x4096 .f32).view
abbrev VO0_23 : View sig .tc .vmem S1x4096 .f32 := (Memref.whole cc0_stg23_0 : Memref sig .tc .vmem S1x4096 .f32).view

end Cert.Kernel.Phase1

end
-- ==== Proof.Bits.Phase1Blocks.lean ====
import proofs.«169774_j34978213659000_2_alg».proof.Proof.Bits.Phase1Cases

set_option maxRecDepth 16384

noncomputable section

namespace Cert.Kernel.Phase1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # Phase 1: the windows' blocks

Everything here is stated at a parameter V, the contents of the TensorCore's buffers when the phase-1 region is
entered. Block t of the row-blocked matrices is rows 128·t … 128·t+127; block t of x and r is columns
128·t … 128·t+127; the biases and the cell state have one block, the whole row. -/

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not (when it is not
fetched its block index has not moved since the last fetch), for any proof data whose array is V's and whose body
leaves the block in place. One statement per input window. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)
theorem before0_14_of {c : Dev nD} (dat : Dat τ (Elt F) Unit ℕ (UR sig nD τ) ℕ cfg0 c) (hA : dat.A 14 = V c (Pipeline.arrRef spec0 14))
    (hafter : ∀ t, dat.after 14 t = iblk0 V c 14 t) (t : Fin cfg0.N) (d) : dat.before 14 t d = iblk0 V c 14 t :=
  (dat.before_in_eq_fetched 14 rfl (fun _ => rfl) (fun _ _ _ => rfl) (fun t => by rw [hafter]; unfold Dat.blockOf iblk0; rw [hA]; try rfl) t d).trans
    (by unfold Dat.fetched Dat.blockOf iblk0; rw [hA]; try rfl)
theorem before0_15_of {c : Dev nD} (dat : Dat τ (Elt F) Unit ℕ (UR sig nD τ) ℕ cfg0 c) (hA : dat.A 15 = V c (Pipeline.arrRef spec0 15))
    (hafter : ∀ t, dat.after 15 t = iblk0 V c 15 t) (t : Fin cfg0.N) (d) : dat.before 15 t d = iblk0 V c 15 t :=
  (dat.before_in_eq_fetched 15 rfl (fun _ => rfl) (fun _ _ _ => rfl) (fun t => by rw [hafter]; unfold Dat.blockOf iblk0; rw [hA]; try rfl) t d).trans
    (by unfold Dat.fetched Dat.blockOf iblk0; rw [hA]; try rfl)
theorem before0_16_of {c : Dev nD} (dat : Dat τ (Elt F) Unit ℕ (UR sig nD τ) ℕ cfg0 c) (hA : dat.A 16 = V c (Pipeline.arrRef spec0 16))
    (hafter : ∀ t, dat.after 16 t = iblk0 V c 16 t) (t : Fin cfg0.N) (d) : dat.before 16 t d = iblk0 V c 16 t :=
  (dat.before_in_eq_fetched 16 rfl (fun _ => rfl) (fun _ _ _ => rfl) (fun t => by rw [hafter]; unfold Dat.blockOf iblk0; rw [hA]; try rfl) t d).trans
    (by unfold Dat.fetched Dat.blockOf iblk0; rw [hA]; try rfl)
theorem before0_17_of {c : Dev nD} (dat : Dat τ (Elt F) Unit ℕ (UR sig nD τ) ℕ cfg0 c) (hA : dat.A 17 = V c (Pipeline.arrRef spec0 17))
    (hafter : ∀ t, dat.after 17 t = iblk0 V c 17 t) (t : Fin cfg0.N) (d) : dat.before 17 t d = iblk0 V c 17 t :=
  (dat.before_in_eq_fetched 17 rfl (fun _ => rfl) (fun _ _ _ => rfl) (fun t => by rw [hafter]; unfold Dat.blockOf iblk0; rw [hA]; try rfl) t d).trans
    (by unfold Dat.fetched Dat.blockOf iblk0; rw [hA]; try rfl)
theorem before0_18_of {c : Dev nD} (dat : Dat τ (Elt F) Unit ℕ (UR sig nD τ) ℕ cfg0 c) (hA : dat.A 18 = V c (Pipeline.arrRef spec0 18))
    (hafter : ∀ t, dat.after 18 t = iblk0 V c 18 t) (t : Fin cfg0.N) (d) : dat.before 18 t d = iblk0 V c 18 t :=
  (dat.before_in_eq_fetched 18 rfl (fun _ => rfl) (fun _ _ _ => rfl) (fun t => by rw [hafter]; unfold Dat.blockOf iblk0; rw [hA]; try rfl) t d).trans
    (by unfold Dat.fetched Dat.blockOf iblk0; rw [hA]; try rfl)
theorem before0_19_of {c : Dev nD} (dat : Dat τ (Elt F) Unit ℕ (UR sig nD τ) ℕ cfg0 c) (hA : dat.A 19 = V c (Pipeline.arrRef spec0 19))
    (hafter : ∀ t, dat.after 19 t = iblk0 V c 19 t) (t : Fin cfg0.N) (d) : dat.before 19 t d = iblk0 V c 19 t :=
  (dat.before_in_eq_fetched 19 rfl (fun _ => rfl) (fun _ _ _ => rfl) (fun t => by rw [hafter]; unfold Dat.blockOf iblk0; rw [hA]; try rfl) t d).trans
    (by unfold Dat.fetched Dat.blockOf iblk0; rw [hA]; try rfl)
theorem before0_20_of {c : Dev nD} (dat : Dat τ (Elt F) Unit ℕ (UR sig nD τ) ℕ cfg0 c) (hA : dat.A 20 = V c (Pipeline.arrRef spec0 20))
    (hafter : ∀ t, dat.after 20 t = iblk0 V c 20 t) (t : Fin cfg0.N) (d) : dat.before 20 t d = iblk0 V c 20 t :=
  (dat.before_in_eq_fetched 20 rfl (fun _ => rfl) (fun _ _ _ => rfl) (fun t => by rw [hafter]; unfold Dat.blockOf iblk0; rw [hA]; try rfl) t d).trans
    (by unfold Dat.fetched Dat.blockOf iblk0; rw [hA]; try rfl)

end Cert.Kernel.Phase1

end
-- ==== Proof.Bits.Phase1Owned.lean ====
import proofs.«169774_j34978213659000_2_alg».proof.Proof.Bits.Phase1Cases

set_option maxRecDepth 16384

noncomputable section

namespace Cert.Kernel.Phase1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the phase-1 body holds, in bundles

The body is called with twenty-eight buffers: twenty-one inputs it only reads, three outputs it stores at the last
point only, and the four accumulators. The long separating conjunctions over them are named here once. -/

variable (c : Dev nD)
variable (a1 a2 : Memref sig .tc .vmem S1x128 .f32)
variable (a3 a4 a5 a6 a7 a8 a9 a10 a11 a12 : Memref sig .tc .vmem S128x4096 .f32)
variable (a13 a14 a15 a16 a17 a18 a19 a20 a21 : Memref sig .tc .vmem S1x4096 .f32)
variable (a22 a23 a24 : Memref sig .tc .vmem S1x4096 .f32)
variable (a25 a26 a27 a28 : Memref sig .tc .vmem S1x4096 .f32)
variable (x0 x1 : Vec F S1x128 .f32)
variable (x2 x3 x4 x5 x6 x7 x8 x9 x10 x11 : Vec F S128x4096 .f32)
variable (x12 x13 x14 x15 x16 x17 x18 x19 x20 : Vec F S1x4096 .f32)

/-- The twenty-one inputs, each buffer held whole at its contents: the column blocks of x and r, the row blocks of
    Wi, Wj, Wf, Wo, Whi, Whj, Whf, Who, alpha and the Hebbian trace, the eight biases and the cell state. -/
def insOwned : sProp 𝕄 :=
  iprop(owns (c : Thread nD τ) a1 fullShare x0 ∗ owns (c : Thread nD τ) a2 fullShare x1
    ∗ owns (c : Thread nD τ) a3 fullShare x2 ∗ owns (c : Thread nD τ) a4 fullShare x3
    ∗ owns (c : Thread nD τ) a5 fullShare x4 ∗ owns (c : Thread nD τ) a6 fullShare x5
    ∗ owns (c : Thread nD τ) a7 fullShare x6 ∗ owns (c : Thread nD τ) a8 fullShare x7
    ∗ owns (c : Thread nD τ) a9 fullShare x8 ∗ owns (c : Thread nD τ) a10 fullShare x9
    ∗ owns (c : Thread nD τ) a11 fullShare x10 ∗ owns (c : Thread nD τ) a12 fullShare x11
    ∗ owns (c : Thread nD τ) a13 fullShare x12 ∗ owns (c : Thread nD τ) a14 fullShare x13
    ∗ owns (c : Thread nD τ) a15 fullShare x14 ∗ owns (c : Thread nD τ) a16 fullShare x15
    ∗ owns (c : Thread nD τ) a17 fullShare x16 ∗ owns (c : Thread nD τ) a18 fullShare x17
    ∗ owns (c : Thread nD τ) a19 fullShare x18 ∗ owns (c : Thread nD τ) a20 fullShare x19
    ∗ owns (c : Thread nD τ) a21 fullShare x20)

/-- The three outputs held at given contents (what an idle point hands back untouched). -/
def outsAt (y21 y22 y23 : Vec F S1x4096 .f32) : sProp 𝕄 :=
  iprop(owns (c : Thread nD τ) a22 fullShare y21 ∗ owns (c : Thread nD τ) a23 fullShare y22
    ∗ owns (c : Thread nD τ) a24 fullShare y23)

/-- The three outputs held at anything (what the last point is handed). -/
def outsAny : sProp 𝕄 :=
  iprop((∃ d, owns (c : Thread nD τ) a22 fullShare d) ∗ (∃ d, owns (c : Thread nD τ) a23 fullShare d)
    ∗ (∃ d, owns (c : Thread nD τ) a24 fullShare d))

/-- The three outputs after the last point: each with that point's stores written. -/
def outsWritten (L21 L22 L23 : List (View.Piece (Elt F) S1x4096 .f32)) : sProp 𝕄 :=
  iprop((∃ f, a22.view.loc (c : Thread nD τ) ↦[a22.view.set]{fullShare} a22.view.writes (Elt F) f L21)
    ∗ (∃ f, a23.view.loc (c : Thread nD τ) ↦[a23.view.set]{fullShare} a23.view.writes (Elt F) f L22)
    ∗ (∃ f, a24.view.loc (c : Thread nD τ) ↦[a24.view.set]{fullShare} a24.view.writes (Elt F) f L23))

/-- The four accumulators held at given contents (what the point before left). -/
def accAt (s0 s1 s2 s3 : Vec F S1x4096 .f32) : sProp 𝕄 :=
  iprop(owns (c : Thread nD τ) a25 fullShare s0 ∗ owns (c : Thread nD τ) a26 fullShare s1
    ∗ owns (c : Thread nD τ) a27 fullShare s2 ∗ owns (c : Thread nD τ) a28 fullShare s3)

/-- The four accumulators held at anything (what the first point is handed: it zeroes them before reading). -/
def accAny : sProp 𝕄 :=
  iprop((∃ d, owns (c : Thread nD τ) a25 fullShare d) ∗ (∃ d, owns (c : Thread nD τ) a26 fullShare d)
    ∗ (∃ d, owns (c : Thread nD τ) a27 fullShare d) ∗ (∃ d, owns (c : Thread nD τ) a28 fullShare d))

/-- The four accumulators after a point: each with that point's stores written. -/
def accWritten (LS0 LS1 LS2 LS3 : List (View.Piece (Elt F) S1x4096 .f32)) : sProp 𝕄 :=
  iprop((∃ f, a25.view.loc (c : Thread nD τ) ↦[a25.view.set]{fullShare} a25.view.writes (Elt F) f LS0)
    ∗ (∃ f, a26.view.loc (c : Thread nD τ) ↦[a26.view.set]{fullShare} a26.view.writes (Elt F) f LS1)
    ∗ (∃ f, a27.view.loc (c : Thread nD τ) ↦[a27.view.set]{fullShare} a27.view.writes (Elt F) f LS2)
    ∗ (∃ f, a28.view.loc (c : Thread nD τ) ↦[a28.view.set]{fullShare} a28.view.writes (Elt F) f LS3))

end Cert.Kernel.Phase1

end
-- ==== Proof.Bits.Phase1RunFirst.lean ====
import proofs.«169774_j34978213659000_2_alg».proof.Proof.Bits.Phase1Owned

set_option maxRecDepth 16384

noncomputable section

namespace Cert.Kernel.Phase1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
variable (a1 : Memref sig .tc .vmem S1x128 .f32) (h1 : a1.IsWhole) (a2 : Memref sig .tc .vmem S1x128 .f32) (h2 : a2.IsWhole)
variable (a3 : Memref sig .tc .vmem S128x4096 .f32) (h3 : a3.IsWhole) (a4 : Memref sig .tc .vmem S128x4096 .f32) (h4 : a4.IsWhole)
variable (a5 : Memref sig .tc .vmem S128x4096 .f32) (h5 : a5.IsWhole) (a6 : Memref sig .tc .vmem S128x4096 .f32) (h6 : a6.IsWhole)
variable (a7 : Memref sig .tc .vmem S128x4096 .f32) (h7 : a7.IsWhole) (a8 : Memref sig .tc .vmem S128x4096 .f32) (h8 : a8.IsWhole)
variable (a9 : Memref sig .tc .vmem S128x4096 .f32) (h9 : a9.IsWhole) (a10 : Memref sig .tc .vmem S128x4096 .f32) (h10 : a10.IsWhole)
variable (a11 : Memref sig .tc .vmem S128x4096 .f32) (h11 : a11.IsWhole) (a12 : Memref sig .tc .vmem S128x4096 .f32) (h12 : a12.IsWhole)
variable (a13 : Memref sig .tc .vmem S1x4096 .f32) (h13 : a13.IsWhole) (a14 : Memref sig .tc .vmem S1x4096 .f32) (h14 : a14.IsWhole)
variable (a15 : Memref sig .tc .vmem S1x4096 .f32) (h15 : a15.IsWhole) (a16 : Memref sig .tc .vmem S1x4096 .f32) (h16 : a16.IsWhole)
variable (a17 : Memref sig .tc .vmem S1x4096 .f32) (h17 : a17.IsWhole) (a18 : Memref sig .tc .vmem S1x4096 .f32) (h18 : a18.IsWhole)
variable (a19 : Memref sig .tc .vmem S1x4096 .f32) (h19 : a19.IsWhole) (a20 : Memref sig .tc .vmem S1x4096 .f32) (h20 : a20.IsWhole)
variable (a21 : Memref sig .tc .vmem S1x4096 .f32) (h21 : a21.IsWhole) (a22 : Memref sig .tc .vmem S1x4096 .f32) (h22 : a22.IsWhole)
variable (a23 : Memref sig .tc .vmem S1x4096 .f32) (h23 : a23.IsWhole) (a24 : Memref sig .tc .vmem S1x4096 .f32) (h24 : a24.IsWhole)
variable (a25 : Memref sig .tc .vmem S1x4096 .f32) (h25 : a25.IsWhole) (a26 : Memref sig .tc .vmem S1x4096 .f32) (h26 : a26.IsWhole)
variable (a27 : Memref sig .tc .vmem S1x4096 .f32) (h27 : a27.IsWhole) (a28 : Memref sig .tc .vmem S1x4096 .f32) (h28 : a28.IsWhole)
variable (x0 x1 : Vec F S1x128 .f32)
variable (x2 x3 x4 x5 x6 x7 x8 x9 x10 x11 : Vec F S128x4096 .f32)
variable (x12 x13 x14 x15 x16 x17 x18 x19 x20 : Vec F S1x4096 .f32)

/-! # Phase 1 at the first point

The body first stores zeros into the four accumulators, whatever they held, and then does what every point does: it
adds block 0's partial products into them. It stores no result. -/

set_option maxHeartbeats 4000000 in
/-- The pieces the first-point body leaves in the four accumulators (found by running it: the zeros, then the
    block's sums over them), with the proof that from the inputs at their contents, the idle outputs at any contents
    and the accumulators at anything, the body runs to the continuation holding the inputs and the outputs as they
    were and each accumulator with its pieces written. -/
noncomputable def runFirst (hc0 : cond0_0 i) (hc1 : ¬cond0_1 i) :
    Σ' (LS0 : List (View.Piece (Elt F) S1x4096 .f32)) (LS1 : List (View.Piece (Elt F) S1x4096 .f32))
       (LS2 : List (View.Piece (Elt F) S1x4096 .f32)), { LS3 : List (View.Piece (Elt F) S1x4096 .f32) //
      ∀ (y21 y22 y23 : Vec F S1x4096 .f32) (E : Set ℕ) (K : PUnit → sProp 𝕄),
        iprop(insOwned c a1 a2 a3 a4 a5 a6 a7 a8 a9 a10 a11 a12 a13 a14 a15 a16 a17 a18 a19 a20 a21 x0 x1 x2 x3 x4 x5 x6 x7 x8 x9 x10 x11 x12 x13 x14 x15 x16 x17 x18 x19 x20
            ∗ outsAt c a22 a23 a24 y21 y22 y23 ∗ accAny c a25 a26 a27 a28
            ∗ (iprop(insOwned c a1 a2 a3 a4 a5 a6 a7 a8 a9 a10 a11 a12 a13 a14 a15 a16 a17 a18 a19 a20 a21 x0 x1 x2 x3 x4 x5 x6 x7 x8 x9 x10 x11 x12 x13 x14 x15 x16 x17 x18 x19 x20
                ∗ outsAt c a22 a23 a24 y21 y22 y23 ∗ accWritten c a25 a26 a27 a28 LS0 LS1 LS2 LS3) -∗ K ⟨⟩))
          ⊢ wp frame (wpE (defs₀ (F := F)) Variants.none c none) E
              (cc0__phase1_kernel i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28) K } := by
  refine ⟨?_, ?_, ?_, ?_, fun y21 y22 y23 E K => ?run⟩
  case run =>
    simp only [cc0__phase1_kernel_eq_skeleton]; unfold cc0__phase1_kernel_skel
    simp only [k0_part2_eq_skeleton, k0_part3_eq_skeleton]; unfold k0_part2_skel k0_part3_skel
    unfold insOwned outsAt accAny accWritten owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩⟩,
      ⟨⟨%f21, %hf21, H21⟩, ⟨%f22, %hf22, H22⟩, ⟨%f23, %hf23, H23⟩⟩,
      ⟨⟨%d0, %g0, -, HS0⟩, ⟨%d1, %g1, -, HS1⟩, ⟨%d2, %g2, -, HS2⟩, ⟨%d3, %g3, -, HS3⟩⟩, Hk⟩
    obtain rfl := h1.eq_unread hf0; obtain rfl := h2.eq_unread hf1; obtain rfl := h3.eq_unread hf2
    obtain rfl := h4.eq_unread hf3; obtain rfl := h5.eq_unread hf4; obtain rfl := h6.eq_unread hf5
    obtain rfl := h7.eq_unread hf6; obtain rfl := h8.eq_unread hf7; obtain rfl := h9.eq_unread hf8
    obtain rfl := h10.eq_unread hf9; obtain rfl := h11.eq_unread hf10; obtain rfl := h12.eq_unread hf11
    obtain rfl := h13.eq_unread hf12; obtain rfl := h14.eq_unread hf13; obtain rfl := h15.eq_unread hf14
    obtain rfl := h16.eq_unread hf15; obtain rfl := h17.eq_unread hf16; obtain rfl := h18.eq_unread hf17
    obtain rfl := h19.eq_unread hf18; obtain rfl := h20.eq_unread hf19; obtain rfl := h21.eq_unread hf20
    obtain rfl := h22.eq_unread hf21; obtain rfl := h23.eq_unread hf22; obtain rfl := h24.eq_unread hf23
    sl_exec (disch := first | exact hc0 | exact hc1)
    sl_step
    iapply Hk
    isplitl [H0 H1 H2 H3 H4 H5 H6 H7 H8 H9 H10 H11 H12 H13 H14 H15 H16 H17 H18 H19 H20]
    · isplitl [H0]
      · iexists _; isplitr; · ipureintro; exact h1.read_unread _
        iexact H0
      isplitl [H1]
      · iexists _; isplitr; · ipureintro; exact h2.read_unread _
        iexact H1
      isplitl [H2]
      · iexists _; isplitr; · ipureintro; exact h3.read_unread _
        iexact H2
      isplitl [H3]
      · iexists _; isplitr; · ipureintro; exact h4.read_unread _
        iexact H3
      isplitl [H4]
      · iexists _; isplitr; · ipureintro; exact h5.read_unread _
        iexact H4
      isplitl [H5]
      · iexists _; isplitr; · ipureintro; exact h6.read_unread _
        iexact H5
      isplitl [H6]
      · iexists _; isplitr; · ipureintro; exact h7.read_unread _
        iexact H6
      isplitl [H7]
      · iexists _; isplitr; · ipureintro; exact h8.read_unread _
        iexact H7
      isplitl [H8]
      · iexists _; isplitr; · ipureintro; exact h9.read_unread _
        iexact H8
      isplitl [H9]
      · iexists _; isplitr; · ipureintro; exact h10.read_unread _
        iexact H9
      isplitl [H10]
      · iexists _; isplitr; · ipureintro; exact h11.read_unread _
        iexact H10
      isplitl [H11]
      · iexists _; isplitr; · ipureintro; exact h12.read_unread _
        iexact H11
      isplitl [H12]
      · iexists _; isplitr; · ipureintro; exact h13.read_unread _
        iexact H12
      isplitl [H13]
      · iexists _; isplitr; · ipureintro; exact h14.read_unread _
        iexact H13
      isplitl [H14]
      · iexists _; isplitr; · ipureintro; exact h15.read_unread _
        iexact H14
      isplitl [H15]
      · iexists _; isplitr; · ipureintro; exact h16.read_unread _
        iexact H15
      isplitl [H16]
      · iexists _; isplitr; · ipureintro; exact h17.read_unread _
        iexact H16
      isplitl [H17]
      · iexists _; isplitr; · ipureintro; exact h18.read_unread _
        iexact H17
      isplitl [H18]
      · iexists _; isplitr; · ipureintro; exact h19.read_unread _
        iexact H18
      isplitl [H19]
      · iexists _; isplitr; · ipureintro; exact h20.read_unread _
        iexact H19
      iexists _; isplitr; · ipureintro; exact h21.read_unread _
      iexact H20
    isplitl [H21 H22 H23]
    · isplitl [H21]
      · iexists _; isplitr; · ipureintro; exact h22.read_unread _
        iexact H21
      isplitl [H22]
      · iexists _; isplitr; · ipureintro; exact h23.read_unread _
        iexact H22
      iexists _; isplitr; · ipureintro; exact h24.read_unread _
      iexact H23
    isplitl [HS0]; · iexists _; iexact HS0
    isplitl [HS1]; · iexists _; iexact HS1
    isplitl [HS2]; · iexists _; iexact HS2
    iexists _; iexact HS3

end Cert.Kernel.Phase1

end
-- ==== Proof.Bits.Phase1RunMid.lean ====
import proofs.«169774_j34978213659000_2_alg».proof.Proof.Bits.Phase1Owned

set_option maxRecDepth 16384

noncomputable section

namespace Cert.Kernel.Phase1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
variable (a1 : Memref sig .tc .vmem S1x128 .f32) (h1 : a1.IsWhole) (a2 : Memref sig .tc .vmem S1x128 .f32) (h2 : a2.IsWhole)
variable (a3 : Memref sig .tc .vmem S128x4096 .f32) (h3 : a3.IsWhole) (a4 : Memref sig .tc .vmem S128x4096 .f32) (h4 : a4.IsWhole)
variable (a5 : Memref sig .tc .vmem S128x4096 .f32) (h5 : a5.IsWhole) (a6 : Memref sig .tc .vmem S128x4096 .f32) (h6 : a6.IsWhole)
variable (a7 : Memref sig .tc .vmem S128x4096 .f32) (h7 : a7.IsWhole) (a8 : Memref sig .tc .vmem S128x4096 .f32) (h8 : a8.IsWhole)
variable (a9 : Memref sig .tc .vmem S128x4096 .f32) (h9 : a9.IsWhole) (a10 : Memref sig .tc .vmem S128x4096 .f32) (h10 : a10.IsWhole)
variable (a11 : Memref sig .tc .vmem S128x4096 .f32) (h11 : a11.IsWhole) (a12 : Memref sig .tc .vmem S128x4096 .f32) (h12 : a12.IsWhole)
variable (a13 : Memref sig .tc .vmem S1x4096 .f32) (h13 : a13.IsWhole) (a14 : Memref sig .tc .vmem S1x4096 .f32) (h14 : a14.IsWhole)
variable (a15 : Memref sig .tc .vmem S1x4096 .f32) (h15 : a15.IsWhole) (a16 : Memref sig .tc .vmem S1x4096 .f32) (h16 : a16.IsWhole)
variable (a17 : Memref sig .tc .vmem S1x4096 .f32) (h17 : a17.IsWhole) (a18 : Memref sig .tc .vmem S1x4096 .f32) (h18 : a18.IsWhole)
variable (a19 : Memref sig .tc .vmem S1x4096 .f32) (h19 : a19.IsWhole) (a20 : Memref sig .tc .vmem S1x4096 .f32) (h20 : a20.IsWhole)
variable (a21 : Memref sig .tc .vmem S1x4096 .f32) (h21 : a21.IsWhole) (a22 : Memref sig .tc .vmem S1x4096 .f32) (h22 : a22.IsWhole)
variable (a23 : Memref sig .tc .vmem S1x4096 .f32) (h23 : a23.IsWhole) (a24 : Memref sig .tc .vmem S1x4096 .f32) (h24 : a24.IsWhole)
variable (a25 : Memref sig .tc .vmem S1x4096 .f32) (h25 : a25.IsWhole) (a26 : Memref sig .tc .vmem S1x4096 .f32) (h26 : a26.IsWhole)
variable (a27 : Memref sig .tc .vmem S1x4096 .f32) (h27 : a27.IsWhole) (a28 : Memref sig .tc .vmem S1x4096 .f32) (h28 : a28.IsWhole)
variable (x0 x1 : Vec F S1x128 .f32)
variable (x2 x3 x4 x5 x6 x7 x8 x9 x10 x11 : Vec F S128x4096 .f32)
variable (x12 x13 x14 x15 x16 x17 x18 x19 x20 : Vec F S1x4096 .f32)

/-! # Phase 1 at a middle point

Neither the first nor the last of the 32 points: the body zeroes nothing and stores no result. It reads block k of x
and r and of the ten matrices, and adds into each accumulator the block's partial products — into the first
x·Wi + x·(alpha∘hebbian) + r·Whi, into the others x·W + r·Wh for the j, f and o gates. -/

set_option maxHeartbeats 4000000 in
/-- The pieces the middle-point body leaves in the four accumulators (found by running it), with the proof that from
    the inputs at their contents, the idle outputs at any contents and the accumulators at what the point before left,
    the body runs to the continuation holding the inputs and the outputs as they were and each accumulator with its
    piece written. -/
noncomputable def runMid (hc0 : ¬cond0_0 i) (hc1 : ¬cond0_1 i) (s0 s1 s2 s3 : Vec F S1x4096 .f32) :
    Σ' (LS0 : List (View.Piece (Elt F) S1x4096 .f32)) (LS1 : List (View.Piece (Elt F) S1x4096 .f32))
       (LS2 : List (View.Piece (Elt F) S1x4096 .f32)), { LS3 : List (View.Piece (Elt F) S1x4096 .f32) //
      ∀ (y21 y22 y23 : Vec F S1x4096 .f32) (E : Set ℕ) (K : PUnit → sProp 𝕄),
        iprop(insOwned c a1 a2 a3 a4 a5 a6 a7 a8 a9 a10 a11 a12 a13 a14 a15 a16 a17 a18 a19 a20 a21 x0 x1 x2 x3 x4 x5 x6 x7 x8 x9 x10 x11 x12 x13 x14 x15 x16 x17 x18 x19 x20
            ∗ outsAt c a22 a23 a24 y21 y22 y23 ∗ accAt c a25 a26 a27 a28 s0 s1 s2 s3
            ∗ (iprop(insOwned c a1 a2 a3 a4 a5 a6 a7 a8 a9 a10 a11 a12 a13 a14 a15 a16 a17 a18 a19 a20 a21 x0 x1 x2 x3 x4 x5 x6 x7 x8 x9 x10 x11 x12 x13 x14 x15 x16 x17 x18 x19 x20
                ∗ outsAt c a22 a23 a24 y21 y22 y23 ∗ accWritten c a25 a26 a27 a28 LS0 LS1 LS2 LS3) -∗ K ⟨⟩))
          ⊢ wp frame (wpE (defs₀ (F := F)) Variants.none c none) E
              (cc0__phase1_kernel i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28) K } := by
  refine ⟨?_, ?_, ?_, ?_, fun y21 y22 y23 E K => ?run⟩
  case run =>
    simp only [cc0__phase1_kernel_eq_skeleton]; unfold cc0__phase1_kernel_skel
    simp only [k0_part2_eq_skeleton, k0_part3_eq_skeleton]; unfold k0_part2_skel k0_part3_skel
    unfold insOwned outsAt accAt accWritten owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩⟩,
      ⟨⟨%f21, %hf21, H21⟩, ⟨%f22, %hf22, H22⟩, ⟨%f23, %hf23, H23⟩⟩,
      ⟨⟨%g0, %hg0, HS0⟩, ⟨%g1, %hg1, HS1⟩, ⟨%g2, %hg2, HS2⟩, ⟨%g3, %hg3, HS3⟩⟩, Hk⟩
    obtain rfl := h1.eq_unread hf0; obtain rfl := h2.eq_unread hf1; obtain rfl := h3.eq_unread hf2
    obtain rfl := h4.eq_unread hf3; obtain rfl := h5.eq_unread hf4; obtain rfl := h6.eq_unread hf5
    obtain rfl := h7.eq_unread hf6; obtain rfl := h8.eq_unread hf7; obtain rfl := h9.eq_unread hf8
    obtain rfl := h10.eq_unread hf9; obtain rfl := h11.eq_unread hf10; obtain rfl := h12.eq_unread hf11
    obtain rfl := h13.eq_unread hf12; obtain rfl := h14.eq_unread hf13; obtain rfl := h15.eq_unread hf14
    obtain rfl := h16.eq_unread hf15; obtain rfl := h17.eq_unread hf16; obtain rfl := h18.eq_unread hf17
    obtain rfl := h19.eq_unread hf18; obtain rfl := h20.eq_unread hf19; obtain rfl := h21.eq_unread hf20
    obtain rfl := h22.eq_unread hf21; obtain rfl := h23.eq_unread hf22; obtain rfl := h24.eq_unread hf23
    obtain rfl := h25.eq_unread hg0; obtain rfl := h26.eq_unread hg1; obtain rfl := h27.eq_unread hg2
    obtain rfl := h28.eq_unread hg3
    sl_exec (disch := first | exact hc0 | exact hc1)
    sl_step
    iapply Hk
    isplitl [H0 H1 H2 H3 H4 H5 H6 H7 H8 H9 H10 H11 H12 H13 H14 H15 H16 H17 H18 H19 H20]
    · isplitl [H0]
      · iexists _; isplitr; · ipureintro; exact h1.read_unread _
        iexact H0
      isplitl [H1]
      · iexists _; isplitr; · ipureintro; exact h2.read_unread _
        iexact H1
      isplitl [H2]
      · iexists _; isplitr; · ipureintro; exact h3.read_unread _
        iexact H2
      isplitl [H3]
      · iexists _; isplitr; · ipureintro; exact h4.read_unread _
        iexact H3
      isplitl [H4]
      · iexists _; isplitr; · ipureintro; exact h5.read_unread _
        iexact H4
      isplitl [H5]
      · iexists _; isplitr; · ipureintro; exact h6.read_unread _
        iexact H5
      isplitl [H6]
      · iexists _; isplitr; · ipureintro; exact h7.read_unread _
        iexact H6
      isplitl [H7]
      · iexists _; isplitr; · ipureintro; exact h8.read_unread _
        iexact H7
      isplitl [H8]
      · iexists _; isplitr; · ipureintro; exact h9.read_unread _
        iexact H8
      isplitl [H9]
      · iexists _; isplitr; · ipureintro; exact h10.read_unread _
        iexact H9
      isplitl [H10]
      · iexists _; isplitr; · ipureintro; exact h11.read_unread _
        iexact H10
      isplitl [H11]
      · iexists _; isplitr; · ipureintro; exact h12.read_unread _
        iexact H11
      isplitl [H12]
      · iexists _; isplitr; · ipureintro; exact h13.read_unread _
        iexact H12
      isplitl [H13]
      · iexists _; isplitr; · ipureintro; exact h14.read_unread _
        iexact H13
      isplitl [H14]
      · iexists _; isplitr; · ipureintro; exact h15.read_unread _
        iexact H14
      isplitl [H15]
      · iexists _; isplitr; · ipureintro; exact h16.read_unread _
        iexact H15
      isplitl [H16]
      · iexists _; isplitr; · ipureintro; exact h17.read_unread _
        iexact H16
      isplitl [H17]
      · iexists _; isplitr; · ipureintro; exact h18.read_unread _
        iexact H17
      isplitl [H18]
      · iexists _; isplitr; · ipureintro; exact h19.read_unread _
        iexact H18
      isplitl [H19]
      · iexists _; isplitr; · ipureintro; exact h20.read_unread _
        iexact H19
      iexists _; isplitr; · ipureintro; exact h21.read_unread _
      iexact H20
    isplitl [H21 H22 H23]
    · isplitl [H21]
      · iexists _; isplitr; · ipureintro; exact h22.read_unread _
        iexact H21
      isplitl [H22]
      · iexists _; isplitr; · ipureintro; exact h23.read_unread _
        iexact H22
      iexists _; isplitr; · ipureintro; exact h24.read_unread _
      iexact H23
    isplitl [HS0]; · iexists _; iexact HS0
    isplitl [HS1]; · iexists _; iexact HS1
    isplitl [HS2]; · iexists _; iexact HS2
    iexists _; iexact HS3

end Cert.Kernel.Phase1

end
-- ==== Proof.Bits.Phase1RunLast.lean ====
import proofs.«169774_j34978213659000_2_alg».proof.Proof.Bits.Phase1Owned

set_option maxRecDepth 16384

noncomputable section

namespace Cert.Kernel.Phase1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
variable (a1 : Memref sig .tc .vmem S1x128 .f32) (h1 : a1.IsWhole) (a2 : Memref sig .tc .vmem S1x128 .f32) (h2 : a2.IsWhole)
variable (a3 : Memref sig .tc .vmem S128x4096 .f32) (h3 : a3.IsWhole) (a4 : Memref sig .tc .vmem S128x4096 .f32) (h4 : a4.IsWhole)
variable (a5 : Memref sig .tc .vmem S128x4096 .f32) (h5 : a5.IsWhole) (a6 : Memref sig .tc .vmem S128x4096 .f32) (h6 : a6.IsWhole)
variable (a7 : Memref sig .tc .vmem S128x4096 .f32) (h7 : a7.IsWhole) (a8 : Memref sig .tc .vmem S128x4096 .f32) (h8 : a8.IsWhole)
variable (a9 : Memref sig .tc .vmem S128x4096 .f32) (h9 : a9.IsWhole) (a10 : Memref sig .tc .vmem S128x4096 .f32) (h10 : a10.IsWhole)
variable (a11 : Memref sig .tc .vmem S128x4096 .f32) (h11 : a11.IsWhole) (a12 : Memref sig .tc .vmem S128x4096 .f32) (h12 : a12.IsWhole)
variable (a13 : Memref sig .tc .vmem S1x4096 .f32) (h13 : a13.IsWhole) (a14 : Memref sig .tc .vmem S1x4096 .f32) (h14 : a14.IsWhole)
variable (a15 : Memref sig .tc .vmem S1x4096 .f32) (h15 : a15.IsWhole) (a16 : Memref sig .tc .vmem S1x4096 .f32) (h16 : a16.IsWhole)
variable (a17 : Memref sig .tc .vmem S1x4096 .f32) (h17 : a17.IsWhole) (a18 : Memref sig .tc .vmem S1x4096 .f32) (h18 : a18.IsWhole)
variable (a19 : Memref sig .tc .vmem S1x4096 .f32) (h19 : a19.IsWhole) (a20 : Memref sig .tc .vmem S1x4096 .f32) (h20 : a20.IsWhole)
variable (a21 : Memref sig .tc .vmem S1x4096 .f32) (h21 : a21.IsWhole) (a22 : Memref sig .tc .vmem S1x4096 .f32) (h22 : a22.IsWhole)
variable (a23 : Memref sig .tc .vmem S1x4096 .f32) (h23 : a23.IsWhole) (a24 : Memref sig .tc .vmem S1x4096 .f32) (h24 : a24.IsWhole)
variable (a25 : Memref sig .tc .vmem S1x4096 .f32) (h25 : a25.IsWhole) (a26 : Memref sig .tc .vmem S1x4096 .f32) (h26 : a26.IsWhole)
variable (a27 : Memref sig .tc .vmem S1x4096 .f32) (h27 : a27.IsWhole) (a28 : Memref sig .tc .vmem S1x4096 .f32) (h28 : a28.IsWhole)
variable (x0 x1 : Vec F S1x128 .f32)
variable (x2 x3 x4 x5 x6 x7 x8 x9 x10 x11 : Vec F S128x4096 .f32)
variable (x12 x13 x14 x15 x16 x17 x18 x19 x20 : Vec F S1x4096 .f32)

/-! # Phase 1 at the last point

The body adds block 31's partial products into the accumulators as at every point, and then finishes: to each
accumulator it adds the gate's two biases and applies tanh, forms the new cell state f·cell + post·j and
h = tanh(cell')·o, and stores h, the new cell state and the input gate's activation into the three outputs. -/

set_option maxHeartbeats 4000000 in
/-- The pieces the last-point body leaves in the three outputs and in the four accumulators (found by running it),
    with the proof that from the inputs at their contents, the outputs at anything and the accumulators at what the
    point before left, the body runs to the continuation holding the inputs as they were and each output and each
    accumulator with its pieces written. -/
noncomputable def runLast (hc0 : ¬cond0_0 i) (hc1 : cond0_1 i) (s0 s1 s2 s3 : Vec F S1x4096 .f32) :
    Σ' (L21 : List (View.Piece (Elt F) S1x4096 .f32)) (L22 : List (View.Piece (Elt F) S1x4096 .f32))
       (L23 : List (View.Piece (Elt F) S1x4096 .f32))
       (LS0 : List (View.Piece (Elt F) S1x4096 .f32)) (LS1 : List (View.Piece (Elt F) S1x4096 .f32))
       (LS2 : List (View.Piece (Elt F) S1x4096 .f32)), { LS3 : List (View.Piece (Elt F) S1x4096 .f32) //
      ∀ (E : Set ℕ) (K : PUnit → sProp 𝕄),
        iprop(insOwned c a1 a2 a3 a4 a5 a6 a7 a8 a9 a10 a11 a12 a13 a14 a15 a16 a17 a18 a19 a20 a21 x0 x1 x2 x3 x4 x5 x6 x7 x8 x9 x10 x11 x12 x13 x14 x15 x16 x17 x18 x19 x20
            ∗ outsAny c a22 a23 a24 ∗ accAt c a25 a26 a27 a28 s0 s1 s2 s3
            ∗ (iprop(insOwned c a1 a2 a3 a4 a5 a6 a7 a8 a9 a10 a11 a12 a13 a14 a15 a16 a17 a18 a19 a20 a21 x0 x1 x2 x3 x4 x5 x6 x7 x8 x9 x10 x11 x12 x13 x14 x15 x16 x17 x18 x19 x20
                ∗ outsWritten c a22 a23 a24 L21 L22 L23 ∗ accWritten c a25 a26 a27 a28 LS0 LS1 LS2 LS3) -∗ K ⟨⟩))
          ⊢ wp frame (wpE (defs₀ (F := F)) Variants.none c none) E
              (cc0__phase1_kernel i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28) K } := by
  refine ⟨?_, ?_, ?_, ?_, ?_, ?_, ?_, fun E K => ?run⟩
  case run =>
    simp only [cc0__phase1_kernel_eq_skeleton]; unfold cc0__phase1_kernel_skel
    simp only [k0_part1_eq_skeleton, k0_part2_eq_skeleton, k0_part3_eq_skeleton]; unfold k0_part1_skel k0_part2_skel k0_part3_skel
    unfold insOwned outsAny outsWritten accAt accWritten owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩⟩,
      ⟨⟨%d21, %f21, -, H21⟩, ⟨%d22, %f22, -, H22⟩, ⟨%d23, %f23, -, H23⟩⟩,
      ⟨⟨%g0, %hg0, HS0⟩, ⟨%g1, %hg1, HS1⟩, ⟨%g2, %hg2, HS2⟩, ⟨%g3, %hg3, HS3⟩⟩, Hk⟩
    obtain rfl := h1.eq_unread hf0; obtain rfl := h2.eq_unread hf1; obtain rfl := h3.eq_unread hf2
    obtain rfl := h4.eq_unread hf3; obtain rfl := h5.eq_unread hf4; obtain rfl := h6.eq_unread hf5
    obtain rfl := h7.eq_unread hf6; obtain rfl := h8.eq_unread hf7; obtain rfl := h9.eq_unread hf8
    obtain rfl := h10.eq_unread hf9; obtain rfl := h11.eq_unread hf10; obtain rfl := h12.eq_unread hf11
    obtain rfl := h13.eq_unread hf12; obtain rfl := h14.eq_unread hf13; obtain rfl := h15.eq_unread hf14
    obtain rfl := h16.eq_unread hf15; obtain rfl := h17.eq_unread hf16; obtain rfl := h18.eq_unread hf17
    obtain rfl := h19.eq_unread hf18; obtain rfl := h20.eq_unread hf19; obtain rfl := h21.eq_unread hf20
    obtain rfl := h25.eq_unread hg0; obtain rfl := h26.eq_unread hg1; obtain rfl := h27.eq_unread hg2
    obtain rfl := h28.eq_unread hg3
    sl_exec (disch := first | exact hc0 | exact hc1)
    sl_step
    iapply Hk
    isplitl [H0 H1 H2 H3 H4 H5 H6 H7 H8 H9 H10 H11 H12 H13 H14 H15 H16 H17 H18 H19 H20]
    · isplitl [H0]
      · iexists _; isplitr; · ipureintro; exact h1.read_unread _
        iexact H0
      isplitl [H1]
      · iexists _; isplitr; · ipureintro; exact h2.read_unread _
        iexact H1
      isplitl [H2]
      · iexists _; isplitr; · ipureintro; exact h3.read_unread _
        iexact H2
      isplitl [H3]
      · iexists _; isplitr; · ipureintro; exact h4.read_unread _
        iexact H3
      isplitl [H4]
      · iexists _; isplitr; · ipureintro; exact h5.read_unread _
        iexact H4
      isplitl [H5]
      · iexists _; isplitr; · ipureintro; exact h6.read_unread _
        iexact H5
      isplitl [H6]
      · iexists _; isplitr; · ipureintro; exact h7.read_unread _
        iexact H6
      isplitl [H7]
      · iexists _; isplitr; · ipureintro; exact h8.read_unread _
        iexact H7
      isplitl [H8]
      · iexists _; isplitr; · ipureintro; exact h9.read_unread _
        iexact H8
      isplitl [H9]
      · iexists _; isplitr; · ipureintro; exact h10.read_unread _
        iexact H9
      isplitl [H10]
      · iexists _; isplitr; · ipureintro; exact h11.read_unread _
        iexact H10
      isplitl [H11]
      · iexists _; isplitr; · ipureintro; exact h12.read_unread _
        iexact H11
      isplitl [H12]
      · iexists _; isplitr; · ipureintro; exact h13.read_unread _
        iexact H12
      isplitl [H13]
      · iexists _; isplitr; · ipureintro; exact h14.read_unread _
        iexact H13
      isplitl [H14]
      · iexists _; isplitr; · ipureintro; exact h15.read_unread _
        iexact H14
      isplitl [H15]
      · iexists _; isplitr; · ipureintro; exact h16.read_unread _
        iexact H15
      isplitl [H16]
      · iexists _; isplitr; · ipureintro; exact h17.read_unread _
        iexact H16
      isplitl [H17]
      · iexists _; isplitr; · ipureintro; exact h18.read_unread _
        iexact H17
      isplitl [H18]
      · iexists _; isplitr; · ipureintro; exact h19.read_unread _
        iexact H18
      isplitl [H19]
      · iexists _; isplitr; · ipureintro; exact h20.read_unread _
        iexact H19
      iexists _; isplitr; · ipureintro; exact h21.read_unread _
      iexact H20
    isplitl [H21 H22 H23]
    · isplitl [H21]; · iexists _; iexact H21
      isplitl [H22]; · iexists _; iexact H22
      iexists _; iexact H23
    isplitl [HS0]; · iexists _; iexact HS0
    isplitl [HS1]; · iexists _; iexact HS1
    isplitl [HS2]; · iexists _; iexact HS2
    iexists _; iexact HS3

end Cert.Kernel.Phase1

end
-- ==== Proof.Bits.Phase1Acc.lean ====
import proofs.«169774_j34978213659000_2_alg».proof.Proof.Bits.Phase1Blocks
import proofs.«169774_j34978213659000_2_alg».proof.Proof.Bits.Phase1RunFirst
import proofs.«169774_j34978213659000_2_alg».proof.Proof.Bits.Phase1RunMid
import proofs.«169774_j34978213659000_2_alg».proof.Proof.Bits.Phase1RunLast

set_option maxRecDepth 16384

noncomputable section

namespace Cert.Kernel.Phase1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Phase 1: what the accumulators and the outputs hold after each point

The three runs, instantiated at a grid point's own staging buffers and at the blocks the region finds there; then,
by recursion on the point, the contents of the four accumulators after it — the first point's run over anything, a
later point's run over what the point before left — and the contents of the three outputs after the last point. -/

variable (V : (c : Dev nD) → (b : Ref sig .tc) → Buf (Elt F) ((c : Thread nD τ).loc b))

/-- Four rows of 4096: the accumulators' contents. -/
abbrev Acc4 (F : FTy → Type) [FloatOps F] : Type := Vec F S1x4096 .f32 × Vec F S1x4096 .f32 × Vec F S1x4096 .f32 × Vec F S1x4096 .f32
/-- Three rows of 4096: the outputs' contents. -/
abbrev Out3 (F : FTy → Type) [FloatOps F] : Type := Vec F S1x4096 .f32 × Vec F S1x4096 .f32 × Vec F S1x4096 .f32

/-- The first-point run at point t's buffers and blocks. -/
noncomputable def firstAt (c : Dev nD) (t : Fin cfg0.N) (hc0 : cond0_0 (grid0.coords t)) (hc1 : ¬cond0_1 (grid0.coords t)) :=
  runFirst (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _)
    (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) hc0 hc1

/-- The middle-point run at point t's buffers and blocks, over accumulators at s. -/
noncomputable def midAt (c : Dev nD) (t : Fin cfg0.N) (hc0 : ¬cond0_0 (grid0.coords t)) (hc1 : ¬cond0_1 (grid0.coords t)) (s : Acc4 F) :=
  runMid (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _)
    (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) hc0 hc1 s.1 s.2.1 s.2.2.1 s.2.2.2

/-- The last-point run at point t's buffers and blocks, over accumulators at s. -/
noncomputable def lastAt (c : Dev nD) (t : Fin cfg0.N) (hc0 : ¬cond0_0 (grid0.coords t)) (hc1 : cond0_1 (grid0.coords t)) (s : Acc4 F) :=
  runLast (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _)
    (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) hc0 hc1 s.1 s.2.1 s.2.2.1 s.2.2.2

/-! ## Each run's pieces cover the buffer they are stored into

Every store of the body writes a whole row of 4096, so each piece list tiles its buffer. -/

theorem cover_first_0 (c : Dev nD) (t : Fin cfg0.N) (hc0 : cond0_0 (grid0.coords t)) (hc1 : ¬cond0_1 (grid0.coords t)) (y : S1x4096.Idx) :
    ∃ pc ∈ (firstAt V c t hc0 hc1).1, y ∈ pc.1.set :=
  View.cover_of_tiledL (firstAt V c t hc0 hc1).1 S1x4096.size (by sl_kernel_rfl) y
theorem cover_first_1 (c : Dev nD) (t : Fin cfg0.N) (hc0 : cond0_0 (grid0.coords t)) (hc1 : ¬cond0_1 (grid0.coords t)) (y : S1x4096.Idx) :
    ∃ pc ∈ (firstAt V c t hc0 hc1).2.1, y ∈ pc.1.set :=
  View.cover_of_tiledL (firstAt V c t hc0 hc1).2.1 S1x4096.size (by sl_kernel_rfl) y
theorem cover_first_2 (c : Dev nD) (t : Fin cfg0.N) (hc0 : cond0_0 (grid0.coords t)) (hc1 : ¬cond0_1 (grid0.coords t)) (y : S1x4096.Idx) :
    ∃ pc ∈ (firstAt V c t hc0 hc1).2.2.1, y ∈ pc.1.set :=
  View.cover_of_tiledL (firstAt V c t hc0 hc1).2.2.1 S1x4096.size (by sl_kernel_rfl) y
theorem cover_first_3 (c : Dev nD) (t : Fin cfg0.N) (hc0 : cond0_0 (grid0.coords t)) (hc1 : ¬cond0_1 (grid0.coords t)) (y : S1x4096.Idx) :
    ∃ pc ∈ (firstAt V c t hc0 hc1).2.2.2.1, y ∈ pc.1.set :=
  View.cover_of_tiledL (firstAt V c t hc0 hc1).2.2.2.1 S1x4096.size (by sl_kernel_rfl) y

theorem cover_mid_0 (c : Dev nD) (t : Fin cfg0.N) (hc0 : ¬cond0_0 (grid0.coords t)) (hc1 : ¬cond0_1 (grid0.coords t)) (s : Acc4 F) (y : S1x4096.Idx) :
    ∃ pc ∈ (midAt V c t hc0 hc1 s).1, y ∈ pc.1.set :=
  View.cover_of_tiledL (midAt V c t hc0 hc1 s).1 S1x4096.size (by sl_kernel_rfl) y
theorem cover_mid_1 (c : Dev nD) (t : Fin cfg0.N) (hc0 : ¬cond0_0 (grid0.coords t)) (hc1 : ¬cond0_1 (grid0.coords t)) (s : Acc4 F) (y : S1x4096.Idx) :
    ∃ pc ∈ (midAt V c t hc0 hc1 s).2.1, y ∈ pc.1.set :=
  View.cover_of_tiledL (midAt V c t hc0 hc1 s).2.1 S1x4096.size (by sl_kernel_rfl) y
theorem cover_mid_2 (c : Dev nD) (t : Fin cfg0.N) (hc0 : ¬cond0_0 (grid0.coords t)) (hc1 : ¬cond0_1 (grid0.coords t)) (s : Acc4 F) (y : S1x4096.Idx) :
    ∃ pc ∈ (midAt V c t hc0 hc1 s).2.2.1, y ∈ pc.1.set :=
  View.cover_of_tiledL (midAt V c t hc0 hc1 s).2.2.1 S1x4096.size (by sl_kernel_rfl) y
theorem cover_mid_3 (c : Dev nD) (t : Fin cfg0.N) (hc0 : ¬cond0_0 (grid0.coords t)) (hc1 : ¬cond0_1 (grid0.coords t)) (s : Acc4 F) (y : S1x4096.Idx) :
    ∃ pc ∈ (midAt V c t hc0 hc1 s).2.2.2.1, y ∈ pc.1.set :=
  View.cover_of_tiledL (midAt V c t hc0 hc1 s).2.2.2.1 S1x4096.size (by sl_kernel_rfl) y

theorem cover_last_out21 (c : Dev nD) (t : Fin cfg0.N) (hc0 : ¬cond0_0 (grid0.coords t)) (hc1 : cond0_1 (grid0.coords t)) (s : Acc4 F) (y : S1x4096.Idx) :
    ∃ pc ∈ (lastAt V c t hc0 hc1 s).1, y ∈ pc.1.set :=
  View.cover_of_tiledL (lastAt V c t hc0 hc1 s).1 S1x4096.size (by sl_kernel_rfl) y
theorem cover_last_out22 (c : Dev nD) (t : Fin cfg0.N) (hc0 : ¬cond0_0 (grid0.coords t)) (hc1 : cond0_1 (grid0.coords t)) (s : Acc4 F) (y : S1x4096.Idx) :
    ∃ pc ∈ (lastAt V c t hc0 hc1 s).2.1, y ∈ pc.1.set :=
  View.cover_of_tiledL (lastAt V c t hc0 hc1 s).2.1 S1x4096.size (by sl_kernel_rfl) y
theorem cover_last_out23 (c : Dev nD) (t : Fin cfg0.N) (hc0 : ¬cond0_0 (grid0.coords t)) (hc1 : cond0_1 (grid0.coords t)) (s : Acc4 F) (y : S1x4096.Idx) :
    ∃ pc ∈ (lastAt V c t hc0 hc1 s).2.2.1, y ∈ pc.1.set :=
  View.cover_of_tiledL (lastAt V c t hc0 hc1 s).2.2.1 S1x4096.size (by sl_kernel_rfl) y
theorem cover_last_0 (c : Dev nD) (t : Fin cfg0.N) (hc0 : ¬cond0_0 (grid0.coords t)) (hc1 : cond0_1 (grid0.coords t)) (s : Acc4 F) (y : S1x4096.Idx) :
    ∃ pc ∈ (lastAt V c t hc0 hc1 s).2.2.2.1, y ∈ pc.1.set :=
  View.cover_of_tiledL (lastAt V c t hc0 hc1 s).2.2.2.1 S1x4096.size (by sl_kernel_rfl) y
theorem cover_last_1 (c : Dev nD) (t : Fin cfg0.N) (hc0 : ¬cond0_0 (grid0.coords t)) (hc1 : cond0_1 (grid0.coords t)) (s : Acc4 F) (y : S1x4096.Idx) :
    ∃ pc ∈ (lastAt V c t hc0 hc1 s).2.2.2.2.1, y ∈ pc.1.set :=
  View.cover_of_tiledL (lastAt V c t hc0 hc1 s).2.2.2.2.1 S1x4096.size (by sl_kernel_rfl) y
theorem cover_last_2 (c : Dev nD) (t : Fin cfg0.N) (hc0 : ¬cond0_0 (grid0.coords t)) (hc1 : cond0_1 (grid0.coords t)) (s : Acc4 F) (y : S1x4096.Idx) :
    ∃ pc ∈ (lastAt V c t hc0 hc1 s).2.2.2.2.2.1, y ∈ pc.1.set :=
  View.cover_of_tiledL (lastAt V c t hc0 hc1 s).2.2.2.2.2.1 S1x4096.size (by sl_kernel_rfl) y
theorem cover_last_3 (c : Dev nD) (t : Fin cfg0.N) (hc0 : ¬cond0_0 (grid0.coords t)) (hc1 : cond0_1 (grid0.coords t)) (s : Acc4 F) (y : S1x4096.Idx) :
    ∃ pc ∈ (lastAt V c t hc0 hc1 s).2.2.2.2.2.2.1, y ∈ pc.1.set :=
  View.cover_of_tiledL (lastAt V c t hc0 hc1 s).2.2.2.2.2.2.1 S1x4096.size (by sl_kernel_rfl) y

/-! ## The contents, read back through the pieces -/

/-- What the first point leaves in the accumulators. -/
noncomputable def accFirst (c : Dev nD) (t : Fin cfg0.N) (hc0 : cond0_0 (grid0.coords t)) (hc1 : ¬cond0_1 (grid0.coords t)) : Acc4 F :=
  (VS0_0.read (Elt F) (VS0_0.writes (Elt F) VS0_0.junk (firstAt V c t hc0 hc1).1),
   VS0_1.read (Elt F) (VS0_1.writes (Elt F) VS0_1.junk (firstAt V c t hc0 hc1).2.1),
   VS0_2.read (Elt F) (VS0_2.writes (Elt F) VS0_2.junk (firstAt V c t hc0 hc1).2.2.1),
   VS0_3.read (Elt F) (VS0_3.writes (Elt F) VS0_3.junk (firstAt V c t hc0 hc1).2.2.2.1))

/-- What a middle point leaves in the accumulators, over s. -/
noncomputable def accMid (c : Dev nD) (t : Fin cfg0.N) (hc0 : ¬cond0_0 (grid0.coords t)) (hc1 : ¬cond0_1 (grid0.coords t)) (s : Acc4 F) : Acc4 F :=
  (VS0_0.read (Elt F) (VS0_0.writes (Elt F) VS0_0.junk (midAt V c t hc0 hc1 s).1),
   VS0_1.read (Elt F) (VS0_1.writes (Elt F) VS0_1.junk (midAt V c t hc0 hc1 s).2.1),
   VS0_2.read (Elt F) (VS0_2.writes (Elt F) VS0_2.junk (midAt V c t hc0 hc1 s).2.2.1),
   VS0_3.read (Elt F) (VS0_3.writes (Elt F) VS0_3.junk (midAt V c t hc0 hc1 s).2.2.2.1))

/-- What the last point leaves in the accumulators, over s. -/
noncomputable def accLast (c : Dev nD) (t : Fin cfg0.N) (hc0 : ¬cond0_0 (grid0.coords t)) (hc1 : cond0_1 (grid0.coords t)) (s : Acc4 F) : Acc4 F :=
  (VS0_0.read (Elt F) (VS0_0.writes (Elt F) VS0_0.junk (lastAt V c t hc0 hc1 s).2.2.2.1),
   VS0_1.read (Elt F) (VS0_1.writes (Elt F) VS0_1.junk (lastAt V c t hc0 hc1 s).2.2.2.2.1),
   VS0_2.read (Elt F) (VS0_2.writes (Elt F) VS0_2.junk (lastAt V c t hc0 hc1 s).2.2.2.2.2.1),
   VS0_3.read (Elt F) (VS0_3.writes (Elt F) VS0_3.junk (lastAt V c t hc0 hc1 s).2.2.2.2.2.2.1))

/-- What the last point leaves in the three outputs (h, the new cell state, the input gate's activation), over s. -/
noncomputable def outLast (c : Dev nD) (t : Fin cfg0.N) (hc0 : ¬cond0_0 (grid0.coords t)) (hc1 : cond0_1 (grid0.coords t)) (s : Acc4 F) : Out3 F :=
  (VO0_21.read (Elt F) (VO0_21.writes (Elt F) VO0_21.junk (lastAt V c t hc0 hc1 s).1),
   VO0_22.read (Elt F) (VO0_22.writes (Elt F) VO0_22.junk (lastAt V c t hc0 hc1 s).2.1),
   VO0_23.read (Elt F) (VO0_23.writes (Elt F) VO0_23.junk (lastAt V c t hc0 hc1 s).2.2.1))

/-- THE ACCUMULATION: the accumulators' contents after the body at position n. Position 0 is the first point; a later
    position is a middle point, or the last, over what position n - 1 left. -/
noncomputable def accAfter (c : Dev nD) : (n : ℕ) → n < cfg0.N → Acc4 F
  | 0, hn => accFirst V c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 32 = 0 then
      False.elim (by have hN : n + 1 < 32 := lt_of_lt_of_eq hn (show cfg0.N = 32 from N_0); omega)
    else
      if h1 : (n + 1) % 32 = 31 then
        accLast V c ⟨n + 1, hn⟩ (fun h => h0 ((hcond0_0 ⟨n + 1, hn⟩).mp h)) ((hcond0_1 ⟨n + 1, hn⟩).mpr h1) (accAfter c n (Nat.lt_of_succ_lt hn))
      else
        accMid V c ⟨n + 1, hn⟩ (fun h => h0 ((hcond0_0 ⟨n + 1, hn⟩).mp h)) (fun h => h1 ((hcond0_1 ⟨n + 1, hn⟩).mp h)) (accAfter c n (Nat.lt_of_succ_lt hn))

/-- At the first point. -/
theorem accAfter_first (c : Dev nD) (t : Fin cfg0.N) (h0 : t.val % 32 = 0) (h1 : ¬t.val % 32 = 31) :
    accAfter V c t.val t.isLt = accFirst V c t ((hcond0_0 t).mpr h0) (fun h => h1 ((hcond0_1 t).mp h)) := by
  obtain ⟨n, hn⟩ := t
  cases n with
  | zero => exact rfl
  | succ n => exact absurd h0 (by have hN : n + 1 < 32 := lt_of_lt_of_eq hn (show cfg0.N = 32 from N_0); (try dsimp only); omega)

/-- At a middle point: over what the point before left. -/
theorem accAfter_mid (c : Dev nD) (t : Fin cfg0.N) (h0 : ¬t.val % 32 = 0) (h1 : ¬t.val % 32 = 31) :
    accAfter V c t.val t.isLt = accMid V c t (fun h => h0 ((hcond0_0 t).mp h)) (fun h => h1 ((hcond0_1 t).mp h))
      (accAfter V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- At the last point: over what the point before left. -/
theorem accAfter_last (c : Dev nD) (t : Fin cfg0.N) (h0 : ¬t.val % 32 = 0) (h1 : t.val % 32 = 31) :
    accAfter V c t.val t.isLt = accLast V c t (fun h => h0 ((hcond0_0 t).mp h)) ((hcond0_1 t).mpr h1)
      (accAfter V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The outputs' contents after the body at point t: what the last point stores; at the other points, where the
    windows are idle and nothing reads this, a placeholder. -/
noncomputable def outsAfter (c : Dev nD) (t : Fin cfg0.N) : Out3 F :=
  if h1 : t.val % 32 = 31 then
    outLast V c t (fun h => (fun h => by omega) ((hcond0_0 t).mp h)) ((hcond0_1 t).mpr h1)
      (accAfter V c (t.val - 1) (Nat.lt_of_le_of_lt (Nat.sub_le _ _) t.isLt))
  else
    (VO0_21.read (Elt F) VO0_21.junk, VO0_22.read (Elt F) VO0_22.junk, VO0_23.read (Elt F) VO0_23.junk)

/-- At the last point. -/
theorem outsAfter_last (c : Dev nD) (t : Fin cfg0.N) (h0 : ¬t.val % 32 = 0) (h1 : t.val % 32 = 31) :
    outsAfter V c t = outLast V c t (fun h => h0 ((hcond0_0 t).mp h)) ((hcond0_1 t).mpr h1)
      (accAfter V c (t.val - 1) (Nat.lt_of_le_of_lt (Nat.sub_le _ _) t.isLt)) := by
  unfold outsAfter; exact (dif_pos h1)

end Cert.Kernel.Phase1

end
-- ==== Proof.Bits.Phase1Data.lean ====
import proofs.«169774_j34978213659000_2_alg».proof.Proof.Bits.Phase1Acc

set_option maxRecDepth 16384

noncomputable section

namespace Cert.Kernel.Phase1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Phase 1: the invariant that carries the accumulators, and the proof data

Between two points the region keeps, beside the windows, the scoped buffers no window of it stages: its own four
accumulators and the staging buffers of the phase-2 region. Before the first point all of them hold anything;
after a point the accumulators hold that point's sums, the others still anything. -/

variable (V : (c : Dev nD) → (b : Ref sig .tc) → Buf (Elt F) ((c : Thread nD τ).loc b))

/-- The staging buffers of the phase-2 region, each whole at some contents: untouched by phase 1. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- What the launch hands the region, with the four accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d) ∗ (∃ d, owns (c : Thread nD τ) scM0_3 fullShare d)
          ∗ otherScoped (F := F) c) ∗ (∃ r, prngReg c r)) := by
  unfold Pipeline.ΦA otherScoped; rw [scopedRest0_eq]; simp only [scM0_0, scM0_1, scM0_2, scM0_3, owns_whole]; try rfl

/-- The region's invariant before position n: before the first point, what the launch hands it; afterwards the
    accumulators at what position n - 1 left, the phase-2 staging buffers at anything, the generator register at
    some state. -/
def PhiS (c : Dev nD) : (n : ℕ) → n ≤ cfg0.N → sProp 𝕄
  | 0, _ => Pipeline.ΦA spec0 c
  | n + 1, hn => iprop(iprop(owns (c : Thread nD τ) scM0_0 fullShare (accAfter V c n hn).1 ∗ owns (c : Thread nD τ) scM0_1 fullShare (accAfter V c n hn).2.1
      ∗ owns (c : Thread nD τ) scM0_2 fullShare (accAfter V c n hn).2.2.1 ∗ owns (c : Thread nD τ) scM0_3 fullShare (accAfter V c n hn).2.2.2
      ∗ otherScoped (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare (accAfter V c n hn).1 ∗ owns (c : Thread nD τ) scM0_1 fullShare (accAfter V c n hn).2.1
      ∗ owns (c : Thread nD τ) scM0_2 fullShare (accAfter V c n hn).2.2.1 ∗ owns (c : Thread nD τ) scM0_3 fullShare (accAfter V c n hn).2.2.2
      ∗ otherScoped (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare (accAfter V c (n - 1) (by omega)).1 ∗ owns (c : Thread nD τ) scM0_1 fullShare (accAfter V c (n - 1) (by omega)).2.1
      ∗ owns (c : Thread nD τ) scM0_2 fullShare (accAfter V c (n - 1) (by omega)).2.2.1 ∗ owns (c : Thread nD τ) scM0_3 fullShare (accAfter V c (n - 1) (by omega)).2.2.2
      ∗ otherScoped (F := F) c) ∗ (∃ r, prngReg c r)) := by
  cases n with
  | zero => exact absurd rfl hz
  | succ n => rfl

/-! ## The proof data -/

/-- The proof data of the phase-1 pipeline on core c: the arrays as the region finds them; after the body at point t
    each input's buffer at its block and the outputs' at what the last point stores; the invariant above; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => iblk0 V c 15 t
    | ⟨16, _⟩ => iblk0 V c 16 t
    | ⟨17, _⟩ => iblk0 V c 17 t
    | ⟨18, _⟩ => iblk0 V c 18 t
    | ⟨19, _⟩ => iblk0 V c 19 t
    | ⟨20, _⟩ => iblk0 V c 20 t
    | ⟨21, _⟩ => (outsAfter V c t).1
    | ⟨22, _⟩ => (outsAfter V c t).2.1
    | ⟨23, _⟩ => (outsAfter V c t).2.2
    | ⟨_ + 24, h⟩ => absurd h (Nat.not_lt.2 (Nat.le_add_left _ _))
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = iblk0 V c 15 t := by dsimp only [dat0]
theorem after0_16 (c : Dev nD) (t : Fin cfg0.N) : (dat0 V c).after 16 t = iblk0 V c 16 t := by dsimp only [dat0]
theorem after0_17 (c : Dev nD) (t : Fin cfg0.N) : (dat0 V c).after 17 t = iblk0 V c 17 t := by dsimp only [dat0]
theorem after0_18 (c : Dev nD) (t : Fin cfg0.N) : (dat0 V c).after 18 t = iblk0 V c 18 t := by dsimp only [dat0]
theorem after0_19 (c : Dev nD) (t : Fin cfg0.N) : (dat0 V c).after 19 t = iblk0 V c 19 t := by dsimp only [dat0]
theorem after0_20 (c : Dev nD) (t : Fin cfg0.N) : (dat0 V c).after 20 t = iblk0 V c 20 t := by dsimp only [dat0]
theorem after0_21 (c : Dev nD) (t : Fin cfg0.N) : (dat0 V c).after 21 t = (outsAfter V c t).1 := by dsimp only [dat0]
theorem after0_22 (c : Dev nD) (t : Fin cfg0.N) : (dat0 V c).after 22 t = (outsAfter V c t).2.1 := by dsimp only [dat0]
theorem after0_23 (c : Dev nD) (t : Fin cfg0.N) : (dat0 V c).after 23 t = (outsAfter V c t).2.2 := by dsimp only [dat0]

theorem before0_0 (c : Dev nD) (t : Fin cfg0.N) (d) : (dat0 V c).before 0 t d = iblk0 V c 0 t := before0_0_of V (dat0 V c) (A_eq0 V c 0) (after0_0 V c) t d
theorem before0_1 (c : Dev nD) (t : Fin cfg0.N) (d) : (dat0 V c).before 1 t d = iblk0 V c 1 t := before0_1_of V (dat0 V c) (A_eq0 V c 1) (after0_1 V c) t d
theorem before0_2 (c : Dev nD) (t : Fin cfg0.N) (d) : (dat0 V c).before 2 t d = iblk0 V c 2 t := before0_2_of V (dat0 V c) (A_eq0 V c 2) (after0_2 V c) t d
theorem before0_3 (c : Dev nD) (t : Fin cfg0.N) (d) : (dat0 V c).before 3 t d = iblk0 V c 3 t := before0_3_of V (dat0 V c) (A_eq0 V c 3) (after0_3 V c) t d
theorem before0_4 (c : Dev nD) (t : Fin cfg0.N) (d) : (dat0 V c).before 4 t d = iblk0 V c 4 t := before0_4_of V (dat0 V c) (A_eq0 V c 4) (after0_4 V c) t d
theorem before0_5 (c : Dev nD) (t : Fin cfg0.N) (d) : (dat0 V c).before 5 t d = iblk0 V c 5 t := before0_5_of V (dat0 V c) (A_eq0 V c 5) (after0_5 V c) t d
theorem before0_6 (c : Dev nD) (t : Fin cfg0.N) (d) : (dat0 V c).before 6 t d = iblk0 V c 6 t := before0_6_of V (dat0 V c) (A_eq0 V c 6) (after0_6 V c) t d
theorem before0_7 (c : Dev nD) (t : Fin cfg0.N) (d) : (dat0 V c).before 7 t d = iblk0 V c 7 t := before0_7_of V (dat0 V c) (A_eq0 V c 7) (after0_7 V c) t d
theorem before0_8 (c : Dev nD) (t : Fin cfg0.N) (d) : (dat0 V c).before 8 t d = iblk0 V c 8 t := before0_8_of V (dat0 V c) (A_eq0 V c 8) (after0_8 V c) t d
theorem before0_9 (c : Dev nD) (t : Fin cfg0.N) (d) : (dat0 V c).before 9 t d = iblk0 V c 9 t := before0_9_of V (dat0 V c) (A_eq0 V c 9) (after0_9 V c) t d
theorem before0_10 (c : Dev nD) (t : Fin cfg0.N) (d) : (dat0 V c).before 10 t d = iblk0 V c 10 t := before0_10_of V (dat0 V c) (A_eq0 V c 10) (after0_10 V c) t d
theorem before0_11 (c : Dev nD) (t : Fin cfg0.N) (d) : (dat0 V c).before 11 t d = iblk0 V c 11 t := before0_11_of V (dat0 V c) (A_eq0 V c 11) (after0_11 V c) t d
theorem before0_12 (c : Dev nD) (t : Fin cfg0.N) (d) : (dat0 V c).before 12 t d = iblk0 V c 12 t := before0_12_of V (dat0 V c) (A_eq0 V c 12) (after0_12 V c) t d
theorem before0_13 (c : Dev nD) (t : Fin cfg0.N) (d) : (dat0 V c).before 13 t d = iblk0 V c 13 t := before0_13_of V (dat0 V c) (A_eq0 V c 13) (after0_13 V c) t d
theorem before0_14 (c : Dev nD) (t : Fin cfg0.N) (d) : (dat0 V c).before 14 t d = iblk0 V c 14 t := before0_14_of V (dat0 V c) (A_eq0 V c 14) (after0_14 V c) t d
theorem before0_15 (c : Dev nD) (t : Fin cfg0.N) (d) : (dat0 V c).before 15 t d = iblk0 V c 15 t := before0_15_of V (dat0 V c) (A_eq0 V c 15) (after0_15 V c) t d
theorem before0_16 (c : Dev nD) (t : Fin cfg0.N) (d) : (dat0 V c).before 16 t d = iblk0 V c 16 t := before0_16_of V (dat0 V c) (A_eq0 V c 16) (after0_16 V c) t d
theorem before0_17 (c : Dev nD) (t : Fin cfg0.N) (d) : (dat0 V c).before 17 t d = iblk0 V c 17 t := before0_17_of V (dat0 V c) (A_eq0 V c 17) (after0_17 V c) t d
theorem before0_18 (c : Dev nD) (t : Fin cfg0.N) (d) : (dat0 V c).before 18 t d = iblk0 V c 18 t := before0_18_of V (dat0 V c) (A_eq0 V c 18) (after0_18 V c) t d
theorem before0_19 (c : Dev nD) (t : Fin cfg0.N) (d) : (dat0 V c).before 19 t d = iblk0 V c 19 t := before0_19_of V (dat0 V c) (A_eq0 V c 19) (after0_19 V c) t d
theorem before0_20 (c : Dev nD) (t : Fin cfg0.N) (d) : (dat0 V c).before 20 t d = iblk0 V c 20 t := before0_20_of V (dat0 V c) (A_eq0 V c 20) (after0_20 V c) t d

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives back what the launch handed over: the accumulators' named
    contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HS2, HS3, Hrest⟩, Hg⟩
  isplitl [HS0 HS1 HS2 HS3 Hrest]
  · isplitl [HS0]; · iexists _; iexact HS0
    isplitl [HS1]; · iexists _; iexact HS1
    isplitl [HS2]; · iexists _; iexact HS2
    isplitl [HS3]; · iexists _; iexact HS3
    iexact Hrest
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Cert.Kernel.Phase1

end
-- ==== Proof.Bits.Phase1Body.lean ====
import proofs.«169774_j34978213659000_2_alg».proof.Proof.Bits.Phase1Data

set_option maxRecDepth 16384

noncomputable section

namespace Cert.Kernel.Phase1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Phase 1: the body obligation

At every grid point, from the invariant, what the core owes and each window's current buffer at what it then holds,
the body runs to the invariant at the next point and each buffer at what the proof data says it leaves. The point is
the first, the last or a middle one; in each case that case's run applies. -/

variable (V : (c : Dev nD) → (b : Ref sig .tc) → Buf (Elt F) ((c : Thread nD τ).loc b))

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d))
    ∗ (∃ d, owns (c : Thread nD τ) (ms0_13 t) fullShare ((dat0 V c).before 13 t d))
    ∗ (∃ d, owns (c : Thread nD τ) (ms0_14 t) fullShare ((dat0 V c).before 14 t d))
    ∗ (∃ d, owns (c : Thread nD τ) (ms0_15 t) fullShare ((dat0 V c).before 15 t d))
    ∗ (∃ d, owns (c : Thread nD τ) (ms0_16 t) fullShare ((dat0 V c).before 16 t d))
    ∗ (∃ d, owns (c : Thread nD τ) (ms0_17 t) fullShare ((dat0 V c).before 17 t d))
    ∗ (∃ d, owns (c : Thread nD τ) (ms0_18 t) fullShare ((dat0 V c).before 18 t d))
    ∗ (∃ d, owns (c : Thread nD τ) (ms0_19 t) fullShare ((dat0 V c).before 19 t d))
    ∗ (∃ d, owns (c : Thread nD τ) (ms0_20 t) fullShare ((dat0 V c).before 20 t d))
    ∗ (∃ d, owns (c : Thread nD τ) (ms0_21 t) fullShare ((dat0 V c).before 21 t d))
    ∗ (∃ d, owns (c : Thread nD τ) (ms0_22 t) fullShare ((dat0 V c).before 22 t d))
    ∗ (∃ d, owns (c : Thread nD τ) (ms0_23 t) fullShare ((dat0 V c).before 23 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t
    ∗ (dat0 V c).leavesExact 4 t ∗ (dat0 V c).leavesExact 5 t ∗ (dat0 V c).leavesExact 6 t ∗ (dat0 V c).leavesExact 7 t
    ∗ (dat0 V c).leavesExact 8 t ∗ (dat0 V c).leavesExact 9 t ∗ (dat0 V c).leavesExact 10 t ∗ (dat0 V c).leavesExact 11 t
    ∗ (dat0 V c).leavesExact 12 t ∗ (dat0 V c).leavesExact 13 t ∗ (dat0 V c).leavesExact 14 t ∗ (dat0 V c).leavesExact 15 t
    ∗ (dat0 V c).leavesExact 16 t ∗ (dat0 V c).leavesExact 17 t ∗ (dat0 V c).leavesExact 18 t ∗ (dat0 V c).leavesExact 19 t
    ∗ (dat0 V c).leavesExact 20 t ∗ (dat0 V c).leavesExact 21 t ∗ (dat0 V c).leavesExact 22 t ∗ (dat0 V c).leavesExact 23 t)

/-- An input window is live everywhere, so the body leaves its buffer at the block it was handed. -/
theorem leaves_in (c : Dev nD) (t : Fin cfg0.N) :
    (dat0 V c).leavesExact 0 t = owns (c : Thread nD τ) (ms0_0 t) fullShare (iblk0 V c 0 t)
    ∧ (dat0 V c).leavesExact 1 t = owns (c : Thread nD τ) (ms0_1 t) fullShare (iblk0 V c 1 t)
    ∧ (dat0 V c).leavesExact 2 t = owns (c : Thread nD τ) (ms0_2 t) fullShare (iblk0 V c 2 t)
    ∧ (dat0 V c).leavesExact 3 t = owns (c : Thread nD τ) (ms0_3 t) fullShare (iblk0 V c 3 t)
    ∧ (dat0 V c).leavesExact 4 t = owns (c : Thread nD τ) (ms0_4 t) fullShare (iblk0 V c 4 t)
    ∧ (dat0 V c).leavesExact 5 t = owns (c : Thread nD τ) (ms0_5 t) fullShare (iblk0 V c 5 t)
    ∧ (dat0 V c).leavesExact 6 t = owns (c : Thread nD τ) (ms0_6 t) fullShare (iblk0 V c 6 t)
    ∧ (dat0 V c).leavesExact 7 t = owns (c : Thread nD τ) (ms0_7 t) fullShare (iblk0 V c 7 t)
    ∧ (dat0 V c).leavesExact 8 t = owns (c : Thread nD τ) (ms0_8 t) fullShare (iblk0 V c 8 t)
    ∧ (dat0 V c).leavesExact 9 t = owns (c : Thread nD τ) (ms0_9 t) fullShare (iblk0 V c 9 t)
    ∧ (dat0 V c).leavesExact 10 t = owns (c : Thread nD τ) (ms0_10 t) fullShare (iblk0 V c 10 t)
    ∧ (dat0 V c).leavesExact 11 t = owns (c : Thread nD τ) (ms0_11 t) fullShare (iblk0 V c 11 t)
    ∧ (dat0 V c).leavesExact 12 t = owns (c : Thread nD τ) (ms0_12 t) fullShare (iblk0 V c 12 t)
    ∧ (dat0 V c).leavesExact 13 t = owns (c : Thread nD τ) (ms0_13 t) fullShare (iblk0 V c 13 t)
    ∧ (dat0 V c).leavesExact 14 t = owns (c : Thread nD τ) (ms0_14 t) fullShare (iblk0 V c 14 t)
    ∧ (dat0 V c).leavesExact 15 t = owns (c : Thread nD τ) (ms0_15 t) fullShare (iblk0 V c 15 t)
    ∧ (dat0 V c).leavesExact 16 t = owns (c : Thread nD τ) (ms0_16 t) fullShare (iblk0 V c 16 t)
    ∧ (dat0 V c).leavesExact 17 t = owns (c : Thread nD τ) (ms0_17 t) fullShare (iblk0 V c 17 t)
    ∧ (dat0 V c).leavesExact 18 t = owns (c : Thread nD τ) (ms0_18 t) fullShare (iblk0 V c 18 t)
    ∧ (dat0 V c).leavesExact 19 t = owns (c : Thread nD τ) (ms0_19 t) fullShare (iblk0 V c 19 t)
    ∧ (dat0 V c).leavesExact 20 t = owns (c : Thread nD τ) (ms0_20 t) fullShare (iblk0 V c 20 t) := by
  refine ⟨?_, ?_, ?_, ?_, ?_, ?_, ?_, ?_, ?_, ?_, ?_, ?_, ?_, ?_, ?_, ?_, ?_, ?_, ?_, ?_, ?_⟩
  · unfold Dat.leavesExact; rw [liveAt0_0 t, ← after0_0 V c t]
  · unfold Dat.leavesExact; rw [liveAt0_1 t, ← after0_1 V c t]
  · unfold Dat.leavesExact; rw [liveAt0_2 t, ← after0_2 V c t]
  · unfold Dat.leavesExact; rw [liveAt0_3 t, ← after0_3 V c t]
  · unfold Dat.leavesExact; rw [liveAt0_4 t, ← after0_4 V c t]
  · unfold Dat.leavesExact; rw [liveAt0_5 t, ← after0_5 V c t]
  · unfold Dat.leavesExact; rw [liveAt0_6 t, ← after0_6 V c t]
  · unfold Dat.leavesExact; rw [liveAt0_7 t, ← after0_7 V c t]
  · unfold Dat.leavesExact; rw [liveAt0_8 t, ← after0_8 V c t]
  · unfold Dat.leavesExact; rw [liveAt0_9 t, ← after0_9 V c t]
  · unfold Dat.leavesExact; rw [liveAt0_10 t, ← after0_10 V c t]
  · unfold Dat.leavesExact; rw [liveAt0_11 t, ← after0_11 V c t]
  · unfold Dat.leavesExact; rw [liveAt0_12 t, ← after0_12 V c t]
  · unfold Dat.leavesExact; rw [liveAt0_13 t, ← after0_13 V c t]
  · unfold Dat.leavesExact; rw [liveAt0_14 t, ← after0_14 V c t]
  · unfold Dat.leavesExact; rw [liveAt0_15 t, ← after0_15 V c t]
  · unfold Dat.leavesExact; rw [liveAt0_16 t, ← after0_16 V c t]
  · unfold Dat.leavesExact; rw [liveAt0_17 t, ← after0_17 V c t]
  · unfold Dat.leavesExact; rw [liveAt0_18 t, ← after0_18 V c t]
  · unfold Dat.leavesExact; rw [liveAt0_19 t, ← after0_19 V c t]
  · unfold Dat.leavesExact; rw [liveAt0_20 t, ← after0_20 V c t]

set_option maxHeartbeats 8000000 in
/-- The body at the first point: the invariant hands the accumulators over at anything; the run zeroes them and adds
    block 0's sums; the invariant takes them back at those contents, each read back through pieces that cover it;
    the idle outputs are handed back as found. -/
theorem sound_first (c : Dev nD) (t : Fin cfg0.N) (h0 : t.val % 32 = 0) (h1 : ¬t.val % 32 = 31) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10,
    before0_11, before0_12, before0_13, before0_14, before0_15, before0_16, before0_17, before0_18, before0_19, before0_20]
  rw [show (dat0 V c).owesAt () t.succ = (dat0 V c).owesAt () t.castSucc from rfl]
  rw [show (dat0 V c).Φ t.succ = PhiS V c (t.val + 1) t.isLt from rfl, PhiS_succ]
  obtain ⟨e0, e1, e2, e3, e4, e5, e6, e7, e8, e9, e10, e11, e12, e13, e14, e15, e16, e17, e18, e19, e20⟩ := leaves_in V c t
  rw [e0, e1, e2, e3, e4, e5, e6, e7, e8, e9, e10, e11, e12, e13, e14, e15, e16, e17, e18, e19, e20]
  have hN : t.val < 32 := lt_of_lt_of_eq t.isLt (show cfg0.N = 32 from N_0)
  have hz : t.val = 0 := by omega
  rw [Dat.leavesExact_idle (dat0 V c) 21 t (idleAt0_21_first t ((hcond0_0 t).mpr h0) (fun h => h1 ((hcond0_1 t).mp h))) (noFlush0_21_first t ((hcond0_0 t).mpr h0) (fun h => h1 ((hcond0_1 t).mp h)))]
  rw [Dat.leavesExact_idle (dat0 V c) 22 t (idleAt0_22_first t ((hcond0_0 t).mpr h0) (fun h => h1 ((hcond0_1 t).mp h))) (noFlush0_22_first t ((hcond0_0 t).mpr h0) (fun h => h1 ((hcond0_1 t).mp h)))]
  rw [Dat.leavesExact_idle (dat0 V c) 23 t (idleAt0_23_first t ((hcond0_0 t).mpr h0) (fun h => h1 ((hcond0_1 t).mp h))) (noFlush0_23_first t ((hcond0_0 t).mpr h0) (fun h => h1 ((hcond0_1 t).mp h)))]
  rw [accAfter_first V c t h0 h1]
  unfold accFirst; (try dsimp only)
  rw [PhiS_castSucc V c t, PhiS_zero V c _ _ hz, PhiA0_eq]
  iintro ⟨⟨⟨HS0, HS1, HS2, HS3, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply ((firstAt V c t ((hcond0_0 t).mpr h0) (fun h => h1 ((hcond0_1 t).mp h))).2.2.2.2 _ _ _ Set.univ _)
  unfold insOwned outsAt accAny accWritten
  isplitl [H0 H1 H2 H3 H4 H5 H6 H7 H8 H9 H10 H11 H12 H13 H14 H15 H16 H17 H18 H19 H20]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  isplitl [H21 H22 H23]
  · isplitl [H21]; · iexact H21
    isplitl [H22]; · iexact H22
    iexact H23
  isplitl [HS0 HS1 HS2 HS3]
  · isplitl [HS0]; · iexact HS0
    isplitl [HS1]; · iexact HS1
    isplitl [HS2]; · iexact HS2
    iexact HS3
  iintro ⟨⟨H0, H1, H2, H3, H4, H5, H6, H7, H8, H9, H10, H11, H12, H13, H14, H15, H16, H17, H18, H19, H20⟩, ⟨H21, H22, H23⟩, ⟨⟨%es0, HS0⟩, ⟨%es1, HS1⟩, ⟨%es2, HS2⟩, ⟨%es3, HS3⟩⟩⟩
  isplitl [HS0 HS1 HS2 HS3 Hrest Hg]
  · isplitl [HS0 HS1 HS2 HS3 Hrest]
    · isplitl [HS0]
      · unfold owns; iexists _; isplitr
        swap; · iexact HS0
        ipureintro; exact View.read_writes_of_cover _ _ _ _ _ (cover_first_0 V c t _ _)
      isplitl [HS1]
      · unfold owns; iexists _; isplitr
        swap; · iexact HS1
        ipureintro; exact View.read_writes_of_cover _ _ _ _ _ (cover_first_1 V c t _ _)
      isplitl [HS2]
      · unfold owns; iexists _; isplitr
        swap; · iexact HS2
        ipureintro; exact View.read_writes_of_cover _ _ _ _ _ (cover_first_2 V c t _ _)
      isplitl [HS3]
      · unfold owns; iexists _; isplitr
        swap; · iexact HS3
        ipureintro; exact View.read_writes_of_cover _ _ _ _ _ (cover_first_3 V c t _ _)
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  isplitl [H22]; · iexists _; iexact H22
  iexists _; iexact H23

set_option maxHeartbeats 8000000 in
/-- The body at a middle point: the invariant hands the accumulators over at what the point before left; the run
    adds this block's sums; the invariant takes them back at those contents; the idle outputs are handed back as
    found. -/
theorem sound_mid (c : Dev nD) (t : Fin cfg0.N) (h0 : ¬t.val % 32 = 0) (h1 : ¬t.val % 32 = 31) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10,
    before0_11, before0_12, before0_13, before0_14, before0_15, before0_16, before0_17, before0_18, before0_19, before0_20]
  rw [show (dat0 V c).owesAt () t.succ = (dat0 V c).owesAt () t.castSucc from rfl]
  rw [show (dat0 V c).Φ t.succ = PhiS V c (t.val + 1) t.isLt from rfl, PhiS_succ]
  obtain ⟨e0, e1, e2, e3, e4, e5, e6, e7, e8, e9, e10, e11, e12, e13, e14, e15, e16, e17, e18, e19, e20⟩ := leaves_in V c t
  rw [e0, e1, e2, e3, e4, e5, e6, e7, e8, e9, e10, e11, e12, e13, e14, e15, e16, e17, e18, e19, e20]
  have hN : t.val < 32 := lt_of_lt_of_eq t.isLt (show cfg0.N = 32 from N_0)
  have hz : t.val ≠ 0 := by omega
  rw [Dat.leavesExact_idle (dat0 V c) 21 t (idleAt0_21_mid t (fun h => h0 ((hcond0_0 t).mp h)) (fun h => h1 ((hcond0_1 t).mp h))) (noFlush0_21_mid t (fun h => h0 ((hcond0_0 t).mp h)) (fun h => h1 ((hcond0_1 t).mp h)))]
  rw [Dat.leavesExact_idle (dat0 V c) 22 t (idleAt0_22_mid t (fun h => h0 ((hcond0_0 t).mp h)) (fun h => h1 ((hcond0_1 t).mp h))) (noFlush0_22_mid t (fun h => h0 ((hcond0_0 t).mp h)) (fun h => h1 ((hcond0_1 t).mp h)))]
  rw [Dat.leavesExact_idle (dat0 V c) 23 t (idleAt0_23_mid t (fun h => h0 ((hcond0_0 t).mp h)) (fun h => h1 ((hcond0_1 t).mp h))) (noFlush0_23_mid t (fun h => h0 ((hcond0_0 t).mp h)) (fun h => h1 ((hcond0_1 t).mp h)))]
  rw [accAfter_mid V c t h0 h1]
  unfold accMid; (try dsimp only)
  rw [PhiS_castSucc V c t, PhiS_pos V c _ _ hz]
  iintro ⟨⟨⟨HS0, HS1, HS2, HS3, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply ((midAt V c t (fun h => h0 ((hcond0_0 t).mp h)) (fun h => h1 ((hcond0_1 t).mp h)) _).2.2.2.2 _ _ _ Set.univ _)
  unfold insOwned outsAt accAt accWritten
  isplitl [H0 H1 H2 H3 H4 H5 H6 H7 H8 H9 H10 H11 H12 H13 H14 H15 H16 H17 H18 H19 H20]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  isplitl [H21 H22 H23]
  · isplitl [H21]; · iexact H21
    isplitl [H22]; · iexact H22
    iexact H23
  isplitl [HS0 HS1 HS2 HS3]
  · isplitl [HS0]; · iexact HS0
    isplitl [HS1]; · iexact HS1
    isplitl [HS2]; · iexact HS2
    iexact HS3
  iintro ⟨⟨H0, H1, H2, H3, H4, H5, H6, H7, H8, H9, H10, H11, H12, H13, H14, H15, H16, H17, H18, H19, H20⟩, ⟨H21, H22, H23⟩, ⟨⟨%es0, HS0⟩, ⟨%es1, HS1⟩, ⟨%es2, HS2⟩, ⟨%es3, HS3⟩⟩⟩
  isplitl [HS0 HS1 HS2 HS3 Hrest Hg]
  · isplitl [HS0 HS1 HS2 HS3 Hrest]
    · isplitl [HS0]
      · unfold owns; iexists _; isplitr
        swap; · iexact HS0
        ipureintro; exact View.read_writes_of_cover _ _ _ _ _ (cover_mid_0 V c t _ _ _)
      isplitl [HS1]
      · unfold owns; iexists _; isplitr
        swap; · iexact HS1
        ipureintro; exact View.read_writes_of_cover _ _ _ _ _ (cover_mid_1 V c t _ _ _)
      isplitl [HS2]
      · unfold owns; iexists _; isplitr
        swap; · iexact HS2
        ipureintro; exact View.read_writes_of_cover _ _ _ _ _ (cover_mid_2 V c t _ _ _)
      isplitl [HS3]
      · unfold owns; iexists _; isplitr
        swap; · iexact HS3
        ipureintro; exact View.read_writes_of_cover _ _ _ _ _ (cover_mid_3 V c t _ _ _)
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  isplitl [H22]; · iexists _; iexact H22
  iexists _; iexact H23

set_option maxHeartbeats 8000000 in
/-- The body at the last point: the run adds block 31's sums, then finishes the gates and stores the three results;
    the invariant takes the accumulators back, and each output's buffer holds what was stored, read back through
    pieces that cover it. -/
theorem sound_last (c : Dev nD) (t : Fin cfg0.N) (h0 : ¬t.val % 32 = 0) (h1 : t.val % 32 = 31) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10,
    before0_11, before0_12, before0_13, before0_14, before0_15, before0_16, before0_17, before0_18, before0_19, before0_20]
  rw [show (dat0 V c).owesAt () t.succ = (dat0 V c).owesAt () t.castSucc from rfl]
  rw [show (dat0 V c).Φ t.succ = PhiS V c (t.val + 1) t.isLt from rfl, PhiS_succ]
  obtain ⟨e0, e1, e2, e3, e4, e5, e6, e7, e8, e9, e10, e11, e12, e13, e14, e15, e16, e17, e18, e19, e20⟩ := leaves_in V c t
  rw [e0, e1, e2, e3, e4, e5, e6, e7, e8, e9, e10, e11, e12, e13, e14, e15, e16, e17, e18, e19, e20]
  have hN : t.val < 32 := lt_of_lt_of_eq t.isLt (show cfg0.N = 32 from N_0)
  have hz : t.val ≠ 0 := by omega
  rw [show (dat0 V c).leavesExact 21 t = owns (c : Thread nD τ) (ms0_21 t) fullShare ((dat0 V c).after 21 t) from by
    unfold Dat.leavesExact; rw [liveAt0_21_last t (fun h => h0 ((hcond0_0 t).mp h)) ((hcond0_1 t).mpr h1)], after0_21]
  rw [show (dat0 V c).leavesExact 22 t = owns (c : Thread nD τ) (ms0_22 t) fullShare ((dat0 V c).after 22 t) from by
    unfold Dat.leavesExact; rw [liveAt0_22_last t (fun h => h0 ((hcond0_0 t).mp h)) ((hcond0_1 t).mpr h1)], after0_22]
  rw [show (dat0 V c).leavesExact 23 t = owns (c : Thread nD τ) (ms0_23 t) fullShare ((dat0 V c).after 23 t) from by
    unfold Dat.leavesExact; rw [liveAt0_23_last t (fun h => h0 ((hcond0_0 t).mp h)) ((hcond0_1 t).mpr h1)], after0_23]
  rw [outsAfter_last V c t h0 h1, accAfter_last V c t h0 h1]
  unfold outLast accLast; (try dsimp only)
  rw [PhiS_castSucc V c t, PhiS_pos V c _ _ hz]
  iintro ⟨⟨⟨HS0, HS1, HS2, HS3, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply ((lastAt V c t (fun h => h0 ((hcond0_0 t).mp h)) ((hcond0_1 t).mpr h1) _).2.2.2.2.2.2.2 Set.univ _)
  unfold insOwned outsAny outsWritten accAt accWritten
  isplitl [H0 H1 H2 H3 H4 H5 H6 H7 H8 H9 H10 H11 H12 H13 H14 H15 H16 H17 H18 H19 H20]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  isplitl [H21 H22 H23]
  · isplitl [H21]; · iexists _; iexact H21
    isplitl [H22]; · iexists _; iexact H22
    iexists _; iexact H23
  isplitl [HS0 HS1 HS2 HS3]
  · isplitl [HS0]; · iexact HS0
    isplitl [HS1]; · iexact HS1
    isplitl [HS2]; · iexact HS2
    iexact HS3
  iintro ⟨⟨H0, H1, H2, H3, H4, H5, H6, H7, H8, H9, H10, H11, H12, H13, H14, H15, H16, H17, H18, H19, H20⟩, ⟨⟨%eo21, H21⟩, ⟨%eo22, H22⟩, ⟨%eo23, H23⟩⟩, ⟨⟨%es0, HS0⟩, ⟨%es1, HS1⟩, ⟨%es2, HS2⟩, ⟨%es3, HS3⟩⟩⟩
  isplitl [HS0 HS1 HS2 HS3 Hrest Hg]
  · isplitl [HS0 HS1 HS2 HS3 Hrest]
    · isplitl [HS0]
      · unfold owns; iexists _; isplitr
        swap; · iexact HS0
        ipureintro; exact View.read_writes_of_cover _ _ _ _ _ (cover_last_0 V c t _ _ _)
      isplitl [HS1]
      · unfold owns; iexists _; isplitr
        swap; · iexact HS1
        ipureintro; exact View.read_writes_of_cover _ _ _ _ _ (cover_last_1 V c t _ _ _)
      isplitl [HS2]
      · unfold owns; iexists _; isplitr
        swap; · iexact HS2
        ipureintro; exact View.read_writes_of_cover _ _ _ _ _ (cover_last_2 V c t _ _ _)
      isplitl [HS3]
      · unfold owns; iexists _; isplitr
        swap; · iexact HS3
        ipureintro; exact View.read_writes_of_cover _ _ _ _ _ (cover_last_3 V c t _ _ _)
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]
  · unfold owns; iexists _; isplitr
    swap; · iexact H21
    ipureintro; exact View.read_writes_of_cover _ _ _ _ _ (cover_last_out21 V c t _ _ _)
  isplitl [H22]
  · unfold owns; iexists _; isplitr
    swap; · iexact H22
    ipureintro; exact View.read_writes_of_cover _ _ _ _ _ (cover_last_out22 V c t _ _ _)
  unfold owns; iexists _; isplitr
  swap; · iexact H23
  ipureintro; exact View.read_writes_of_cover _ _ _ _ _ (cover_last_out23 V c t _ _ _)

/-- The body at any point: it is the first, the last or a middle one. -/
theorem sound_body0 (c : Dev nD) (t : Fin cfg0.N) :
    bodyPre0 V c t ⊢ wp frame (wpE (defs₀ (F := F)) Variants.none c none) Set.univ (bodyAt0 t) (fun _ => bodyPost0 V c t) := by
  have hN : t.val < 32 := lt_of_lt_of_eq t.isLt (show cfg0.N = 32 from N_0)
  by_cases h0 : t.val % 32 = 0
  · exact sound_first V c t h0 (by omega)
  · by_cases h1 : t.val % 32 = 31
    · exact sound_last V c t h0 h1
    · exact sound_mid V c t h0 h1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Phase1

end
-- ==== Proof.Bits.Phase2Region.lean ====
import proofs.«169774_j34978213659000_2_alg».proof.Proof.Gen.Kernel.Launch
import proofs.«169774_j34978213659000_2_alg».proof.Proof.Gen.Kernel.Skeleton
import proofs.«169774_j34978213659000_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Phase2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Phase 2 (the trace update)

The phase-2 kernel runs on a 4 × 4 grid of 1024 × 1024 blocks of the two traces. At block (i, j) it reads that block
of the Hebbian and of the eligibility trace, columns 1024·j … of the modulation row and of the input gate's
activation, rows 1024·i … of x as a column, and eta; it stores the clipped Hebbian update
min(1, max(−1, hebb + mod·elig)) and the eligibility update (1 − eta)·elig + eta·(x_col·post). Nothing is kept
between points and every point stores both outputs whole.

Everything is stated at a parameter V, the TensorCore's buffer contents when the region is entered. -/

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole buffer -/

abbrev rM : Rect S1024x1024 := Rect.unit (s := S1024x1024) ![0, 0] S1024x1024.size inb_S1024x1024_S1024x1024_0_0
abbrev rRow : Rect S1x1024 := Rect.unit (s := S1x1024) ![0, 0] S1x1024.size inb_S1x1024_S1x1024_0_0
abbrev rCol : Rect S1024x1 := Rect.unit (s := S1024x1) ![0, 0] S1024x1.size inb_S1024x1_S1024x1_0_0
abbrev rOne : Rect S1x1 := Rect.unit (s := S1x1) ![0, 0] S1x1.size inb_S1x1_S1x1_0_0

/-! ## What the body leaves in each output window's buffer -/

/-- The new Hebbian block, from the Hebbian block, the eligibility block and the modulation's columns. -/
def out1_6 (x0 x1 : Vec F S1024x1024 .f32) (x2 : Vec F S1x1024 .f32) : Vec F S1024x1024 .f32 :=
  View.canon [⟨rM, k1_pay1 (View.ld x0 rM) (View.ld x1 rM) (View.ld x2 rRow)⟩]

/-- The new eligibility block, from the eligibility block, the activation's columns, x's rows and eta. -/
def out1_7 (x1 : Vec F S1024x1024 .f32) (x3 : Vec F S1x1024 .f32) (x4 : Vec F S1024x1 .f32) (x5 : Vec F S1x1 .f32) : Vec F S1024x1024 .f32 :=
  View.canon [⟨rM, k1_pay2 (View.ld x5 rOne) (View.ld x1 rM) (View.ld x3 rRow) (View.ld x4 rCol)⟩]

/-- One whole-buffer store covers the buffer. -/
theorem cover1 (p0 : Vec F S1024x1024 .f32) (y : S1024x1024.Idx) :
    ∃ pc ∈ ([⟨rM, p0⟩] : List (View.Piece (Elt F) S1024x1024 .f32)), y ∈ pc.1.set :=
  View.cover_of_tiled [⟨rM, p0⟩] S1024x1024.size (by rfl) y

/-! ## The body's triple -/

set_option maxHeartbeats 4000000 in
/-- On whole staging memrefs, the six inputs' at their contents and the two outputs' at anything, the body runs to
    the continuation holding the inputs' as they were and each output's at what its one store wrote. -/
theorem sound_kernel1 (c : Dev nD) (i : grid1.Coords) (E : Set ℕ)
    (arg2 : Memref sig .tc .vmem S1024x1024 .f32) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1024x1 .f32) (harg6 : arg6.IsWhole) (arg7 : Memref sig .tc .vmem S1x1 .f32) (harg7 : arg7.IsWhole)
    (arg8 : Memref sig .tc .vmem S1024x1024 .f32) (harg8 : arg8.IsWhole) (arg9 : Memref sig .tc .vmem S1024x1024 .f32) (harg9 : arg9.IsWhole)
    (x0 x1 : Vec F S1024x1024 .f32) (x2 x3 : Vec F S1x1024 .f32) (x4 : Vec F S1024x1 .f32) (x5 : Vec F S1x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out1_6 x0 x1 x2) ∗ owns (c : Thread nD τ) arg9 fullShare (out1_7 x1 x3 x4 x5)) -∗ K ⟨⟩))
      ⊢ wp frame (wpE (defs₀ (F := F)) Variants.none c none) E (cc1__phase2_kernel i arg2 harg2 arg3 harg3 arg4 harg4 arg5 harg5 arg6 harg6 arg7 harg7 arg8 harg8 arg9 harg9) K := by
  simp only [cc1__phase2_kernel_eq_skeleton]; unfold cc1__phase2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1 _)
  iexists _; isplitr
  swap; · iexact H7
  ipureintro
  exact View.read_writes_eq_canon _ _ _ (cover1 _)

/-! ## The pipeline's proof data -/

/-- The proof data of the phase-2 pipeline on core c: the arrays as the region finds them; after the body at point t
    each input's buffer at its block and each output's at the update of the input blocks; the class's invariant
    (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t)
    | ⟨7, _⟩ => out1_7 (iblk1 V c 1 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) := by dsimp only [dat1]
theorem after1_7 (c : Dev nD) (t : Fin cfg1.N) : (dat1 V c).after 7 t = out1_7 (iblk1 V c 1 t) (iblk1 V c 3 t) (iblk1 V c 4 t) (iblk1 V c 5 t) := by dsimp only [dat1]

theorem before1_0 (c : Dev nD) (t : Fin cfg1.N) (d) : (dat1 V c).before 0 t d = iblk1 V c 0 t := before1_0_of V (dat1 V c) (A_eq1 V c 0) (after1_0 V c) t d
theorem before1_1 (c : Dev nD) (t : Fin cfg1.N) (d) : (dat1 V c).before 1 t d = iblk1 V c 1 t := before1_1_of V (dat1 V c) (A_eq1 V c 1) (after1_1 V c) t d
theorem before1_2 (c : Dev nD) (t : Fin cfg1.N) (d) : (dat1 V c).before 2 t d = iblk1 V c 2 t := before1_2_of V (dat1 V c) (A_eq1 V c 2) (after1_2 V c) t d
theorem before1_3 (c : Dev nD) (t : Fin cfg1.N) (d) : (dat1 V c).before 3 t d = iblk1 V c 3 t := before1_3_of V (dat1 V c) (A_eq1 V c 3) (after1_3 V c) t d
theorem before1_4 (c : Dev nD) (t : Fin cfg1.N) (d) : (dat1 V c).before 4 t d = iblk1 V c 4 t := before1_4_of V (dat1 V c) (A_eq1 V c 4) (after1_4 V c) t d
theorem before1_5 (c : Dev nD) (t : Fin cfg1.N) (d) : (dat1 V c).before 5 t d = iblk1 V c 5 t := before1_5_of V (dat1 V c) (A_eq1 V c 5) (after1_5 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 4000000 in
/-- The body at any point: the inputs' memrefs hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c (grid1.coords t) Set.univ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Phase2

end
-- ==== Proof.Bits.MainRun.lean ====
import proofs.«169774_j34978213659000_2_alg».proof.Proof.Bits.Phase1Body
import proofs.«169774_j34978213659000_2_alg».proof.Proof.Bits.Phase2Region
import proofs.«169774_j34978213659000_2_alg».proof.Proof.Gen.Kernel.Regions

set_option maxRecDepth 16384

noncomputable section

namespace Cert.Kernel.Run

open Cert.Kernel Cert.Kernel.Gen Cert.Kernel.Phase1 Cert.Kernel.Phase2
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole program: host reshapes, phase 1, the modulation on the host, phase 2

@main is four segments: eight reshapes of the biases to rows; the phase-1 region; the host lines that form the
modulation row mod = tanh(post·Wmi + bmi)·Wmo + bmo, x as a column and eta as a 1 × 1 array; the phase-2 region.
The buffer contents at each boundary are a fold from the launch memory m. -/

variable (m : (ℓ : Loc nD τ sig) → Buf (Elt F) ℓ) (ρ : Dev nD → PrngReg)

/-- Core c's buffers at launch. -/
abbrev W0 : Dev nD → Valuation τ sig (Elt F) := fun c b => m (c, b)
/-- After the reshapes (phase 1's entry). -/
abbrev W1 : Dev nD → Valuation τ sig (Elt F) := fun c => StableHlo.after hostOps0 (W0 m c)
/-- The same read at the TensorCore's references. -/
abbrev U1 : (c : Dev nD) → (b : Ref sig .tc) → Buf (Elt F) ((c : Thread nD τ).loc b) := fun c b => W1 m c b
/-- At phase 1's exit: its arrays at what the pipeline leaves (the inputs as entered, each output's write-back),
    every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the host lines between the regions (phase 2's entry). -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- At phase 2's exit. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)

/-! ## A buffer no segment writes ends as launched -/

/-- A window of phase 1 whose array is none of its three results is an input. -/
theorem in_of_not_out0 : ∀ w : Fin cfg0.W, Pipeline.arrRef spec0 w ∉ ([main_v8_0, main_v8_1, main_v8_2] : List (Ref sig .tc)) → (cfg0.win w).isOut = false := by
  decide +kernel
/-- A window of phase 2 whose array is neither of its two results is an input. -/
theorem in_of_not_out1 : ∀ w : Fin cfg1.W, Pipeline.arrRef spec1 w ∉ ([main_v18_0, main_v18_1] : List (Ref sig .tc)) → (cfg1.win w).isOut = false := by
  decide +kernel

/-- Phase 1 changes only its three results. -/
theorem W2_keeps (c : Dev nD) (b : Ref sig .tc) (hb : b ∉ ([main_v8_0, main_v8_1, main_v8_2] : List (Ref sig .tc))) :
    W2 m c (Proc.devRef .tc b) = W1 m c (Proc.devRef .tc b) := by
  by_cases h : ∃ w, Pipeline.arrRef spec0 w = b
  · obtain ⟨w, rfl⟩ := h
    rw [W2_arr]
    exact ((dat0 (U1 m) c).arrAt_in w (in_of_not_out0 w hb) _).trans (A_eq0 (U1 m) c w)
  · exact W2_of_ne m c b (fun w e => h ⟨w, e⟩)

/-- Phase 2 changes only its two results. -/
theorem W4_keeps (c : Dev nD) (b : Ref sig .tc) (hb : b ∉ ([main_v18_0, main_v18_1] : List (Ref sig .tc))) :
    W4 m c (Proc.devRef .tc b) = W3 m c (Proc.devRef .tc b) := by
  by_cases h : ∃ w, Pipeline.arrRef spec1 w = b
  · obtain ⟨w, rfl⟩ := h
    rw [W4_arr]
    exact ((dat1 (U3 m) c).arrAt_in w (in_of_not_out1 w hb) _).trans (A_eq1 (U3 m) c w)
  · exact W4_of_ne m c b (fun w e => h ⟨w, e⟩)

/-- A buffer that no host line writes and that is no region's result holds at the end what it held at launch. -/
theorem W4_untouched (c : Dev nD) (b : Ref sig .tc) (h0 : b ∉ hostOps0_W) (h1 : b ∉ ([main_v8_0, main_v8_1, main_v8_2] : List (Ref sig .tc)))
    (h2 : b ∉ hostOps1_W) (h3 : b ∉ ([main_v18_0, main_v18_1] : List (Ref sig .tc))) :
    W4 m c (Proc.devRef .tc b) = m ((c : Thread nD τ).loc b) :=
  (W4_keeps m c b h3).trans <| (StableHlo.after_of_writes_sub hostOps1 _ hostOps1_writes h2).trans <|
    (W2_keeps m c b h1).trans <| (StableHlo.after_of_writes_sub hostOps0 _ hostOps0_writes h0).trans rfl

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator
    register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Phase 1 over the thread state: entered from every unscoped buffer at W1, left at W2. Its arrays are split out of
    the unscoped buffers and put back at the exit contents; the generator register goes into the invariant and comes
    out; the invariant starts as what the launch hands over and ends giving that back (the accumulators' contents
    forgotten); nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m 0 c).Φ 0 from hin0 (U1 m) c)
    unfold Pipeline.ΦA
    iintro ⟨Hp, -, Hr⟩
    isplitl [Hr]; · iexact Hr
    iexact Hp
  hout c := by
    rw [Pipeline.ownSems0_none]
    refine BIBase.Entails.trans (show (pdats m 0 c).Φ (Fin.last _) ⊢ Pipeline.ΦA spec0 c from hout0 (U1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Phase 2 over the thread state: entered from every unscoped buffer at W3, left at W4. Nothing is kept between its
    points: the invariant is the scoped rest and the generator register, untouched. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
/-- @main is the run of the segments. -/
theorem main_run (c : Dev nD) : main (F := F) c = Pipeline.Seg.run (segs m) := (main_chain c).trans (by chain_rfl)

set_option backward.isDefEq.respectTransparency.types false in
/-- THE RUN. From any memory with zero counters, every weakly fair execution of @main on the TensorCores terminates,
    nothing faulting, and in every final state each unscoped buffer holds the last boundary's contents W4. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

end Cert.Kernel.Run

end
-- ==== Proof.Bits.Results.lean ====
import proofs.«169774_j34978213659000_2_alg».proof.Proof.Bits.MainRun

set_option maxRecDepth 16384

noncomputable section

namespace Cert.Kernel.Run

open Cert.Kernel Cert.Kernel.Gen Cert.Kernel.Phase1 Cert.Kernel.Phase2
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # What the run leaves: the arguments as launched, the results where the regions put them

No host line writes an argument and no region has one as a result, so each argument ends as launched. The first and
the fourth result (h and the new cell state) are phase 1's first two outputs, which nothing later writes; the
second and the third (the new traces) are phase 2's two outputs. -/

variable (m : (ℓ : Loc nD τ sig) → Buf (Elt F) ℓ) (ρ : Dev nD → PrngReg)

/-- THE FRAME: every weakly fair execution terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun r h c => ⟨
    (h c _ (mem_uc main_arg0 (by decide))).trans (W4_untouched m c main_arg0 (by decide) (by decide) (by decide) (by decide)),
    (h c _ (mem_uc main_arg1 (by decide))).trans (W4_untouched m c main_arg1 (by decide) (by decide) (by decide) (by decide)),
    (h c _ (mem_uc main_arg2 (by decide))).trans (W4_untouched m c main_arg2 (by decide) (by decide) (by decide) (by decide)),
    (h c _ (mem_uc main_arg3 (by decide))).trans (W4_untouched m c main_arg3 (by decide) (by decide) (by decide) (by decide)),
    (h c _ (mem_uc main_arg4 (by decide))).trans (W4_untouched m c main_arg4 (by decide) (by decide) (by decide) (by decide)),
    (h c _ (mem_uc main_arg5 (by decide))).trans (W4_untouched m c main_arg5 (by decide) (by decide) (by decide) (by decide)),
    (h c _ (mem_uc main_arg6 (by decide))).trans (W4_untouched m c main_arg6 (by decide) (by decide) (by decide) (by decide)),
    (h c _ (mem_uc main_arg7 (by decide))).trans (W4_untouched m c main_arg7 (by decide) (by decide) (by decide) (by decide)),
    (h c _ (mem_uc main_arg8 (by decide))).trans (W4_untouched m c main_arg8 (by decide) (by decide) (by decide) (by decide)),
    (h c _ (mem_uc main_arg9 (by decide))).trans (W4_untouched m c main_arg9 (by decide) (by decide) (by decide) (by decide)),
    (h c _ (mem_uc main_arg10 (by decide))).trans (W4_untouched m c main_arg10 (by decide) (by decide) (by decide) (by decide)),
    (h c _ (mem_uc main_arg11 (by decide))).trans (W4_untouched m c main_arg11 (by decide) (by decide) (by decide) (by decide)),
    (h c _ (mem_uc main_arg12 (by decide))).trans (W4_untouched m c main_arg12 (by decide) (by decide) (by decide) (by decide)),
    (h c _ (mem_uc main_arg13 (by decide))).trans (W4_untouched m c main_arg13 (by decide) (by decide) (by decide) (by decide)),
    (h c _ (mem_uc main_arg14 (by decide))).trans (W4_untouched m c main_arg14 (by decide) (by decide) (by decide) (by decide)),
    (h c _ (mem_uc main_arg15 (by decide))).trans (W4_untouched m c main_arg15 (by decide) (by decide) (by decide) (by decide)),
    (h c _ (mem_uc main_arg16 (by decide))).trans (W4_untouched m c main_arg16 (by decide) (by decide) (by decide) (by decide)),
    (h c _ (mem_uc main_arg17 (by decide))).trans (W4_untouched m c main_arg17 (by decide) (by decide) (by decide) (by decide)),
    (h c _ (mem_uc main_arg18 (by decide))).trans (W4_untouched m c main_arg18 (by decide) (by decide) (by decide) (by decide)),
    (h c _ (mem_uc main_arg19 (by decide))).trans (W4_untouched m c main_arg19 (by decide) (by decide) (by decide) (by decide)),
    (h c _ (mem_uc main_arg20 (by decide))).trans (W4_untouched m c main_arg20 (by decide) (by decide) (by decide) (by decide)),
    (h c _ (mem_uc main_arg21 (by decide))).trans (W4_untouched m c main_arg21 (by decide) (by decide) (by decide) (by decide)),
    (h c _ (mem_uc main_arg22 (by decide))).trans (W4_untouched m c main_arg22 (by decide) (by decide) (by decide) (by decide)),
    (h c _ (mem_uc main_arg23 (by decide))).trans (W4_untouched m c main_arg23 (by decide) (by decide) (by decide) (by decide)),
    (h c _ (mem_uc main_arg24 (by decide))).trans (W4_untouched m c main_arg24 (by decide) (by decide) (by decide) (by decide)),
    (h c _ (mem_uc main_arg25 (by decide))).trans (W4_untouched m c main_arg25 (by decide) (by decide) (by decide) (by decide)),
    (h c _ (mem_uc main_arg26 (by decide))).trans (W4_untouched m c main_arg26 (by decide) (by decide) (by decide) (by decide))⟩)
    (run_all m ρ)

/-! ## Where the results are -/

/-- h: phase 1's first output, which neither the host lines after it nor phase 2 write. -/
theorem W4_h (c : Dev nD) : W4 m c (Proc.devRef .tc main_v8_0) = (dat0 (U1 m) c).arrAt 21 cfg0.N :=
  (W4_keeps m c main_v8_0 (by decide)).trans <| (StableHlo.after_of_writes_sub hostOps1 _ hostOps1_writes (by decide)).trans (W2_arr m c 21)
/-- The new cell state: phase 1's second output. -/
theorem W4_c (c : Dev nD) : W4 m c (Proc.devRef .tc main_v8_1) = (dat0 (U1 m) c).arrAt 22 cfg0.N :=
  (W4_keeps m c main_v8_1 (by decide)).trans <| (StableHlo.after_of_writes_sub hostOps1 _ hostOps1_writes (by decide)).trans (W2_arr m c 22)
/-- The input gate's activation, as phase 1 leaves it for the host lines and for phase 2. -/
theorem W2_post (c : Dev nD) : W2 m c (Proc.devRef .tc main_v8_2) = (dat0 (U1 m) c).arrAt 23 cfg0.N := W2_arr m c 23
/-- The new Hebbian trace: phase 2's first output. -/
theorem W4_hebb (c : Dev nD) : W4 m c (Proc.devRef .tc main_v18_0) = (dat1 (U3 m) c).arrAt 6 cfg1.N := W4_arr m c 6
/-- The new eligibility trace: phase 2's second output. -/
theorem W4_elig (c : Dev nD) : W4 m c (Proc.devRef .tc main_v18_1) = (dat1 (U3 m) c).arrAt 7 cfg1.N := W4_arr m c 7

/-- An argument as phase 1 finds it: the reshapes before it write no argument. -/
theorem U1_arg (c : Dev nD) (b : Ref sig .tc) (h0 : b ∉ hostOps0_W) : U1 m c b = m ((c : Thread nD τ).loc b) :=
  (StableHlo.after_of_writes_sub hostOps0 _ hostOps0_writes h0).trans rfl
/-- A buffer as the host lines between the regions find it, when phase 1 does not write it. -/
theorem W2_arg (c : Dev nD) (b : Ref sig .tc) (h0 : b ∉ hostOps0_W) (h1 : b ∉ ([main_v8_0, main_v8_1, main_v8_2] : List (Ref sig .tc))) :
    W2 m c (Proc.devRef .tc b) = m ((c : Thread nD τ).loc b) :=
  (W2_keeps m c b h1).trans (U1_arg m c b h0)
/-- An argument as phase 2 finds it. -/
theorem U3_arg (c : Dev nD) (b : Ref sig .tc) (h0 : b ∉ hostOps0_W) (h1 : b ∉ ([main_v8_0, main_v8_1, main_v8_2] : List (Ref sig .tc))) (h2 : b ∉ hostOps1_W) :
    U3 m c b = m ((c : Thread nD τ).loc b) :=
  (StableHlo.after_of_writes_sub hostOps1 _ hostOps1_writes h2).trans (W2_arg m c b h0 h1)

end Cert.Kernel.Run

end
-- ==== Proof.Ideal.Phase1Cases.lean ====
import proofs.«169774_j34978213659000_2_alg».proof.Proof.Gen.KernelIdeal.Launch
import proofs.«169774_j34978213659000_2_alg».proof.Proof.Gen.KernelIdeal.Skeleton
import proofs.«169774_j34978213659000_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Phase1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # Phase 1 (the gate accumulation): its grid cases and its buffers

The phase-1 kernel runs on a grid of 32 points, one per block of 128 rows of the eight gate matrices. At the
first point it zeroes its four accumulators, at every point it adds that block's partial products into them, and at
the last point it adds the biases, applies the nonlinearities and stores the three results. So a point is in one of
three cases — first, middle, last — told apart by two tests on the grid coordinate. -/

/-- The test "this is the first point", as the body computes it from the grid coordinate. -/
abbrev cond0_0 (i : grid0.Coords) : Prop := (Scalar.cmpi .ne (Scalar.extui (Scalar.cmpi .eq (BitVec.ofNat 32 (i 0).val) 0#32)) 0#32) = 1#1
/-- It holds exactly at point 0. -/
theorem hcond0_0 : ∀ t : Fin cfg0.N, cond0_0 (grid0.coords t) ↔ t.val % 32 = 0 :=
  (by decide +kernel : ∀ t : Fin grid0.N, cond0_0 (grid0.coords t) ↔ t.val % 32 = 0)

/-- The test "this is the last point". -/
abbrev cond0_1 (i : grid0.Coords) : Prop := k0_cond2 i = 1#1
/-- It holds exactly at point 31. -/
theorem hcond0_1 : ∀ t : Fin cfg0.N, cond0_1 (grid0.coords t) ↔ t.val % 32 = 31 :=
  (by decide +kernel : ∀ t : Fin grid0.N, cond0_1 (grid0.coords t) ↔ t.val % 32 = 31)

/-! ## Where the windows are idle

The twenty-one input windows (x and r by column block, the ten matrices by row block, the eight biases and the cell
state whole) are never idle. The three output windows are stored only at the last point: elsewhere they are idle and
not written back. -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
theorem liveAt0_10 : ∀ t : Fin cfg0.N, cfg0.idle 10 (grid0.coords t) = false := by decide +kernel
theorem liveAt0_11 : ∀ t : Fin cfg0.N, cfg0.idle 11 (grid0.coords t) = false := by decide +kernel
theorem liveAt0_12 : ∀ t : Fin cfg0.N, cfg0.idle 12 (grid0.coords t) = false := by decide +kernel
theorem liveAt0_13 : ∀ t : Fin cfg0.N, cfg0.idle 13 (grid0.coords t) = false := by decide +kernel
theorem liveAt0_14 : ∀ t : Fin cfg0.N, cfg0.idle 14 (grid0.coords t) = false := by decide +kernel
theorem liveAt0_15 : ∀ t : Fin cfg0.N, cfg0.idle 15 (grid0.coords t) = false := by decide +kernel
theorem liveAt0_16 : ∀ t : Fin cfg0.N, cfg0.idle 16 (grid0.coords t) = false := by decide +kernel
theorem liveAt0_17 : ∀ t : Fin cfg0.N, cfg0.idle 17 (grid0.coords t) = false := by decide +kernel
theorem liveAt0_18 : ∀ t : Fin cfg0.N, cfg0.idle 18 (grid0.coords t) = false := by decide +kernel
theorem liveAt0_19 : ∀ t : Fin cfg0.N, cfg0.idle 19 (grid0.coords t) = false := by decide +kernel
theorem liveAt0_20 : ∀ t : Fin cfg0.N, cfg0.idle 20 (grid0.coords t) = false := by decide +kernel

/-- The output window of h: idle and not written back at the first point, -/
theorem idleAt0_21_first : ∀ t : Fin cfg0.N, cond0_0 (grid0.coords t) → ¬cond0_1 (grid0.coords t) → cfg0.idle 21 (grid0.coords t) = true := by decide +kernel
theorem noFlush0_21_first : ∀ t : Fin cfg0.N, cond0_0 (grid0.coords t) → ¬cond0_1 (grid0.coords t) → (cfg0.win 21).flush t = false := by decide +kernel
/-- and at the middle points; -/
theorem idleAt0_21_mid : ∀ t : Fin cfg0.N, ¬cond0_0 (grid0.coords t) → ¬cond0_1 (grid0.coords t) → cfg0.idle 21 (grid0.coords t) = true := by decide +kernel
theorem noFlush0_21_mid : ∀ t : Fin cfg0.N, ¬cond0_0 (grid0.coords t) → ¬cond0_1 (grid0.coords t) → (cfg0.win 21).flush t = false := by decide +kernel
/-- live at the last. -/
theorem liveAt0_21_last : ∀ t : Fin cfg0.N, ¬cond0_0 (grid0.coords t) → cond0_1 (grid0.coords t) → cfg0.idle 21 (grid0.coords t) = false := by decide +kernel

/-- The same for the output window of the new cell state, -/
theorem idleAt0_22_first : ∀ t : Fin cfg0.N, cond0_0 (grid0.coords t) → ¬cond0_1 (grid0.coords t) → cfg0.idle 22 (grid0.coords t) = true := by decide +kernel
theorem noFlush0_22_first : ∀ t : Fin cfg0.N, cond0_0 (grid0.coords t) → ¬cond0_1 (grid0.coords t) → (cfg0.win 22).flush t = false := by decide +kernel
theorem idleAt0_22_mid : ∀ t : Fin cfg0.N, ¬cond0_0 (grid0.coords t) → ¬cond0_1 (grid0.coords t) → cfg0.idle 22 (grid0.coords t) = true := by decide +kernel
theorem noFlush0_22_mid : ∀ t : Fin cfg0.N, ¬cond0_0 (grid0.coords t) → ¬cond0_1 (grid0.coords t) → (cfg0.win 22).flush t = false := by decide +kernel
theorem liveAt0_22_last : ∀ t : Fin cfg0.N, ¬cond0_0 (grid0.coords t) → cond0_1 (grid0.coords t) → cfg0.idle 22 (grid0.coords t) = false := by decide +kernel

/-- and for the output window of the input gate's activation. -/
theorem idleAt0_23_first : ∀ t : Fin cfg0.N, cond0_0 (grid0.coords t) → ¬cond0_1 (grid0.coords t) → cfg0.idle 23 (grid0.coords t) = true := by decide +kernel
theorem noFlush0_23_first : ∀ t : Fin cfg0.N, cond0_0 (grid0.coords t) → ¬cond0_1 (grid0.coords t) → (cfg0.win 23).flush t = false := by decide +kernel
theorem idleAt0_23_mid : ∀ t : Fin cfg0.N, ¬cond0_0 (grid0.coords t) → ¬cond0_1 (grid0.coords t) → cfg0.idle 23 (grid0.coords t) = true := by decide +kernel
theorem noFlush0_23_mid : ∀ t : Fin cfg0.N, ¬cond0_0 (grid0.coords t) → ¬cond0_1 (grid0.coords t) → (cfg0.win 23).flush t = false := by decide +kernel
theorem liveAt0_23_last : ∀ t : Fin cfg0.N, ¬cond0_0 (grid0.coords t) → cond0_1 (grid0.coords t) → cfg0.idle 23 (grid0.coords t) = false := by decide +kernel

/-! ## The staging memrefs at a point, and the four accumulators -/

/-- The column blocks of x and of the recurrent trace. -/
abbrev ms0_0 (t : Fin cfg0.N) : Memref sig .tc .vmem S1x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128 .f32 := win0_1.stage (cfg0.slots t 1)
abbrev hs0_1 (t : Fin cfg0.N) : (ms0_1 t).IsWhole := hstage0_1 ((cfg0.slots t 1).cast nbuf0_1)
/-- The row blocks of the eight gate matrices, of the plasticity coefficients and of the Hebbian trace. -/
abbrev ms0_2 (t : Fin cfg0.N) : Memref sig .tc .vmem S128x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x4096 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x4096 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x4096 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x4096 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x4096 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x4096 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x4096 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S128x4096 .f32 := win0_11.stage (cfg0.slots t 11)
abbrev hs0_11 (t : Fin cfg0.N) : (ms0_11 t).IsWhole := hstage0_11 ((cfg0.slots t 11).cast nbuf0_11)
/-- The eight biases and the cell state, whole rows. -/
abbrev ms0_12 (t : Fin cfg0.N) : Memref sig .tc .vmem S1x4096 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x4096 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x4096 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x4096 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x4096 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x4096 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x4096 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x4096 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1x4096 .f32 := win0_20.stage (cfg0.slots t 20)
abbrev hs0_20 (t : Fin cfg0.N) : (ms0_20 t).IsWhole := hstage0_20 ((cfg0.slots t 20).cast nbuf0_20)
/-- The three results: h, the new cell state, the input gate's activation. -/
abbrev ms0_21 (t : Fin cfg0.N) : Memref sig .tc .vmem S1x4096 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S1x4096 .f32 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S1x4096 .f32 := win0_23.stage (cfg0.slots t 23)
abbrev hs0_23 (t : Fin cfg0.N) : (ms0_23 t).IsWhole := hstage0_23 ((cfg0.slots t 23).cast nbuf0_23)

/-- The four accumulators (for the input gate with its plastic term, and for the j, f and o gates): whole scoped
    buffers of the kernel's own, carried from one grid point to the next. -/
abbrev scM0_0 : Memref sig .tc .vmem S1x4096 .f32 := Memref.whole cc0_scratch0
abbrev scM0_1 : Memref sig .tc .vmem S1x4096 .f32 := Memref.whole cc0_scratch1
abbrev scM0_2 : Memref sig .tc .vmem S1x4096 .f32 := Memref.whole cc0_scratch2
abbrev scM0_3 : Memref sig .tc .vmem S1x4096 .f32 := Memref.whole cc0_scratch3
/-- The accumulators as views: what each holds is stated through its view. -/
abbrev VS0_0 : View sig .tc .vmem S1x4096 .f32 := scM0_0.view
abbrev VS0_1 : View sig .tc .vmem S1x4096 .f32 := scM0_1.view
abbrev VS0_2 : View sig .tc .vmem S1x4096 .f32 := scM0_2.view
abbrev VS0_3 : View sig .tc .vmem S1x4096 .f32 := scM0_3.view
/-- The one staging buffer of each output window, through which its contents are stated. -/
abbrev VO0_21 : View sig .tc .vmem S1x4096 .f32 := (Memref.whole cc0_stg21_0 : Memref sig .tc .vmem S1x4096 .f32).view
abbrev VO0_22 : View sig .tc .vmem S1x4096 .f32 := (Memref.whole cc0_stg22_0 : Memref sig .tc .vmem S1x4096 .f32).view
abbrev VO0_23 : View sig .tc .vmem S1x4096 .f32 := (Memref.whole cc0_stg23_0 : Memref sig .tc .vmem S1x4096 .f32).view

end Cert.KernelIdeal.Phase1

end
-- ==== Proof.Ideal.Phase1Blocks.lean ====
import proofs.«169774_j34978213659000_2_alg».proof.Proof.Ideal.Phase1Cases

set_option maxRecDepth 16384

noncomputable section

namespace Cert.KernelIdeal.Phase1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # Phase 1: the windows' blocks

Everything here is stated at a parameter V, the contents of the TensorCore's buffers when the phase-1 region is
entered. Block t of the row-blocked matrices is rows 128·t … 128·t+127; block t of x and r is columns
128·t … 128·t+127; the biases and the cell state have one block, the whole row. -/

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not (when it is not
fetched its block index has not moved since the last fetch), for any proof data whose array is V's and whose body
leaves the block in place. One statement per input window. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)
theorem before0_14_of {c : Dev nD} (dat : Dat τ (Elt F) Unit ℕ (UR sig nD τ) ℕ cfg0 c) (hA : dat.A 14 = V c (Pipeline.arrRef spec0 14))
    (hafter : ∀ t, dat.after 14 t = iblk0 V c 14 t) (t : Fin cfg0.N) (d) : dat.before 14 t d = iblk0 V c 14 t :=
  (dat.before_in_eq_fetched 14 rfl (fun _ => rfl) (fun _ _ _ => rfl) (fun t => by rw [hafter]; unfold Dat.blockOf iblk0; rw [hA]; try rfl) t d).trans
    (by unfold Dat.fetched Dat.blockOf iblk0; rw [hA]; try rfl)
theorem before0_15_of {c : Dev nD} (dat : Dat τ (Elt F) Unit ℕ (UR sig nD τ) ℕ cfg0 c) (hA : dat.A 15 = V c (Pipeline.arrRef spec0 15))
    (hafter : ∀ t, dat.after 15 t = iblk0 V c 15 t) (t : Fin cfg0.N) (d) : dat.before 15 t d = iblk0 V c 15 t :=
  (dat.before_in_eq_fetched 15 rfl (fun _ => rfl) (fun _ _ _ => rfl) (fun t => by rw [hafter]; unfold Dat.blockOf iblk0; rw [hA]; try rfl) t d).trans
    (by unfold Dat.fetched Dat.blockOf iblk0; rw [hA]; try rfl)
theorem before0_16_of {c : Dev nD} (dat : Dat τ (Elt F) Unit ℕ (UR sig nD τ) ℕ cfg0 c) (hA : dat.A 16 = V c (Pipeline.arrRef spec0 16))
    (hafter : ∀ t, dat.after 16 t = iblk0 V c 16 t) (t : Fin cfg0.N) (d) : dat.before 16 t d = iblk0 V c 16 t :=
  (dat.before_in_eq_fetched 16 rfl (fun _ => rfl) (fun _ _ _ => rfl) (fun t => by rw [hafter]; unfold Dat.blockOf iblk0; rw [hA]; try rfl) t d).trans
    (by unfold Dat.fetched Dat.blockOf iblk0; rw [hA]; try rfl)
theorem before0_17_of {c : Dev nD} (dat : Dat τ (Elt F) Unit ℕ (UR sig nD τ) ℕ cfg0 c) (hA : dat.A 17 = V c (Pipeline.arrRef spec0 17))
    (hafter : ∀ t, dat.after 17 t = iblk0 V c 17 t) (t : Fin cfg0.N) (d) : dat.before 17 t d = iblk0 V c 17 t :=
  (dat.before_in_eq_fetched 17 rfl (fun _ => rfl) (fun _ _ _ => rfl) (fun t => by rw [hafter]; unfold Dat.blockOf iblk0; rw [hA]; try rfl) t d).trans
    (by unfold Dat.fetched Dat.blockOf iblk0; rw [hA]; try rfl)
theorem before0_18_of {c : Dev nD} (dat : Dat τ (Elt F) Unit ℕ (UR sig nD τ) ℕ cfg0 c) (hA : dat.A 18 = V c (Pipeline.arrRef spec0 18))
    (hafter : ∀ t, dat.after 18 t = iblk0 V c 18 t) (t : Fin cfg0.N) (d) : dat.before 18 t d = iblk0 V c 18 t :=
  (dat.before_in_eq_fetched 18 rfl (fun _ => rfl) (fun _ _ _ => rfl) (fun t => by rw [hafter]; unfold Dat.blockOf iblk0; rw [hA]; try rfl) t d).trans
    (by unfold Dat.fetched Dat.blockOf iblk0; rw [hA]; try rfl)
theorem before0_19_of {c : Dev nD} (dat : Dat τ (Elt F) Unit ℕ (UR sig nD τ) ℕ cfg0 c) (hA : dat.A 19 = V c (Pipeline.arrRef spec0 19))
    (hafter : ∀ t, dat.after 19 t = iblk0 V c 19 t) (t : Fin cfg0.N) (d) : dat.before 19 t d = iblk0 V c 19 t :=
  (dat.before_in_eq_fetched 19 rfl (fun _ => rfl) (fun _ _ _ => rfl) (fun t => by rw [hafter]; unfold Dat.blockOf iblk0; rw [hA]; try rfl) t d).trans
    (by unfold Dat.fetched Dat.blockOf iblk0; rw [hA]; try rfl)
theorem before0_20_of {c : Dev nD} (dat : Dat τ (Elt F) Unit ℕ (UR sig nD τ) ℕ cfg0 c) (hA : dat.A 20 = V c (Pipeline.arrRef spec0 20))
    (hafter : ∀ t, dat.after 20 t = iblk0 V c 20 t) (t : Fin cfg0.N) (d) : dat.before 20 t d = iblk0 V c 20 t :=
  (dat.before_in_eq_fetched 20 rfl (fun _ => rfl) (fun _ _ _ => rfl) (fun t => by rw [hafter]; unfold Dat.blockOf iblk0; rw [hA]; try rfl) t d).trans
    (by unfold Dat.fetched Dat.blockOf iblk0; rw [hA]; try rfl)

end Cert.KernelIdeal.Phase1

end
-- ==== Proof.Ideal.Phase1Owned.lean ====
import proofs.«169774_j34978213659000_2_alg».proof.Proof.Ideal.Phase1Cases

set_option maxRecDepth 16384

noncomputable section

namespace Cert.KernelIdeal.Phase1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the phase-1 body holds, in bundles

The body is called with twenty-eight buffers: twenty-one inputs it only reads, three outputs it stores at the last
point only, and the four accumulators. The long separating conjunctions over them are named here once. -/

variable (c : Dev nD)
variable (a1 a2 : Memref sig .tc .vmem S1x128 .f32)
variable (a3 a4 a5 a6 a7 a8 a9 a10 a11 a12 : Memref sig .tc .vmem S128x4096 .f32)
variable (a13 a14 a15 a16 a17 a18 a19 a20 a21 : Memref sig .tc .vmem S1x4096 .f32)
variable (a22 a23 a24 : Memref sig .tc .vmem S1x4096 .f32)
variable (a25 a26 a27 a28 : Memref sig .tc .vmem S1x4096 .f32)
variable (x0 x1 : Vec F S1x128 .f32)
variable (x2 x3 x4 x5 x6 x7 x8 x9 x10 x11 : Vec F S128x4096 .f32)
variable (x12 x13 x14 x15 x16 x17 x18 x19 x20 : Vec F S1x4096 .f32)

/-- The twenty-one inputs, each buffer held whole at its contents: the column blocks of x and r, the row blocks of
    Wi, Wj, Wf, Wo, Whi, Whj, Whf, Who, alpha and the Hebbian trace, the eight biases and the cell state. -/
def insOwned : sProp 𝕄 :=
  iprop(owns (c : Thread nD τ) a1 fullShare x0 ∗ owns (c : Thread nD τ) a2 fullShare x1
    ∗ owns (c : Thread nD τ) a3 fullShare x2 ∗ owns (c : Thread nD τ) a4 fullShare x3
    ∗ owns (c : Thread nD τ) a5 fullShare x4 ∗ owns (c : Thread nD τ) a6 fullShare x5
    ∗ owns (c : Thread nD τ) a7 fullShare x6 ∗ owns (c : Thread nD τ) a8 fullShare x7
    ∗ owns (c : Thread nD τ) a9 fullShare x8 ∗ owns (c : Thread nD τ) a10 fullShare x9
    ∗ owns (c : Thread nD τ) a11 fullShare x10 ∗ owns (c : Thread nD τ) a12 fullShare x11
    ∗ owns (c : Thread nD τ) a13 fullShare x12 ∗ owns (c : Thread nD τ) a14 fullShare x13
    ∗ owns (c : Thread nD τ) a15 fullShare x14 ∗ owns (c : Thread nD τ) a16 fullShare x15
    ∗ owns (c : Thread nD τ) a17 fullShare x16 ∗ owns (c : Thread nD τ) a18 fullShare x17
    ∗ owns (c : Thread nD τ) a19 fullShare x18 ∗ owns (c : Thread nD τ) a20 fullShare x19
    ∗ owns (c : Thread nD τ) a21 fullShare x20)

/-- The three outputs held at given contents (what an idle point hands back untouched). -/
def outsAt (y21 y22 y23 : Vec F S1x4096 .f32) : sProp 𝕄 :=
  iprop(owns (c : Thread nD τ) a22 fullShare y21 ∗ owns (c : Thread nD τ) a23 fullShare y22
    ∗ owns (c : Thread nD τ) a24 fullShare y23)

/-- The three outputs held at anything (what the last point is handed). -/
def outsAny : sProp 𝕄 :=
  iprop((∃ d, owns (c : Thread nD τ) a22 fullShare d) ∗ (∃ d, owns (c : Thread nD τ) a23 fullShare d)
    ∗ (∃ d, owns (c : Thread nD τ) a24 fullShare d))

/-- The three outputs after the last point: each with that point's stores written. -/
def outsWritten (L21 L22 L23 : List (View.Piece (Elt F) S1x4096 .f32)) : sProp 𝕄 :=
  iprop((∃ f, a22.view.loc (c : Thread nD τ) ↦[a22.view.set]{fullShare} a22.view.writes (Elt F) f L21)
    ∗ (∃ f, a23.view.loc (c : Thread nD τ) ↦[a23.view.set]{fullShare} a23.view.writes (Elt F) f L22)
    ∗ (∃ f, a24.view.loc (c : Thread nD τ) ↦[a24.view.set]{fullShare} a24.view.writes (Elt F) f L23))

/-- The four accumulators held at given contents (what the point before left). -/
def accAt (s0 s1 s2 s3 : Vec F S1x4096 .f32) : sProp 𝕄 :=
  iprop(owns (c : Thread nD τ) a25 fullShare s0 ∗ owns (c : Thread nD τ) a26 fullShare s1
    ∗ owns (c : Thread nD τ) a27 fullShare s2 ∗ owns (c : Thread nD τ) a28 fullShare s3)

/-- The four accumulators held at anything (what the first point is handed: it zeroes them before reading). -/
def accAny : sProp 𝕄 :=
  iprop((∃ d, owns (c : Thread nD τ) a25 fullShare d) ∗ (∃ d, owns (c : Thread nD τ) a26 fullShare d)
    ∗ (∃ d, owns (c : Thread nD τ) a27 fullShare d) ∗ (∃ d, owns (c : Thread nD τ) a28 fullShare d))

/-- The four accumulators after a point: each with that point's stores written. -/
def accWritten (LS0 LS1 LS2 LS3 : List (View.Piece (Elt F) S1x4096 .f32)) : sProp 𝕄 :=
  iprop((∃ f, a25.view.loc (c : Thread nD τ) ↦[a25.view.set]{fullShare} a25.view.writes (Elt F) f LS0)
    ∗ (∃ f, a26.view.loc (c : Thread nD τ) ↦[a26.view.set]{fullShare} a26.view.writes (Elt F) f LS1)
    ∗ (∃ f, a27.view.loc (c : Thread nD τ) ↦[a27.view.set]{fullShare} a27.view.writes (Elt F) f LS2)
    ∗ (∃ f, a28.view.loc (c : Thread nD τ) ↦[a28.view.set]{fullShare} a28.view.writes (Elt F) f LS3))

end Cert.KernelIdeal.Phase1

end
-- ==== Proof.Ideal.Phase1RunFirst.lean ====
import proofs.«169774_j34978213659000_2_alg».proof.Proof.Ideal.Phase1Owned

set_option maxRecDepth 16384

noncomputable section

namespace Cert.KernelIdeal.Phase1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
variable (a1 : Memref sig .tc .vmem S1x128 .f32) (h1 : a1.IsWhole) (a2 : Memref sig .tc .vmem S1x128 .f32) (h2 : a2.IsWhole)
variable (a3 : Memref sig .tc .vmem S128x4096 .f32) (h3 : a3.IsWhole) (a4 : Memref sig .tc .vmem S128x4096 .f32) (h4 : a4.IsWhole)
variable (a5 : Memref sig .tc .vmem S128x4096 .f32) (h5 : a5.IsWhole) (a6 : Memref sig .tc .vmem S128x4096 .f32) (h6 : a6.IsWhole)
variable (a7 : Memref sig .tc .vmem S128x4096 .f32) (h7 : a7.IsWhole) (a8 : Memref sig .tc .vmem S128x4096 .f32) (h8 : a8.IsWhole)
variable (a9 : Memref sig .tc .vmem S128x4096 .f32) (h9 : a9.IsWhole) (a10 : Memref sig .tc .vmem S128x4096 .f32) (h10 : a10.IsWhole)
variable (a11 : Memref sig .tc .vmem S128x4096 .f32) (h11 : a11.IsWhole) (a12 : Memref sig .tc .vmem S128x4096 .f32) (h12 : a12.IsWhole)
variable (a13 : Memref sig .tc .vmem S1x4096 .f32) (h13 : a13.IsWhole) (a14 : Memref sig .tc .vmem S1x4096 .f32) (h14 : a14.IsWhole)
variable (a15 : Memref sig .tc .vmem S1x4096 .f32) (h15 : a15.IsWhole) (a16 : Memref sig .tc .vmem S1x4096 .f32) (h16 : a16.IsWhole)
variable (a17 : Memref sig .tc .vmem S1x4096 .f32) (h17 : a17.IsWhole) (a18 : Memref sig .tc .vmem S1x4096 .f32) (h18 : a18.IsWhole)
variable (a19 : Memref sig .tc .vmem S1x4096 .f32) (h19 : a19.IsWhole) (a20 : Memref sig .tc .vmem S1x4096 .f32) (h20 : a20.IsWhole)
variable (a21 : Memref sig .tc .vmem S1x4096 .f32) (h21 : a21.IsWhole) (a22 : Memref sig .tc .vmem S1x4096 .f32) (h22 : a22.IsWhole)
variable (a23 : Memref sig .tc .vmem S1x4096 .f32) (h23 : a23.IsWhole) (a24 : Memref sig .tc .vmem S1x4096 .f32) (h24 : a24.IsWhole)
variable (a25 : Memref sig .tc .vmem S1x4096 .f32) (h25 : a25.IsWhole) (a26 : Memref sig .tc .vmem S1x4096 .f32) (h26 : a26.IsWhole)
variable (a27 : Memref sig .tc .vmem S1x4096 .f32) (h27 : a27.IsWhole) (a28 : Memref sig .tc .vmem S1x4096 .f32) (h28 : a28.IsWhole)
variable (x0 x1 : Vec F S1x128 .f32)
variable (x2 x3 x4 x5 x6 x7 x8 x9 x10 x11 : Vec F S128x4096 .f32)
variable (x12 x13 x14 x15 x16 x17 x18 x19 x20 : Vec F S1x4096 .f32)

/-! # Phase 1 at the first point

The body first stores zeros into the four accumulators, whatever they held, and then does what every point does: it
adds block 0's partial products into them. It stores no result. -/

set_option maxHeartbeats 4000000 in
/-- The pieces the first-point body leaves in the four accumulators (found by running it: the zeros, then the
    block's sums over them), with the proof that from the inputs at their contents, the idle outputs at any contents
    and the accumulators at anything, the body runs to the continuation holding the inputs and the outputs as they
    were and each accumulator with its pieces written. -/
noncomputable def runFirst (hc0 : cond0_0 i) (hc1 : ¬cond0_1 i) :
    Σ' (LS0 : List (View.Piece (Elt F) S1x4096 .f32)) (LS1 : List (View.Piece (Elt F) S1x4096 .f32))
       (LS2 : List (View.Piece (Elt F) S1x4096 .f32)), { LS3 : List (View.Piece (Elt F) S1x4096 .f32) //
      ∀ (y21 y22 y23 : Vec F S1x4096 .f32) (E : Set ℕ) (K : PUnit → sProp 𝕄),
        iprop(insOwned c a1 a2 a3 a4 a5 a6 a7 a8 a9 a10 a11 a12 a13 a14 a15 a16 a17 a18 a19 a20 a21 x0 x1 x2 x3 x4 x5 x6 x7 x8 x9 x10 x11 x12 x13 x14 x15 x16 x17 x18 x19 x20
            ∗ outsAt c a22 a23 a24 y21 y22 y23 ∗ accAny c a25 a26 a27 a28
            ∗ (iprop(insOwned c a1 a2 a3 a4 a5 a6 a7 a8 a9 a10 a11 a12 a13 a14 a15 a16 a17 a18 a19 a20 a21 x0 x1 x2 x3 x4 x5 x6 x7 x8 x9 x10 x11 x12 x13 x14 x15 x16 x17 x18 x19 x20
                ∗ outsAt c a22 a23 a24 y21 y22 y23 ∗ accWritten c a25 a26 a27 a28 LS0 LS1 LS2 LS3) -∗ K ⟨⟩))
          ⊢ wp frame (wpE (defs₀ (F := F)) Variants.none c none) E
              (cc0__phase1_kernel i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28) K } := by
  refine ⟨?_, ?_, ?_, ?_, fun y21 y22 y23 E K => ?run⟩
  case run =>
    simp only [cc0__phase1_kernel_eq_skeleton]; unfold cc0__phase1_kernel_skel
    simp only [k0_part2_eq_skeleton, k0_part3_eq_skeleton]; unfold k0_part2_skel k0_part3_skel
    unfold insOwned outsAt accAny accWritten owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩⟩,
      ⟨⟨%f21, %hf21, H21⟩, ⟨%f22, %hf22, H22⟩, ⟨%f23, %hf23, H23⟩⟩,
      ⟨⟨%d0, %g0, -, HS0⟩, ⟨%d1, %g1, -, HS1⟩, ⟨%d2, %g2, -, HS2⟩, ⟨%d3, %g3, -, HS3⟩⟩, Hk⟩
    obtain rfl := h1.eq_unread hf0; obtain rfl := h2.eq_unread hf1; obtain rfl := h3.eq_unread hf2
    obtain rfl := h4.eq_unread hf3; obtain rfl := h5.eq_unread hf4; obtain rfl := h6.eq_unread hf5
    obtain rfl := h7.eq_unread hf6; obtain rfl := h8.eq_unread hf7; obtain rfl := h9.eq_unread hf8
    obtain rfl := h10.eq_unread hf9; obtain rfl := h11.eq_unread hf10; obtain rfl := h12.eq_unread hf11
    obtain rfl := h13.eq_unread hf12; obtain rfl := h14.eq_unread hf13; obtain rfl := h15.eq_unread hf14
    obtain rfl := h16.eq_unread hf15; obtain rfl := h17.eq_unread hf16; obtain rfl := h18.eq_unread hf17
    obtain rfl := h19.eq_unread hf18; obtain rfl := h20.eq_unread hf19; obtain rfl := h21.eq_unread hf20
    obtain rfl := h22.eq_unread hf21; obtain rfl := h23.eq_unread hf22; obtain rfl := h24.eq_unread hf23
    sl_exec (disch := first | exact hc0 | exact hc1)
    sl_step
    iapply Hk
    isplitl [H0 H1 H2 H3 H4 H5 H6 H7 H8 H9 H10 H11 H12 H13 H14 H15 H16 H17 H18 H19 H20]
    · isplitl [H0]
      · iexists _; isplitr; · ipureintro; exact h1.read_unread _
        iexact H0
      isplitl [H1]
      · iexists _; isplitr; · ipureintro; exact h2.read_unread _
        iexact H1
      isplitl [H2]
      · iexists _; isplitr; · ipureintro; exact h3.read_unread _
        iexact H2
      isplitl [H3]
      · iexists _; isplitr; · ipureintro; exact h4.read_unread _
        iexact H3
      isplitl [H4]
      · iexists _; isplitr; · ipureintro; exact h5.read_unread _
        iexact H4
      isplitl [H5]
      · iexists _; isplitr; · ipureintro; exact h6.read_unread _
        iexact H5
      isplitl [H6]
      · iexists _; isplitr; · ipureintro; exact h7.read_unread _
        iexact H6
      isplitl [H7]
      · iexists _; isplitr; · ipureintro; exact h8.read_unread _
        iexact H7
      isplitl [H8]
      · iexists _; isplitr; · ipureintro; exact h9.read_unread _
        iexact H8
      isplitl [H9]
      · iexists _; isplitr; · ipureintro; exact h10.read_unread _
        iexact H9
      isplitl [H10]
      · iexists _; isplitr; · ipureintro; exact h11.read_unread _
        iexact H10
      isplitl [H11]
      · iexists _; isplitr; · ipureintro; exact h12.read_unread _
        iexact H11
      isplitl [H12]
      · iexists _; isplitr; · ipureintro; exact h13.read_unread _
        iexact H12
      isplitl [H13]
      · iexists _; isplitr; · ipureintro; exact h14.read_unread _
        iexact H13
      isplitl [H14]
      · iexists _; isplitr; · ipureintro; exact h15.read_unread _
        iexact H14
      isplitl [H15]
      · iexists _; isplitr; · ipureintro; exact h16.read_unread _
        iexact H15
      isplitl [H16]
      · iexists _; isplitr; · ipureintro; exact h17.read_unread _
        iexact H16
      isplitl [H17]
      · iexists _; isplitr; · ipureintro; exact h18.read_unread _
        iexact H17
      isplitl [H18]
      · iexists _; isplitr; · ipureintro; exact h19.read_unread _
        iexact H18
      isplitl [H19]
      · iexists _; isplitr; · ipureintro; exact h20.read_unread _
        iexact H19
      iexists _; isplitr; · ipureintro; exact h21.read_unread _
      iexact H20
    isplitl [H21 H22 H23]
    · isplitl [H21]
      · iexists _; isplitr; · ipureintro; exact h22.read_unread _
        iexact H21
      isplitl [H22]
      · iexists _; isplitr; · ipureintro; exact h23.read_unread _
        iexact H22
      iexists _; isplitr; · ipureintro; exact h24.read_unread _
      iexact H23
    isplitl [HS0]; · iexists _; iexact HS0
    isplitl [HS1]; · iexists _; iexact HS1
    isplitl [HS2]; · iexists _; iexact HS2
    iexists _; iexact HS3

end Cert.KernelIdeal.Phase1

end
-- ==== Proof.Ideal.Phase1RunMid.lean ====
import proofs.«169774_j34978213659000_2_alg».proof.Proof.Ideal.Phase1Owned

set_option maxRecDepth 16384

noncomputable section

namespace Cert.KernelIdeal.Phase1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
variable (a1 : Memref sig .tc .vmem S1x128 .f32) (h1 : a1.IsWhole) (a2 : Memref sig .tc .vmem S1x128 .f32) (h2 : a2.IsWhole)
variable (a3 : Memref sig .tc .vmem S128x4096 .f32) (h3 : a3.IsWhole) (a4 : Memref sig .tc .vmem S128x4096 .f32) (h4 : a4.IsWhole)
variable (a5 : Memref sig .tc .vmem S128x4096 .f32) (h5 : a5.IsWhole) (a6 : Memref sig .tc .vmem S128x4096 .f32) (h6 : a6.IsWhole)
variable (a7 : Memref sig .tc .vmem S128x4096 .f32) (h7 : a7.IsWhole) (a8 : Memref sig .tc .vmem S128x4096 .f32) (h8 : a8.IsWhole)
variable (a9 : Memref sig .tc .vmem S128x4096 .f32) (h9 : a9.IsWhole) (a10 : Memref sig .tc .vmem S128x4096 .f32) (h10 : a10.IsWhole)
variable (a11 : Memref sig .tc .vmem S128x4096 .f32) (h11 : a11.IsWhole) (a12 : Memref sig .tc .vmem S128x4096 .f32) (h12 : a12.IsWhole)
variable (a13 : Memref sig .tc .vmem S1x4096 .f32) (h13 : a13.IsWhole) (a14 : Memref sig .tc .vmem S1x4096 .f32) (h14 : a14.IsWhole)
variable (a15 : Memref sig .tc .vmem S1x4096 .f32) (h15 : a15.IsWhole) (a16 : Memref sig .tc .vmem S1x4096 .f32) (h16 : a16.IsWhole)
variable (a17 : Memref sig .tc .vmem S1x4096 .f32) (h17 : a17.IsWhole) (a18 : Memref sig .tc .vmem S1x4096 .f32) (h18 : a18.IsWhole)
variable (a19 : Memref sig .tc .vmem S1x4096 .f32) (h19 : a19.IsWhole) (a20 : Memref sig .tc .vmem S1x4096 .f32) (h20 : a20.IsWhole)
variable (a21 : Memref sig .tc .vmem S1x4096 .f32) (h21 : a21.IsWhole) (a22 : Memref sig .tc .vmem S1x4096 .f32) (h22 : a22.IsWhole)
variable (a23 : Memref sig .tc .vmem S1x4096 .f32) (h23 : a23.IsWhole) (a24 : Memref sig .tc .vmem S1x4096 .f32) (h24 : a24.IsWhole)
variable (a25 : Memref sig .tc .vmem S1x4096 .f32) (h25 : a25.IsWhole) (a26 : Memref sig .tc .vmem S1x4096 .f32) (h26 : a26.IsWhole)
variable (a27 : Memref sig .tc .vmem S1x4096 .f32) (h27 : a27.IsWhole) (a28 : Memref sig .tc .vmem S1x4096 .f32) (h28 : a28.IsWhole)
variable (x0 x1 : Vec F S1x128 .f32)
variable (x2 x3 x4 x5 x6 x7 x8 x9 x10 x11 : Vec F S128x4096 .f32)
variable (x12 x13 x14 x15 x16 x17 x18 x19 x20 : Vec F S1x4096 .f32)

/-! # Phase 1 at a middle point

Neither the first nor the last of the 32 points: the body zeroes nothing and stores no result. It reads block k of x
and r and of the ten matrices, and adds into each accumulator the block's partial products — into the first
x·Wi + x·(alpha∘hebbian) + r·Whi, into the others x·W + r·Wh for the j, f and o gates. -/

set_option maxHeartbeats 4000000 in
/-- The pieces the middle-point body leaves in the four accumulators (found by running it), with the proof that from
    the inputs at their contents, the idle outputs at any contents and the accumulators at what the point before left,
    the body runs to the continuation holding the inputs and the outputs as they were and each accumulator with its
    piece written. -/
noncomputable def runMid (hc0 : ¬cond0_0 i) (hc1 : ¬cond0_1 i) (s0 s1 s2 s3 : Vec F S1x4096 .f32) :
    Σ' (LS0 : List (View.Piece (Elt F) S1x4096 .f32)) (LS1 : List (View.Piece (Elt F) S1x4096 .f32))
       (LS2 : List (View.Piece (Elt F) S1x4096 .f32)), { LS3 : List (View.Piece (Elt F) S1x4096 .f32) //
      ∀ (y21 y22 y23 : Vec F S1x4096 .f32) (E : Set ℕ) (K : PUnit → sProp 𝕄),
        iprop(insOwned c a1 a2 a3 a4 a5 a6 a7 a8 a9 a10 a11 a12 a13 a14 a15 a16 a17 a18 a19 a20 a21 x0 x1 x2 x3 x4 x5 x6 x7 x8 x9 x10 x11 x12 x13 x14 x15 x16 x17 x18 x19 x20
            ∗ outsAt c a22 a23 a24 y21 y22 y23 ∗ accAt c a25 a26 a27 a28 s0 s1 s2 s3
            ∗ (iprop(insOwned c a1 a2 a3 a4 a5 a6 a7 a8 a9 a10 a11 a12 a13 a14 a15 a16 a17 a18 a19 a20 a21 x0 x1 x2 x3 x4 x5 x6 x7 x8 x9 x10 x11 x12 x13 x14 x15 x16 x17 x18 x19 x20
                ∗ outsAt c a22 a23 a24 y21 y22 y23 ∗ accWritten c a25 a26 a27 a28 LS0 LS1 LS2 LS3) -∗ K ⟨⟩))
          ⊢ wp frame (wpE (defs₀ (F := F)) Variants.none c none) E
              (cc0__phase1_kernel i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28) K } := by
  refine ⟨?_, ?_, ?_, ?_, fun y21 y22 y23 E K => ?run⟩
  case run =>
    simp only [cc0__phase1_kernel_eq_skeleton]; unfold cc0__phase1_kernel_skel
    simp only [k0_part2_eq_skeleton, k0_part3_eq_skeleton]; unfold k0_part2_skel k0_part3_skel
    unfold insOwned outsAt accAt accWritten owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩⟩,
      ⟨⟨%f21, %hf21, H21⟩, ⟨%f22, %hf22, H22⟩, ⟨%f23, %hf23, H23⟩⟩,
      ⟨⟨%g0, %hg0, HS0⟩, ⟨%g1, %hg1, HS1⟩, ⟨%g2, %hg2, HS2⟩, ⟨%g3, %hg3, HS3⟩⟩, Hk⟩
    obtain rfl := h1.eq_unread hf0; obtain rfl := h2.eq_unread hf1; obtain rfl := h3.eq_unread hf2
    obtain rfl := h4.eq_unread hf3; obtain rfl := h5.eq_unread hf4; obtain rfl := h6.eq_unread hf5
    obtain rfl := h7.eq_unread hf6; obtain rfl := h8.eq_unread hf7; obtain rfl := h9.eq_unread hf8
    obtain rfl := h10.eq_unread hf9; obtain rfl := h11.eq_unread hf10; obtain rfl := h12.eq_unread hf11
    obtain rfl := h13.eq_unread hf12; obtain rfl := h14.eq_unread hf13; obtain rfl := h15.eq_unread hf14
    obtain rfl := h16.eq_unread hf15; obtain rfl := h17.eq_unread hf16; obtain rfl := h18.eq_unread hf17
    obtain rfl := h19.eq_unread hf18; obtain rfl := h20.eq_unread hf19; obtain rfl := h21.eq_unread hf20
    obtain rfl := h22.eq_unread hf21; obtain rfl := h23.eq_unread hf22; obtain rfl := h24.eq_unread hf23
    obtain rfl := h25.eq_unread hg0; obtain rfl := h26.eq_unread hg1; obtain rfl := h27.eq_unread hg2
    obtain rfl := h28.eq_unread hg3
    sl_exec (disch := first | exact hc0 | exact hc1)
    sl_step
    iapply Hk
    isplitl [H0 H1 H2 H3 H4 H5 H6 H7 H8 H9 H10 H11 H12 H13 H14 H15 H16 H17 H18 H19 H20]
    · isplitl [H0]
      · iexists _; isplitr; · ipureintro; exact h1.read_unread _
        iexact H0
      isplitl [H1]
      · iexists _; isplitr; · ipureintro; exact h2.read_unread _
        iexact H1
      isplitl [H2]
      · iexists _; isplitr; · ipureintro; exact h3.read_unread _
        iexact H2
      isplitl [H3]
      · iexists _; isplitr; · ipureintro; exact h4.read_unread _
        iexact H3
      isplitl [H4]
      · iexists _; isplitr; · ipureintro; exact h5.read_unread _
        iexact H4
      isplitl [H5]
      · iexists _; isplitr; · ipureintro; exact h6.read_unread _
        iexact H5
      isplitl [H6]
      · iexists _; isplitr; · ipureintro; exact h7.read_unread _
        iexact H6
      isplitl [H7]
      · iexists _; isplitr; · ipureintro; exact h8.read_unread _
        iexact H7
      isplitl [H8]
      · iexists _; isplitr; · ipureintro; exact h9.read_unread _
        iexact H8
      isplitl [H9]
      · iexists _; isplitr; · ipureintro; exact h10.read_unread _
        iexact H9
      isplitl [H10]
      · iexists _; isplitr; · ipureintro; exact h11.read_unread _
        iexact H10
      isplitl [H11]
      · iexists _; isplitr; · ipureintro; exact h12.read_unread _
        iexact H11
      isplitl [H12]
      · iexists _; isplitr; · ipureintro; exact h13.read_unread _
        iexact H12
      isplitl [H13]
      · iexists _; isplitr; · ipureintro; exact h14.read_unread _
        iexact H13
      isplitl [H14]
      · iexists _; isplitr; · ipureintro; exact h15.read_unread _
        iexact H14
      isplitl [H15]
      · iexists _; isplitr; · ipureintro; exact h16.read_unread _
        iexact H15
      isplitl [H16]
      · iexists _; isplitr; · ipureintro; exact h17.read_unread _
        iexact H16
      isplitl [H17]
      · iexists _; isplitr; · ipureintro; exact h18.read_unread _
        iexact H17
      isplitl [H18]
      · iexists _; isplitr; · ipureintro; exact h19.read_unread _
        iexact H18
      isplitl [H19]
      · iexists _; isplitr; · ipureintro; exact h20.read_unread _
        iexact H19
      iexists _; isplitr; · ipureintro; exact h21.read_unread _
      iexact H20
    isplitl [H21 H22 H23]
    · isplitl [H21]
      · iexists _; isplitr; · ipureintro; exact h22.read_unread _
        iexact H21
      isplitl [H22]
      · iexists _; isplitr; · ipureintro; exact h23.read_unread _
        iexact H22
      iexists _; isplitr; · ipureintro; exact h24.read_unread _
      iexact H23
    isplitl [HS0]; · iexists _; iexact HS0
    isplitl [HS1]; · iexists _; iexact HS1
    isplitl [HS2]; · iexists _; iexact HS2
    iexists _; iexact HS3

end Cert.KernelIdeal.Phase1

end
-- ==== Proof.Ideal.Phase1RunLast.lean ====
import proofs.«169774_j34978213659000_2_alg».proof.Proof.Ideal.Phase1Owned

set_option maxRecDepth 16384

noncomputable section

namespace Cert.KernelIdeal.Phase1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
variable (a1 : Memref sig .tc .vmem S1x128 .f32) (h1 : a1.IsWhole) (a2 : Memref sig .tc .vmem S1x128 .f32) (h2 : a2.IsWhole)
variable (a3 : Memref sig .tc .vmem S128x4096 .f32) (h3 : a3.IsWhole) (a4 : Memref sig .tc .vmem S128x4096 .f32) (h4 : a4.IsWhole)
variable (a5 : Memref sig .tc .vmem S128x4096 .f32) (h5 : a5.IsWhole) (a6 : Memref sig .tc .vmem S128x4096 .f32) (h6 : a6.IsWhole)
variable (a7 : Memref sig .tc .vmem S128x4096 .f32) (h7 : a7.IsWhole) (a8 : Memref sig .tc .vmem S128x4096 .f32) (h8 : a8.IsWhole)
variable (a9 : Memref sig .tc .vmem S128x4096 .f32) (h9 : a9.IsWhole) (a10 : Memref sig .tc .vmem S128x4096 .f32) (h10 : a10.IsWhole)
variable (a11 : Memref sig .tc .vmem S128x4096 .f32) (h11 : a11.IsWhole) (a12 : Memref sig .tc .vmem S128x4096 .f32) (h12 : a12.IsWhole)
variable (a13 : Memref sig .tc .vmem S1x4096 .f32) (h13 : a13.IsWhole) (a14 : Memref sig .tc .vmem S1x4096 .f32) (h14 : a14.IsWhole)
variable (a15 : Memref sig .tc .vmem S1x4096 .f32) (h15 : a15.IsWhole) (a16 : Memref sig .tc .vmem S1x4096 .f32) (h16 : a16.IsWhole)
variable (a17 : Memref sig .tc .vmem S1x4096 .f32) (h17 : a17.IsWhole) (a18 : Memref sig .tc .vmem S1x4096 .f32) (h18 : a18.IsWhole)
variable (a19 : Memref sig .tc .vmem S1x4096 .f32) (h19 : a19.IsWhole) (a20 : Memref sig .tc .vmem S1x4096 .f32) (h20 : a20.IsWhole)
variable (a21 : Memref sig .tc .vmem S1x4096 .f32) (h21 : a21.IsWhole) (a22 : Memref sig .tc .vmem S1x4096 .f32) (h22 : a22.IsWhole)
variable (a23 : Memref sig .tc .vmem S1x4096 .f32) (h23 : a23.IsWhole) (a24 : Memref sig .tc .vmem S1x4096 .f32) (h24 : a24.IsWhole)
variable (a25 : Memref sig .tc .vmem S1x4096 .f32) (h25 : a25.IsWhole) (a26 : Memref sig .tc .vmem S1x4096 .f32) (h26 : a26.IsWhole)
variable (a27 : Memref sig .tc .vmem S1x4096 .f32) (h27 : a27.IsWhole) (a28 : Memref sig .tc .vmem S1x4096 .f32) (h28 : a28.IsWhole)
variable (x0 x1 : Vec F S1x128 .f32)
variable (x2 x3 x4 x5 x6 x7 x8 x9 x10 x11 : Vec F S128x4096 .f32)
variable (x12 x13 x14 x15 x16 x17 x18 x19 x20 : Vec F S1x4096 .f32)

/-! # Phase 1 at the last point

The body adds block 31's partial products into the accumulators as at every point, and then finishes: to each
accumulator it adds the gate's two biases and applies tanh, forms the new cell state f·cell + post·j and
h = tanh(cell')·o, and stores h, the new cell state and the input gate's activation into the three outputs. -/

set_option maxHeartbeats 4000000 in
/-- The pieces the last-point body leaves in the three outputs and in the four accumulators (found by running it),
    with the proof that from the inputs at their contents, the outputs at anything and the accumulators at what the
    point before left, the body runs to the continuation holding the inputs as they were and each output and each
    accumulator with its pieces written. -/
noncomputable def runLast (hc0 : ¬cond0_0 i) (hc1 : cond0_1 i) (s0 s1 s2 s3 : Vec F S1x4096 .f32) :
    Σ' (L21 : List (View.Piece (Elt F) S1x4096 .f32)) (L22 : List (View.Piece (Elt F) S1x4096 .f32))
       (L23 : List (View.Piece (Elt F) S1x4096 .f32))
       (LS0 : List (View.Piece (Elt F) S1x4096 .f32)) (LS1 : List (View.Piece (Elt F) S1x4096 .f32))
       (LS2 : List (View.Piece (Elt F) S1x4096 .f32)), { LS3 : List (View.Piece (Elt F) S1x4096 .f32) //
      ∀ (E : Set ℕ) (K : PUnit → sProp 𝕄),
        iprop(insOwned c a1 a2 a3 a4 a5 a6 a7 a8 a9 a10 a11 a12 a13 a14 a15 a16 a17 a18 a19 a20 a21 x0 x1 x2 x3 x4 x5 x6 x7 x8 x9 x10 x11 x12 x13 x14 x15 x16 x17 x18 x19 x20
            ∗ outsAny c a22 a23 a24 ∗ accAt c a25 a26 a27 a28 s0 s1 s2 s3
            ∗ (iprop(insOwned c a1 a2 a3 a4 a5 a6 a7 a8 a9 a10 a11 a12 a13 a14 a15 a16 a17 a18 a19 a20 a21 x0 x1 x2 x3 x4 x5 x6 x7 x8 x9 x10 x11 x12 x13 x14 x15 x16 x17 x18 x19 x20
                ∗ outsWritten c a22 a23 a24 L21 L22 L23 ∗ accWritten c a25 a26 a27 a28 LS0 LS1 LS2 LS3) -∗ K ⟨⟩))
          ⊢ wp frame (wpE (defs₀ (F := F)) Variants.none c none) E
              (cc0__phase1_kernel i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28) K } := by
  refine ⟨?_, ?_, ?_, ?_, ?_, ?_, ?_, fun E K => ?run⟩
  case run =>
    simp only [cc0__phase1_kernel_eq_skeleton]; unfold cc0__phase1_kernel_skel
    simp only [k0_part1_eq_skeleton, k0_part2_eq_skeleton, k0_part3_eq_skeleton]; unfold k0_part1_skel k0_part2_skel k0_part3_skel
    unfold insOwned outsAny outsWritten accAt accWritten owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩⟩,
      ⟨⟨%d21, %f21, -, H21⟩, ⟨%d22, %f22, -, H22⟩, ⟨%d23, %f23, -, H23⟩⟩,
      ⟨⟨%g0, %hg0, HS0⟩, ⟨%g1, %hg1, HS1⟩, ⟨%g2, %hg2, HS2⟩, ⟨%g3, %hg3, HS3⟩⟩, Hk⟩
    obtain rfl := h1.eq_unread hf0; obtain rfl := h2.eq_unread hf1; obtain rfl := h3.eq_unread hf2
    obtain rfl := h4.eq_unread hf3; obtain rfl := h5.eq_unread hf4; obtain rfl := h6.eq_unread hf5
    obtain rfl := h7.eq_unread hf6; obtain rfl := h8.eq_unread hf7; obtain rfl := h9.eq_unread hf8
    obtain rfl := h10.eq_unread hf9; obtain rfl := h11.eq_unread hf10; obtain rfl := h12.eq_unread hf11
    obtain rfl := h13.eq_unread hf12; obtain rfl := h14.eq_unread hf13; obtain rfl := h15.eq_unread hf14
    obtain rfl := h16.eq_unread hf15; obtain rfl := h17.eq_unread hf16; obtain rfl := h18.eq_unread hf17
    obtain rfl := h19.eq_unread hf18; obtain rfl := h20.eq_unread hf19; obtain rfl := h21.eq_unread hf20
    obtain rfl := h25.eq_unread hg0; obtain rfl := h26.eq_unread hg1; obtain rfl := h27.eq_unread hg2
    obtain rfl := h28.eq_unread hg3
    sl_exec (disch := first | exact hc0 | exact hc1)
    sl_step
    iapply Hk
    isplitl [H0 H1 H2 H3 H4 H5 H6 H7 H8 H9 H10 H11 H12 H13 H14 H15 H16 H17 H18 H19 H20]
    · isplitl [H0]
      · iexists _; isplitr; · ipureintro; exact h1.read_unread _
        iexact H0
      isplitl [H1]
      · iexists _; isplitr; · ipureintro; exact h2.read_unread _
        iexact H1
      isplitl [H2]
      · iexists _; isplitr; · ipureintro; exact h3.read_unread _
        iexact H2
      isplitl [H3]
      · iexists _; isplitr; · ipureintro; exact h4.read_unread _
        iexact H3
      isplitl [H4]
      · iexists _; isplitr; · ipureintro; exact h5.read_unread _
        iexact H4
      isplitl [H5]
      · iexists _; isplitr; · ipureintro; exact h6.read_unread _
        iexact H5
      isplitl [H6]
      · iexists _; isplitr; · ipureintro; exact h7.read_unread _
        iexact H6
      isplitl [H7]
      · iexists _; isplitr; · ipureintro; exact h8.read_unread _
        iexact H7
      isplitl [H8]
      · iexists _; isplitr; · ipureintro; exact h9.read_unread _
        iexact H8
      isplitl [H9]
      · iexists _; isplitr; · ipureintro; exact h10.read_unread _
        iexact H9
      isplitl [H10]
      · iexists _; isplitr; · ipureintro; exact h11.read_unread _
        iexact H10
      isplitl [H11]
      · iexists _; isplitr; · ipureintro; exact h12.read_unread _
        iexact H11
      isplitl [H12]
      · iexists _; isplitr; · ipureintro; exact h13.read_unread _
        iexact H12
      isplitl [H13]
      · iexists _; isplitr; · ipureintro; exact h14.read_unread _
        iexact H13
      isplitl [H14]
      · iexists _; isplitr; · ipureintro; exact h15.read_unread _
        iexact H14
      isplitl [H15]
      · iexists _; isplitr; · ipureintro; exact h16.read_unread _
        iexact H15
      isplitl [H16]
      · iexists _; isplitr; · ipureintro; exact h17.read_unread _
        iexact H16
      isplitl [H17]
      · iexists _; isplitr; · ipureintro; exact h18.read_unread _
        iexact H17
      isplitl [H18]
      · iexists _; isplitr; · ipureintro; exact h19.read_unread _
        iexact H18
      isplitl [H19]
      · iexists _; isplitr; · ipureintro; exact h20.read_unread _
        iexact H19
      iexists _; isplitr; · ipureintro; exact h21.read_unread _
      iexact H20
    isplitl [H21 H22 H23]
    · isplitl [H21]; · iexists _; iexact H21
      isplitl [H22]; · iexists _; iexact H22
      iexists _; iexact H23
    isplitl [HS0]; · iexists _; iexact HS0
    isplitl [HS1]; · iexists _; iexact HS1
    isplitl [HS2]; · iexists _; iexact HS2
    iexists _; iexact HS3

end Cert.KernelIdeal.Phase1

end
-- ==== Proof.Ideal.Phase1Acc.lean ====
import proofs.«169774_j34978213659000_2_alg».proof.Proof.Ideal.Phase1Blocks
import proofs.«169774_j34978213659000_2_alg».proof.Proof.Ideal.Phase1RunFirst
import proofs.«169774_j34978213659000_2_alg».proof.Proof.Ideal.Phase1RunMid
import proofs.«169774_j34978213659000_2_alg».proof.Proof.Ideal.Phase1RunLast

set_option maxRecDepth 16384

noncomputable section

namespace Cert.KernelIdeal.Phase1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Phase 1: what the accumulators and the outputs hold after each point

The three runs, instantiated at a grid point's own staging buffers and at the blocks the region finds there; then,
by recursion on the point, the contents of the four accumulators after it — the first point's run over anything, a
later point's run over what the point before left — and the contents of the three outputs after the last point. -/

variable (V : (c : Dev nD) → (b : Ref sig .tc) → Buf (Elt F) ((c : Thread nD τ).loc b))

/-- Four rows of 4096: the accumulators' contents. -/
abbrev Acc4 (F : FTy → Type) [FloatOps F] : Type := Vec F S1x4096 .f32 × Vec F S1x4096 .f32 × Vec F S1x4096 .f32 × Vec F S1x4096 .f32
/-- Three rows of 4096: the outputs' contents. -/
abbrev Out3 (F : FTy → Type) [FloatOps F] : Type := Vec F S1x4096 .f32 × Vec F S1x4096 .f32 × Vec F S1x4096 .f32

/-- The first-point run at point t's buffers and blocks. -/
noncomputable def firstAt (c : Dev nD) (t : Fin cfg0.N) (hc0 : cond0_0 (grid0.coords t)) (hc1 : ¬cond0_1 (grid0.coords t)) :=
  runFirst (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _)
    (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) hc0 hc1

/-- The middle-point run at point t's buffers and blocks, over accumulators at s. -/
noncomputable def midAt (c : Dev nD) (t : Fin cfg0.N) (hc0 : ¬cond0_0 (grid0.coords t)) (hc1 : ¬cond0_1 (grid0.coords t)) (s : Acc4 F) :=
  runMid (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _)
    (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) hc0 hc1 s.1 s.2.1 s.2.2.1 s.2.2.2

/-- The last-point run at point t's buffers and blocks, over accumulators at s. -/
noncomputable def lastAt (c : Dev nD) (t : Fin cfg0.N) (hc0 : ¬cond0_0 (grid0.coords t)) (hc1 : cond0_1 (grid0.coords t)) (s : Acc4 F) :=
  runLast (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _)
    (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) hc0 hc1 s.1 s.2.1 s.2.2.1 s.2.2.2

/-! ## Each run's pieces cover the buffer they are stored into

Every store of the body writes a whole row of 4096, so each piece list tiles its buffer. -/

theorem cover_first_0 (c : Dev nD) (t : Fin cfg0.N) (hc0 : cond0_0 (grid0.coords t)) (hc1 : ¬cond0_1 (grid0.coords t)) (y : S1x4096.Idx) :
    ∃ pc ∈ (firstAt V c t hc0 hc1).1, y ∈ pc.1.set :=
  View.cover_of_tiledL (firstAt V c t hc0 hc1).1 S1x4096.size (by sl_kernel_rfl) y
theorem cover_first_1 (c : Dev nD) (t : Fin cfg0.N) (hc0 : cond0_0 (grid0.coords t)) (hc1 : ¬cond0_1 (grid0.coords t)) (y : S1x4096.Idx) :
    ∃ pc ∈ (firstAt V c t hc0 hc1).2.1, y ∈ pc.1.set :=
  View.cover_of_tiledL (firstAt V c t hc0 hc1).2.1 S1x4096.size (by sl_kernel_rfl) y
theorem cover_first_2 (c : Dev nD) (t : Fin cfg0.N) (hc0 : cond0_0 (grid0.coords t)) (hc1 : ¬cond0_1 (grid0.coords t)) (y : S1x4096.Idx) :
    ∃ pc ∈ (firstAt V c t hc0 hc1).2.2.1, y ∈ pc.1.set :=
  View.cover_of_tiledL (firstAt V c t hc0 hc1).2.2.1 S1x4096.size (by sl_kernel_rfl) y
theorem cover_first_3 (c : Dev nD) (t : Fin cfg0.N) (hc0 : cond0_0 (grid0.coords t)) (hc1 : ¬cond0_1 (grid0.coords t)) (y : S1x4096.Idx) :
    ∃ pc ∈ (firstAt V c t hc0 hc1).2.2.2.1, y ∈ pc.1.set :=
  View.cover_of_tiledL (firstAt V c t hc0 hc1).2.2.2.1 S1x4096.size (by sl_kernel_rfl) y

theorem cover_mid_0 (c : Dev nD) (t : Fin cfg0.N) (hc0 : ¬cond0_0 (grid0.coords t)) (hc1 : ¬cond0_1 (grid0.coords t)) (s : Acc4 F) (y : S1x4096.Idx) :
    ∃ pc ∈ (midAt V c t hc0 hc1 s).1, y ∈ pc.1.set :=
  View.cover_of_tiledL (midAt V c t hc0 hc1 s).1 S1x4096.size (by sl_kernel_rfl) y
theorem cover_mid_1 (c : Dev nD) (t : Fin cfg0.N) (hc0 : ¬cond0_0 (grid0.coords t)) (hc1 : ¬cond0_1 (grid0.coords t)) (s : Acc4 F) (y : S1x4096.Idx) :
    ∃ pc ∈ (midAt V c t hc0 hc1 s).2.1, y ∈ pc.1.set :=
  View.cover_of_tiledL (midAt V c t hc0 hc1 s).2.1 S1x4096.size (by sl_kernel_rfl) y
theorem cover_mid_2 (c : Dev nD) (t : Fin cfg0.N) (hc0 : ¬cond0_0 (grid0.coords t)) (hc1 : ¬cond0_1 (grid0.coords t)) (s : Acc4 F) (y : S1x4096.Idx) :
    ∃ pc ∈ (midAt V c t hc0 hc1 s).2.2.1, y ∈ pc.1.set :=
  View.cover_of_tiledL (midAt V c t hc0 hc1 s).2.2.1 S1x4096.size (by sl_kernel_rfl) y
theorem cover_mid_3 (c : Dev nD) (t : Fin cfg0.N) (hc0 : ¬cond0_0 (grid0.coords t)) (hc1 : ¬cond0_1 (grid0.coords t)) (s : Acc4 F) (y : S1x4096.Idx) :
    ∃ pc ∈ (midAt V c t hc0 hc1 s).2.2.2.1, y ∈ pc.1.set :=
  View.cover_of_tiledL (midAt V c t hc0 hc1 s).2.2.2.1 S1x4096.size (by sl_kernel_rfl) y

theorem cover_last_out21 (c : Dev nD) (t : Fin cfg0.N) (hc0 : ¬cond0_0 (grid0.coords t)) (hc1 : cond0_1 (grid0.coords t)) (s : Acc4 F) (y : S1x4096.Idx) :
    ∃ pc ∈ (lastAt V c t hc0 hc1 s).1, y ∈ pc.1.set :=
  View.cover_of_tiledL (lastAt V c t hc0 hc1 s).1 S1x4096.size (by sl_kernel_rfl) y
theorem cover_last_out22 (c : Dev nD) (t : Fin cfg0.N) (hc0 : ¬cond0_0 (grid0.coords t)) (hc1 : cond0_1 (grid0.coords t)) (s : Acc4 F) (y : S1x4096.Idx) :
    ∃ pc ∈ (lastAt V c t hc0 hc1 s).2.1, y ∈ pc.1.set :=
  View.cover_of_tiledL (lastAt V c t hc0 hc1 s).2.1 S1x4096.size (by sl_kernel_rfl) y
theorem cover_last_out23 (c : Dev nD) (t : Fin cfg0.N) (hc0 : ¬cond0_0 (grid0.coords t)) (hc1 : cond0_1 (grid0.coords t)) (s : Acc4 F) (y : S1x4096.Idx) :
    ∃ pc ∈ (lastAt V c t hc0 hc1 s).2.2.1, y ∈ pc.1.set :=
  View.cover_of_tiledL (lastAt V c t hc0 hc1 s).2.2.1 S1x4096.size (by sl_kernel_rfl) y
theorem cover_last_0 (c : Dev nD) (t : Fin cfg0.N) (hc0 : ¬cond0_0 (grid0.coords t)) (hc1 : cond0_1 (grid0.coords t)) (s : Acc4 F) (y : S1x4096.Idx) :
    ∃ pc ∈ (lastAt V c t hc0 hc1 s).2.2.2.1, y ∈ pc.1.set :=
  View.cover_of_tiledL (lastAt V c t hc0 hc1 s).2.2.2.1 S1x4096.size (by sl_kernel_rfl) y
theorem cover_last_1 (c : Dev nD) (t : Fin cfg0.N) (hc0 : ¬cond0_0 (grid0.coords t)) (hc1 : cond0_1 (grid0.coords t)) (s : Acc4 F) (y : S1x4096.Idx) :
    ∃ pc ∈ (lastAt V c t hc0 hc1 s).2.2.2.2.1, y ∈ pc.1.set :=
  View.cover_of_tiledL (lastAt V c t hc0 hc1 s).2.2.2.2.1 S1x4096.size (by sl_kernel_rfl) y
theorem cover_last_2 (c : Dev nD) (t : Fin cfg0.N) (hc0 : ¬cond0_0 (grid0.coords t)) (hc1 : cond0_1 (grid0.coords t)) (s : Acc4 F) (y : S1x4096.Idx) :
    ∃ pc ∈ (lastAt V c t hc0 hc1 s).2.2.2.2.2.1, y ∈ pc.1.set :=
  View.cover_of_tiledL (lastAt V c t hc0 hc1 s).2.2.2.2.2.1 S1x4096.size (by sl_kernel_rfl) y
theorem cover_last_3 (c : Dev nD) (t : Fin cfg0.N) (hc0 : ¬cond0_0 (grid0.coords t)) (hc1 : cond0_1 (grid0.coords t)) (s : Acc4 F) (y : S1x4096.Idx) :
    ∃ pc ∈ (lastAt V c t hc0 hc1 s).2.2.2.2.2.2.1, y ∈ pc.1.set :=
  View.cover_of_tiledL (lastAt V c t hc0 hc1 s).2.2.2.2.2.2.1 S1x4096.size (by sl_kernel_rfl) y

/-! ## The contents, read back through the pieces -/

/-- What the first point leaves in the accumulators. -/
noncomputable def accFirst (c : Dev nD) (t : Fin cfg0.N) (hc0 : cond0_0 (grid0.coords t)) (hc1 : ¬cond0_1 (grid0.coords t)) : Acc4 F :=
  (VS0_0.read (Elt F) (VS0_0.writes (Elt F) VS0_0.junk (firstAt V c t hc0 hc1).1),
   VS0_1.read (Elt F) (VS0_1.writes (Elt F) VS0_1.junk (firstAt V c t hc0 hc1).2.1),
   VS0_2.read (Elt F) (VS0_2.writes (Elt F) VS0_2.junk (firstAt V c t hc0 hc1).2.2.1),
   VS0_3.read (Elt F) (VS0_3.writes (Elt F) VS0_3.junk (firstAt V c t hc0 hc1).2.2.2.1))

/-- What a middle point leaves in the accumulators, over s. -/
noncomputable def accMid (c : Dev nD) (t : Fin cfg0.N) (hc0 : ¬cond0_0 (grid0.coords t)) (hc1 : ¬cond0_1 (grid0.coords t)) (s : Acc4 F) : Acc4 F :=
  (VS0_0.read (Elt F) (VS0_0.writes (Elt F) VS0_0.junk (midAt V c t hc0 hc1 s).1),
   VS0_1.read (Elt F) (VS0_1.writes (Elt F) VS0_1.junk (midAt V c t hc0 hc1 s).2.1),
   VS0_2.read (Elt F) (VS0_2.writes (Elt F) VS0_2.junk (midAt V c t hc0 hc1 s).2.2.1),
   VS0_3.read (Elt F) (VS0_3.writes (Elt F) VS0_3.junk (midAt V c t hc0 hc1 s).2.2.2.1))

/-- What the last point leaves in the accumulators, over s. -/
noncomputable def accLast (c : Dev nD) (t : Fin cfg0.N) (hc0 : ¬cond0_0 (grid0.coords t)) (hc1 : cond0_1 (grid0.coords t)) (s : Acc4 F) : Acc4 F :=
  (VS0_0.read (Elt F) (VS0_0.writes (Elt F) VS0_0.junk (lastAt V c t hc0 hc1 s).2.2.2.1),
   VS0_1.read (Elt F) (VS0_1.writes (Elt F) VS0_1.junk (lastAt V c t hc0 hc1 s).2.2.2.2.1),
   VS0_2.read (Elt F) (VS0_2.writes (Elt F) VS0_2.junk (lastAt V c t hc0 hc1 s).2.2.2.2.2.1),
   VS0_3.read (Elt F) (VS0_3.writes (Elt F) VS0_3.junk (lastAt V c t hc0 hc1 s).2.2.2.2.2.2.1))

/-- What the last point leaves in the three outputs (h, the new cell state, the input gate's activation), over s. -/
noncomputable def outLast (c : Dev nD) (t : Fin cfg0.N) (hc0 : ¬cond0_0 (grid0.coords t)) (hc1 : cond0_1 (grid0.coords t)) (s : Acc4 F) : Out3 F :=
  (VO0_21.read (Elt F) (VO0_21.writes (Elt F) VO0_21.junk (lastAt V c t hc0 hc1 s).1),
   VO0_22.read (Elt F) (VO0_22.writes (Elt F) VO0_22.junk (lastAt V c t hc0 hc1 s).2.1),
   VO0_23.read (Elt F) (VO0_23.writes (Elt F) VO0_23.junk (lastAt V c t hc0 hc1 s).2.2.1))

/-- THE ACCUMULATION: the accumulators' contents after the body at position n. Position 0 is the first point; a later
    position is a middle point, or the last, over what position n - 1 left. -/
noncomputable def accAfter (c : Dev nD) : (n : ℕ) → n < cfg0.N → Acc4 F
  | 0, hn => accFirst V c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 32 = 0 then
      False.elim (by have hN : n + 1 < 32 := lt_of_lt_of_eq hn (show cfg0.N = 32 from N_0); omega)
    else
      if h1 : (n + 1) % 32 = 31 then
        accLast V c ⟨n + 1, hn⟩ (fun h => h0 ((hcond0_0 ⟨n + 1, hn⟩).mp h)) ((hcond0_1 ⟨n + 1, hn⟩).mpr h1) (accAfter c n (Nat.lt_of_succ_lt hn))
      else
        accMid V c ⟨n + 1, hn⟩ (fun h => h0 ((hcond0_0 ⟨n + 1, hn⟩).mp h)) (fun h => h1 ((hcond0_1 ⟨n + 1, hn⟩).mp h)) (accAfter c n (Nat.lt_of_succ_lt hn))

/-- At the first point. -/
theorem accAfter_first (c : Dev nD) (t : Fin cfg0.N) (h0 : t.val % 32 = 0) (h1 : ¬t.val % 32 = 31) :
    accAfter V c t.val t.isLt = accFirst V c t ((hcond0_0 t).mpr h0) (fun h => h1 ((hcond0_1 t).mp h)) := by
  obtain ⟨n, hn⟩ := t
  cases n with
  | zero => exact rfl
  | succ n => exact absurd h0 (by have hN : n + 1 < 32 := lt_of_lt_of_eq hn (show cfg0.N = 32 from N_0); (try dsimp only); omega)

/-- At a middle point: over what the point before left. -/
theorem accAfter_mid (c : Dev nD) (t : Fin cfg0.N) (h0 : ¬t.val % 32 = 0) (h1 : ¬t.val % 32 = 31) :
    accAfter V c t.val t.isLt = accMid V c t (fun h => h0 ((hcond0_0 t).mp h)) (fun h => h1 ((hcond0_1 t).mp h))
      (accAfter V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- At the last point: over what the point before left. -/
theorem accAfter_last (c : Dev nD) (t : Fin cfg0.N) (h0 : ¬t.val % 32 = 0) (h1 : t.val % 32 = 31) :
    accAfter V c t.val t.isLt = accLast V c t (fun h => h0 ((hcond0_0 t).mp h)) ((hcond0_1 t).mpr h1)
      (accAfter V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The outputs' contents after the body at point t: what the last point stores; at the other points, where the
    windows are idle and nothing reads this, a placeholder. -/
noncomputable def outsAfter (c : Dev nD) (t : Fin cfg0.N) : Out3 F :=
  if h1 : t.val % 32 = 31 then
    outLast V c t (fun h => (fun h => by omega) ((hcond0_0 t).mp h)) ((hcond0_1 t).mpr h1)
      (accAfter V c (t.val - 1) (Nat.lt_of_le_of_lt (Nat.sub_le _ _) t.isLt))
  else
    (VO0_21.read (Elt F) VO0_21.junk, VO0_22.read (Elt F) VO0_22.junk, VO0_23.read (Elt F) VO0_23.junk)

/-- At the last point. -/
theorem outsAfter_last (c : Dev nD) (t : Fin cfg0.N) (h0 : ¬t.val % 32 = 0) (h1 : t.val % 32 = 31) :
    outsAfter V c t = outLast V c t (fun h => h0 ((hcond0_0 t).mp h)) ((hcond0_1 t).mpr h1)
      (accAfter V c (t.val - 1) (Nat.lt_of_le_of_lt (Nat.sub_le _ _) t.isLt)) := by
  unfold outsAfter; exact (dif_pos h1)

end Cert.KernelIdeal.Phase1

end
-- ==== Proof.Ideal.Phase1Data.lean ====
import proofs.«169774_j34978213659000_2_alg».proof.Proof.Ideal.Phase1Acc

set_option maxRecDepth 16384

noncomputable section

namespace Cert.KernelIdeal.Phase1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Phase 1: the invariant that carries the accumulators, and the proof data

Between two points the region keeps, beside the windows, the scoped buffers no window of it stages: its own four
accumulators and the staging buffers of the phase-2 region. Before the first point all of them hold anything;
after a point the accumulators hold that point's sums, the others still anything. -/

variable (V : (c : Dev nD) → (b : Ref sig .tc) → Buf (Elt F) ((c : Thread nD τ).loc b))

/-- The staging buffers of the phase-2 region, each whole at some contents: untouched by phase 1. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- What the launch hands the region, with the four accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d) ∗ (∃ d, owns (c : Thread nD τ) scM0_3 fullShare d)
          ∗ otherScoped (F := F) c) ∗ (∃ r, prngReg c r)) := by
  unfold Pipeline.ΦA otherScoped; rw [scopedRest0_eq]; simp only [scM0_0, scM0_1, scM0_2, scM0_3, owns_whole]; try rfl

/-- The region's invariant before position n: before the first point, what the launch hands it; afterwards the
    accumulators at what position n - 1 left, the phase-2 staging buffers at anything, the generator register at
    some state. -/
def PhiS (c : Dev nD) : (n : ℕ) → n ≤ cfg0.N → sProp 𝕄
  | 0, _ => Pipeline.ΦA spec0 c
  | n + 1, hn => iprop(iprop(owns (c : Thread nD τ) scM0_0 fullShare (accAfter V c n hn).1 ∗ owns (c : Thread nD τ) scM0_1 fullShare (accAfter V c n hn).2.1
      ∗ owns (c : Thread nD τ) scM0_2 fullShare (accAfter V c n hn).2.2.1 ∗ owns (c : Thread nD τ) scM0_3 fullShare (accAfter V c n hn).2.2.2
      ∗ otherScoped (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare (accAfter V c n hn).1 ∗ owns (c : Thread nD τ) scM0_1 fullShare (accAfter V c n hn).2.1
      ∗ owns (c : Thread nD τ) scM0_2 fullShare (accAfter V c n hn).2.2.1 ∗ owns (c : Thread nD τ) scM0_3 fullShare (accAfter V c n hn).2.2.2
      ∗ otherScoped (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare (accAfter V c (n - 1) (by omega)).1 ∗ owns (c : Thread nD τ) scM0_1 fullShare (accAfter V c (n - 1) (by omega)).2.1
      ∗ owns (c : Thread nD τ) scM0_2 fullShare (accAfter V c (n - 1) (by omega)).2.2.1 ∗ owns (c : Thread nD τ) scM0_3 fullShare (accAfter V c (n - 1) (by omega)).2.2.2
      ∗ otherScoped (F := F) c) ∗ (∃ r, prngReg c r)) := by
  cases n with
  | zero => exact absurd rfl hz
  | succ n => rfl

/-! ## The proof data -/

/-- The proof data of the phase-1 pipeline on core c: the arrays as the region finds them; after the body at point t
    each input's buffer at its block and the outputs' at what the last point stores; the invariant above; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => iblk0 V c 15 t
    | ⟨16, _⟩ => iblk0 V c 16 t
    | ⟨17, _⟩ => iblk0 V c 17 t
    | ⟨18, _⟩ => iblk0 V c 18 t
    | ⟨19, _⟩ => iblk0 V c 19 t
    | ⟨20, _⟩ => iblk0 V c 20 t
    | ⟨21, _⟩ => (outsAfter V c t).1
    | ⟨22, _⟩ => (outsAfter V c t).2.1
    | ⟨23, _⟩ => (outsAfter V c t).2.2
    | ⟨_ + 24, h⟩ => absurd h (Nat.not_lt.2 (Nat.le_add_left _ _))
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = iblk0 V c 15 t := by dsimp only [dat0]
theorem after0_16 (c : Dev nD) (t : Fin cfg0.N) : (dat0 V c).after 16 t = iblk0 V c 16 t := by dsimp only [dat0]
theorem after0_17 (c : Dev nD) (t : Fin cfg0.N) : (dat0 V c).after 17 t = iblk0 V c 17 t := by dsimp only [dat0]
theorem after0_18 (c : Dev nD) (t : Fin cfg0.N) : (dat0 V c).after 18 t = iblk0 V c 18 t := by dsimp only [dat0]
theorem after0_19 (c : Dev nD) (t : Fin cfg0.N) : (dat0 V c).after 19 t = iblk0 V c 19 t := by dsimp only [dat0]
theorem after0_20 (c : Dev nD) (t : Fin cfg0.N) : (dat0 V c).after 20 t = iblk0 V c 20 t := by dsimp only [dat0]
theorem after0_21 (c : Dev nD) (t : Fin cfg0.N) : (dat0 V c).after 21 t = (outsAfter V c t).1 := by dsimp only [dat0]
theorem after0_22 (c : Dev nD) (t : Fin cfg0.N) : (dat0 V c).after 22 t = (outsAfter V c t).2.1 := by dsimp only [dat0]
theorem after0_23 (c : Dev nD) (t : Fin cfg0.N) : (dat0 V c).after 23 t = (outsAfter V c t).2.2 := by dsimp only [dat0]

theorem before0_0 (c : Dev nD) (t : Fin cfg0.N) (d) : (dat0 V c).before 0 t d = iblk0 V c 0 t := before0_0_of V (dat0 V c) (A_eq0 V c 0) (after0_0 V c) t d
theorem before0_1 (c : Dev nD) (t : Fin cfg0.N) (d) : (dat0 V c).before 1 t d = iblk0 V c 1 t := before0_1_of V (dat0 V c) (A_eq0 V c 1) (after0_1 V c) t d
theorem before0_2 (c : Dev nD) (t : Fin cfg0.N) (d) : (dat0 V c).before 2 t d = iblk0 V c 2 t := before0_2_of V (dat0 V c) (A_eq0 V c 2) (after0_2 V c) t d
theorem before0_3 (c : Dev nD) (t : Fin cfg0.N) (d) : (dat0 V c).before 3 t d = iblk0 V c 3 t := before0_3_of V (dat0 V c) (A_eq0 V c 3) (after0_3 V c) t d
theorem before0_4 (c : Dev nD) (t : Fin cfg0.N) (d) : (dat0 V c).before 4 t d = iblk0 V c 4 t := before0_4_of V (dat0 V c) (A_eq0 V c 4) (after0_4 V c) t d
theorem before0_5 (c : Dev nD) (t : Fin cfg0.N) (d) : (dat0 V c).before 5 t d = iblk0 V c 5 t := before0_5_of V (dat0 V c) (A_eq0 V c 5) (after0_5 V c) t d
theorem before0_6 (c : Dev nD) (t : Fin cfg0.N) (d) : (dat0 V c).before 6 t d = iblk0 V c 6 t := before0_6_of V (dat0 V c) (A_eq0 V c 6) (after0_6 V c) t d
theorem before0_7 (c : Dev nD) (t : Fin cfg0.N) (d) : (dat0 V c).before 7 t d = iblk0 V c 7 t := before0_7_of V (dat0 V c) (A_eq0 V c 7) (after0_7 V c) t d
theorem before0_8 (c : Dev nD) (t : Fin cfg0.N) (d) : (dat0 V c).before 8 t d = iblk0 V c 8 t := before0_8_of V (dat0 V c) (A_eq0 V c 8) (after0_8 V c) t d
theorem before0_9 (c : Dev nD) (t : Fin cfg0.N) (d) : (dat0 V c).before 9 t d = iblk0 V c 9 t := before0_9_of V (dat0 V c) (A_eq0 V c 9) (after0_9 V c) t d
theorem before0_10 (c : Dev nD) (t : Fin cfg0.N) (d) : (dat0 V c).before 10 t d = iblk0 V c 10 t := before0_10_of V (dat0 V c) (A_eq0 V c 10) (after0_10 V c) t d
theorem before0_11 (c : Dev nD) (t : Fin cfg0.N) (d) : (dat0 V c).before 11 t d = iblk0 V c 11 t := before0_11_of V (dat0 V c) (A_eq0 V c 11) (after0_11 V c) t d
theorem before0_12 (c : Dev nD) (t : Fin cfg0.N) (d) : (dat0 V c).before 12 t d = iblk0 V c 12 t := before0_12_of V (dat0 V c) (A_eq0 V c 12) (after0_12 V c) t d
theorem before0_13 (c : Dev nD) (t : Fin cfg0.N) (d) : (dat0 V c).before 13 t d = iblk0 V c 13 t := before0_13_of V (dat0 V c) (A_eq0 V c 13) (after0_13 V c) t d
theorem before0_14 (c : Dev nD) (t : Fin cfg0.N) (d) : (dat0 V c).before 14 t d = iblk0 V c 14 t := before0_14_of V (dat0 V c) (A_eq0 V c 14) (after0_14 V c) t d
theorem before0_15 (c : Dev nD) (t : Fin cfg0.N) (d) : (dat0 V c).before 15 t d = iblk0 V c 15 t := before0_15_of V (dat0 V c) (A_eq0 V c 15) (after0_15 V c) t d
theorem before0_16 (c : Dev nD) (t : Fin cfg0.N) (d) : (dat0 V c).before 16 t d = iblk0 V c 16 t := before0_16_of V (dat0 V c) (A_eq0 V c 16) (after0_16 V c) t d
theorem before0_17 (c : Dev nD) (t : Fin cfg0.N) (d) : (dat0 V c).before 17 t d = iblk0 V c 17 t := before0_17_of V (dat0 V c) (A_eq0 V c 17) (after0_17 V c) t d
theorem before0_18 (c : Dev nD) (t : Fin cfg0.N) (d) : (dat0 V c).before 18 t d = iblk0 V c 18 t := before0_18_of V (dat0 V c) (A_eq0 V c 18) (after0_18 V c) t d
theorem before0_19 (c : Dev nD) (t : Fin cfg0.N) (d) : (dat0 V c).before 19 t d = iblk0 V c 19 t := before0_19_of V (dat0 V c) (A_eq0 V c 19) (after0_19 V c) t d
theorem before0_20 (c : Dev nD) (t : Fin cfg0.N) (d) : (dat0 V c).before 20 t d = iblk0 V c 20 t := before0_20_of V (dat0 V c) (A_eq0 V c 20) (after0_20 V c) t d

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives back what the launch handed over: the accumulators' named
    contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HS2, HS3, Hrest⟩, Hg⟩
  isplitl [HS0 HS1 HS2 HS3 Hrest]
  · isplitl [HS0]; · iexists _; iexact HS0
    isplitl [HS1]; · iexists _; iexact HS1
    isplitl [HS2]; · iexists _; iexact HS2
    isplitl [HS3]; · iexists _; iexact HS3
    iexact Hrest
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Cert.KernelIdeal.Phase1

end
-- ==== Proof.Ideal.Phase1Body.lean ====
import proofs.«169774_j34978213659000_2_alg».proof.Proof.Ideal.Phase1Data

set_option maxRecDepth 16384

noncomputable section

namespace Cert.KernelIdeal.Phase1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Phase 1: the body obligation

At every grid point, from the invariant, what the core owes and each window's current buffer at what it then holds,
the body runs to the invariant at the next point and each buffer at what the proof data says it leaves. The point is
the first, the last or a middle one; in each case that case's run applies. -/

variable (V : (c : Dev nD) → (b : Ref sig .tc) → Buf (Elt F) ((c : Thread nD τ).loc b))

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d))
    ∗ (∃ d, owns (c : Thread nD τ) (ms0_13 t) fullShare ((dat0 V c).before 13 t d))
    ∗ (∃ d, owns (c : Thread nD τ) (ms0_14 t) fullShare ((dat0 V c).before 14 t d))
    ∗ (∃ d, owns (c : Thread nD τ) (ms0_15 t) fullShare ((dat0 V c).before 15 t d))
    ∗ (∃ d, owns (c : Thread nD τ) (ms0_16 t) fullShare ((dat0 V c).before 16 t d))
    ∗ (∃ d, owns (c : Thread nD τ) (ms0_17 t) fullShare ((dat0 V c).before 17 t d))
    ∗ (∃ d, owns (c : Thread nD τ) (ms0_18 t) fullShare ((dat0 V c).before 18 t d))
    ∗ (∃ d, owns (c : Thread nD τ) (ms0_19 t) fullShare ((dat0 V c).before 19 t d))
    ∗ (∃ d, owns (c : Thread nD τ) (ms0_20 t) fullShare ((dat0 V c).before 20 t d))
    ∗ (∃ d, owns (c : Thread nD τ) (ms0_21 t) fullShare ((dat0 V c).before 21 t d))
    ∗ (∃ d, owns (c : Thread nD τ) (ms0_22 t) fullShare ((dat0 V c).before 22 t d))
    ∗ (∃ d, owns (c : Thread nD τ) (ms0_23 t) fullShare ((dat0 V c).before 23 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t
    ∗ (dat0 V c).leavesExact 4 t ∗ (dat0 V c).leavesExact 5 t ∗ (dat0 V c).leavesExact 6 t ∗ (dat0 V c).leavesExact 7 t
    ∗ (dat0 V c).leavesExact 8 t ∗ (dat0 V c).leavesExact 9 t ∗ (dat0 V c).leavesExact 10 t ∗ (dat0 V c).leavesExact 11 t
    ∗ (dat0 V c).leavesExact 12 t ∗ (dat0 V c).leavesExact 13 t ∗ (dat0 V c).leavesExact 14 t ∗ (dat0 V c).leavesExact 15 t
    ∗ (dat0 V c).leavesExact 16 t ∗ (dat0 V c).leavesExact 17 t ∗ (dat0 V c).leavesExact 18 t ∗ (dat0 V c).leavesExact 19 t
    ∗ (dat0 V c).leavesExact 20 t ∗ (dat0 V c).leavesExact 21 t ∗ (dat0 V c).leavesExact 22 t ∗ (dat0 V c).leavesExact 23 t)

/-- An input window is live everywhere, so the body leaves its buffer at the block it was handed. -/
theorem leaves_in (c : Dev nD) (t : Fin cfg0.N) :
    (dat0 V c).leavesExact 0 t = owns (c : Thread nD τ) (ms0_0 t) fullShare (iblk0 V c 0 t)
    ∧ (dat0 V c).leavesExact 1 t = owns (c : Thread nD τ) (ms0_1 t) fullShare (iblk0 V c 1 t)
    ∧ (dat0 V c).leavesExact 2 t = owns (c : Thread nD τ) (ms0_2 t) fullShare (iblk0 V c 2 t)
    ∧ (dat0 V c).leavesExact 3 t = owns (c : Thread nD τ) (ms0_3 t) fullShare (iblk0 V c 3 t)
    ∧ (dat0 V c).leavesExact 4 t = owns (c : Thread nD τ) (ms0_4 t) fullShare (iblk0 V c 4 t)
    ∧ (dat0 V c).leavesExact 5 t = owns (c : Thread nD τ) (ms0_5 t) fullShare (iblk0 V c 5 t)
    ∧ (dat0 V c).leavesExact 6 t = owns (c : Thread nD τ) (ms0_6 t) fullShare (iblk0 V c 6 t)
    ∧ (dat0 V c).leavesExact 7 t = owns (c : Thread nD τ) (ms0_7 t) fullShare (iblk0 V c 7 t)
    ∧ (dat0 V c).leavesExact 8 t = owns (c : Thread nD τ) (ms0_8 t) fullShare (iblk0 V c 8 t)
    ∧ (dat0 V c).leavesExact 9 t = owns (c : Thread nD τ) (ms0_9 t) fullShare (iblk0 V c 9 t)
    ∧ (dat0 V c).leavesExact 10 t = owns (c : Thread nD τ) (ms0_10 t) fullShare (iblk0 V c 10 t)
    ∧ (dat0 V c).leavesExact 11 t = owns (c : Thread nD τ) (ms0_11 t) fullShare (iblk0 V c 11 t)
    ∧ (dat0 V c).leavesExact 12 t = owns (c : Thread nD τ) (ms0_12 t) fullShare (iblk0 V c 12 t)
    ∧ (dat0 V c).leavesExact 13 t = owns (c : Thread nD τ) (ms0_13 t) fullShare (iblk0 V c 13 t)
    ∧ (dat0 V c).leavesExact 14 t = owns (c : Thread nD τ) (ms0_14 t) fullShare (iblk0 V c 14 t)
    ∧ (dat0 V c).leavesExact 15 t = owns (c : Thread nD τ) (ms0_15 t) fullShare (iblk0 V c 15 t)
    ∧ (dat0 V c).leavesExact 16 t = owns (c : Thread nD τ) (ms0_16 t) fullShare (iblk0 V c 16 t)
    ∧ (dat0 V c).leavesExact 17 t = owns (c : Thread nD τ) (ms0_17 t) fullShare (iblk0 V c 17 t)
    ∧ (dat0 V c).leavesExact 18 t = owns (c : Thread nD τ) (ms0_18 t) fullShare (iblk0 V c 18 t)
    ∧ (dat0 V c).leavesExact 19 t = owns (c : Thread nD τ) (ms0_19 t) fullShare (iblk0 V c 19 t)
    ∧ (dat0 V c).leavesExact 20 t = owns (c : Thread nD τ) (ms0_20 t) fullShare (iblk0 V c 20 t) := by
  refine ⟨?_, ?_, ?_, ?_, ?_, ?_, ?_, ?_, ?_, ?_, ?_, ?_, ?_, ?_, ?_, ?_, ?_, ?_, ?_, ?_, ?_⟩
  · unfold Dat.leavesExact; rw [liveAt0_0 t, ← after0_0 V c t]
  · unfold Dat.leavesExact; rw [liveAt0_1 t, ← after0_1 V c t]
  · unfold Dat.leavesExact; rw [liveAt0_2 t, ← after0_2 V c t]
  · unfold Dat.leavesExact; rw [liveAt0_3 t, ← after0_3 V c t]
  · unfold Dat.leavesExact; rw [liveAt0_4 t, ← after0_4 V c t]
  · unfold Dat.leavesExact; rw [liveAt0_5 t, ← after0_5 V c t]
  · unfold Dat.leavesExact; rw [liveAt0_6 t, ← after0_6 V c t]
  · unfold Dat.leavesExact; rw [liveAt0_7 t, ← after0_7 V c t]
  · unfold Dat.leavesExact; rw [liveAt0_8 t, ← after0_8 V c t]
  · unfold Dat.leavesExact; rw [liveAt0_9 t, ← after0_9 V c t]
  · unfold Dat.leavesExact; rw [liveAt0_10 t, ← after0_10 V c t]
  · unfold Dat.leavesExact; rw [liveAt0_11 t, ← after0_11 V c t]
  · unfold Dat.leavesExact; rw [liveAt0_12 t, ← after0_12 V c t]
  · unfold Dat.leavesExact; rw [liveAt0_13 t, ← after0_13 V c t]
  · unfold Dat.leavesExact; rw [liveAt0_14 t, ← after0_14 V c t]
  · unfold Dat.leavesExact; rw [liveAt0_15 t, ← after0_15 V c t]
  · unfold Dat.leavesExact; rw [liveAt0_16 t, ← after0_16 V c t]
  · unfold Dat.leavesExact; rw [liveAt0_17 t, ← after0_17 V c t]
  · unfold Dat.leavesExact; rw [liveAt0_18 t, ← after0_18 V c t]
  · unfold Dat.leavesExact; rw [liveAt0_19 t, ← after0_19 V c t]
  · unfold Dat.leavesExact; rw [liveAt0_20 t, ← after0_20 V c t]

set_option maxHeartbeats 8000000 in
/-- The body at the first point: the invariant hands the accumulators over at anything; the run zeroes them and adds
    block 0's sums; the invariant takes them back at those contents, each read back through pieces that cover it;
    the idle outputs are handed back as found. -/
theorem sound_first (c : Dev nD) (t : Fin cfg0.N) (h0 : t.val % 32 = 0) (h1 : ¬t.val % 32 = 31) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10,
    before0_11, before0_12, before0_13, before0_14, before0_15, before0_16, before0_17, before0_18, before0_19, before0_20]
  rw [show (dat0 V c).owesAt () t.succ = (dat0 V c).owesAt () t.castSucc from rfl]
  rw [show (dat0 V c).Φ t.succ = PhiS V c (t.val + 1) t.isLt from rfl, PhiS_succ]
  obtain ⟨e0, e1, e2, e3, e4, e5, e6, e7, e8, e9, e10, e11, e12, e13, e14, e15, e16, e17, e18, e19, e20⟩ := leaves_in V c t
  rw [e0, e1, e2, e3, e4, e5, e6, e7, e8, e9, e10, e11, e12, e13, e14, e15, e16, e17, e18, e19, e20]
  have hN : t.val < 32 := lt_of_lt_of_eq t.isLt (show cfg0.N = 32 from N_0)
  have hz : t.val = 0 := by omega
  rw [Dat.leavesExact_idle (dat0 V c) 21 t (idleAt0_21_first t ((hcond0_0 t).mpr h0) (fun h => h1 ((hcond0_1 t).mp h))) (noFlush0_21_first t ((hcond0_0 t).mpr h0) (fun h => h1 ((hcond0_1 t).mp h)))]
  rw [Dat.leavesExact_idle (dat0 V c) 22 t (idleAt0_22_first t ((hcond0_0 t).mpr h0) (fun h => h1 ((hcond0_1 t).mp h))) (noFlush0_22_first t ((hcond0_0 t).mpr h0) (fun h => h1 ((hcond0_1 t).mp h)))]
  rw [Dat.leavesExact_idle (dat0 V c) 23 t (idleAt0_23_first t ((hcond0_0 t).mpr h0) (fun h => h1 ((hcond0_1 t).mp h))) (noFlush0_23_first t ((hcond0_0 t).mpr h0) (fun h => h1 ((hcond0_1 t).mp h)))]
  rw [accAfter_first V c t h0 h1]
  unfold accFirst; (try dsimp only)
  rw [PhiS_castSucc V c t, PhiS_zero V c _ _ hz, PhiA0_eq]
  iintro ⟨⟨⟨HS0, HS1, HS2, HS3, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply ((firstAt V c t ((hcond0_0 t).mpr h0) (fun h => h1 ((hcond0_1 t).mp h))).2.2.2.2 _ _ _ Set.univ _)
  unfold insOwned outsAt accAny accWritten
  isplitl [H0 H1 H2 H3 H4 H5 H6 H7 H8 H9 H10 H11 H12 H13 H14 H15 H16 H17 H18 H19 H20]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  isplitl [H21 H22 H23]
  · isplitl [H21]; · iexact H21
    isplitl [H22]; · iexact H22
    iexact H23
  isplitl [HS0 HS1 HS2 HS3]
  · isplitl [HS0]; · iexact HS0
    isplitl [HS1]; · iexact HS1
    isplitl [HS2]; · iexact HS2
    iexact HS3
  iintro ⟨⟨H0, H1, H2, H3, H4, H5, H6, H7, H8, H9, H10, H11, H12, H13, H14, H15, H16, H17, H18, H19, H20⟩, ⟨H21, H22, H23⟩, ⟨⟨%es0, HS0⟩, ⟨%es1, HS1⟩, ⟨%es2, HS2⟩, ⟨%es3, HS3⟩⟩⟩
  isplitl [HS0 HS1 HS2 HS3 Hrest Hg]
  · isplitl [HS0 HS1 HS2 HS3 Hrest]
    · isplitl [HS0]
      · unfold owns; iexists _; isplitr
        swap; · iexact HS0
        ipureintro; exact View.read_writes_of_cover _ _ _ _ _ (cover_first_0 V c t _ _)
      isplitl [HS1]
      · unfold owns; iexists _; isplitr
        swap; · iexact HS1
        ipureintro; exact View.read_writes_of_cover _ _ _ _ _ (cover_first_1 V c t _ _)
      isplitl [HS2]
      · unfold owns; iexists _; isplitr
        swap; · iexact HS2
        ipureintro; exact View.read_writes_of_cover _ _ _ _ _ (cover_first_2 V c t _ _)
      isplitl [HS3]
      · unfold owns; iexists _; isplitr
        swap; · iexact HS3
        ipureintro; exact View.read_writes_of_cover _ _ _ _ _ (cover_first_3 V c t _ _)
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  isplitl [H22]; · iexists _; iexact H22
  iexists _; iexact H23

set_option maxHeartbeats 8000000 in
/-- The body at a middle point: the invariant hands the accumulators over at what the point before left; the run
    adds this block's sums; the invariant takes them back at those contents; the idle outputs are handed back as
    found. -/
theorem sound_mid (c : Dev nD) (t : Fin cfg0.N) (h0 : ¬t.val % 32 = 0) (h1 : ¬t.val % 32 = 31) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10,
    before0_11, before0_12, before0_13, before0_14, before0_15, before0_16, before0_17, before0_18, before0_19, before0_20]
  rw [show (dat0 V c).owesAt () t.succ = (dat0 V c).owesAt () t.castSucc from rfl]
  rw [show (dat0 V c).Φ t.succ = PhiS V c (t.val + 1) t.isLt from rfl, PhiS_succ]
  obtain ⟨e0, e1, e2, e3, e4, e5, e6, e7, e8, e9, e10, e11, e12, e13, e14, e15, e16, e17, e18, e19, e20⟩ := leaves_in V c t
  rw [e0, e1, e2, e3, e4, e5, e6, e7, e8, e9, e10, e11, e12, e13, e14, e15, e16, e17, e18, e19, e20]
  have hN : t.val < 32 := lt_of_lt_of_eq t.isLt (show cfg0.N = 32 from N_0)
  have hz : t.val ≠ 0 := by omega
  rw [Dat.leavesExact_idle (dat0 V c) 21 t (idleAt0_21_mid t (fun h => h0 ((hcond0_0 t).mp h)) (fun h => h1 ((hcond0_1 t).mp h))) (noFlush0_21_mid t (fun h => h0 ((hcond0_0 t).mp h)) (fun h => h1 ((hcond0_1 t).mp h)))]
  rw [Dat.leavesExact_idle (dat0 V c) 22 t (idleAt0_22_mid t (fun h => h0 ((hcond0_0 t).mp h)) (fun h => h1 ((hcond0_1 t).mp h))) (noFlush0_22_mid t (fun h => h0 ((hcond0_0 t).mp h)) (fun h => h1 ((hcond0_1 t).mp h)))]
  rw [Dat.leavesExact_idle (dat0 V c) 23 t (idleAt0_23_mid t (fun h => h0 ((hcond0_0 t).mp h)) (fun h => h1 ((hcond0_1 t).mp h))) (noFlush0_23_mid t (fun h => h0 ((hcond0_0 t).mp h)) (fun h => h1 ((hcond0_1 t).mp h)))]
  rw [accAfter_mid V c t h0 h1]
  unfold accMid; (try dsimp only)
  rw [PhiS_castSucc V c t, PhiS_pos V c _ _ hz]
  iintro ⟨⟨⟨HS0, HS1, HS2, HS3, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply ((midAt V c t (fun h => h0 ((hcond0_0 t).mp h)) (fun h => h1 ((hcond0_1 t).mp h)) _).2.2.2.2 _ _ _ Set.univ _)
  unfold insOwned outsAt accAt accWritten
  isplitl [H0 H1 H2 H3 H4 H5 H6 H7 H8 H9 H10 H11 H12 H13 H14 H15 H16 H17 H18 H19 H20]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  isplitl [H21 H22 H23]
  · isplitl [H21]; · iexact H21
    isplitl [H22]; · iexact H22
    iexact H23
  isplitl [HS0 HS1 HS2 HS3]
  · isplitl [HS0]; · iexact HS0
    isplitl [HS1]; · iexact HS1
    isplitl [HS2]; · iexact HS2
    iexact HS3
  iintro ⟨⟨H0, H1, H2, H3, H4, H5, H6, H7, H8, H9, H10, H11, H12, H13, H14, H15, H16, H17, H18, H19, H20⟩, ⟨H21, H22, H23⟩, ⟨⟨%es0, HS0⟩, ⟨%es1, HS1⟩, ⟨%es2, HS2⟩, ⟨%es3, HS3⟩⟩⟩
  isplitl [HS0 HS1 HS2 HS3 Hrest Hg]
  · isplitl [HS0 HS1 HS2 HS3 Hrest]
    · isplitl [HS0]
      · unfold owns; iexists _; isplitr
        swap; · iexact HS0
        ipureintro; exact View.read_writes_of_cover _ _ _ _ _ (cover_mid_0 V c t _ _ _)
      isplitl [HS1]
      · unfold owns; iexists _; isplitr
        swap; · iexact HS1
        ipureintro; exact View.read_writes_of_cover _ _ _ _ _ (cover_mid_1 V c t _ _ _)
      isplitl [HS2]
      · unfold owns; iexists _; isplitr
        swap; · iexact HS2
        ipureintro; exact View.read_writes_of_cover _ _ _ _ _ (cover_mid_2 V c t _ _ _)
      isplitl [HS3]
      · unfold owns; iexists _; isplitr
        swap; · iexact HS3
        ipureintro; exact View.read_writes_of_cover _ _ _ _ _ (cover_mid_3 V c t _ _ _)
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  isplitl [H22]; · iexists _; iexact H22
  iexists _; iexact H23

set_option maxHeartbeats 8000000 in
/-- The body at the last point: the run adds block 31's sums, then finishes the gates and stores the three results;
    the invariant takes the accumulators back, and each output's buffer holds what was stored, read back through
    pieces that cover it. -/
theorem sound_last (c : Dev nD) (t : Fin cfg0.N) (h0 : ¬t.val % 32 = 0) (h1 : t.val % 32 = 31) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10,
    before0_11, before0_12, before0_13, before0_14, before0_15, before0_16, before0_17, before0_18, before0_19, before0_20]
  rw [show (dat0 V c).owesAt () t.succ = (dat0 V c).owesAt () t.castSucc from rfl]
  rw [show (dat0 V c).Φ t.succ = PhiS V c (t.val + 1) t.isLt from rfl, PhiS_succ]
  obtain ⟨e0, e1, e2, e3, e4, e5, e6, e7, e8, e9, e10, e11, e12, e13, e14, e15, e16, e17, e18, e19, e20⟩ := leaves_in V c t
  rw [e0, e1, e2, e3, e4, e5, e6, e7, e8, e9, e10, e11, e12, e13, e14, e15, e16, e17, e18, e19, e20]
  have hN : t.val < 32 := lt_of_lt_of_eq t.isLt (show cfg0.N = 32 from N_0)
  have hz : t.val ≠ 0 := by omega
  rw [show (dat0 V c).leavesExact 21 t = owns (c : Thread nD τ) (ms0_21 t) fullShare ((dat0 V c).after 21 t) from by
    unfold Dat.leavesExact; rw [liveAt0_21_last t (fun h => h0 ((hcond0_0 t).mp h)) ((hcond0_1 t).mpr h1)], after0_21]
  rw [show (dat0 V c).leavesExact 22 t = owns (c : Thread nD τ) (ms0_22 t) fullShare ((dat0 V c).after 22 t) from by
    unfold Dat.leavesExact; rw [liveAt0_22_last t (fun h => h0 ((hcond0_0 t).mp h)) ((hcond0_1 t).mpr h1)], after0_22]
  rw [show (dat0 V c).leavesExact 23 t = owns (c : Thread nD τ) (ms0_23 t) fullShare ((dat0 V c).after 23 t) from by
    unfold Dat.leavesExact; rw [liveAt0_23_last t (fun h => h0 ((hcond0_0 t).mp h)) ((hcond0_1 t).mpr h1)], after0_23]
  rw [outsAfter_last V c t h0 h1, accAfter_last V c t h0 h1]
  unfold outLast accLast; (try dsimp only)
  rw [PhiS_castSucc V c t, PhiS_pos V c _ _ hz]
  iintro ⟨⟨⟨HS0, HS1, HS2, HS3, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply ((lastAt V c t (fun h => h0 ((hcond0_0 t).mp h)) ((hcond0_1 t).mpr h1) _).2.2.2.2.2.2.2 Set.univ _)
  unfold insOwned outsAny outsWritten accAt accWritten
  isplitl [H0 H1 H2 H3 H4 H5 H6 H7 H8 H9 H10 H11 H12 H13 H14 H15 H16 H17 H18 H19 H20]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  isplitl [H21 H22 H23]
  · isplitl [H21]; · iexists _; iexact H21
    isplitl [H22]; · iexists _; iexact H22
    iexists _; iexact H23
  isplitl [HS0 HS1 HS2 HS3]
  · isplitl [HS0]; · iexact HS0
    isplitl [HS1]; · iexact HS1
    isplitl [HS2]; · iexact HS2
    iexact HS3
  iintro ⟨⟨H0, H1, H2, H3, H4, H5, H6, H7, H8, H9, H10, H11, H12, H13, H14, H15, H16, H17, H18, H19, H20⟩, ⟨⟨%eo21, H21⟩, ⟨%eo22, H22⟩, ⟨%eo23, H23⟩⟩, ⟨⟨%es0, HS0⟩, ⟨%es1, HS1⟩, ⟨%es2, HS2⟩, ⟨%es3, HS3⟩⟩⟩
  isplitl [HS0 HS1 HS2 HS3 Hrest Hg]
  · isplitl [HS0 HS1 HS2 HS3 Hrest]
    · isplitl [HS0]
      · unfold owns; iexists _; isplitr
        swap; · iexact HS0
        ipureintro; exact View.read_writes_of_cover _ _ _ _ _ (cover_last_0 V c t _ _ _)
      isplitl [HS1]
      · unfold owns; iexists _; isplitr
        swap; · iexact HS1
        ipureintro; exact View.read_writes_of_cover _ _ _ _ _ (cover_last_1 V c t _ _ _)
      isplitl [HS2]
      · unfold owns; iexists _; isplitr
        swap; · iexact HS2
        ipureintro; exact View.read_writes_of_cover _ _ _ _ _ (cover_last_2 V c t _ _ _)
      isplitl [HS3]
      · unfold owns; iexists _; isplitr
        swap; · iexact HS3
        ipureintro; exact View.read_writes_of_cover _ _ _ _ _ (cover_last_3 V c t _ _ _)
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]
  · unfold owns; iexists _; isplitr
    swap; · iexact H21
    ipureintro; exact View.read_writes_of_cover _ _ _ _ _ (cover_last_out21 V c t _ _ _)
  isplitl [H22]
  · unfold owns; iexists _; isplitr
    swap; · iexact H22
    ipureintro; exact View.read_writes_of_cover _ _ _ _ _ (cover_last_out22 V c t _ _ _)
  unfold owns; iexists _; isplitr
  swap; · iexact H23
  ipureintro; exact View.read_writes_of_cover _ _ _ _ _ (cover_last_out23 V c t _ _ _)

/-- The body at any point: it is the first, the last or a middle one. -/
theorem sound_body0 (c : Dev nD) (t : Fin cfg0.N) :
    bodyPre0 V c t ⊢ wp frame (wpE (defs₀ (F := F)) Variants.none c none) Set.univ (bodyAt0 t) (fun _ => bodyPost0 V c t) := by
  have hN : t.val < 32 := lt_of_lt_of_eq t.isLt (show cfg0.N = 32 from N_0)
  by_cases h0 : t.val % 32 = 0
  · exact sound_first V c t h0 (by omega)
  · by_cases h1 : t.val % 32 = 31
    · exact sound_last V c t h0 h1
    · exact sound_mid V c t h0 h1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Phase1

end
-- ==== Proof.Ideal.Phase2Region.lean ====
import proofs.«169774_j34978213659000_2_alg».proof.Proof.Gen.KernelIdeal.Launch
import proofs.«169774_j34978213659000_2_alg».proof.Proof.Gen.KernelIdeal.Skeleton
import proofs.«169774_j34978213659000_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Phase2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Phase 2 (the trace update)

The phase-2 kernel runs on a 4 × 4 grid of 1024 × 1024 blocks of the two traces. At block (i, j) it reads that block
of the Hebbian and of the eligibility trace, columns 1024·j … of the modulation row and of the input gate's
activation, rows 1024·i … of x as a column, and eta; it stores the clipped Hebbian update
min(1, max(−1, hebb + mod·elig)) and the eligibility update (1 − eta)·elig + eta·(x_col·post). Nothing is kept
between points and every point stores both outputs whole.

Everything is stated at a parameter V, the TensorCore's buffer contents when the region is entered. -/

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole buffer -/

abbrev rM : Rect S1024x1024 := Rect.unit (s := S1024x1024) ![0, 0] S1024x1024.size inb_S1024x1024_S1024x1024_0_0
abbrev rRow : Rect S1x1024 := Rect.unit (s := S1x1024) ![0, 0] S1x1024.size inb_S1x1024_S1x1024_0_0
abbrev rCol : Rect S1024x1 := Rect.unit (s := S1024x1) ![0, 0] S1024x1.size inb_S1024x1_S1024x1_0_0
abbrev rOne : Rect S1x1 := Rect.unit (s := S1x1) ![0, 0] S1x1.size inb_S1x1_S1x1_0_0

/-! ## What the body leaves in each output window's buffer -/

/-- The new Hebbian block, from the Hebbian block, the eligibility block and the modulation's columns. -/
def out1_6 (x0 x1 : Vec F S1024x1024 .f32) (x2 : Vec F S1x1024 .f32) : Vec F S1024x1024 .f32 :=
  View.canon [⟨rM, k1_pay1 (View.ld x0 rM) (View.ld x1 rM) (View.ld x2 rRow)⟩]

/-- The new eligibility block, from the eligibility block, the activation's columns, x's rows and eta. -/
def out1_7 (x1 : Vec F S1024x1024 .f32) (x3 : Vec F S1x1024 .f32) (x4 : Vec F S1024x1 .f32) (x5 : Vec F S1x1 .f32) : Vec F S1024x1024 .f32 :=
  View.canon [⟨rM, k1_pay2 (View.ld x5 rOne) (View.ld x1 rM) (View.ld x3 rRow) (View.ld x4 rCol)⟩]

/-- One whole-buffer store covers the buffer. -/
theorem cover1 (p0 : Vec F S1024x1024 .f32) (y : S1024x1024.Idx) :
    ∃ pc ∈ ([⟨rM, p0⟩] : List (View.Piece (Elt F) S1024x1024 .f32)), y ∈ pc.1.set :=
  View.cover_of_tiled [⟨rM, p0⟩] S1024x1024.size (by rfl) y

/-! ## The body's triple -/

set_option maxHeartbeats 4000000 in
/-- On whole staging memrefs, the six inputs' at their contents and the two outputs' at anything, the body runs to
    the continuation holding the inputs' as they were and each output's at what its one store wrote. -/
theorem sound_kernel1 (c : Dev nD) (i : grid1.Coords) (E : Set ℕ)
    (arg2 : Memref sig .tc .vmem S1024x1024 .f32) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1024x1 .f32) (harg6 : arg6.IsWhole) (arg7 : Memref sig .tc .vmem S1x1 .f32) (harg7 : arg7.IsWhole)
    (arg8 : Memref sig .tc .vmem S1024x1024 .f32) (harg8 : arg8.IsWhole) (arg9 : Memref sig .tc .vmem S1024x1024 .f32) (harg9 : arg9.IsWhole)
    (x0 x1 : Vec F S1024x1024 .f32) (x2 x3 : Vec F S1x1024 .f32) (x4 : Vec F S1024x1 .f32) (x5 : Vec F S1x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out1_6 x0 x1 x2) ∗ owns (c : Thread nD τ) arg9 fullShare (out1_7 x1 x3 x4 x5)) -∗ K ⟨⟩))
      ⊢ wp frame (wpE (defs₀ (F := F)) Variants.none c none) E (cc1__phase2_kernel i arg2 harg2 arg3 harg3 arg4 harg4 arg5 harg5 arg6 harg6 arg7 harg7 arg8 harg8 arg9 harg9) K := by
  simp only [cc1__phase2_kernel_eq_skeleton]; unfold cc1__phase2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1 _)
  iexists _; isplitr
  swap; · iexact H7
  ipureintro
  exact View.read_writes_eq_canon _ _ _ (cover1 _)

/-! ## The pipeline's proof data -/

/-- The proof data of the phase-2 pipeline on core c: the arrays as the region finds them; after the body at point t
    each input's buffer at its block and each output's at the update of the input blocks; the class's invariant
    (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t)
    | ⟨7, _⟩ => out1_7 (iblk1 V c 1 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) := by dsimp only [dat1]
theorem after1_7 (c : Dev nD) (t : Fin cfg1.N) : (dat1 V c).after 7 t = out1_7 (iblk1 V c 1 t) (iblk1 V c 3 t) (iblk1 V c 4 t) (iblk1 V c 5 t) := by dsimp only [dat1]

theorem before1_0 (c : Dev nD) (t : Fin cfg1.N) (d) : (dat1 V c).before 0 t d = iblk1 V c 0 t := before1_0_of V (dat1 V c) (A_eq1 V c 0) (after1_0 V c) t d
theorem before1_1 (c : Dev nD) (t : Fin cfg1.N) (d) : (dat1 V c).before 1 t d = iblk1 V c 1 t := before1_1_of V (dat1 V c) (A_eq1 V c 1) (after1_1 V c) t d
theorem before1_2 (c : Dev nD) (t : Fin cfg1.N) (d) : (dat1 V c).before 2 t d = iblk1 V c 2 t := before1_2_of V (dat1 V c) (A_eq1 V c 2) (after1_2 V c) t d
theorem before1_3 (c : Dev nD) (t : Fin cfg1.N) (d) : (dat1 V c).before 3 t d = iblk1 V c 3 t := before1_3_of V (dat1 V c) (A_eq1 V c 3) (after1_3 V c) t d
theorem before1_4 (c : Dev nD) (t : Fin cfg1.N) (d) : (dat1 V c).before 4 t d = iblk1 V c 4 t := before1_4_of V (dat1 V c) (A_eq1 V c 4) (after1_4 V c) t d
theorem before1_5 (c : Dev nD) (t : Fin cfg1.N) (d) : (dat1 V c).before 5 t d = iblk1 V c 5 t := before1_5_of V (dat1 V c) (A_eq1 V c 5) (after1_5 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 4000000 in
/-- The body at any point: the inputs' memrefs hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c (grid1.coords t) Set.univ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Phase2

end
-- ==== Proof.Ideal.MainRun.lean ====
import proofs.«169774_j34978213659000_2_alg».proof.Proof.Ideal.Phase1Body
import proofs.«169774_j34978213659000_2_alg».proof.Proof.Ideal.Phase2Region
import proofs.«169774_j34978213659000_2_alg».proof.Proof.Gen.KernelIdeal.Regions

set_option maxRecDepth 16384

noncomputable section

namespace Cert.KernelIdeal.Run

open Cert.KernelIdeal Cert.KernelIdeal.Gen Cert.KernelIdeal.Phase1 Cert.KernelIdeal.Phase2
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole program: host reshapes, phase 1, the modulation on the host, phase 2

@main is four segments: eight reshapes of the biases to rows; the phase-1 region; the host lines that form the
modulation row mod = tanh(post·Wmi + bmi)·Wmo + bmo, x as a column and eta as a 1 × 1 array; the phase-2 region.
The buffer contents at each boundary are a fold from the launch memory m. -/

variable (m : (ℓ : Loc nD τ sig) → Buf (Elt F) ℓ) (ρ : Dev nD → PrngReg)

/-- Core c's buffers at launch. -/
abbrev W0 : Dev nD → Valuation τ sig (Elt F) := fun c b => m (c, b)
/-- After the reshapes (phase 1's entry). -/
abbrev W1 : Dev nD → Valuation τ sig (Elt F) := fun c => StableHlo.after hostOps0 (W0 m c)
/-- The same read at the TensorCore's references. -/
abbrev U1 : (c : Dev nD) → (b : Ref sig .tc) → Buf (Elt F) ((c : Thread nD τ).loc b) := fun c b => W1 m c b
/-- At phase 1's exit: its arrays at what the pipeline leaves (the inputs as entered, each output's write-back),
    every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the host lines between the regions (phase 2's entry). -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- At phase 2's exit. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)

/-! ## A buffer no segment writes ends as launched -/

/-- A window of phase 1 whose array is none of its three results is an input. -/
theorem in_of_not_out0 : ∀ w : Fin cfg0.W, Pipeline.arrRef spec0 w ∉ ([main_v8_0, main_v8_1, main_v8_2] : List (Ref sig .tc)) → (cfg0.win w).isOut = false := by
  decide +kernel
/-- A window of phase 2 whose array is neither of its two results is an input. -/
theorem in_of_not_out1 : ∀ w : Fin cfg1.W, Pipeline.arrRef spec1 w ∉ ([main_v18_0, main_v18_1] : List (Ref sig .tc)) → (cfg1.win w).isOut = false := by
  decide +kernel

/-- Phase 1 changes only its three results. -/
theorem W2_keeps (c : Dev nD) (b : Ref sig .tc) (hb : b ∉ ([main_v8_0, main_v8_1, main_v8_2] : List (Ref sig .tc))) :
    W2 m c (Proc.devRef .tc b) = W1 m c (Proc.devRef .tc b) := by
  by_cases h : ∃ w, Pipeline.arrRef spec0 w = b
  · obtain ⟨w, rfl⟩ := h
    rw [W2_arr]
    exact ((dat0 (U1 m) c).arrAt_in w (in_of_not_out0 w hb) _).trans (A_eq0 (U1 m) c w)
  · exact W2_of_ne m c b (fun w e => h ⟨w, e⟩)

/-- Phase 2 changes only its two results. -/
theorem W4_keeps (c : Dev nD) (b : Ref sig .tc) (hb : b ∉ ([main_v18_0, main_v18_1] : List (Ref sig .tc))) :
    W4 m c (Proc.devRef .tc b) = W3 m c (Proc.devRef .tc b) := by
  by_cases h : ∃ w, Pipeline.arrRef spec1 w = b
  · obtain ⟨w, rfl⟩ := h
    rw [W4_arr]
    exact ((dat1 (U3 m) c).arrAt_in w (in_of_not_out1 w hb) _).trans (A_eq1 (U3 m) c w)
  · exact W4_of_ne m c b (fun w e => h ⟨w, e⟩)

/-- A buffer that no host line writes and that is no region's result holds at the end what it held at launch. -/
theorem W4_untouched (c : Dev nD) (b : Ref sig .tc) (h0 : b ∉ hostOps0_W) (h1 : b ∉ ([main_v8_0, main_v8_1, main_v8_2] : List (Ref sig .tc)))
    (h2 : b ∉ hostOps1_W) (h3 : b ∉ ([main_v18_0, main_v18_1] : List (Ref sig .tc))) :
    W4 m c (Proc.devRef .tc b) = m ((c : Thread nD τ).loc b) :=
  (W4_keeps m c b h3).trans <| (StableHlo.after_of_writes_sub hostOps1 _ hostOps1_writes h2).trans <|
    (W2_keeps m c b h1).trans <| (StableHlo.after_of_writes_sub hostOps0 _ hostOps0_writes h0).trans rfl

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator
    register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Phase 1 over the thread state: entered from every unscoped buffer at W1, left at W2. Its arrays are split out of
    the unscoped buffers and put back at the exit contents; the generator register goes into the invariant and comes
    out; the invariant starts as what the launch hands over and ends giving that back (the accumulators' contents
    forgotten); nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m 0 c).Φ 0 from hin0 (U1 m) c)
    unfold Pipeline.ΦA
    iintro ⟨Hp, -, Hr⟩
    isplitl [Hr]; · iexact Hr
    iexact Hp
  hout c := by
    rw [Pipeline.ownSems0_none]
    refine BIBase.Entails.trans (show (pdats m 0 c).Φ (Fin.last _) ⊢ Pipeline.ΦA spec0 c from hout0 (U1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Phase 2 over the thread state: entered from every unscoped buffer at W3, left at W4. Nothing is kept between its
    points: the invariant is the scoped rest and the generator register, untouched. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
/-- @main is the run of the segments. -/
theorem main_run (c : Dev nD) : main (F := F) c = Pipeline.Seg.run (segs m) := (main_chain c).trans (by chain_rfl)

set_option backward.isDefEq.respectTransparency.types false in
/-- THE RUN. From any memory with zero counters, every weakly fair execution of @main on the TensorCores terminates,
    nothing faulting, and in every final state each unscoped buffer holds the last boundary's contents W4. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

end Cert.KernelIdeal.Run

end
-- ==== Proof.Ideal.Results.lean ====
import proofs.«169774_j34978213659000_2_alg».proof.Proof.Ideal.MainRun

set_option maxRecDepth 16384

noncomputable section

namespace Cert.KernelIdeal.Run

open Cert.KernelIdeal Cert.KernelIdeal.Gen Cert.KernelIdeal.Phase1 Cert.KernelIdeal.Phase2
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # What the run leaves: the arguments as launched, the results where the regions put them

No host line writes an argument and no region has one as a result, so each argument ends as launched. The first and
the fourth result (h and the new cell state) are phase 1's first two outputs, which nothing later writes; the
second and the third (the new traces) are phase 2's two outputs. -/

variable (m : (ℓ : Loc nD τ sig) → Buf (Elt F) ℓ) (ρ : Dev nD → PrngReg)

/-- THE FRAME: every weakly fair execution terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun r h c => ⟨
    (h c _ (mem_uc main_arg0 (by decide))).trans (W4_untouched m c main_arg0 (by decide) (by decide) (by decide) (by decide)),
    (h c _ (mem_uc main_arg1 (by decide))).trans (W4_untouched m c main_arg1 (by decide) (by decide) (by decide) (by decide)),
    (h c _ (mem_uc main_arg2 (by decide))).trans (W4_untouched m c main_arg2 (by decide) (by decide) (by decide) (by decide)),
    (h c _ (mem_uc main_arg3 (by decide))).trans (W4_untouched m c main_arg3 (by decide) (by decide) (by decide) (by decide)),
    (h c _ (mem_uc main_arg4 (by decide))).trans (W4_untouched m c main_arg4 (by decide) (by decide) (by decide) (by decide)),
    (h c _ (mem_uc main_arg5 (by decide))).trans (W4_untouched m c main_arg5 (by decide) (by decide) (by decide) (by decide)),
    (h c _ (mem_uc main_arg6 (by decide))).trans (W4_untouched m c main_arg6 (by decide) (by decide) (by decide) (by decide)),
    (h c _ (mem_uc main_arg7 (by decide))).trans (W4_untouched m c main_arg7 (by decide) (by decide) (by decide) (by decide)),
    (h c _ (mem_uc main_arg8 (by decide))).trans (W4_untouched m c main_arg8 (by decide) (by decide) (by decide) (by decide)),
    (h c _ (mem_uc main_arg9 (by decide))).trans (W4_untouched m c main_arg9 (by decide) (by decide) (by decide) (by decide)),
    (h c _ (mem_uc main_arg10 (by decide))).trans (W4_untouched m c main_arg10 (by decide) (by decide) (by decide) (by decide)),
    (h c _ (mem_uc main_arg11 (by decide))).trans (W4_untouched m c main_arg11 (by decide) (by decide) (by decide) (by decide)),
    (h c _ (mem_uc main_arg12 (by decide))).trans (W4_untouched m c main_arg12 (by decide) (by decide) (by decide) (by decide)),
    (h c _ (mem_uc main_arg13 (by decide))).trans (W4_untouched m c main_arg13 (by decide) (by decide) (by decide) (by decide)),
    (h c _ (mem_uc main_arg14 (by decide))).trans (W4_untouched m c main_arg14 (by decide) (by decide) (by decide) (by decide)),
    (h c _ (mem_uc main_arg15 (by decide))).trans (W4_untouched m c main_arg15 (by decide) (by decide) (by decide) (by decide)),
    (h c _ (mem_uc main_arg16 (by decide))).trans (W4_untouched m c main_arg16 (by decide) (by decide) (by decide) (by decide)),
    (h c _ (mem_uc main_arg17 (by decide))).trans (W4_untouched m c main_arg17 (by decide) (by decide) (by decide) (by decide)),
    (h c _ (mem_uc main_arg18 (by decide))).trans (W4_untouched m c main_arg18 (by decide) (by decide) (by decide) (by decide)),
    (h c _ (mem_uc main_arg19 (by decide))).trans (W4_untouched m c main_arg19 (by decide) (by decide) (by decide) (by decide)),
    (h c _ (mem_uc main_arg20 (by decide))).trans (W4_untouched m c main_arg20 (by decide) (by decide) (by decide) (by decide)),
    (h c _ (mem_uc main_arg21 (by decide))).trans (W4_untouched m c main_arg21 (by decide) (by decide) (by decide) (by decide)),
    (h c _ (mem_uc main_arg22 (by decide))).trans (W4_untouched m c main_arg22 (by decide) (by decide) (by decide) (by decide)),
    (h c _ (mem_uc main_arg23 (by decide))).trans (W4_untouched m c main_arg23 (by decide) (by decide) (by decide) (by decide)),
    (h c _ (mem_uc main_arg24 (by decide))).trans (W4_untouched m c main_arg24 (by decide) (by decide) (by decide) (by decide)),
    (h c _ (mem_uc main_arg25 (by decide))).trans (W4_untouched m c main_arg25 (by decide) (by decide) (by decide) (by decide)),
    (h c _ (mem_uc main_arg26 (by decide))).trans (W4_untouched m c main_arg26 (by decide) (by decide) (by decide) (by decide))⟩)
    (run_all m ρ)

/-! ## Where the results are -/

/-- h: phase 1's first output, which neither the host lines after it nor phase 2 write. -/
theorem W4_h (c : Dev nD) : W4 m c (Proc.devRef .tc main_v8_0) = (dat0 (U1 m) c).arrAt 21 cfg0.N :=
  (W4_keeps m c main_v8_0 (by decide)).trans <| (StableHlo.after_of_writes_sub hostOps1 _ hostOps1_writes (by decide)).trans (W2_arr m c 21)
/-- The new cell state: phase 1's second output. -/
theorem W4_c (c : Dev nD) : W4 m c (Proc.devRef .tc main_v8_1) = (dat0 (U1 m) c).arrAt 22 cfg0.N :=
  (W4_keeps m c main_v8_1 (by decide)).trans <| (StableHlo.after_of_writes_sub hostOps1 _ hostOps1_writes (by decide)).trans (W2_arr m c 22)
/-- The input gate's activation, as phase 1 leaves it for the host lines and for phase 2. -/
theorem W2_post (c : Dev nD) : W2 m c (Proc.devRef .tc main_v8_2) = (dat0 (U1 m) c).arrAt 23 cfg0.N := W2_arr m c 23
/-- The new Hebbian trace: phase 2's first output. -/
theorem W4_hebb (c : Dev nD) : W4 m c (Proc.devRef .tc main_v18_0) = (dat1 (U3 m) c).arrAt 6 cfg1.N := W4_arr m c 6
/-- The new eligibility trace: phase 2's second output. -/
theorem W4_elig (c : Dev nD) : W4 m c (Proc.devRef .tc main_v18_1) = (dat1 (U3 m) c).arrAt 7 cfg1.N := W4_arr m c 7

/-- An argument as phase 1 finds it: the reshapes before it write no argument. -/
theorem U1_arg (c : Dev nD) (b : Ref sig .tc) (h0 : b ∉ hostOps0_W) : U1 m c b = m ((c : Thread nD τ).loc b) :=
  (StableHlo.after_of_writes_sub hostOps0 _ hostOps0_writes h0).trans rfl
/-- A buffer as the host lines between the regions find it, when phase 1 does not write it. -/
theorem W2_arg (c : Dev nD) (b : Ref sig .tc) (h0 : b ∉ hostOps0_W) (h1 : b ∉ ([main_v8_0, main_v8_1, main_v8_2] : List (Ref sig .tc))) :
    W2 m c (Proc.devRef .tc b) = m ((c : Thread nD τ).loc b) :=
  (W2_keeps m c b h1).trans (U1_arg m c b h0)
/-- An argument as phase 2 finds it. -/
theorem U3_arg (c : Dev nD) (b : Ref sig .tc) (h0 : b ∉ hostOps0_W) (h1 : b ∉ ([main_v8_0, main_v8_1, main_v8_2] : List (Ref sig .tc))) (h2 : b ∉ hostOps1_W) :
    U3 m c b = m ((c : Thread nD τ).loc b) :=
  (StableHlo.after_of_writes_sub hostOps1 _ hostOps1_writes h2).trans (W2_arg m c b h0 h1)

end Cert.KernelIdeal.Run

end
-- ==== Proof.Ideal.Phase1Pieces.lean ====
import proofs.«169774_j34978213659000_2_alg».proof.Proof.Ideal.Phase1Acc
import Idealize.ShloMosaic.Lib.Pipeline.Value

set_option maxRecDepth 16384

noncomputable section

namespace Cert.KernelIdeal.Phase1

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

/-! # Phase 1: what each run's stores hold, as the body's arithmetic over the point's blocks

Every load and store of the body is of a whole buffer, so each accumulator after a point is ONE payload of the
skeleton: the accumulate step k0_pay13 / 15 / 16 / 17 of the blocks and of what the accumulator held (zero, at the
first point); and each output after the last point is the finishing payload over this point's accumulators, the
biases and the cell state. -/

variable (V : (c : Dev nD) → (b : Ref sig .tc) → Buf (Elt F) ((c : Thread nD τ).loc b))

/-- Both offsets of a whole-buffer rectangle are zero. -/
theorem hz2 : (![0, 0] : Fin 2 → Nat) = fun _ => 0 := by
  funext a; match a with | ⟨0, _⟩ => rfl | ⟨1, _⟩ => rfl

/-! ## A middle point -/

/-- The input gate's accumulator: what it held plus x_k·Wi_k + x_k·(alpha ∘ hebb)_k + r_k·Whi_k. -/
theorem accMid_0 (c : Dev nD) (t : Fin cfg0.N) (hc0 : ¬cond0_0 (grid0.coords t)) (hc1 : ¬cond0_1 (grid0.coords t)) (s : Acc4 F) :
    (accMid V c t hc0 hc1 s).1 = k0_pay13 (iblk0 V c 0 t) (iblk0 V c 1 t) (iblk0 V c 10 t) (iblk0 V c 11 t) s.1 (iblk0 V c 2 t) (iblk0 V c 6 t) := by
  unfold accMid; dsimp only
  rw [View.read_writes_eq_canon _ _ _ (cover_mid_0 V c t hc0 hc1 s)]
  unfold midAt runMid; dsimp only; sl_unfold_words
  rw [View.canon_unit_zero hz2]
  simp only [View.readAt_eq_ld, Memref.IsWhole.read_unread, View.ld_unit_zero (S := S1x128) hz2, View.ld_unit_zero (S := S128x4096) hz2,
    View.ld_unit_zero (S := S1x4096) hz2]
  exact congrArg (fun z => k0_pay13 (iblk0 V c 0 t) (iblk0 V c 1 t) (iblk0 V c 10 t) (iblk0 V c 11 t) z (iblk0 V c 2 t) (iblk0 V c 6 t))
    ((Memref.isWhole_whole _).read_unread _)

/-- The j gate's accumulator: what it held plus x_k·Wj_k + r_k·Whj_k. -/
theorem accMid_1 (c : Dev nD) (t : Fin cfg0.N) (hc0 : ¬cond0_0 (grid0.coords t)) (hc1 : ¬cond0_1 (grid0.coords t)) (s : Acc4 F) :
    (accMid V c t hc0 hc1 s).2.1 = k0_pay15 (k0_pay12 (iblk0 V c 1 t)) s.2.1 (k0_pay14 (iblk0 V c 0 t) (iblk0 V c 3 t)) (iblk0 V c 7 t) := by
  unfold accMid; dsimp only
  rw [View.read_writes_eq_canon _ _ _ (cover_mid_1 V c t hc0 hc1 s)]
  unfold midAt runMid; dsimp only; sl_unfold_words
  rw [View.canon_unit_zero hz2]
  simp only [View.readAt_eq_ld, Memref.IsWhole.read_unread, View.ld_unit_zero (S := S1x128) hz2, View.ld_unit_zero (S := S128x4096) hz2,
    View.ld_unit_zero (S := S1x4096) hz2]
  exact congrArg (fun z => k0_pay15 (k0_pay12 (iblk0 V c 1 t)) z (k0_pay14 (iblk0 V c 0 t) (iblk0 V c 3 t)) (iblk0 V c 7 t))
    ((Memref.isWhole_whole _).read_unread _)

/-- The f gate's accumulator: what it held plus x_k·Wf_k + r_k·Whf_k. -/
theorem accMid_2 (c : Dev nD) (t : Fin cfg0.N) (hc0 : ¬cond0_0 (grid0.coords t)) (hc1 : ¬cond0_1 (grid0.coords t)) (s : Acc4 F) :
    (accMid V c t hc0 hc1 s).2.2.1 = k0_pay16 (k0_pay11 (iblk0 V c 0 t)) (k0_pay12 (iblk0 V c 1 t)) s.2.2.1 (iblk0 V c 4 t) (iblk0 V c 8 t) := by
  unfold accMid; dsimp only
  rw [View.read_writes_eq_canon _ _ _ (cover_mid_2 V c t hc0 hc1 s)]
  unfold midAt runMid; dsimp only; sl_unfold_words
  rw [View.canon_unit_zero hz2]
  simp only [View.readAt_eq_ld, Memref.IsWhole.read_unread, View.ld_unit_zero (S := S1x128) hz2, View.ld_unit_zero (S := S128x4096) hz2,
    View.ld_unit_zero (S := S1x4096) hz2]
  exact congrArg (fun z => k0_pay16 (k0_pay11 (iblk0 V c 0 t)) (k0_pay12 (iblk0 V c 1 t)) z (iblk0 V c 4 t) (iblk0 V c 8 t))
    ((Memref.isWhole_whole _).read_unread _)

/-- The o gate's accumulator: what it held plus x_k·Wo_k + r_k·Who_k. -/
theorem accMid_3 (c : Dev nD) (t : Fin cfg0.N) (hc0 : ¬cond0_0 (grid0.coords t)) (hc1 : ¬cond0_1 (grid0.coords t)) (s : Acc4 F) :
    (accMid V c t hc0 hc1 s).2.2.2 = k0_pay17 (k0_pay11 (iblk0 V c 0 t)) (k0_pay12 (iblk0 V c 1 t)) s.2.2.2 (iblk0 V c 5 t) (iblk0 V c 9 t) := by
  unfold accMid; dsimp only
  rw [View.read_writes_eq_canon _ _ _ (cover_mid_3 V c t hc0 hc1 s)]
  unfold midAt runMid; dsimp only; sl_unfold_words
  rw [View.canon_unit_zero hz2]
  simp only [View.readAt_eq_ld, Memref.IsWhole.read_unread, View.ld_unit_zero (S := S1x128) hz2, View.ld_unit_zero (S := S128x4096) hz2,
    View.ld_unit_zero (S := S1x4096) hz2]
  exact congrArg (fun z => k0_pay17 (k0_pay11 (iblk0 V c 0 t)) (k0_pay12 (iblk0 V c 1 t)) z (iblk0 V c 5 t) (iblk0 V c 9 t))
    ((Memref.isWhole_whole _).read_unread _)

/-! ## The steps by name

One accumulate step per gate, as a function of what the accumulator held; and the four finishing payloads. -/

/-- The input gate's step at point t: a ↦ a + ((x_t·Wi_t + x_t·(alpha ∘ hebb)_t) + r_t·Whi_t). -/
abbrev stepI (c : Dev nD) (t : Fin cfg0.N) (a : Vec F S1x4096 .f32) : FVec F S1x4096 .f32 :=
  k0_pay13 (iblk0 V c 0 t) (iblk0 V c 1 t) (iblk0 V c 10 t) (iblk0 V c 11 t) a (iblk0 V c 2 t) (iblk0 V c 6 t)
/-- The j gate's step: a ↦ a + (x_t·Wj_t + r_t·Whj_t). -/
abbrev stepJ (c : Dev nD) (t : Fin cfg0.N) (a : Vec F S1x4096 .f32) : FVec F S1x4096 .f32 :=
  k0_pay15 (k0_pay12 (iblk0 V c 1 t)) a (k0_pay14 (iblk0 V c 0 t) (iblk0 V c 3 t)) (iblk0 V c 7 t)
/-- The f gate's step: a ↦ a + (x_t·Wf_t + r_t·Whf_t). -/
abbrev stepF (c : Dev nD) (t : Fin cfg0.N) (a : Vec F S1x4096 .f32) : FVec F S1x4096 .f32 :=
  k0_pay16 (k0_pay11 (iblk0 V c 0 t)) (k0_pay12 (iblk0 V c 1 t)) a (iblk0 V c 4 t) (iblk0 V c 8 t)
/-- The o gate's step: a ↦ a + (x_t·Wo_t + r_t·Who_t). -/
abbrev stepO (c : Dev nD) (t : Fin cfg0.N) (a : Vec F S1x4096 .f32) : FVec F S1x4096 .f32 :=
  k0_pay17 (k0_pay11 (iblk0 V c 0 t)) (k0_pay12 (iblk0 V c 1 t)) a (iblk0 V c 5 t) (iblk0 V c 9 t)

/-- The input gate's activation from its finished sum: tanh((a + bi) + bhi). -/
abbrev finP (c : Dev nD) (t : Fin cfg0.N) (a : Vec F S1x4096 .f32) : FVec F S1x4096 .f32 := k0_pay3 a (iblk0 V c 12 t) (iblk0 V c 16 t)
/-- The j gate: tanh((a + bj) + bhj). -/
abbrev finJ (c : Dev nD) (t : Fin cfg0.N) (a : Vec F S1x4096 .f32) : FVec F S1x4096 .f32 := k0_pay4 a (iblk0 V c 13 t) (iblk0 V c 17 t)
/-- The o gate: tanh((a + bo) + bho). -/
abbrev finO (c : Dev nD) (t : Fin cfg0.N) (a : Vec F S1x4096 .f32) : FVec F S1x4096 .f32 := k0_pay5 a (iblk0 V c 15 t) (iblk0 V c 19 t)
/-- The f gate times the cell state: tanh((a + bf) + bhf) ∘ cell. -/
abbrev finFc (c : Dev nD) (t : Fin cfg0.N) (a : Vec F S1x4096 .f32) : FVec F S1x4096 .f32 := k0_pay6 a (iblk0 V c 14 t) (iblk0 V c 18 t) (iblk0 V c 20 t)

/-! ## The first point: the steps over zero -/

theorem accFirst_0 (c : Dev nD) (t : Fin cfg0.N) (hc0 : cond0_0 (grid0.coords t)) (hc1 : ¬cond0_1 (grid0.coords t)) :
    (accFirst V c t hc0 hc1).1 = stepI V c t k0_pay7 := by
  unfold accFirst; dsimp only
  rw [View.read_writes_eq_canon _ _ _ (cover_first_0 V c t hc0 hc1)]
  unfold firstAt runFirst; dsimp only; sl_unfold_words
  rw [View.canon_cons_unit_zero hz2]
  simp only [View.readAt_eq_ld, Memref.IsWhole.read_unread, View.ld_unit_zero (S := S1x128) hz2, View.ld_unit_zero (S := S128x4096) hz2,
    View.ld_unit_zero (S := S1x4096) hz2, View.readCov_unit_zero (S := S1x4096) _ hz2]
theorem accFirst_1 (c : Dev nD) (t : Fin cfg0.N) (hc0 : cond0_0 (grid0.coords t)) (hc1 : ¬cond0_1 (grid0.coords t)) :
    (accFirst V c t hc0 hc1).2.1 = stepJ V c t k0_pay8 := by
  unfold accFirst; dsimp only
  rw [View.read_writes_eq_canon _ _ _ (cover_first_1 V c t hc0 hc1)]
  unfold firstAt runFirst; dsimp only; sl_unfold_words
  rw [View.canon_cons_unit_zero hz2]
  simp only [View.readAt_eq_ld, Memref.IsWhole.read_unread, View.ld_unit_zero (S := S1x128) hz2, View.ld_unit_zero (S := S128x4096) hz2,
    View.ld_unit_zero (S := S1x4096) hz2, View.readCov_unit_zero (S := S1x4096) _ hz2]
theorem accFirst_2 (c : Dev nD) (t : Fin cfg0.N) (hc0 : cond0_0 (grid0.coords t)) (hc1 : ¬cond0_1 (grid0.coords t)) :
    (accFirst V c t hc0 hc1).2.2.1 = stepF V c t k0_pay9 := by
  unfold accFirst; dsimp only
  rw [View.read_writes_eq_canon _ _ _ (cover_first_2 V c t hc0 hc1)]
  unfold firstAt runFirst; dsimp only; sl_unfold_words
  rw [View.canon_cons_unit_zero hz2]
  simp only [View.readAt_eq_ld, Memref.IsWhole.read_unread, View.ld_unit_zero (S := S1x128) hz2, View.ld_unit_zero (S := S128x4096) hz2,
    View.ld_unit_zero (S := S1x4096) hz2, View.readCov_unit_zero (S := S1x4096) _ hz2]
theorem accFirst_3 (c : Dev nD) (t : Fin cfg0.N) (hc0 : cond0_0 (grid0.coords t)) (hc1 : ¬cond0_1 (grid0.coords t)) :
    (accFirst V c t hc0 hc1).2.2.2 = stepO V c t k0_pay10 := by
  unfold accFirst; dsimp only
  rw [View.read_writes_eq_canon _ _ _ (cover_first_3 V c t hc0 hc1)]
  unfold firstAt runFirst; dsimp only; sl_unfold_words
  rw [View.canon_cons_unit_zero hz2]
  simp only [View.readAt_eq_ld, Memref.IsWhole.read_unread, View.ld_unit_zero (S := S1x128) hz2, View.ld_unit_zero (S := S128x4096) hz2,
    View.ld_unit_zero (S := S1x4096) hz2, View.readCov_unit_zero (S := S1x4096) _ hz2]

/-! ## The last point: the steps, then the finish over them -/

theorem accLast_0 (c : Dev nD) (t : Fin cfg0.N) (hc0 : ¬cond0_0 (grid0.coords t)) (hc1 : cond0_1 (grid0.coords t)) (s : Acc4 F) :
    (accLast V c t hc0 hc1 s).1 = stepI V c t s.1 := by
  unfold accLast; dsimp only
  rw [View.read_writes_eq_canon _ _ _ (cover_last_0 V c t hc0 hc1 s)]
  unfold lastAt runLast; dsimp only; sl_unfold_words
  rw [View.canon_unit_zero hz2]
  simp only [View.readAt_eq_ld, Memref.IsWhole.read_unread, View.ld_unit_zero (S := S1x128) hz2, View.ld_unit_zero (S := S128x4096) hz2,
    View.ld_unit_zero (S := S1x4096) hz2]
  exact congrArg (fun z => stepI V c t z) ((Memref.isWhole_whole _).read_unread _)
theorem accLast_1 (c : Dev nD) (t : Fin cfg0.N) (hc0 : ¬cond0_0 (grid0.coords t)) (hc1 : cond0_1 (grid0.coords t)) (s : Acc4 F) :
    (accLast V c t hc0 hc1 s).2.1 = stepJ V c t s.2.1 := by
  unfold accLast; dsimp only
  rw [View.read_writes_eq_canon _ _ _ (cover_last_1 V c t hc0 hc1 s)]
  unfold lastAt runLast; dsimp only; sl_unfold_words
  rw [View.canon_unit_zero hz2]
  simp only [View.readAt_eq_ld, Memref.IsWhole.read_unread, View.ld_unit_zero (S := S1x128) hz2, View.ld_unit_zero (S := S128x4096) hz2,
    View.ld_unit_zero (S := S1x4096) hz2]
  exact congrArg (fun z => stepJ V c t z) ((Memref.isWhole_whole _).read_unread _)
theorem accLast_2 (c : Dev nD) (t : Fin cfg0.N) (hc0 : ¬cond0_0 (grid0.coords t)) (hc1 : cond0_1 (grid0.coords t)) (s : Acc4 F) :
    (accLast V c t hc0 hc1 s).2.2.1 = stepF V c t s.2.2.1 := by
  unfold accLast; dsimp only
  rw [View.read_writes_eq_canon _ _ _ (cover_last_2 V c t hc0 hc1 s)]
  unfold lastAt runLast; dsimp only; sl_unfold_words
  rw [View.canon_unit_zero hz2]
  simp only [View.readAt_eq_ld, Memref.IsWhole.read_unread, View.ld_unit_zero (S := S1x128) hz2, View.ld_unit_zero (S := S128x4096) hz2,
    View.ld_unit_zero (S := S1x4096) hz2]
  exact congrArg (fun z => stepF V c t z) ((Memref.isWhole_whole _).read_unread _)
theorem accLast_3 (c : Dev nD) (t : Fin cfg0.N) (hc0 : ¬cond0_0 (grid0.coords t)) (hc1 : cond0_1 (grid0.coords t)) (s : Acc4 F) :
    (accLast V c t hc0 hc1 s).2.2.2 = stepO V c t s.2.2.2 := by
  unfold accLast; dsimp only
  rw [View.read_writes_eq_canon _ _ _ (cover_last_3 V c t hc0 hc1 s)]
  unfold lastAt runLast; dsimp only; sl_unfold_words
  rw [View.canon_unit_zero hz2]
  simp only [View.readAt_eq_ld, Memref.IsWhole.read_unread, View.ld_unit_zero (S := S1x128) hz2, View.ld_unit_zero (S := S128x4096) hz2,
    View.ld_unit_zero (S := S1x4096) hz2]
  exact congrArg (fun z => stepO V c t z) ((Memref.isWhole_whole _).read_unread _)

/-- The input gate's activation, as stored into the third output. -/
theorem outLast_post (c : Dev nD) (t : Fin cfg0.N) (hc0 : ¬cond0_0 (grid0.coords t)) (hc1 : cond0_1 (grid0.coords t)) (s : Acc4 F) :
    (outLast V c t hc0 hc1 s).2.2 = finP V c t (stepI V c t s.1) := by
  unfold outLast; dsimp only
  rw [View.read_writes_eq_canon _ _ _ (cover_last_out23 V c t hc0 hc1 s)]
  unfold lastAt runLast; dsimp only; sl_unfold_words
  rw [View.canon_unit_zero hz2]
  simp only [View.readAt_eq_ld, Memref.IsWhole.read_unread, View.ld_unit_zero (S := S1x128) hz2, View.ld_unit_zero (S := S128x4096) hz2,
    View.ld_unit_zero (S := S1x4096) hz2, View.readCov_unit_zero (S := S1x4096) _ hz2]
  exact congrArg (fun z => finP V c t (stepI V c t z)) ((Memref.isWhole_whole _).read_unread _)

/-- h, as stored into the first output: tanh(c') ∘ o over this point's finished sums. -/
theorem outLast_h (c : Dev nD) (t : Fin cfg0.N) (hc0 : ¬cond0_0 (grid0.coords t)) (hc1 : cond0_1 (grid0.coords t)) (s : Acc4 F) :
    (outLast V c t hc0 hc1 s).1 = k0_pay2 (finP V c t (stepI V c t s.1)) (finJ V c t (stepJ V c t s.2.1))
      (finO V c t (stepO V c t s.2.2.2)) (finFc V c t (stepF V c t s.2.2.1)) := by
  unfold outLast; dsimp only
  rw [View.read_writes_eq_canon _ _ _ (cover_last_out21 V c t hc0 hc1 s)]
  unfold lastAt runLast; dsimp only; sl_unfold_words
  rw [View.canon_unit_zero hz2]
  simp only [View.readAt_eq_ld, Memref.IsWhole.read_unread, View.ld_unit_zero (S := S1x128) hz2, View.ld_unit_zero (S := S128x4096) hz2,
    View.ld_unit_zero (S := S1x4096) hz2, View.readCov_unit_zero (S := S1x4096) _ hz2]
  have e0 : View.read (Elt F) (View.whole cc0_scratch0) _ = s.1 := (Memref.isWhole_whole _).read_unread _
  have e1 : View.read (Elt F) (View.whole cc0_scratch1) _ = s.2.1 := (Memref.isWhole_whole _).read_unread _
  have e2 : View.read (Elt F) (View.whole cc0_scratch2) _ = s.2.2.1 := (Memref.isWhole_whole _).read_unread _
  have e3 : View.read (Elt F) (View.whole cc0_scratch3) _ = s.2.2.2 := (Memref.isWhole_whole _).read_unread _
  rw [e0, e1, e2, e3]

/-- The new cell state, as stored into the second output: f ∘ cell + post ∘ j. -/
theorem outLast_c (c : Dev nD) (t : Fin cfg0.N) (hc0 : ¬cond0_0 (grid0.coords t)) (hc1 : cond0_1 (grid0.coords t)) (s : Acc4 F) :
    (outLast V c t hc0 hc1 s).2.1 = k0_pay1 (finP V c t (stepI V c t s.1)) (finJ V c t (stepJ V c t s.2.1))
      (finFc V c t (stepF V c t s.2.2.1)) := by
  unfold outLast; dsimp only
  rw [View.read_writes_eq_canon _ _ _ (cover_last_out22 V c t hc0 hc1 s)]
  unfold lastAt runLast; dsimp only; sl_unfold_words
  rw [View.canon_unit_zero hz2]
  simp only [View.readAt_eq_ld, Memref.IsWhole.read_unread, View.ld_unit_zero (S := S1x128) hz2, View.ld_unit_zero (S := S128x4096) hz2,
    View.ld_unit_zero (S := S1x4096) hz2, View.readCov_unit_zero (S := S1x4096) _ hz2]
  have e0 : View.read (Elt F) (View.whole cc0_scratch0) _ = s.1 := (Memref.isWhole_whole _).read_unread _
  have e1 : View.read (Elt F) (View.whole cc0_scratch1) _ = s.2.1 := (Memref.isWhole_whole _).read_unread _
  have e2 : View.read (Elt F) (View.whole cc0_scratch2) _ = s.2.2.1 := (Memref.isWhole_whole _).read_unread _
  rw [e0, e1, e2]

end Cert.KernelIdeal.Phase1

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.Ideal.Phase1Steps.lean ====
import proofs.«169774_j34978213659000_2_alg».proof.Proof.Gen.KernelIdeal.Skeleton
import proofs.«169774_j34978213659000_2_alg».proof.Proof.LibPlainMatmul
import Idealize.ShloMosaic.Lib.ValueIdx
import Idealize.ShloMosaic.Lib.Pipeline.Value

set_option maxRecDepth 16384

noncomputable section

namespace Cert.KernelIdeal.Phase1

open Cert.KernelIdeal Cert.KernelIdeal.Gen
open Idealize.ShloMosaic Idealize.ShloMosaic.ValueIdx

/-! # Phase 1: the body's arithmetic at an index, on the extended reals

At the ideal values a change of float format is the identity and a matrix product into the zero accumulator is the
plain sum. So at column j each accumulate step is "what the accumulator held, plus the dot products of the block's
128 entries of x (or r) with column j of the block's 128 rows", and each finishing payload is the textbook formula. -/

/-- The dot product of a block of 128 entries of a row with column j of a block of 128 rows. -/
def dotB (v : Vec Ideal S1x128 .f32) (W : Vec Ideal S128x4096 .f32) (j : Fin 4096) : EReal :=
  ∑ k : Fin 128, v (ix2 0 k) * W (ix2 k j)

/-- The vector tanh at an index. -/
theorem tanh_at {s : Shape} {φ : FTy} (v : FVec Ideal s φ) (i : s.Idx) : tanh v i = Ideal.tanh (v i) := rfl

/-- A [1, 128] × [128, 4096] product into the zero accumulator, at column j. -/
theorem matmulRow {φ₁ φ₂ : FTy} (lhs : FVec Ideal S1x128 φ₁) (rhs : FVec Ideal S128x4096 φ₂) (j : Fin 4096) :
    matmul dot_S1x128_S128x4096_S1x4096_1_0_0_1_n_n none lhs rhs (constant S1x4096 .f32 0x00000000#32) (ix2 0 j)
      = ∑ k : Fin 128, lhs (ix2 0 k) * rhs (ix2 k j) :=
  matmul_plain_zero_apply 1 128 4096 none lhs rhs 0 j

/-- The zero the first point stores. -/
theorem pay7_apply (j : Fin 4096) : k0_pay7 (F := Ideal) (ix2 0 j) = 0 := by
  unfold k0_pay7; (try dsimp only)
  rw [shapeCast_self]
  exact Ideal.ofBits_zero_f32

/-- The input gate's step at column j. -/
theorem pay13_apply (v3 v5 : Vec Ideal S1x128 .f32) (v7 v8 : Vec Ideal S128x4096 .f32) (v11 : Vec Ideal S1x4096 .f32)
    (v12 v17 : Vec Ideal S128x4096 .f32) (j : Fin 4096) :
    k0_pay13 (F := Ideal) v3 v5 v7 v8 v11 v12 v17 (ix2 0 j)
      = v11 (ix2 0 j) + ((dotB v3 v12 j + dotB v3 (fun i => v7 i * v8 i) j) + dotB v5 v17 j) := by
  unfold k0_pay13 k0_pay11 k0_pay12 dotB; (try dsimp only)
  rw [shapeCast_self]
  simp only [addf_apply, matmulRow, truncf_apply, mulf_apply]

/-- The j gate's step at column j (the product with Wj_k is formed in an earlier part of the body). -/
theorem pay15_apply (v3 v5 : Vec Ideal S1x128 .f32) (v25 : Vec Ideal S1x4096 .f32) (v26 v29 : Vec Ideal S128x4096 .f32) (j : Fin 4096) :
    k0_pay15 (F := Ideal) (k0_pay12 v5) v25 (k0_pay14 v3 v26) v29 (ix2 0 j)
      = v25 (ix2 0 j) + (dotB v3 v26 j + dotB v5 v29 j) := by
  unfold k0_pay15 k0_pay14 k0_pay11 k0_pay12 dotB; (try dsimp only)
  rw [shapeCast_self]
  simp only [addf_apply, matmulRow, truncf_apply, mulf_apply]

/-- The f gate's step at column j. -/
theorem pay16_apply (v3 v5 : Vec Ideal S1x128 .f32) (v37 : Vec Ideal S1x4096 .f32) (v38 v41 : Vec Ideal S128x4096 .f32) (j : Fin 4096) :
    k0_pay16 (F := Ideal) (k0_pay11 v3) (k0_pay12 v5) v37 v38 v41 (ix2 0 j)
      = v37 (ix2 0 j) + (dotB v3 v38 j + dotB v5 v41 j) := by
  unfold k0_pay16 k0_pay11 k0_pay12 dotB; (try dsimp only)
  rw [shapeCast_self]
  simp only [addf_apply, matmulRow, truncf_apply, mulf_apply]

/-- The o gate's step at column j. -/
theorem pay17_apply (v3 v5 : Vec Ideal S1x128 .f32) (v49 : Vec Ideal S1x4096 .f32) (v50 v53 : Vec Ideal S128x4096 .f32) (j : Fin 4096) :
    k0_pay17 (F := Ideal) (k0_pay11 v3) (k0_pay12 v5) v49 v50 v53 (ix2 0 j)
      = v49 (ix2 0 j) + (dotB v3 v50 j + dotB v5 v53 j) := by
  unfold k0_pay17 k0_pay11 k0_pay12 dotB; (try dsimp only)
  rw [shapeCast_self]
  simp only [addf_apply, matmulRow, truncf_apply, mulf_apply]

/-- A gate from its finished sum and its two bias rows: tanh((a + b) + bh). -/
theorem pay3_apply (v64 v65 v68 : Vec Ideal S1x4096 .f32) (i : S1x4096.Idx) :
    k0_pay3 (F := Ideal) v64 v65 v68 i = Ideal.tanh ((v64 i + v65 i) + v68 i) := by
  unfold k0_pay3; (try dsimp only)
  rw [shapeCast_self, shapeCast_self]
  simp only [tanh_at, addf_apply]
theorem pay4_apply (v72 v73 v76 : Vec Ideal S1x4096 .f32) (i : S1x4096.Idx) :
    k0_pay4 (F := Ideal) v72 v73 v76 i = Ideal.tanh ((v72 i + v73 i) + v76 i) := by
  unfold k0_pay4; (try dsimp only)
  rw [shapeCast_self, shapeCast_self]
  simp only [tanh_at, addf_apply]
theorem pay5_apply (v88 v89 v92 : Vec Ideal S1x4096 .f32) (i : S1x4096.Idx) :
    k0_pay5 (F := Ideal) v88 v89 v92 i = Ideal.tanh ((v88 i + v89 i) + v92 i) := by
  unfold k0_pay5; (try dsimp only)
  rw [shapeCast_self, shapeCast_self]
  simp only [tanh_at, addf_apply]
/-- The f gate times the cell state. -/
theorem pay6_apply (v80 v81 v84 v96 : Vec Ideal S1x4096 .f32) (i : S1x4096.Idx) :
    k0_pay6 (F := Ideal) v80 v81 v84 v96 i = Ideal.tanh ((v80 i + v81 i) + v84 i) * v96 i := by
  unfold k0_pay6; (try dsimp only)
  rw [shapeCast_self, shapeCast_self]
  simp only [tanh_at, addf_apply, mulf_apply]
/-- The new cell state: f·cell + post·j. -/
theorem pay1_apply (v71 v79 v97 : FVec Ideal S1x4096 .f32) (i : S1x4096.Idx) :
    k0_pay1 (F := Ideal) v71 v79 v97 i = v97 i + v71 i * v79 i := by
  unfold k0_pay1; (try dsimp only)
  simp only [addf_apply, mulf_apply]
/-- h: tanh of the new cell state, times the o gate. -/
theorem pay2_apply (v71 v79 v95 v97 : FVec Ideal S1x4096 .f32) (i : S1x4096.Idx) :
    k0_pay2 (F := Ideal) v71 v79 v95 v97 i = Ideal.tanh (v97 i + v71 i * v79 i) * v95 i := by
  unfold k0_pay2; (try dsimp only)
  simp only [tanh_at, mulf_apply, pay1_apply]

end Cert.KernelIdeal.Phase1

end
-- ==== Proof.Ideal.Phase1Reads.lean ====
import proofs.«169774_j34978213659000_2_alg».proof.Proof.Ideal.Phase1Blocks
import Idealize.ShloMosaic.Lib.ValueIdx
import Idealize.ShloMosaic.Lib.Pipeline.Value

set_option maxRecDepth 16384

noncomputable section

namespace Cert.KernelIdeal.Phase1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

/-! # Phase 1: a block's entry is an entry of its array

Block t of x and of r is columns 128·t … 128·t + 127 of the row; block t of each of the ten matrices is rows
128·t … 128·t + 127; the biases' and the cell state's one block is the whole row. -/

variable (V : (c : Dev nD) → (b : Ref sig .tc) → Buf (Elt F) ((c : Thread nD τ).loc b))

/-- Row 128·t + k of a 4096-row matrix, for t one of the 32 points. -/
abbrev rowOf (t : Fin cfg0.N) (k : Fin 128) : Fin 4096 :=
  ⟨128 * t.val + k.val, by have := lt_of_lt_of_eq t.isLt (show cfg0.N = 32 from N_0); have := k.isLt; omega⟩

/-- The column blocks' index maps: block (0, t). -/
theorem index_col0 : ∀ t : Fin cfg0.N, win0_0.index t 0 = 0 ∧ win0_0.index t 1 = t.val :=
  (by decide +kernel : ∀ t : Fin grid0.N, win0_0.index t 0 = 0 ∧ win0_0.index t 1 = t.val)
theorem index_col1 : ∀ t : Fin cfg0.N, win0_1.index t 0 = 0 ∧ win0_1.index t 1 = t.val :=
  (by decide +kernel : ∀ t : Fin grid0.N, win0_1.index t 0 = 0 ∧ win0_1.index t 1 = t.val)

/-- Block t of x at column k is x at column 128·t + k. -/
theorem blk_x (c : Dev nD) (t : Fin cfg0.N) (k : Fin 128) :
    (iblk0 V c 0 t : Vec F S1x128 .f32) (ix2 0 k) = V c main_arg0 (ix2 0 (rowOf t k)) := by
  unfold iblk0
  rw [View.read_apply]
  show V c main_arg0 _ = V c main_arg0 _
  congr 1
  funext a
  apply Fin.ext
  match a with
  | ⟨0, _⟩ => show win0_0.index t 0 * 1 + 1 * 0 = 0; rw [(index_col0 t).1]
  | ⟨1, _⟩ => show win0_0.index t 1 * 128 + 1 * k.val = 128 * t.val + k.val; rw [(index_col0 t).2]; omega

/-- Block t of r at column k is r at column 128·t + k. -/
theorem blk_r (c : Dev nD) (t : Fin cfg0.N) (k : Fin 128) :
    (iblk0 V c 1 t : Vec F S1x128 .f32) (ix2 0 k) = V c main_arg1 (ix2 0 (rowOf t k)) := by
  unfold iblk0
  rw [View.read_apply]
  show V c main_arg1 _ = V c main_arg1 _
  congr 1
  funext a
  apply Fin.ext
  match a with
  | ⟨0, _⟩ => show win0_1.index t 0 * 1 + 1 * 0 = 0; rw [(index_col1 t).1]
  | ⟨1, _⟩ => show win0_1.index t 1 * 128 + 1 * k.val = 128 * t.val + k.val; rw [(index_col1 t).2]; omega

/-- The row blocks' index maps: block (t, 0). -/
theorem index_row2 : ∀ t : Fin cfg0.N, win0_2.index t 0 = t.val ∧ win0_2.index t 1 = 0 :=
  (by decide +kernel : ∀ t : Fin grid0.N, win0_2.index t 0 = t.val ∧ win0_2.index t 1 = 0)

/-- Block t of Wi at (k, j) is Wi at (128·t + k, j). -/
theorem blk_Wi (c : Dev nD) (t : Fin cfg0.N) (k : Fin 128) (j : Fin 4096) :
    (iblk0 V c 2 t : Vec F S128x4096 .f32) (ix2 k j) = V c main_arg5 (ix2 (rowOf t k) j) := by
  unfold iblk0
  rw [View.read_apply]
  show V c main_arg5 _ = V c main_arg5 _
  congr 1
  funext a
  apply Fin.ext
  match a with
  | ⟨0, _⟩ => show win0_2.index t 0 * 128 + 1 * k.val = 128 * t.val + k.val; rw [(index_row2 t).1]; omega
  | ⟨1, _⟩ => show win0_2.index t 1 * 4096 + 1 * j.val = j.val; rw [(index_row2 t).2]; omega

theorem index_row3 : ∀ t : Fin cfg0.N, win0_3.index t 0 = t.val ∧ win0_3.index t 1 = 0 :=
  (by decide +kernel : ∀ t : Fin grid0.N, win0_3.index t 0 = t.val ∧ win0_3.index t 1 = 0)
theorem index_row4 : ∀ t : Fin cfg0.N, win0_4.index t 0 = t.val ∧ win0_4.index t 1 = 0 :=
  (by decide +kernel : ∀ t : Fin grid0.N, win0_4.index t 0 = t.val ∧ win0_4.index t 1 = 0)
theorem index_row5 : ∀ t : Fin cfg0.N, win0_5.index t 0 = t.val ∧ win0_5.index t 1 = 0 :=
  (by decide +kernel : ∀ t : Fin grid0.N, win0_5.index t 0 = t.val ∧ win0_5.index t 1 = 0)
theorem index_row6 : ∀ t : Fin cfg0.N, win0_6.index t 0 = t.val ∧ win0_6.index t 1 = 0 :=
  (by decide +kernel : ∀ t : Fin grid0.N, win0_6.index t 0 = t.val ∧ win0_6.index t 1 = 0)
theorem index_row7 : ∀ t : Fin cfg0.N, win0_7.index t 0 = t.val ∧ win0_7.index t 1 = 0 :=
  (by decide +kernel : ∀ t : Fin grid0.N, win0_7.index t 0 = t.val ∧ win0_7.index t 1 = 0)
theorem index_row8 : ∀ t : Fin cfg0.N, win0_8.index t 0 = t.val ∧ win0_8.index t 1 = 0 :=
  (by decide +kernel : ∀ t : Fin grid0.N, win0_8.index t 0 = t.val ∧ win0_8.index t 1 = 0)
theorem index_row9 : ∀ t : Fin cfg0.N, win0_9.index t 0 = t.val ∧ win0_9.index t 1 = 0 :=
  (by decide +kernel : ∀ t : Fin grid0.N, win0_9.index t 0 = t.val ∧ win0_9.index t 1 = 0)
theorem index_row10 : ∀ t : Fin cfg0.N, win0_10.index t 0 = t.val ∧ win0_10.index t 1 = 0 :=
  (by decide +kernel : ∀ t : Fin grid0.N, win0_10.index t 0 = t.val ∧ win0_10.index t 1 = 0)
theorem index_row11 : ∀ t : Fin cfg0.N, win0_11.index t 0 = t.val ∧ win0_11.index t 1 = 0 :=
  (by decide +kernel : ∀ t : Fin grid0.N, win0_11.index t 0 = t.val ∧ win0_11.index t 1 = 0)

/-- Block t of Wj. -/
theorem blk_Wj (c : Dev nD) (t : Fin cfg0.N) (k : Fin 128) (j : Fin 4096) :
    (iblk0 V c 3 t : Vec F S128x4096 .f32) (ix2 k j) = V c main_arg7 (ix2 (rowOf t k) j) := by
  unfold iblk0
  rw [View.read_apply]
  show V c main_arg7 _ = V c main_arg7 _
  congr 1
  funext a
  apply Fin.ext
  match a with
  | ⟨0, _⟩ => show win0_3.index t 0 * 128 + 1 * k.val = 128 * t.val + k.val; rw [(index_row3 t).1]; omega
  | ⟨1, _⟩ => show win0_3.index t 1 * 4096 + 1 * j.val = j.val; rw [(index_row3 t).2]; omega
/-- Block t of Wf. -/
theorem blk_Wf (c : Dev nD) (t : Fin cfg0.N) (k : Fin 128) (j : Fin 4096) :
    (iblk0 V c 4 t : Vec F S128x4096 .f32) (ix2 k j) = V c main_arg9 (ix2 (rowOf t k) j) := by
  unfold iblk0
  rw [View.read_apply]
  show V c main_arg9 _ = V c main_arg9 _
  congr 1
  funext a
  apply Fin.ext
  match a with
  | ⟨0, _⟩ => show win0_4.index t 0 * 128 + 1 * k.val = 128 * t.val + k.val; rw [(index_row4 t).1]; omega
  | ⟨1, _⟩ => show win0_4.index t 1 * 4096 + 1 * j.val = j.val; rw [(index_row4 t).2]; omega
/-- Block t of Wo. -/
theorem blk_Wo (c : Dev nD) (t : Fin cfg0.N) (k : Fin 128) (j : Fin 4096) :
    (iblk0 V c 5 t : Vec F S128x4096 .f32) (ix2 k j) = V c main_arg11 (ix2 (rowOf t k) j) := by
  unfold iblk0
  rw [View.read_apply]
  show V c main_arg11 _ = V c main_arg11 _
  congr 1
  funext a
  apply Fin.ext
  match a with
  | ⟨0, _⟩ => show win0_5.index t 0 * 128 + 1 * k.val = 128 * t.val + k.val; rw [(index_row5 t).1]; omega
  | ⟨1, _⟩ => show win0_5.index t 1 * 4096 + 1 * j.val = j.val; rw [(index_row5 t).2]; omega
/-- Block t of Whi. -/
theorem blk_Whi (c : Dev nD) (t : Fin cfg0.N) (k : Fin 128) (j : Fin 4096) :
    (iblk0 V c 6 t : Vec F S128x4096 .f32) (ix2 k j) = V c main_arg13 (ix2 (rowOf t k) j) := by
  unfold iblk0
  rw [View.read_apply]
  show V c main_arg13 _ = V c main_arg13 _
  congr 1
  funext a
  apply Fin.ext
  match a with
  | ⟨0, _⟩ => show win0_6.index t 0 * 128 + 1 * k.val = 128 * t.val + k.val; rw [(index_row6 t).1]; omega
  | ⟨1, _⟩ => show win0_6.index t 1 * 4096 + 1 * j.val = j.val; rw [(index_row6 t).2]; omega
/-- Block t of Whj. -/
theorem blk_Whj (c : Dev nD) (t : Fin cfg0.N) (k : Fin 128) (j : Fin 4096) :
    (iblk0 V c 7 t : Vec F S128x4096 .f32) (ix2 k j) = V c main_arg15 (ix2 (rowOf t k) j) := by
  unfold iblk0
  rw [View.read_apply]
  show V c main_arg15 _ = V c main_arg15 _
  congr 1
  funext a
  apply Fin.ext
  match a with
  | ⟨0, _⟩ => show win0_7.index t 0 * 128 + 1 * k.val = 128 * t.val + k.val; rw [(index_row7 t).1]; omega
  | ⟨1, _⟩ => show win0_7.index t 1 * 4096 + 1 * j.val = j.val; rw [(index_row7 t).2]; omega
/-- Block t of Whf. -/
theorem blk_Whf (c : Dev nD) (t : Fin cfg0.N) (k : Fin 128) (j : Fin 4096) :
    (iblk0 V c 8 t : Vec F S128x4096 .f32) (ix2 k j) = V c main_arg17 (ix2 (rowOf t k) j) := by
  unfold iblk0
  rw [View.read_apply]
  show V c main_arg17 _ = V c main_arg17 _
  congr 1
  funext a
  apply Fin.ext
  match a with
  | ⟨0, _⟩ => show win0_8.index t 0 * 128 + 1 * k.val = 128 * t.val + k.val; rw [(index_row8 t).1]; omega
  | ⟨1, _⟩ => show win0_8.index t 1 * 4096 + 1 * j.val = j.val; rw [(index_row8 t).2]; omega
/-- Block t of Who. -/
theorem blk_Who (c : Dev nD) (t : Fin cfg0.N) (k : Fin 128) (j : Fin 4096) :
    (iblk0 V c 9 t : Vec F S128x4096 .f32) (ix2 k j) = V c main_arg19 (ix2 (rowOf t k) j) := by
  unfold iblk0
  rw [View.read_apply]
  show V c main_arg19 _ = V c main_arg19 _
  congr 1
  funext a
  apply Fin.ext
  match a with
  | ⟨0, _⟩ => show win0_9.index t 0 * 128 + 1 * k.val = 128 * t.val + k.val; rw [(index_row9 t).1]; omega
  | ⟨1, _⟩ => show win0_9.index t 1 * 4096 + 1 * j.val = j.val; rw [(index_row9 t).2]; omega
/-- Block t of alpha. -/
theorem blk_alpha (c : Dev nD) (t : Fin cfg0.N) (k : Fin 128) (j : Fin 4096) :
    (iblk0 V c 10 t : Vec F S128x4096 .f32) (ix2 k j) = V c main_arg26 (ix2 (rowOf t k) j) := by
  unfold iblk0
  rw [View.read_apply]
  show V c main_arg26 _ = V c main_arg26 _
  congr 1
  funext a
  apply Fin.ext
  match a with
  | ⟨0, _⟩ => show win0_10.index t 0 * 128 + 1 * k.val = 128 * t.val + k.val; rw [(index_row10 t).1]; omega
  | ⟨1, _⟩ => show win0_10.index t 1 * 4096 + 1 * j.val = j.val; rw [(index_row10 t).2]; omega
/-- Block t of the Hebbian trace. -/
theorem blk_hebb (c : Dev nD) (t : Fin cfg0.N) (k : Fin 128) (j : Fin 4096) :
    (iblk0 V c 11 t : Vec F S128x4096 .f32) (ix2 k j) = V c main_arg3 (ix2 (rowOf t k) j) := by
  unfold iblk0
  rw [View.read_apply]
  show V c main_arg3 _ = V c main_arg3 _
  congr 1
  funext a
  apply Fin.ext
  match a with
  | ⟨0, _⟩ => show win0_11.index t 0 * 128 + 1 * k.val = 128 * t.val + k.val; rw [(index_row11 t).1]; omega
  | ⟨1, _⟩ => show win0_11.index t 1 * 4096 + 1 * j.val = j.val; rw [(index_row11 t).2]; omega

/-! ## The whole-row windows: the one block is the array -/

theorem index_whole : ∀ t : Fin cfg0.N,
    (win0_12.index t 0 = 0 ∧ win0_12.index t 1 = 0) ∧ (win0_13.index t 0 = 0 ∧ win0_13.index t 1 = 0)
    ∧ (win0_14.index t 0 = 0 ∧ win0_14.index t 1 = 0) ∧ (win0_15.index t 0 = 0 ∧ win0_15.index t 1 = 0)
    ∧ (win0_16.index t 0 = 0 ∧ win0_16.index t 1 = 0) ∧ (win0_17.index t 0 = 0 ∧ win0_17.index t 1 = 0)
    ∧ (win0_18.index t 0 = 0 ∧ win0_18.index t 1 = 0) ∧ (win0_19.index t 0 = 0 ∧ win0_19.index t 1 = 0)
    ∧ (win0_20.index t 0 = 0 ∧ win0_20.index t 1 = 0) :=
  (by decide +kernel : ∀ t : Fin grid0.N,
    (win0_12.index t 0 = 0 ∧ win0_12.index t 1 = 0) ∧ (win0_13.index t 0 = 0 ∧ win0_13.index t 1 = 0)
    ∧ (win0_14.index t 0 = 0 ∧ win0_14.index t 1 = 0) ∧ (win0_15.index t 0 = 0 ∧ win0_15.index t 1 = 0)
    ∧ (win0_16.index t 0 = 0 ∧ win0_16.index t 1 = 0) ∧ (win0_17.index t 0 = 0 ∧ win0_17.index t 1 = 0)
    ∧ (win0_18.index t 0 = 0 ∧ win0_18.index t 1 = 0) ∧ (win0_19.index t 0 = 0 ∧ win0_19.index t 1 = 0)
    ∧ (win0_20.index t 0 = 0 ∧ win0_20.index t 1 = 0))

/-- The bias row bi (reshaped on the host), whole. -/
theorem blk_bi (c : Dev nD) (t : Fin cfg0.N) (i : S1x4096.Idx) : (iblk0 V c 12 t : Vec F S1x4096 .f32) i = V c main_v0 i := by
  unfold iblk0
  rw [View.read_apply]
  show V c main_v0 _ = V c main_v0 _
  congr 1
  funext a
  apply Fin.ext
  match a with
  | ⟨0, _⟩ => show win0_12.index t 0 * 1 + 1 * (i 0).val = (i 0).val; rw [(index_whole t).1.1]; omega
  | ⟨1, _⟩ => show win0_12.index t 1 * 4096 + 1 * (i 1).val = (i 1).val; rw [(index_whole t).1.2]; omega
/-- bj. -/
theorem blk_bj (c : Dev nD) (t : Fin cfg0.N) (i : S1x4096.Idx) : (iblk0 V c 13 t : Vec F S1x4096 .f32) i = V c main_v1 i := by
  unfold iblk0
  rw [View.read_apply]
  show V c main_v1 _ = V c main_v1 _
  congr 1
  funext a
  apply Fin.ext
  match a with
  | ⟨0, _⟩ => show win0_13.index t 0 * 1 + 1 * (i 0).val = (i 0).val; rw [(index_whole t).2.1.1]; omega
  | ⟨1, _⟩ => show win0_13.index t 1 * 4096 + 1 * (i 1).val = (i 1).val; rw [(index_whole t).2.1.2]; omega
/-- bf. -/
theorem blk_bf (c : Dev nD) (t : Fin cfg0.N) (i : S1x4096.Idx) : (iblk0 V c 14 t : Vec F S1x4096 .f32) i = V c main_v2 i := by
  unfold iblk0
  rw [View.read_apply]
  show V c main_v2 _ = V c main_v2 _
  congr 1
  funext a
  apply Fin.ext
  match a with
  | ⟨0, _⟩ => show win0_14.index t 0 * 1 + 1 * (i 0).val = (i 0).val; rw [(index_whole t).2.2.1.1]; omega
  | ⟨1, _⟩ => show win0_14.index t 1 * 4096 + 1 * (i 1).val = (i 1).val; rw [(index_whole t).2.2.1.2]; omega
/-- bo. -/
theorem blk_bo (c : Dev nD) (t : Fin cfg0.N) (i : S1x4096.Idx) : (iblk0 V c 15 t : Vec F S1x4096 .f32) i = V c main_v3 i := by
  unfold iblk0
  rw [View.read_apply]
  show V c main_v3 _ = V c main_v3 _
  congr 1
  funext a
  apply Fin.ext
  match a with
  | ⟨0, _⟩ => show win0_15.index t 0 * 1 + 1 * (i 0).val = (i 0).val; rw [(index_whole t).2.2.2.1.1]; omega
  | ⟨1, _⟩ => show win0_15.index t 1 * 4096 + 1 * (i 1).val = (i 1).val; rw [(index_whole t).2.2.2.1.2]; omega
/-- bhi. -/
theorem blk_bhi (c : Dev nD) (t : Fin cfg0.N) (i : S1x4096.Idx) : (iblk0 V c 16 t : Vec F S1x4096 .f32) i = V c main_v4 i := by
  unfold iblk0
  rw [View.read_apply]
  show V c main_v4 _ = V c main_v4 _
  congr 1
  funext a
  apply Fin.ext
  match a with
  | ⟨0, _⟩ => show win0_16.index t 0 * 1 + 1 * (i 0).val = (i 0).val; rw [(index_whole t).2.2.2.2.1.1]; omega
  | ⟨1, _⟩ => show win0_16.index t 1 * 4096 + 1 * (i 1).val = (i 1).val; rw [(index_whole t).2.2.2.2.1.2]; omega
/-- bhj. -/
theorem blk_bhj (c : Dev nD) (t : Fin cfg0.N) (i : S1x4096.Idx) : (iblk0 V c 17 t : Vec F S1x4096 .f32) i = V c main_v5 i := by
  unfold iblk0
  rw [View.read_apply]
  show V c main_v5 _ = V c main_v5 _
  congr 1
  funext a
  apply Fin.ext
  match a with
  | ⟨0, _⟩ => show win0_17.index t 0 * 1 + 1 * (i 0).val = (i 0).val; rw [(index_whole t).2.2.2.2.2.1.1]; omega
  | ⟨1, _⟩ => show win0_17.index t 1 * 4096 + 1 * (i 1).val = (i 1).val; rw [(index_whole t).2.2.2.2.2.1.2]; omega
/-- bhf. -/
theorem blk_bhf (c : Dev nD) (t : Fin cfg0.N) (i : S1x4096.Idx) : (iblk0 V c 18 t : Vec F S1x4096 .f32) i = V c main_v6 i := by
  unfold iblk0
  rw [View.read_apply]
  show V c main_v6 _ = V c main_v6 _
  congr 1
  funext a
  apply Fin.ext
  match a with
  | ⟨0, _⟩ => show win0_18.index t 0 * 1 + 1 * (i 0).val = (i 0).val; rw [(index_whole t).2.2.2.2.2.2.1.1]; omega
  | ⟨1, _⟩ => show win0_18.index t 1 * 4096 + 1 * (i 1).val = (i 1).val; rw [(index_whole t).2.2.2.2.2.2.1.2]; omega
/-- bho. -/
theorem blk_bho (c : Dev nD) (t : Fin cfg0.N) (i : S1x4096.Idx) : (iblk0 V c 19 t : Vec F S1x4096 .f32) i = V c main_v7 i := by
  unfold iblk0
  rw [View.read_apply]
  show V c main_v7 _ = V c main_v7 _
  congr 1
  funext a
  apply Fin.ext
  match a with
  | ⟨0, _⟩ => show win0_19.index t 0 * 1 + 1 * (i 0).val = (i 0).val; rw [(index_whole t).2.2.2.2.2.2.2.1.1]; omega
  | ⟨1, _⟩ => show win0_19.index t 1 * 4096 + 1 * (i 1).val = (i 1).val; rw [(index_whole t).2.2.2.2.2.2.2.1.2]; omega
/-- The cell state. -/
theorem blk_cell (c : Dev nD) (t : Fin cfg0.N) (i : S1x4096.Idx) : (iblk0 V c 20 t : Vec F S1x4096 .f32) i = V c main_arg2 i := by
  unfold iblk0
  rw [View.read_apply]
  show V c main_arg2 _ = V c main_arg2 _
  congr 1
  funext a
  apply Fin.ext
  match a with
  | ⟨0, _⟩ => show win0_20.index t 0 * 1 + 1 * (i 0).val = (i 0).val; rw [(index_whole t).2.2.2.2.2.2.2.2.1]; omega
  | ⟨1, _⟩ => show win0_20.index t 1 * 4096 + 1 * (i 1).val = (i 1).val; rw [(index_whole t).2.2.2.2.2.2.2.2.2]; omega

end Cert.KernelIdeal.Phase1

end
-- ==== Proof.SumLaws.lean ====
import Mathlib.Algebra.BigOperators.Fin
import Mathlib.Algebra.BigOperators.Group.Finset.Basic
import Mathlib.Logic.Equiv.Fin.Basic
import Mathlib.Tactic.Abel

namespace Cert.SumLaws

/-! # Finite sums, regrouped

The kernel sums a dot product of length 4096 as 32 partial dot products of length 128, and adds three (or two) such
partial products at a time into one accumulator; the reference forms each whole dot product and adds them in another
order. In a commutative monoid the two agree: no subtraction, no cancellation and no distributivity is used, so
nothing here needs the entries to be finite. -/

variable {M : Type*} [AddCommMonoid M]

/-- A sum over 4096 entries, as 32 blocks of 128. -/
theorem sum_blocks (g : Fin 4096 → M) :
    ∑ k : Fin 4096, g k = ∑ a : Fin 32, ∑ b : Fin 128, g ⟨128 * a.val + b.val, by have := a.isLt; have := b.isLt; omega⟩ := by
  have e : ∀ g' : Fin (32 * 128) → M, ∑ k : Fin (32 * 128), g' k = ∑ p : Fin 32 × Fin 128, g' (finProdFinEquiv p) :=
    fun g' => (Equiv.sum_comp finProdFinEquiv g').symm
  refine (e g).trans ?_
  rw [Fintype.sum_prod_type]
  refine Finset.sum_congr rfl fun a _ => Finset.sum_congr rfl fun b _ => congrArg g (Fin.ext ?_)
  show b.val + 128 * a.val = 128 * a.val + b.val
  omega

/-- Three families summed point by point, then two more terms: the same as the three whole sums taken in the order
    second, first, then the first extra term, then the third, then the last. -/
theorem regroup3 {ι : Type*} (s : Finset ι) (a b c : ι → M) (u v : M) :
    (∑ t ∈ s, ((a t + b t) + c t) + u) + v = (((∑ t ∈ s, b t + ∑ t ∈ s, a t) + u) + ∑ t ∈ s, c t) + v := by
  rw [Finset.sum_add_distrib, Finset.sum_add_distrib]
  abel

/-- Two families summed point by point, then two more terms. -/
theorem regroup2 {ι : Type*} (s : Finset ι) (a c : ι → M) (u v : M) :
    (∑ t ∈ s, (a t + c t) + u) + v = ((∑ t ∈ s, a t + u) + ∑ t ∈ s, c t) + v := by
  rw [Finset.sum_add_distrib]
  abel

/-- A function of n points extended by zero, summed over the first n naturals, is its sum over the points. -/
theorem sum_range_ext (n : ℕ) (f : Fin n → M) :
    ∑ k ∈ Finset.range n, (if h : k < n then f ⟨k, h⟩ else 0) = ∑ t : Fin n, f t := by
  rw [Finset.sum_range]
  exact Finset.sum_congr rfl fun t _ => by rw [dif_pos t.isLt]

end Cert.SumLaws
-- ==== Proof.Ideal.Phase1Value.lean ====
import proofs.«169774_j34978213659000_2_alg».proof.Proof.Ideal.Phase1Pieces
import proofs.«169774_j34978213659000_2_alg».proof.Proof.Ideal.Phase1Steps
import proofs.«169774_j34978213659000_2_alg».proof.Proof.Ideal.Phase1Reads
import proofs.«169774_j34978213659000_2_alg».proof.Proof.Ideal.Phase1Data
import proofs.«169774_j34978213659000_2_alg».proof.Proof.SumLaws

set_option maxRecDepth 16384

noncomputable section

namespace Cert.KernelIdeal.Phase1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! # Phase 1 at the ideal values: the accumulators are sums over the points

At column j, point t adds to the input gate's accumulator the term
x_t·Wi_t + x_t·(alpha ∘ hebb)_t + r_t·Whi_t (dot products over the block's 128 entries), and to the j, f, o
accumulators x_t·W_t + r_t·Wh_t. The first point adds its term to zero. So after point n each accumulator is the
sum of its terms over the points 0 … n. -/

variable (V : (c : Dev nD) → (b : Ref sig .tc) → Buf (Elt Ideal) ((c : Thread nD τ).loc b))

/-- The input gate's term from the blocks: x·Wi + x·(alpha ∘ hebb) + r·Whi over the block's 128 entries. -/
def termI (bx br : Vec Ideal S1x128 .f32) (bWi bWhi bal bh : Vec Ideal S128x4096 .f32) (j : Fin 4096) : EReal :=
  (dotB bx bWi j + dotB bx (fun i => bal i * bh i) j) + dotB br bWhi j
/-- A plain gate's term from the blocks: x·W + r·Wh. -/
def termG (bx br : Vec Ideal S1x128 .f32) (bW bWh : Vec Ideal S128x4096 .f32) (j : Fin 4096) : EReal :=
  dotB bx bW j + dotB br bWh j

set_option maxHeartbeats 1000000 in
/-- The input gate's term at point t, column j. -/
def tI (c : Dev nD) (t : Fin cfg0.N) (j : Fin 4096) : EReal :=
  termI (iblk0 V c 0 t) (iblk0 V c 1 t) (iblk0 V c 2 t) (iblk0 V c 6 t) (iblk0 V c 10 t) (iblk0 V c 11 t) j
set_option maxHeartbeats 1000000 in
/-- The j gate's term. -/
def tJ (c : Dev nD) (t : Fin cfg0.N) (j : Fin 4096) : EReal := termG (iblk0 V c 0 t) (iblk0 V c 1 t) (iblk0 V c 3 t) (iblk0 V c 7 t) j
set_option maxHeartbeats 1000000 in
/-- The f gate's term. -/
def tF (c : Dev nD) (t : Fin cfg0.N) (j : Fin 4096) : EReal := termG (iblk0 V c 0 t) (iblk0 V c 1 t) (iblk0 V c 4 t) (iblk0 V c 8 t) j
set_option maxHeartbeats 1000000 in
/-- The o gate's term. -/
def tO (c : Dev nD) (t : Fin cfg0.N) (j : Fin 4096) : EReal := termG (iblk0 V c 0 t) (iblk0 V c 1 t) (iblk0 V c 5 t) (iblk0 V c 9 t) j

theorem stepI_apply (c : Dev nD) (t : Fin cfg0.N) (a : Vec Ideal S1x4096 .f32) (j : Fin 4096) :
    stepI V c t a (ix2 0 j) = a (ix2 0 j) + tI V c t j := pay13_apply _ _ _ _ _ _ _ j
theorem stepJ_apply (c : Dev nD) (t : Fin cfg0.N) (a : Vec Ideal S1x4096 .f32) (j : Fin 4096) :
    stepJ V c t a (ix2 0 j) = a (ix2 0 j) + tJ V c t j := pay15_apply _ _ _ _ _ j
theorem stepF_apply (c : Dev nD) (t : Fin cfg0.N) (a : Vec Ideal S1x4096 .f32) (j : Fin 4096) :
    stepF V c t a (ix2 0 j) = a (ix2 0 j) + tF V c t j := pay16_apply _ _ _ _ _ j
theorem stepO_apply (c : Dev nD) (t : Fin cfg0.N) (a : Vec Ideal S1x4096 .f32) (j : Fin 4096) :
    stepO V c t a (ix2 0 j) = a (ix2 0 j) + tO V c t j := pay17_apply _ _ _ _ _ j

/-- A function of the 32 points, extended by zero to every natural number. -/
def ext (f : Fin cfg0.N → EReal) (k : ℕ) : EReal := if h : k < cfg0.N then f ⟨k, h⟩ else 0
theorem ext_lt (f : Fin cfg0.N → EReal) (k : ℕ) (h : k < cfg0.N) : ext f k = f ⟨k, h⟩ := dif_pos h

/-- After point 0: the steps over zero. -/
theorem accAfter_zero (c : Dev nD) (hn : 0 < cfg0.N) :
    accAfter V c 0 hn = (stepI V c ⟨0, hn⟩ (k0_pay7 (F := Ideal)), stepJ V c ⟨0, hn⟩ (k0_pay8 (F := Ideal)), stepF V c ⟨0, hn⟩ (k0_pay9 (F := Ideal)), stepO V c ⟨0, hn⟩ (k0_pay10 (F := Ideal))) := by
  have h := accAfter_first V c ⟨0, hn⟩ (Nat.zero_mod _) (by show ¬(0 : ℕ) % 32 = 31; decide)
  rw [show accAfter V c 0 hn = accAfter V c (⟨0, hn⟩ : Fin cfg0.N).val (⟨0, hn⟩ : Fin cfg0.N).isLt from rfl, h]
  refine Prod.ext (accFirst_0 V c _ _ _) (Prod.ext (accFirst_1 V c _ _ _) (Prod.ext (accFirst_2 V c _ _ _) (accFirst_3 V c _ _ _)))

/-- After a later point: the steps over what the point before left (whether it is a middle point or the last). -/
theorem accAfter_succ (c : Dev nD) (n : ℕ) (hn : n + 1 < cfg0.N) :
    accAfter V c (n + 1) hn = (stepI V c ⟨n + 1, hn⟩ (accAfter V c n (Nat.lt_of_succ_lt hn)).1, stepJ V c ⟨n + 1, hn⟩ (accAfter V c n (Nat.lt_of_succ_lt hn)).2.1,
      stepF V c ⟨n + 1, hn⟩ (accAfter V c n (Nat.lt_of_succ_lt hn)).2.2.1, stepO V c ⟨n + 1, hn⟩ (accAfter V c n (Nat.lt_of_succ_lt hn)).2.2.2) := by
  have hN : n + 1 < 32 := lt_of_lt_of_eq hn (show cfg0.N = 32 from N_0)
  have h0 : ¬(⟨n + 1, hn⟩ : Fin cfg0.N).val % 32 = 0 := by dsimp only; omega
  by_cases h1 : (⟨n + 1, hn⟩ : Fin cfg0.N).val % 32 = 31
  · have h := accAfter_last V c ⟨n + 1, hn⟩ h0 h1
    rw [show accAfter V c (n + 1) hn = accAfter V c (⟨n + 1, hn⟩ : Fin cfg0.N).val (⟨n + 1, hn⟩ : Fin cfg0.N).isLt from rfl, h]
    exact Prod.ext (accLast_0 V c _ _ _ _) (Prod.ext (accLast_1 V c _ _ _ _) (Prod.ext (accLast_2 V c _ _ _ _) (accLast_3 V c _ _ _ _)))
  · have h := accAfter_mid V c ⟨n + 1, hn⟩ h0 h1
    rw [show accAfter V c (n + 1) hn = accAfter V c (⟨n + 1, hn⟩ : Fin cfg0.N).val (⟨n + 1, hn⟩ : Fin cfg0.N).isLt from rfl, h]
    exact Prod.ext (accMid_0 V c _ _ _ _) (Prod.ext (accMid_1 V c _ _ _ _) (Prod.ext (accMid_2 V c _ _ _ _) (accMid_3 V c _ _ _ _)))

/-- THE SUMS. After point n each accumulator, at column j, is the sum of its gate's terms over the points 0 … n. -/
theorem accAfter_sum (c : Dev nD) : ∀ (n : ℕ) (hn : n < cfg0.N) (j : Fin 4096),
    (accAfter V c n hn).1 (ix2 0 j) = ∑ k ∈ Finset.range (n + 1), ext (fun t => tI V c t j) k
    ∧ (accAfter V c n hn).2.1 (ix2 0 j) = ∑ k ∈ Finset.range (n + 1), ext (fun t => tJ V c t j) k
    ∧ (accAfter V c n hn).2.2.1 (ix2 0 j) = ∑ k ∈ Finset.range (n + 1), ext (fun t => tF V c t j) k
    ∧ (accAfter V c n hn).2.2.2 (ix2 0 j) = ∑ k ∈ Finset.range (n + 1), ext (fun t => tO V c t j) k
  | 0, hn, j => by
    rw [accAfter_zero V c hn]
    dsimp only
    rw [stepI_apply, stepJ_apply, stepF_apply, stepO_apply, Finset.sum_range_one, Finset.sum_range_one, Finset.sum_range_one, Finset.sum_range_one,
      ext_lt _ 0 hn, ext_lt _ 0 hn, ext_lt _ 0 hn, ext_lt _ 0 hn]
    refine ⟨?_, ?_, ?_, ?_⟩
    · rw [pay7_apply, zero_add]
    · rw [show k0_pay8 (F := Ideal) (ix2 0 j) = 0 from pay7_apply j, zero_add]
    · rw [show k0_pay9 (F := Ideal) (ix2 0 j) = 0 from pay7_apply j, zero_add]
    · rw [show k0_pay10 (F := Ideal) (ix2 0 j) = 0 from pay7_apply j, zero_add]
  | n + 1, hn, j => by
    obtain ⟨i0, i1, i2, i3⟩ := accAfter_sum c n (Nat.lt_of_succ_lt hn) j
    rw [accAfter_succ V c n hn]
    dsimp only
    rw [stepI_apply, stepJ_apply, stepF_apply, stepO_apply, i0, i1, i2, i3,
      Finset.sum_range_succ _ (n + 1), Finset.sum_range_succ _ (n + 1), Finset.sum_range_succ _ (n + 1), Finset.sum_range_succ _ (n + 1),
      ext_lt _ (n + 1) hn, ext_lt _ (n + 1) hn, ext_lt _ (n + 1) hn, ext_lt _ (n + 1) hn]
    exact ⟨rfl, rfl, rfl, rfl⟩

/-! ## After the last point -/

/-- The last point's number is below the grid's size. -/
theorem h31 : 31 < cfg0.N := by rw [show cfg0.N = 32 from N_0]; decide
/-- The last point. -/
def tLast : Fin cfg0.N := ⟨31, h31⟩

/-- The a-th of the 32 points. -/
def pt (a : Fin 32) : Fin cfg0.N := ⟨a.val, by rw [show cfg0.N = 32 from N_0]; exact a.isLt⟩

/-- Each gate's sum over all 32 points, at column j. -/
def sumI (c : Dev nD) (j : Fin 4096) : EReal := ∑ a : Fin 32, tI V c (pt a) j
def sumJ (c : Dev nD) (j : Fin 4096) : EReal := ∑ a : Fin 32, tJ V c (pt a) j
def sumF (c : Dev nD) (j : Fin 4096) : EReal := ∑ a : Fin 32, tF V c (pt a) j
def sumO (c : Dev nD) (j : Fin 4096) : EReal := ∑ a : Fin 32, tO V c (pt a) j

/-- A zero-extended function of the points, summed over the first 32 naturals, is its sum over the points. -/
theorem sum_ext (f : Fin cfg0.N → EReal) : ∑ k ∈ Finset.range (31 + 1), ext f k = ∑ a : Fin 32, f (pt a) := by
  rw [show (31 + 1) = 32 from rfl, Finset.sum_range]
  exact Finset.sum_congr rfl fun a _ => ext_lt f a.val _

/-- After the last point the accumulators hold the whole sums. -/
theorem acc_last (c : Dev nD) (j : Fin 4096) :
    (accAfter V c 31 h31).1 (ix2 0 j) = sumI V c j ∧ (accAfter V c 31 h31).2.1 (ix2 0 j) = sumJ V c j
    ∧ (accAfter V c 31 h31).2.2.1 (ix2 0 j) = sumF V c j ∧ (accAfter V c 31 h31).2.2.2 (ix2 0 j) = sumO V c j := by
  obtain ⟨h0, h1, h2, h3⟩ := accAfter_sum V c 31 h31 j
  rw [h0, h1, h2, h3]
  exact ⟨sum_ext _, sum_ext _, sum_ext _, sum_ext _⟩

/-- The three outputs after the last point, over the accumulators after it. -/
theorem outs_last (c : Dev nD) :
    outsAfter V c tLast =
      (k0_pay2 (finP V c tLast (accAfter V c 31 h31).1) (finJ V c tLast (accAfter V c 31 h31).2.1)
          (finO V c tLast (accAfter V c 31 h31).2.2.2) (finFc V c tLast (accAfter V c 31 h31).2.2.1),
       k0_pay1 (finP V c tLast (accAfter V c 31 h31).1) (finJ V c tLast (accAfter V c 31 h31).2.1)
          (finFc V c tLast (accAfter V c 31 h31).2.2.1),
       finP V c tLast (accAfter V c 31 h31).1) := by
  have hs := accAfter_succ V c 30 h31
  rw [outsAfter_last V c tLast (by decide) (by decide)]
  rw [show accAfter V c 31 h31 = accAfter V c (30 + 1) h31 from rfl, hs]
  dsimp only
  exact Prod.ext (outLast_h V c tLast _ _ _) (Prod.ext (outLast_c V c tLast _ _ _) (outLast_post V c tLast _ _ _))

/-! ## The outputs' arrays: the one write-back, at the last point, writes the whole row -/

theorem flushed21 (c : Dev nD) (t : Fin cfg0.N) (hf : (cfg0.win 21).flush t = true) :
    (dat0 V c).flushed 21 t = ((cfg0.win 21).blk t).view.read (Elt Ideal) ((outsAfter V c tLast).1) := by
  have hN : cfg0.N = 32 := N_0
  have h31 : t.val = 31 := by have := (flush0_21 t).mp hf; have := t.isLt; omega
  obtain rfl : t = tLast := Fin.ext h31
  show (cfg0.win 21).cut (grid0.coords tLast) ((dat0 V c).after 21 tLast) = _
  rw [after0_21]
  have hz' : (fun a => win0_21.index tLast a * main_v8_0.ty.shape.size a) = fun _ => 0 := funext fun a => by fin_cases a <;> decide +kernel
  exact (Memref.read_access_unit_zero (Elt Ideal) main_v8_0 hz' (fun a => by rw [congrFun hz' a]; simp) _).symm
theorem flushed22 (c : Dev nD) (t : Fin cfg0.N) (hf : (cfg0.win 22).flush t = true) :
    (dat0 V c).flushed 22 t = ((cfg0.win 22).blk t).view.read (Elt Ideal) ((outsAfter V c tLast).2.1) := by
  have hN : cfg0.N = 32 := N_0
  have h31 : t.val = 31 := by have := (flush0_22 t).mp hf; have := t.isLt; omega
  obtain rfl : t = tLast := Fin.ext h31
  show (cfg0.win 22).cut (grid0.coords tLast) ((dat0 V c).after 22 tLast) = _
  rw [after0_22]
  have hz' : (fun a => win0_22.index tLast a * main_v8_1.ty.shape.size a) = fun _ => 0 := funext fun a => by fin_cases a <;> decide +kernel
  exact (Memref.read_access_unit_zero (Elt Ideal) main_v8_1 hz' (fun a => by rw [congrFun hz' a]; simp) _).symm
theorem flushed23 (c : Dev nD) (t : Fin cfg0.N) (hf : (cfg0.win 23).flush t = true) :
    (dat0 V c).flushed 23 t = ((cfg0.win 23).blk t).view.read (Elt Ideal) ((outsAfter V c tLast).2.2) := by
  have hN : cfg0.N = 32 := N_0
  have h31 : t.val = 31 := by have := (flush0_23 t).mp hf; have := t.isLt; omega
  obtain rfl : t = tLast := Fin.ext h31
  show (cfg0.win 23).cut (grid0.coords tLast) ((dat0 V c).after 23 tLast) = _
  rw [after0_23]
  have hz' : (fun a => win0_23.index tLast a * main_v8_2.ty.shape.size a) = fun _ => 0 := funext fun a => by fin_cases a <;> decide +kernel
  exact (Memref.read_access_unit_zero (Elt Ideal) main_v8_2 hz' (fun a => by rw [congrFun hz' a]; simp) _).symm

/-- h's array after the region. -/
theorem final21 (c : Dev nD) : (dat0 V c).arrAt 21 cfg0.N = (outsAfter V c tLast).1 :=
  (dat0 V c).arrAt_eq_of_cover 21 _ (flushed21 V c) fun i =>
    ⟨tLast, (flush0_21 tLast).mpr (by decide), by
      show i ∈ ((View.whole main_v8_0).slice (win0_21.rect tLast)).set
      rw [View.set_slice_whole, Rect.mem_set_unit]
      intro a
      have h0 : (i 0 : Nat) < 1 := (i 0).isLt
      have h1 : (i 1 : Nat) < 4096 := (i 1).isLt
      match a with
      | ⟨0, _⟩ => show win0_21.index tLast 0 * win0_21.size 0 ≤ (i 0 : Nat) ∧ (i 0 : Nat) < win0_21.index tLast 0 * win0_21.size 0 + win0_21.xsize (grid0.coords tLast) 0
                  rw [show win0_21.index tLast 0 * win0_21.size 0 = 0 from by decide +kernel, show win0_21.xsize (grid0.coords tLast) 0 = 1 from by decide +kernel]; omega
      | ⟨1, _⟩ => show win0_21.index tLast 1 * win0_21.size 1 ≤ (i 1 : Nat) ∧ (i 1 : Nat) < win0_21.index tLast 1 * win0_21.size 1 + win0_21.xsize (grid0.coords tLast) 1
                  rw [show win0_21.index tLast 1 * win0_21.size 1 = 0 from by decide +kernel, show win0_21.xsize (grid0.coords tLast) 1 = 4096 from by decide +kernel]; omega⟩
/-- The new cell state's array. -/
theorem final22 (c : Dev nD) : (dat0 V c).arrAt 22 cfg0.N = (outsAfter V c tLast).2.1 :=
  (dat0 V c).arrAt_eq_of_cover 22 _ (flushed22 V c) fun i =>
    ⟨tLast, (flush0_22 tLast).mpr (by decide), by
      show i ∈ ((View.whole main_v8_1).slice (win0_22.rect tLast)).set
      rw [View.set_slice_whole, Rect.mem_set_unit]
      intro a
      have h0 : (i 0 : Nat) < 1 := (i 0).isLt
      have h1 : (i 1 : Nat) < 4096 := (i 1).isLt
      match a with
      | ⟨0, _⟩ => show win0_22.index tLast 0 * win0_22.size 0 ≤ (i 0 : Nat) ∧ (i 0 : Nat) < win0_22.index tLast 0 * win0_22.size 0 + win0_22.xsize (grid0.coords tLast) 0
                  rw [show win0_22.index tLast 0 * win0_22.size 0 = 0 from by decide +kernel, show win0_22.xsize (grid0.coords tLast) 0 = 1 from by decide +kernel]; omega
      | ⟨1, _⟩ => show win0_22.index tLast 1 * win0_22.size 1 ≤ (i 1 : Nat) ∧ (i 1 : Nat) < win0_22.index tLast 1 * win0_22.size 1 + win0_22.xsize (grid0.coords tLast) 1
                  rw [show win0_22.index tLast 1 * win0_22.size 1 = 0 from by decide +kernel, show win0_22.xsize (grid0.coords tLast) 1 = 4096 from by decide +kernel]; omega⟩
/-- The input gate's activation's array. -/
theorem final23 (c : Dev nD) : (dat0 V c).arrAt 23 cfg0.N = (outsAfter V c tLast).2.2 :=
  (dat0 V c).arrAt_eq_of_cover 23 _ (flushed23 V c) fun i =>
    ⟨tLast, (flush0_23 tLast).mpr (by decide), by
      show i ∈ ((View.whole main_v8_2).slice (win0_23.rect tLast)).set
      rw [View.set_slice_whole, Rect.mem_set_unit]
      intro a
      have h0 : (i 0 : Nat) < 1 := (i 0).isLt
      have h1 : (i 1 : Nat) < 4096 := (i 1).isLt
      match a with
      | ⟨0, _⟩ => show win0_23.index tLast 0 * win0_23.size 0 ≤ (i 0 : Nat) ∧ (i 0 : Nat) < win0_23.index tLast 0 * win0_23.size 0 + win0_23.xsize (grid0.coords tLast) 0
                  rw [show win0_23.index tLast 0 * win0_23.size 0 = 0 from by decide +kernel, show win0_23.xsize (grid0.coords tLast) 0 = 1 from by decide +kernel]; omega
      | ⟨1, _⟩ => show win0_23.index tLast 1 * win0_23.size 1 ≤ (i 1 : Nat) ∧ (i 1 : Nat) < win0_23.index tLast 1 * win0_23.size 1 + win0_23.xsize (grid0.coords tLast) 1
                  rw [show win0_23.index tLast 1 * win0_23.size 1 = 0 from by decide +kernel, show win0_23.xsize (grid0.coords tLast) 1 = 4096 from by decide +kernel]; omega⟩

/-! ## The outputs at column j -/

/-- The gates at column j, over the whole sums and the bias rows as the region finds them. -/
def gP (c : Dev nD) (j : Fin 4096) : EReal := Ideal.tanh ((sumI V c j + (V c main_v0 : Vec Ideal S1x4096 .f32) (ix2 0 j)) + (V c main_v4 : Vec Ideal S1x4096 .f32) (ix2 0 j))
def gJ (c : Dev nD) (j : Fin 4096) : EReal := Ideal.tanh ((sumJ V c j + (V c main_v1 : Vec Ideal S1x4096 .f32) (ix2 0 j)) + (V c main_v5 : Vec Ideal S1x4096 .f32) (ix2 0 j))
def gF (c : Dev nD) (j : Fin 4096) : EReal := Ideal.tanh ((sumF V c j + (V c main_v2 : Vec Ideal S1x4096 .f32) (ix2 0 j)) + (V c main_v6 : Vec Ideal S1x4096 .f32) (ix2 0 j))
def gO (c : Dev nD) (j : Fin 4096) : EReal := Ideal.tanh ((sumO V c j + (V c main_v3 : Vec Ideal S1x4096 .f32) (ix2 0 j)) + (V c main_v7 : Vec Ideal S1x4096 .f32) (ix2 0 j))

/-- The input gate's activation as phase 1 leaves it. -/
theorem post_val (c : Dev nD) (j : Fin 4096) : ((dat0 V c).arrAt 23 cfg0.N : Vec Ideal S1x4096 .f32) (ix2 0 j) = gP V c j := by
  rw [final23, outs_last]
  dsimp only
  unfold finP
  rw [pay3_apply, (acc_last V c j).1, blk_bi, blk_bhi]
  rfl
/-- The new cell state. -/
theorem c_val (c : Dev nD) (j : Fin 4096) :
    ((dat0 V c).arrAt 22 cfg0.N : Vec Ideal S1x4096 .f32) (ix2 0 j)
      = gF V c j * (V c main_arg2 : Vec Ideal S1x4096 .f32) (ix2 0 j) + gP V c j * gJ V c j := by
  rw [final22, outs_last]
  dsimp only
  rw [pay1_apply]
  unfold finP finJ finFc
  rw [pay3_apply, pay4_apply, pay6_apply, (acc_last V c j).1, (acc_last V c j).2.1, (acc_last V c j).2.2.1,
    blk_bi, blk_bhi, blk_bj, blk_bhj, blk_bf, blk_bhf, blk_cell]
  rfl
/-- h. -/
theorem h_val (c : Dev nD) (j : Fin 4096) :
    ((dat0 V c).arrAt 21 cfg0.N : Vec Ideal S1x4096 .f32) (ix2 0 j)
      = Ideal.tanh (gF V c j * (V c main_arg2 : Vec Ideal S1x4096 .f32) (ix2 0 j) + gP V c j * gJ V c j) * gO V c j := by
  rw [final21, outs_last]
  dsimp only
  rw [pay2_apply]
  unfold finP finJ finO finFc
  rw [pay3_apply, pay4_apply, pay5_apply, pay6_apply, (acc_last V c j).1, (acc_last V c j).2.1, (acc_last V c j).2.2.1, (acc_last V c j).2.2.2,
    blk_bi, blk_bhi, blk_bj, blk_bhj, blk_bf, blk_bhf, blk_bo, blk_bho, blk_cell]
  rfl

end Cert.KernelIdeal.Phase1

end
-- ==== Proof.Spec.lean ====
import Idealize.ShloMosaic.PureOps.Ideal
import Idealize.ShloMosaic.Lib.ValueIdx

noncomputable section

namespace Cert.Spec

open Idealize.ShloMosaic Idealize.ShloMosaic.ValueIdx

/-! # What the cell computes, on the extended reals

One step of an LSTM-like cell of width 4096 whose input gate carries a plastic term, followed by the update of the
Hebbian and the eligibility traces. With x the input row, r the recurrent trace, and for a gate g the weights
W_g, Wh_g and biases b_g, bh_g:

  post = tanh(x·(alpha ∘ hebb) + x·Wi + bi + r·Whi + bhi)       (the input gate's activation)
  g    = tanh(x·W_g + b_g + r·Wh_g + bh_g)                      for g = j, f, o
  c'   = f ∘ cell + post ∘ j,      h = tanh(c') ∘ o
  mod  = tanh(post·Wmi + bmi)·Wmo + bmo                          (a row: one number spread over Wmo)
  hebb' = min(1, max(−1, hebb + mod ∘ elig))                     (mod along each row)
  elig' = (1 − eta)·elig + eta·(xᵀ post)

Every sum is a finite sum of extended reals, in the grouping written; ∘ is the entrywise product. The literals 1 and
−1 are kept as the float patterns the programs print. -/

abbrev Row := FVec Ideal ⟨2, ![1, 4096]⟩ .f32
abbrev Mat := FVec Ideal ⟨2, ![4096, 4096]⟩ .f32
abbrev Bias := FVec Ideal ⟨1, ![4096]⟩ .f32
abbrev ColW := FVec Ideal ⟨2, ![4096, 1]⟩ .f32
abbrev One := FVec Ideal ⟨1, ![1]⟩ .f32

/-- The twenty-seven argument arrays, in the programs' argument order. -/
structure Args where
  x : Row
  r : Row
  cell : Row
  hebb : Mat
  elig : Mat
  Wi : Mat
  bi : Bias
  Wj : Mat
  bj : Bias
  Wf : Mat
  bf : Bias
  Wo : Mat
  bo : Bias
  Whi : Mat
  bhi : Bias
  Whj : Mat
  bhj : Bias
  Whf : Mat
  bhf : Bias
  Who : Mat
  bho : Bias
  Wmi : ColW
  bmi : One
  Wmo : Row
  bmo : Bias
  eta : One
  alpha : Mat

/-- The float patterns of 1 and of −1, as extended reals. -/
abbrev one : EReal := Ideal.ofBits .f32 0x3F800000#32
abbrev negOne : EReal := Ideal.ofBits .f32 0xBF800000#32

/-- The row vector v times column j of W. -/
def dot (v : Row) (W : Mat) (j : Fin 4096) : EReal := ∑ k : Fin 4096, v (ix2 0 k) * W (ix2 k j)

/-- The plastic weights alpha ∘ hebb. -/
def plastic (A : Args) : Mat := fun i => A.alpha i * A.hebb i

/-- The input gate before tanh. -/
def postPre (A : Args) (j : Fin 4096) : EReal :=
  (((dot A.x (plastic A) j + dot A.x A.Wi j) + A.bi (ix1 j)) + dot A.r A.Whi j) + A.bhi (ix1 j)

/-- A plain gate before tanh. -/
def gatePre (A : Args) (W Wh : Mat) (b bh : Bias) (j : Fin 4096) : EReal :=
  ((dot A.x W j + b (ix1 j)) + dot A.r Wh j) + bh (ix1 j)

def post (A : Args) (j : Fin 4096) : EReal := Ideal.tanh (postPre A j)
def gJ (A : Args) (j : Fin 4096) : EReal := Ideal.tanh (gatePre A A.Wj A.Whj A.bj A.bhj j)
def gF (A : Args) (j : Fin 4096) : EReal := Ideal.tanh (gatePre A A.Wf A.Whf A.bf A.bhf j)
def gO (A : Args) (j : Fin 4096) : EReal := Ideal.tanh (gatePre A A.Wo A.Who A.bo A.bho j)

/-- The new cell state. -/
def cNew (A : Args) (j : Fin 4096) : EReal := gF A j * A.cell (ix2 0 j) + post A j * gJ A j
/-- The output h. -/
def hNew (A : Args) (j : Fin 4096) : EReal := Ideal.tanh (cNew A j) * gO A j

/-- The modulation's scalar before tanh: post·Wmi + bmi. -/
def modPre (A : Args) : EReal := (∑ k : Fin 4096, post A k * A.Wmi (ix2 k 0)) + A.bmi (ix1 0)
/-- The modulation row. -/
def modRow (A : Args) (j : Fin 4096) : EReal := Ideal.tanh (modPre A) * A.Wmo (ix2 0 j) + A.bmo (ix1 j)

/-- The new Hebbian trace. -/
def hebbNew (A : Args) (i j : Fin 4096) : EReal := min one (max negOne (A.hebb (ix2 i j) + modRow A j * A.elig (ix2 i j)))
/-- The new eligibility trace. -/
def eligNew (A : Args) (i j : Fin 4096) : EReal :=
  (one - A.eta (ix1 0)) * A.elig (ix2 i j) + A.eta (ix1 0) * (A.x (ix2 0 i) * post A j)

/-! The four results as arrays, in the programs' result order: h, the new Hebbian trace, the new eligibility trace,
the new cell state. -/

def hArr (A : Args) : Row := fun i => hNew A (i 1)
def hebbArr (A : Args) : Mat := fun i => hebbNew A (i 0) (i 1)
def eligArr (A : Args) : Mat := fun i => eligNew A (i 0) (i 1)
def cArr (A : Args) : Row := fun i => cNew A (i 1)
/-- The input gate's activation as a row (what phase 1 hands phase 2). -/
def postArr (A : Args) : Row := fun i => post A (i 1)
/-- The modulation as a row. -/
def modArr (A : Args) : Row := fun i => modRow A (i 1)

end Cert.Spec

end
-- ==== Proof.Ideal.Phase1Spec.lean ====
import proofs.«169774_j34978213659000_2_alg».proof.Proof.Ideal.Phase1Value
import proofs.«169774_j34978213659000_2_alg».proof.Proof.Spec

set_option maxRecDepth 16384

noncomputable section

namespace Cert.KernelIdeal.Phase1

open Cert.KernelIdeal Cert.KernelIdeal.Gen
open Idealize.ShloMosaic Idealize.ShloMosaic.TcCoe Idealize.ShloMosaic.ValueIdx
open Idealize.SL Idealize.SL.Sem

/-! # Phase 1 computes the specification's gates

The kernel's gate sum is Σ over the 32 blocks of the block's partial dot products, added three (or two) at a time;
the specification's is the whole dot products added in the reference's order. Splitting each whole dot product into
its 32 blocks and regrouping the finite sums identifies them. -/

variable (V : (c : Dev nD) → (b : Ref sig .tc) → Buf (Elt Ideal) ((c : Thread nD τ).loc b))

/-- A whole dot product, as 32 blocks of 128. -/
theorem dot_blocks (v : Cert.Spec.Row) (W : Cert.Spec.Mat) (j : Fin 4096) :
    Cert.Spec.dot v W j = ∑ a : Fin 32, ∑ b : Fin 128, v (ix2 0 (rowOf (pt a) b)) * W (ix2 (rowOf (pt a) b) j) :=
  Cert.SumLaws.sum_blocks (fun k => v (ix2 0 k) * W (ix2 k j))

/-- The input gate. -/
theorem gP_eq (c : Dev nD) (A : Cert.Spec.Args)
    (hx : (V c main_arg0 : Cert.Spec.Row) = A.x) (hr : (V c main_arg1 : Cert.Spec.Row) = A.r)
    (hWi : (V c main_arg5 : Cert.Spec.Mat) = A.Wi) (hWhi : (V c main_arg13 : Cert.Spec.Mat) = A.Whi)
    (hal : (V c main_arg26 : Cert.Spec.Mat) = A.alpha) (hh : (V c main_arg3 : Cert.Spec.Mat) = A.hebb)
    (hbi : ∀ j, (V c main_v0 : Cert.Spec.Row) (ix2 0 j) = A.bi (ix1 j)) (hbhi : ∀ j, (V c main_v4 : Cert.Spec.Row) (ix2 0 j) = A.bhi (ix1 j))
    (j : Fin 4096) : gP V c j = Cert.Spec.post A j := by
  unfold gP Cert.Spec.post Cert.Spec.postPre
  rw [hbi j, hbhi j, dot_blocks, dot_blocks, dot_blocks]
  refine congrArg Ideal.tanh ?_
  unfold sumI tI termI dotB Cert.Spec.plastic
  simp only [blk_x, blk_r, blk_Wi, blk_Whi, blk_alpha, blk_hebb]
  rw [hx, hr, hWi, hWhi, hal, hh]
  exact Cert.SumLaws.regroup3 Finset.univ _ _ _ _ _

/-- A plain gate (j, f or o), from its two matrices' block reads and its two bias rows. -/
theorem gate_eq (c : Dev nD) (A : Cert.Spec.Args) (W Wh : Cert.Spec.Mat) (b bh : Cert.Spec.Bias)
    (S : Fin 4096 → EReal) (rb rbh : Cert.Spec.Row)
    (hS : ∀ j, S j = ∑ a : Fin 32, ((∑ k : Fin 128, A.x (ix2 0 (rowOf (pt a) k)) * W (ix2 (rowOf (pt a) k) j))
        + ∑ k : Fin 128, A.r (ix2 0 (rowOf (pt a) k)) * Wh (ix2 (rowOf (pt a) k) j)))
    (hb : ∀ j, rb (ix2 0 j) = b (ix1 j)) (hbh : ∀ j, rbh (ix2 0 j) = bh (ix1 j)) (j : Fin 4096) :
    Ideal.tanh ((S j + rb (ix2 0 j)) + rbh (ix2 0 j)) = Ideal.tanh (Cert.Spec.gatePre A W Wh b bh j) := by
  unfold Cert.Spec.gatePre
  rw [hb j, hbh j, dot_blocks, dot_blocks, hS j]
  exact congrArg Ideal.tanh (Cert.SumLaws.regroup2 Finset.univ _ _ _ _)

/-- The j gate. -/
theorem gJ_eq (c : Dev nD) (A : Cert.Spec.Args)
    (hx : (V c main_arg0 : Cert.Spec.Row) = A.x) (hr : (V c main_arg1 : Cert.Spec.Row) = A.r)
    (hW : (V c main_arg7 : Cert.Spec.Mat) = A.Wj) (hWh : (V c main_arg15 : Cert.Spec.Mat) = A.Whj)
    (hb : ∀ j, (V c main_v1 : Cert.Spec.Row) (ix2 0 j) = A.bj (ix1 j)) (hbh : ∀ j, (V c main_v5 : Cert.Spec.Row) (ix2 0 j) = A.bhj (ix1 j))
    (j : Fin 4096) : gJ V c j = Cert.Spec.gJ A j := by
  unfold gJ Cert.Spec.gJ
  refine gate_eq c A A.Wj A.Whj A.bj A.bhj (sumJ V c) _ _ (fun j => ?_) hb hbh j
  unfold sumJ tJ termG dotB
  simp only [blk_x, blk_r, blk_Wj, blk_Whj]
  rw [hx, hr, hW, hWh]

/-- The f gate. -/
theorem gF_eq (c : Dev nD) (A : Cert.Spec.Args)
    (hx : (V c main_arg0 : Cert.Spec.Row) = A.x) (hr : (V c main_arg1 : Cert.Spec.Row) = A.r)
    (hW : (V c main_arg9 : Cert.Spec.Mat) = A.Wf) (hWh : (V c main_arg17 : Cert.Spec.Mat) = A.Whf)
    (hb : ∀ j, (V c main_v2 : Cert.Spec.Row) (ix2 0 j) = A.bf (ix1 j)) (hbh : ∀ j, (V c main_v6 : Cert.Spec.Row) (ix2 0 j) = A.bhf (ix1 j))
    (j : Fin 4096) : gF V c j = Cert.Spec.gF A j := by
  unfold gF Cert.Spec.gF
  refine gate_eq c A A.Wf A.Whf A.bf A.bhf (sumF V c) _ _ (fun j => ?_) hb hbh j
  unfold sumF tF termG dotB
  simp only [blk_x, blk_r, blk_Wf, blk_Whf]
  rw [hx, hr, hW, hWh]

/-- The o gate. -/
theorem gO_eq (c : Dev nD) (A : Cert.Spec.Args)
    (hx : (V c main_arg0 : Cert.Spec.Row) = A.x) (hr : (V c main_arg1 : Cert.Spec.Row) = A.r)
    (hW : (V c main_arg11 : Cert.Spec.Mat) = A.Wo) (hWh : (V c main_arg19 : Cert.Spec.Mat) = A.Who)
    (hb : ∀ j, (V c main_v3 : Cert.Spec.Row) (ix2 0 j) = A.bo (ix1 j)) (hbh : ∀ j, (V c main_v7 : Cert.Spec.Row) (ix2 0 j) = A.bho (ix1 j))
    (j : Fin 4096) : gO V c j = Cert.Spec.gO A j := by
  unfold gO Cert.Spec.gO
  refine gate_eq c A A.Wo A.Who A.bo A.bho (sumO V c) _ _ (fun j => ?_) hb hbh j
  unfold sumO tO termG dotB
  simp only [blk_x, blk_r, blk_Wo, blk_Who]
  rw [hx, hr, hW, hWh]

end Cert.KernelIdeal.Phase1

end
-- ==== Proof.Ideal.Phase2Value.lean ====
import proofs.«169774_j34978213659000_2_alg».proof.Proof.Ideal.Phase2Region
import Idealize.ShloMosaic.Lib.Pipeline.Value
import Idealize.ShloMosaic.Lib.ValueIdx
import Idealize.ShloMosaic.Lib.ValueLayout

set_option maxRecDepth 16384

noncomputable section

namespace Cert.KernelIdeal.Phase2

open Cert.KernelIdeal Cert.KernelIdeal.Gen
open Idealize.ShloMosaic Idealize.ShloMosaic.TcCoe Idealize.SL.Sem
open Idealize.ShloMosaic.Pipeline (Dat)
open Idealize.ShloMosaic.ValueIdx

/-! # Phase 2 (the trace update): the two output arrays, entry by entry

The two traces are 4096 × 4096. Entry (r, s) of the new Hebbian trace is hebb(r, s) + mod(s)·elig(r, s) clipped to
[−1, 1]; entry (r, s) of the new eligibility trace is (1 − eta)·elig(r, s) + eta·(x(r)·post(s)). The kernel computes
them block by block on a 4 × 4 grid of 1024 × 1024 blocks: entry (r, s) lies in block (r / 1024, s / 1024), at
(r mod 1024, s mod 1024) inside it, and the pieces of the row vectors mod and post and of the column x that the
block reads are the ones that hold column s and row r. -/

/-- The new Hebbian trace from the Hebbian trace, the eligibility trace and the modulation row. -/
abbrev hebbNew (hebb elig : S4096x4096.Idx → Ideal .f32) (md : S1x4096.Idx → Ideal .f32) : S4096x4096.Idx → Ideal .f32 :=
  fun i => min (Ideal.ofBits .f32 0x3F800000#32) (max (Ideal.ofBits .f32 0xBF800000#32) (hebb i + md (ix2 0 (i 1)) * elig i))

/-- The new eligibility trace from the eligibility trace, the activation row post, the column x and eta. -/
abbrev eligNew (elig : S4096x4096.Idx → Ideal .f32) (post : S1x4096.Idx → Ideal .f32) (xc : S4096x1.Idx → Ideal .f32)
    (eta : S1x1.Idx → Ideal .f32) : S4096x4096.Idx → Ideal .f32 :=
  fun i => (Ideal.ofBits .f32 0x3F800000#32 - eta (ix2 0 0)) * elig i + eta (ix2 0 0) * (xc (ix2 (i 0) 0) * post (ix2 0 (i 1)))

/-! ## The body's arithmetic at one element of a block -/

/-- A column broadcast over the columns reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single entry broadcast over a matrix reads that entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- Element (p, q) of the Hebbian block the body stores: the modulation piece is a row, read at column q. -/
theorem pay1_apply (x0 x1 : Vec Ideal S1024x1024 .f32) (x2 : Vec Ideal S1x1024 .f32) (p q : Fin 1024) :
    k1_pay1 x0 x1 x2 (ix2 p q)
      = min (Ideal.ofBits .f32 0x3F800000#32) (max (Ideal.ofBits .f32 0xBF800000#32) (x0 (ix2 p q) + x2 (ix2 0 q) * x1 (ix2 p q))) := by
  unfold k1_pay1
  show min _ (max _ (x0 (ix2 p q) + broadcastTo S1024x1024 (shapeCast S1x1024 (shapeCast S1x1024 x2 _) _) _ (ix2 p q) * x1 (ix2 p q))) = _
  rw [shapeCast_self, shapeCast_self, broadcastTo_1b_ab_apply]
  rfl

/-- Element (p, q) of the eligibility block the body stores: eta is one entry, the x piece a column read at row p, the
    activation piece a row read at column q. -/
theorem pay2_apply (x5 : Vec Ideal S1x1 .f32) (x1 : Vec Ideal S1024x1024 .f32) (x3 : Vec Ideal S1x1024 .f32)
    (x4 : Vec Ideal S1024x1 .f32) (p q : Fin 1024) :
    k1_pay2 x5 x1 x3 x4 (ix2 p q)
      = (Ideal.ofBits .f32 0x3F800000#32 - x5 (ix2 0 0)) * x1 (ix2 p q) + x5 (ix2 0 0) * (x4 (ix2 p 0) * x3 (ix2 0 q)) := by
  unfold k1_pay2
  show (broadcastTo S1024x1024 (subf (broadcast S1x1 (Scalar.ofBits .f32 0x3F800000#32)) (shapeCast S1x1 x5 shapeCasts_S1x1_S1x1)) broadcasts_S1x1_S1024x1024 (ix2 p q) : Ideal .f32) * x1 (ix2 p q)
      + (broadcastTo S1024x1024 (shapeCast S1x1 x5 shapeCasts_S1x1_S1x1) broadcasts_S1x1_S1024x1024 (ix2 p q) : Ideal .f32)
        * ((broadcastTo S1024x1024 (shapeCast S1024x1 (shapeCast S1024x1 x4 shapeCasts_S1024x1_S1024x1) shapeCasts_S1024x1_S1024x1) broadcasts_S1024x1_S1024x1024 (ix2 p q) : Ideal .f32)
          * (broadcastTo S1024x1024 (shapeCast S1x1024 (shapeCast S1x1024 x3 shapeCasts_S1x1024_S1x1024) shapeCasts_S1x1024_S1x1024) broadcasts_S1x1024_S1024x1024 (ix2 p q) : Ideal .f32)) = _
  rw [shapeCast_self, shapeCast_self, shapeCast_self, shapeCast_self, shapeCast_self,
    broadcastTo_11_ab_apply, broadcastTo_11_ab_apply, broadcastTo_a1_ab_apply, broadcastTo_1b_ab_apply]
  rfl

/-! ## From a block element to the arrays -/

/-- One element of the new Hebbian block is the new Hebbian trace at the array entry i it sits at, once each input
    block's element is known to be its array's entry at i (the row's: at i's column). -/
theorem hebb_block (A0 A1 : S4096x4096.Idx → Ideal .f32) (A2 : S1x4096.Idx → Ideal .f32)
    (x0 x1 : Vec Ideal S1024x1024 .f32) (x2 : Vec Ideal S1x1024 .f32) (j : S1024x1024.Idx) (i : S4096x4096.Idx)
    (h0 : x0 j = A0 i) (h1 : x1 j = A1 i) (h2 : x2 (ix2 0 (j 1)) = A2 (ix2 0 (i 1))) :
    k1_pay1 x0 x1 x2 j = hebbNew A0 A1 A2 i := by
  obtain ⟨p, q, rfl⟩ : ∃ (p q : Fin 1024), j = ix2 p q := ⟨j 0, j 1, eq_ix2 j⟩
  have h2' : x2 (ix2 0 q) = A2 (ix2 0 (i 1)) := h2
  rw [pay1_apply, h0, h1, h2']

/-- One element of the new eligibility block, likewise (the column's element: at i's row; eta: its one entry). -/
theorem elig_block (A1 : S4096x4096.Idx → Ideal .f32) (A3 : S1x4096.Idx → Ideal .f32) (A4 : S4096x1.Idx → Ideal .f32)
    (A5 : S1x1.Idx → Ideal .f32)
    (x1 : Vec Ideal S1024x1024 .f32) (x3 : Vec Ideal S1x1024 .f32) (x4 : Vec Ideal S1024x1 .f32) (x5 : Vec Ideal S1x1 .f32)
    (j : S1024x1024.Idx) (i : S4096x4096.Idx)
    (h1 : x1 j = A1 i) (h3 : x3 (ix2 0 (j 1)) = A3 (ix2 0 (i 1))) (h4 : x4 (ix2 (j 0) 0) = A4 (ix2 (i 0) 0))
    (h5 : x5 (ix2 0 0) = A5 (ix2 0 0)) :
    k1_pay2 x5 x1 x3 x4 j = eligNew A1 A3 A4 A5 i := by
  obtain ⟨p, q, rfl⟩ : ∃ (p q : Fin 1024), j = ix2 p q := ⟨j 0, j 1, eq_ix2 j⟩
  have h3' : x3 (ix2 0 q) = A3 (ix2 0 (i 1)) := h3
  have h4' : x4 (ix2 p 0) = A4 (ix2 (i 0) 0) := h4
  rw [pay2_apply, h1, h3', h4', h5]

theorem hz : (![0, 0] : Fin 2 → Nat) = fun _ => 0 := funext fun a => by fin_cases a <;> rfl

/-- The printed index maps over the 4 × 4 grid: the two traces' input blocks and the second output's block move with
    the first output's block (a, b); the two rows sit at block (0, b), the column at (a, 0), eta at (0, 0); a, b ≤ 3. -/
theorem idx_facts : ∀ t : Fin cfg1.N,
    win1_0.index t (0 : Fin 2) = win1_6.index t (0 : Fin 2) ∧ win1_0.index t (1 : Fin 2) = win1_6.index t (1 : Fin 2)
    ∧ win1_1.index t (0 : Fin 2) = win1_6.index t (0 : Fin 2) ∧ win1_1.index t (1 : Fin 2) = win1_6.index t (1 : Fin 2)
    ∧ win1_2.index t (0 : Fin 2) = 0 ∧ win1_2.index t (1 : Fin 2) = win1_6.index t (1 : Fin 2)
    ∧ win1_3.index t (0 : Fin 2) = 0 ∧ win1_3.index t (1 : Fin 2) = win1_6.index t (1 : Fin 2)
    ∧ win1_4.index t (0 : Fin 2) = win1_6.index t (0 : Fin 2) ∧ win1_4.index t (1 : Fin 2) = 0
    ∧ win1_5.index t (0 : Fin 2) = 0 ∧ win1_5.index t (1 : Fin 2) = 0
    ∧ win1_7.index t (0 : Fin 2) = win1_6.index t (0 : Fin 2) ∧ win1_7.index t (1 : Fin 2) = win1_6.index t (1 : Fin 2)
    ∧ win1_6.index t (0 : Fin 2) ≤ 3 ∧ win1_6.index t (1 : Fin 2) ≤ 3 :=
  (by decide +kernel : ∀ t : Fin grid1.N, _)

/-- Every block (a, b) of the 4 × 4 tiling is some point's. -/
theorem idx_onto : ∀ (a b : Fin 4), ∃ t : Fin cfg1.N, win1_6.index t = ![a.val, b.val] :=
  (by decide +kernel : ∀ (a b : Fin 4), ∃ t : Fin grid1.N, win1_6.index t = ![a.val, b.val])

variable (V : (c : Dev nD) → (b : Ref sig .tc) → Buf (Elt Ideal) ((c : Thread nD τ).loc b))

/-! ## The Hebbian output -/

/-- What point t writes back to the Hebbian output is block t of the new Hebbian trace. -/
theorem flushed6_eq (c : Dev nD) (t : Fin cfg1.N) :
    (dat1 (F := Ideal) V c).flushed 6 t
      = ((cfg1.win 6).blk t).view.read (Elt Ideal) (hebbNew (V c main_arg3) (V c main_arg4) (V c main_v15)) := by
  show (cfg1.win 6).cut (grid1.coords t) ((dat1 V c).after 6 t) = _
  rw [after1_6]
  unfold out1_6
  rw [View.canon_unit_zero hz]
  simp only [View.ld_unit_zero (S := S1024x1024) hz, View.ld_unit_zero (S := S1x1024) hz]
  obtain ⟨e00, e01, e10, e11, e20, e21, e30, e31, e40, e41, e50, e51, e70, e71, b0, b1⟩ := idx_facts t
  funext j
  show k1_pay1 (iblk1 V c 0 t) (iblk1 V c 1 t) (iblk1 V c 2 t) j
    = hebbNew (V c main_arg3) (V c main_arg4) (V c main_v15) (((cfg1.win 6).blk t).view.emb j)
  refine hebb_block (V c main_arg3) (V c main_arg4) (V c main_v15) (iblk1 V c 0 t) (iblk1 V c 1 t) (iblk1 V c 2 t) j
    (((cfg1.win 6).blk t).view.emb j) ?_ ?_ ?_
  · show V c main_arg3 (((cfg1.win 0).blk t).view.emb j) = V c main_arg3 (((cfg1.win 6).blk t).view.emb j)
    refine congrArg _ (funext fun a => Fin.ext ?_)
    match a with
    | ⟨0, _⟩ => show win1_0.index t (0 : Fin 2) * 1024 + 1 * (j 0).val = win1_6.index t (0 : Fin 2) * 1024 + 1 * (j 0).val; omega
    | ⟨1, _⟩ => show win1_0.index t (1 : Fin 2) * 1024 + 1 * (j 1).val = win1_6.index t (1 : Fin 2) * 1024 + 1 * (j 1).val; omega
  · show V c main_arg4 (((cfg1.win 1).blk t).view.emb j) = V c main_arg4 (((cfg1.win 6).blk t).view.emb j)
    refine congrArg _ (funext fun a => Fin.ext ?_)
    match a with
    | ⟨0, _⟩ => show win1_1.index t (0 : Fin 2) * 1024 + 1 * (j 0).val = win1_6.index t (0 : Fin 2) * 1024 + 1 * (j 0).val; omega
    | ⟨1, _⟩ => show win1_1.index t (1 : Fin 2) * 1024 + 1 * (j 1).val = win1_6.index t (1 : Fin 2) * 1024 + 1 * (j 1).val; omega
  · show V c main_v15 (((cfg1.win 2).blk t).view.emb (ix2 0 (j 1))) = V c main_v15 (ix2 0 ((((cfg1.win 6).blk t).view.emb j) 1))
    refine congrArg _ (funext fun a => Fin.ext ?_)
    match a with
    | ⟨0, _⟩ => show win1_2.index t (0 : Fin 2) * 1 + 1 * 0 = 0; omega
    | ⟨1, _⟩ => show win1_2.index t (1 : Fin 2) * 1024 + 1 * (j 1).val = win1_6.index t (1 : Fin 2) * 1024 + 1 * (j 1).val; omega

/-- An entry of the array is in point t's block of the Hebbian output iff each coordinate is in the block's range. -/
theorem mem_blk6 (t : Fin cfg1.N) (i : S4096x4096.Idx) :
    i ∈ ((cfg1.win 6).blk t).view.set ↔ ∀ a : Fin 2, win1_6.index t a * S1024x1024.size a ≤ (i a).val
      ∧ (i a).val < win1_6.index t a * S1024x1024.size a + S1024x1024.size a := by
  show i ∈ ((View.whole main_v18_0).slice (win1_6.rect t)).set ↔ _
  rw [View.set_slice_whole, Rect.mem_set_unit]
  exact Iff.rfl

/-- Entry (r, s) lies in the block of the point whose block index is (r / 1024, s / 1024). -/
theorem cover6 (i : S4096x4096.Idx) :
    ∃ t : Fin cfg1.N, (cfg1.win 6).flush t = true ∧ i ∈ ((cfg1.win 6).blk t).view.set := by
  have hi0 : (i 0).val < 4096 := (i 0).isLt
  have hi1 : (i 1).val < 4096 := (i 1).isLt
  obtain ⟨t, ht⟩ := idx_onto ⟨(i 0).val / 1024, by omega⟩ ⟨(i 1).val / 1024, by omega⟩
  have q0 : win1_6.index t (0 : Fin 2) = (i 0).val / 1024 := congrFun ht 0
  have q1 : win1_6.index t (1 : Fin 2) = (i 1).val / 1024 := congrFun ht 1
  refine ⟨t, flush1_6 t, ?_⟩
  rw [mem_blk6]
  intro a
  match a with
  | ⟨0, _⟩ => show win1_6.index t (0 : Fin 2) * 1024 ≤ (i 0).val ∧ (i 0).val < win1_6.index t (0 : Fin 2) * 1024 + 1024; omega
  | ⟨1, _⟩ => show win1_6.index t (1 : Fin 2) * 1024 ≤ (i 1).val ∧ (i 1).val < win1_6.index t (1 : Fin 2) * 1024 + 1024; omega

/-- The Hebbian output array after the region: hebb + mod·elig clipped to [−1, 1], entry by entry. -/
theorem final6 (c : Dev nD) :
    (dat1 (F := Ideal) V c).arrAt 6 cfg1.N = hebbNew (V c main_arg3) (V c main_arg4) (V c main_v15) :=
  (dat1 (F := Ideal) V c).arrAt_eq_of_cover 6 (hebbNew (V c main_arg3) (V c main_arg4) (V c main_v15))
    (fun t _ => flushed6_eq V c t) cover6

/-! ## The eligibility output -/

/-- What point t writes back to the eligibility output is block t of the new eligibility trace. -/
theorem flushed7_eq (c : Dev nD) (t : Fin cfg1.N) :
    (dat1 (F := Ideal) V c).flushed 7 t
      = ((cfg1.win 7).blk t).view.read (Elt Ideal) (eligNew (V c main_arg4) (V c main_v8_2) (V c main_v16) (V c main_v17)) := by
  show (cfg1.win 7).cut (grid1.coords t) ((dat1 V c).after 7 t) = _
  rw [after1_7]
  unfold out1_7
  rw [View.canon_unit_zero hz]
  simp only [View.ld_unit_zero (S := S1024x1024) hz, View.ld_unit_zero (S := S1x1024) hz,
    View.ld_unit_zero (S := S1024x1) hz, View.ld_unit_zero (S := S1x1) hz]
  obtain ⟨e00, e01, e10, e11, e20, e21, e30, e31, e40, e41, e50, e51, e70, e71, b0, b1⟩ := idx_facts t
  funext j
  show k1_pay2 (iblk1 V c 5 t) (iblk1 V c 1 t) (iblk1 V c 3 t) (iblk1 V c 4 t) j
    = eligNew (V c main_arg4) (V c main_v8_2) (V c main_v16) (V c main_v17) (((cfg1.win 7).blk t).view.emb j)
  refine elig_block (V c main_arg4) (V c main_v8_2) (V c main_v16) (V c main_v17)
    (iblk1 V c 1 t) (iblk1 V c 3 t) (iblk1 V c 4 t) (iblk1 V c 5 t) j (((cfg1.win 7).blk t).view.emb j) ?_ ?_ ?_ ?_
  · show V c main_arg4 (((cfg1.win 1).blk t).view.emb j) = V c main_arg4 (((cfg1.win 7).blk t).view.emb j)
    refine congrArg _ (funext fun a => Fin.ext ?_)
    match a with
    | ⟨0, _⟩ => show win1_1.index t (0 : Fin 2) * 1024 + 1 * (j 0).val = win1_7.index t (0 : Fin 2) * 1024 + 1 * (j 0).val; omega
    | ⟨1, _⟩ => show win1_1.index t (1 : Fin 2) * 1024 + 1 * (j 1).val = win1_7.index t (1 : Fin 2) * 1024 + 1 * (j 1).val; omega
  · show V c main_v8_2 (((cfg1.win 3).blk t).view.emb (ix2 0 (j 1))) = V c main_v8_2 (ix2 0 ((((cfg1.win 7).blk t).view.emb j) 1))
    refine congrArg _ (funext fun a => Fin.ext ?_)
    match a with
    | ⟨0, _⟩ => show win1_3.index t (0 : Fin 2) * 1 + 1 * 0 = 0; omega
    | ⟨1, _⟩ => show win1_3.index t (1 : Fin 2) * 1024 + 1 * (j 1).val = win1_7.index t (1 : Fin 2) * 1024 + 1 * (j 1).val; omega
  · show V c main_v16 (((cfg1.win 4).blk t).view.emb (ix2 (j 0) 0)) = V c main_v16 (ix2 ((((cfg1.win 7).blk t).view.emb j) 0) 0)
    refine congrArg _ (funext fun a => Fin.ext ?_)
    match a with
    | ⟨0, _⟩ => show win1_4.index t (0 : Fin 2) * 1024 + 1 * (j 0).val = win1_7.index t (0 : Fin 2) * 1024 + 1 * (j 0).val; omega
    | ⟨1, _⟩ => show win1_4.index t (1 : Fin 2) * 1 + 1 * 0 = 0; omega
  · show V c main_v17 (((cfg1.win 5).blk t).view.emb (ix2 0 0)) = V c main_v17 (ix2 0 0)
    refine congrArg _ (funext fun a => Fin.ext ?_)
    match a with
    | ⟨0, _⟩ => show win1_5.index t (0 : Fin 2) * 1 + 1 * 0 = 0; omega
    | ⟨1, _⟩ => show win1_5.index t (1 : Fin 2) * 1 + 1 * 0 = 0; omega

/-- An entry of the array is in point t's block of the eligibility output iff each coordinate is in the block's range. -/
theorem mem_blk7 (t : Fin cfg1.N) (i : S4096x4096.Idx) :
    i ∈ ((cfg1.win 7).blk t).view.set ↔ ∀ a : Fin 2, win1_7.index t a * S1024x1024.size a ≤ (i a).val
      ∧ (i a).val < win1_7.index t a * S1024x1024.size a + S1024x1024.size a := by
  show i ∈ ((View.whole main_v18_1).slice (win1_7.rect t)).set ↔ _
  rw [View.set_slice_whole, Rect.mem_set_unit]
  exact Iff.rfl

/-- Entry (r, s) lies in the block of the point whose block index is (r / 1024, s / 1024). -/
theorem cover7 (i : S4096x4096.Idx) :
    ∃ t : Fin cfg1.N, (cfg1.win 7).flush t = true ∧ i ∈ ((cfg1.win 7).blk t).view.set := by
  have hi0 : (i 0).val < 4096 := (i 0).isLt
  have hi1 : (i 1).val < 4096 := (i 1).isLt
  obtain ⟨t, ht⟩ := idx_onto ⟨(i 0).val / 1024, by omega⟩ ⟨(i 1).val / 1024, by omega⟩
  have q0 : win1_6.index t (0 : Fin 2) = (i 0).val / 1024 := congrFun ht 0
  have q1 : win1_6.index t (1 : Fin 2) = (i 1).val / 1024 := congrFun ht 1
  obtain ⟨e00, e01, e10, e11, e20, e21, e30, e31, e40, e41, e50, e51, e70, e71, b0, b1⟩ := idx_facts t
  refine ⟨t, flush1_7 t, ?_⟩
  rw [mem_blk7]
  intro a
  match a with
  | ⟨0, _⟩ => show win1_7.index t (0 : Fin 2) * 1024 ≤ (i 0).val ∧ (i 0).val < win1_7.index t (0 : Fin 2) * 1024 + 1024; omega
  | ⟨1, _⟩ => show win1_7.index t (1 : Fin 2) * 1024 ≤ (i 1).val ∧ (i 1).val < win1_7.index t (1 : Fin 2) * 1024 + 1024; omega

/-- The eligibility output array after the region: (1 − eta)·elig + eta·(x·post), entry by entry. -/
theorem final7 (c : Dev nD) :
    (dat1 (F := Ideal) V c).arrAt 7 cfg1.N = eligNew (V c main_arg4) (V c main_v8_2) (V c main_v16) (V c main_v17) :=
  (dat1 (F := Ideal) V c).arrAt_eq_of_cover 7 (eligNew (V c main_arg4) (V c main_v8_2) (V c main_v16) (V c main_v17))
    (fun t _ => flushed7_eq V c t) cover7

end Cert.KernelIdeal.Phase2

end
-- ==== Proof.Ideal.HostGlue.lean ====
import proofs.«169774_j34978213659000_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Glue

open Cert.KernelIdeal Cert.KernelIdeal.Gen
open Idealize.ShloMosaic Idealize.ShloMosaic.TcCoe Idealize.SL.Sem
open Idealize.ShloMosaic.ValueIdx
open scoped BigOperators

/-! # The host lines between the two regions

Between the regions the host computes the modulation row from the input gate's activation post (a row of 4096):
the scalar m = tanh(post · Wmi + bmi), then the row m · Wmo + bmo; it turns the row x into a column; and it
re-lays eta, one number, as a 1 × 1 array. Here each of the three arrays the second region reads is written entry
by entry over the arrays the lines start from. -/

/-- The modulation row: tanh(∑ₖ post(k)·Wmi(k) + bmi) · Wmo(s) + bmo(s) at column s. -/
abbrev modRow (post : S1x4096.Idx → Ideal .f32) (wmi : S4096x1.Idx → Ideal .f32) (bmi : S1.Idx → Ideal .f32)
    (wmo : S1x4096.Idx → Ideal .f32) (bmo : S4096.Idx → Ideal .f32) : S1x4096.Idx → Ideal .f32 :=
  fun i => Ideal.tanh ((∑ k : Fin 4096, post (ix2 0 k) * wmi (ix2 k 0)) + bmi (ix1 0)) * wmo (ix2 0 (i 1)) + bmo (ix1 (i 1))

/-- x as a column: row r holds x's entry r. -/
abbrev xCol (x : S1x4096.Idx → Ideal .f32) : S4096x1.Idx → Ideal .f32 := fun i => x (ix2 0 (i 0))

/-- eta as a 1 × 1 array. -/
abbrev etaOne (eta : S1.Idx → Ideal .f32) : S1x1.Idx → Ideal .f32 := fun _ => eta (ix1 0)

/-! ## Each operation at an entry -/

/-- The one index of a 1 × 1 array. -/
theorem idx11 (i : S1x1.Idx) : i = ix2 (0 : Fin 1) (0 : Fin 1) := by
  obtain ⟨u, v, rfl⟩ : ∃ (u v : Fin 1), i = ix2 u v := ⟨i 0, i 1, eq_ix2 i⟩
  have hu : u = 0 := Fin.ext (by omega)
  have hv : v = 0 := Fin.ext (by omega)
  rw [hu, hv]

/-- An index of a row of 4096 is (0, s). -/
theorem idx_row (i : S1x4096.Idx) : ∃ s : Fin 4096, i = ix2 (0 : Fin 1) s := by
  obtain ⟨u, s, rfl⟩ : ∃ (u : Fin 1) (s : Fin 4096), i = ix2 u s := ⟨i 0, i 1, eq_ix2 i⟩
  have hu : u = 0 := Fin.ext (by omega)
  exact ⟨s, by rw [hu]⟩

/-- An index of a column of 4096 is (r, 0). -/
theorem idx_col (i : S4096x1.Idx) : ∃ r : Fin 4096, i = ix2 r (0 : Fin 1) := by
  obtain ⟨r, v, rfl⟩ : ∃ (r : Fin 4096) (v : Fin 1), i = ix2 r v := ⟨i 0, i 1, eq_ix2 i⟩
  have hv : v = 0 := Fin.ext (by omega)
  exact ⟨r, by rw [hv]⟩

/-- The re-laid eta reads eta's one entry. -/
theorem eta_read (a : S1.Idx → Ideal .f32) (h : S1.ShapeCasts S1x1) (i : S1x1.Idx) :
    shapeCast S1x1 a h i = a (ix1 0) := by
  rw [idx11 i]
  exact shapeCast_a_1a_apply a h 0 0

/-- The transposed row reads, at row r, the row's entry r. -/
theorem xcol_read (a : S1x4096.Idx → Ideal .f32) (h : S1x4096.Transposes [1, 0] S4096x1) (i : S4096x1.Idx) :
    transpose S4096x1 [1, 0] a h i = a (ix2 0 (i 0)) := by
  obtain ⟨r, rfl⟩ := idx_col i
  exact transpose_ix2_apply a h r 0

/-- The bias of the first product, broadcast to 1 × 1, reads its one entry. -/
theorem bmi_read (a : S1.Idx → Ideal .f32) (h : S1.BroadcastsInDim S1x1 (![1] : Fin 1 → Fin S1x1.rank)) :
    broadcastInDim S1x1 ![1] h a (ix2 (0 : Fin 1) (0 : Fin 1)) = a (ix1 0) :=
  broadcastInDim_apply _ h a _ (ix1 0) fun ax => by
    match ax with
    | ⟨0, _⟩ => rfl

/-- The bias of the second product, broadcast to a row, reads its entry s at column s. -/
theorem bmo_read (a : S4096.Idx → Ideal .f32) (h : S4096.BroadcastsInDim S1x4096 (![1] : Fin 1 → Fin S1x4096.rank))
    (s : Fin 4096) : broadcastInDim S1x4096 ![1] h a (ix2 (0 : Fin 1) s) = a (ix1 s) :=
  broadcastInDim_apply _ h a _ (ix1 s) fun ax => by
    match ax with
    | ⟨0, _⟩ => rfl

/-! ## The two products

Both contract one axis: the first the row post (1 × 4096) with the column Wmi (4096 × 1), a sum of 4096 products; the
second the 1 × 1 result with the row Wmo (1 × 4096), a sum of one product. -/

abbrev dotIn : DotDims S1x4096 S4096x1 S1x1 := dot_S1x4096_S4096x1_S1x1_1_0_0_1_n_n
abbrev dotOut : DotDims S1x1 S1x4096 S1x4096 := dot_S1x1_S1x4096_S1x4096_1_0_0_1_n_n

theorem dotIn_lhs0 (i : S1x1.Idx) (q : dotIn.contr.Idx) : (dotIn.lhsIdx i q 0).val = (i 0).val := by
  unfold DotDims.lhsIdx
  rw [dif_neg (show ¬(0 : Fin S1x4096.rank) ∈ dotIn.lhsBatch by decide),
    dif_pos (show (0 : Fin S1x4096.rank) ∈ dotIn.lhsNonContracting by decide)]
  rfl

theorem dotIn_rhs1 (i : S1x1.Idx) (q : dotIn.contr.Idx) : (dotIn.rhsIdx i q 1).val = (i 1).val := by
  unfold DotDims.rhsIdx
  rw [dif_neg (show ¬(1 : Fin S4096x1.rank) ∈ dotIn.rhsBatch by decide),
    dif_pos (show (1 : Fin S4096x1.rank) ∈ dotIn.rhsNonContracting by decide)]
  rfl

theorem dotOut_lhs0 (i : S1x4096.Idx) (q : dotOut.contr.Idx) : (dotOut.lhsIdx i q 0).val = (i 0).val := by
  unfold DotDims.lhsIdx
  rw [dif_neg (show ¬(0 : Fin S1x1.rank) ∈ dotOut.lhsBatch by decide),
    dif_pos (show (0 : Fin S1x1.rank) ∈ dotOut.lhsNonContracting by decide)]
  rfl

theorem dotOut_rhs1 (i : S1x4096.Idx) (q : dotOut.contr.Idx) : (dotOut.rhsIdx i q 1).val = (i 1).val := by
  unfold DotDims.rhsIdx
  rw [dif_neg (show ¬(1 : Fin S1x4096.rank) ∈ dotOut.rhsBatch by decide),
    dif_pos (show (1 : Fin S1x4096.rank) ∈ dotOut.rhsNonContracting by decide)]
  rfl

/-- The first product: ∑ₖ l(0, k)·r(k, 0). -/
theorem dotIn_apply (l : S1x4096.Idx → Ideal .f32) (r : S4096x1.Idx → Ideal .f32) :
    Host.dotGeneral (F := Ideal) dotIn none l r (ix2 (0 : Fin 1) (0 : Fin 1)) = ∑ k : Fin 4096, l (ix2 0 k) * r (ix2 k 0) := by
  show FloatOps.dotGeneral dotIn none _ l r (ix2 (0 : Fin 1) (0 : Fin 1)) = _
  rw [Ideal.dotGeneral_apply, ← Equiv.sum_comp (contrEquiv1 dotIn 4096 rfl rfl).symm]
  refine Finset.sum_congr rfl fun k _ => ?_
  have hk := contrEquiv1_symm_val dotIn 4096 rfl rfl k
  have el : dotIn.lhsIdx (ix2 (0 : Fin 1) (0 : Fin 1)) ((contrEquiv1 dotIn 4096 rfl rfl).symm k) = ix2 0 k :=
    funext fun a => Fin.ext (by
      match a with
      | ⟨0, _⟩ => exact dotIn_lhs0 _ _
      | ⟨1, _⟩ => exact (dotIn.lhsIdx_val_of_single rfl _ _).trans hk)
  have er : dotIn.rhsIdx (ix2 (0 : Fin 1) (0 : Fin 1)) ((contrEquiv1 dotIn 4096 rfl rfl).symm k) = ix2 k 0 :=
    funext fun a => Fin.ext (by
      match a with
      | ⟨0, _⟩ => exact (dotIn.rhsIdx_val_of_single rfl _ _).trans hk
      | ⟨1, _⟩ => exact dotIn_rhs1 _ _)
  rw [el, er]

/-- The second product: l(0, 0)·r(0, s) at column s. -/
theorem dotOut_apply (l : S1x1.Idx → Ideal .f32) (r : S1x4096.Idx → Ideal .f32) (s : Fin 4096) :
    Host.dotGeneral (F := Ideal) dotOut none l r (ix2 (0 : Fin 1) s) = l (ix2 0 0) * r (ix2 0 s) := by
  show FloatOps.dotGeneral dotOut none _ l r (ix2 (0 : Fin 1) s) = _
  rw [Ideal.dotGeneral_apply, ← Equiv.sum_comp (contrEquiv1 dotOut 1 rfl rfl).symm, Fin.sum_univ_one]
  have hk := contrEquiv1_symm_val dotOut 1 rfl rfl 0
  have el : dotOut.lhsIdx (ix2 (0 : Fin 1) s) ((contrEquiv1 dotOut 1 rfl rfl).symm 0) = ix2 0 0 :=
    funext fun a => Fin.ext (by
      match a with
      | ⟨0, _⟩ => exact dotOut_lhs0 _ _
      | ⟨1, _⟩ => exact (dotOut.lhsIdx_val_of_single rfl _ _).trans hk)
  have er : dotOut.rhsIdx (ix2 (0 : Fin 1) s) ((contrEquiv1 dotOut 1 rfl rfl).symm 0) = ix2 0 s :=
    funext fun a => Fin.ext (by
      match a with
      | ⟨0, _⟩ => exact (dotOut.rhsIdx_val_of_single rfl _ _).trans hk
      | ⟨1, _⟩ => exact dotOut_rhs1 _ _)
  rw [el, er]

/-! ## The three arrays -/

/-- The modulation row's operations compose to the row, entry by entry. -/
theorem mod_read (post : FVec Ideal S1x4096 .f32) (wmi : FVec Ideal S4096x1 .f32) (bmi : FVec Ideal S1 .f32)
    (wmo : FVec Ideal S1x4096 .f32) (bmo : FVec Ideal S4096 .f32)
    (hbi : S1.BroadcastsInDim S1x1 (![1] : Fin 1 → Fin S1x1.rank))
    (hbo : S4096.BroadcastsInDim S1x4096 (![1] : Fin 1 → Fin S1x4096.rank)) :
    addf (Host.dotGeneral (F := Ideal) dotOut none
          (Host.tanh (F := Ideal) (addf (Host.dotGeneral (F := Ideal) dotIn none post wmi) (broadcastInDim S1x1 ![1] hbi bmi))) wmo)
        (broadcastInDim S1x4096 ![1] hbo bmo)
      = modRow post wmi bmi wmo bmo := by
  funext i
  obtain ⟨s, rfl⟩ := idx_row i
  show (Host.dotGeneral (F := Ideal) dotOut none
          (Host.tanh (F := Ideal) (addf (Host.dotGeneral (F := Ideal) dotIn none post wmi) (broadcastInDim S1x1 ![1] hbi bmi))) wmo
          (ix2 (0 : Fin 1) s) : Ideal .f32)
      + (broadcastInDim S1x4096 ![1] hbo bmo (ix2 (0 : Fin 1) s) : Ideal .f32) = _
  rw [dotOut_apply, bmo_read]
  show Ideal.tanh ((Host.dotGeneral (F := Ideal) dotIn none post wmi (ix2 (0 : Fin 1) (0 : Fin 1)) : Ideal .f32)
        + (broadcastInDim S1x1 ![1] hbi bmi (ix2 (0 : Fin 1) (0 : Fin 1)) : Ideal .f32)) * wmo (ix2 0 s) + bmo (ix1 s) = _
  rw [dotIn_apply, bmi_read]

variable (W : Valuation τ sig (Elt Ideal))

/-- After the host lines, the modulation row's buffer holds the row over the activation, the two weight arrays and
    the two biases as the lines found them. -/
theorem glue_mod : StableHlo.after (hostOps1 (F := Ideal)) W (Proc.devRef .tc main_v15)
    = modRow (W (Proc.devRef .tc main_v8_2)) (W (Proc.devRef .tc main_arg21)) (W (Proc.devRef .tc main_arg22))
        (W (Proc.devRef .tc main_arg23)) (W (Proc.devRef .tc main_arg24)) := by
  dsimp only [hostOps1]
  after_results
  exact mod_read _ _ _ _ _ _ _

/-- After the host lines, the column's buffer holds x, row by row. -/
theorem glue_xcol : StableHlo.after (hostOps1 (F := Ideal)) W (Proc.devRef .tc main_v16)
    = xCol (W (Proc.devRef .tc main_arg0)) := by
  dsimp only [hostOps1]
  after_results
  exact funext fun i => xcol_read _ _ i

/-- After the host lines, the 1 × 1 buffer holds eta. -/
theorem glue_eta : StableHlo.after (hostOps1 (F := Ideal)) W (Proc.devRef .tc main_v17)
    = etaOne (W (Proc.devRef .tc main_arg25)) := by
  dsimp only [hostOps1]
  after_results
  show (fun i => shapeCast S1x1 (W (Proc.devRef .tc main_arg25)) shapeCasts_S1_S1x1 i) = _
  exact funext fun i => eta_read _ _ i

end Cert.KernelIdeal.Glue

end
-- ==== Proof.Ideal.Glue0.lean ====
import proofs.«169774_j34978213659000_2_alg».proof.Proof.Gen.KernelIdeal.Launch
import Idealize.ShloMosaic.Lib.StableHlo.Run
import Idealize.ShloMosaic.Lib.Pipeline.Value
import Idealize.ShloMosaic.Lib.ValueIdx

set_option maxRecDepth 16384

noncomputable section

namespace Cert.KernelIdeal.Glue

open Cert.KernelIdeal Cert.KernelIdeal.Gen
open Idealize.ShloMosaic Idealize.ShloMosaic.TcCoe Idealize.ShloMosaic.ValueIdx
open Idealize.SL Idealize.SL.Sem

/-! # The host lines before phase 1: the eight biases as rows

Each bias vector of 4096 entries is reshaped to a 1 × 4096 row; the row at (0, j) is the vector at j. -/

/-- A vector of 4096 viewed as a 1 × 4096 row, at (0, j). -/
theorem row_of_vec (v : S4096.Idx → Ideal .f32) (h : S4096.ShapeCasts S1x4096) (j : Fin 4096) :
    shapeCast S1x4096 v h (ix2 0 j) = v (ix1 j) :=
  (shapeCast_addUnit_apply ![4096] v h (ix2 0 j)).trans
    (congrArg v (funext fun a => by match a with | ⟨0, _⟩ => rfl))

variable (W : Valuation τ sig (Elt Ideal))

theorem glue_v0 : (StableHlo.after hostOps0 W (Proc.devRef .tc main_v0) : S1x4096.Idx → Ideal .f32)
    = shapeCast S1x4096 (W (Proc.devRef .tc main_arg6) : S4096.Idx → Ideal .f32) shapeCasts_S4096_S1x4096 := by
  after_results; rfl
theorem glue_v1 : (StableHlo.after hostOps0 W (Proc.devRef .tc main_v1) : S1x4096.Idx → Ideal .f32)
    = shapeCast S1x4096 (W (Proc.devRef .tc main_arg8) : S4096.Idx → Ideal .f32) shapeCasts_S4096_S1x4096 := by
  after_results; rfl
theorem glue_v2 : (StableHlo.after hostOps0 W (Proc.devRef .tc main_v2) : S1x4096.Idx → Ideal .f32)
    = shapeCast S1x4096 (W (Proc.devRef .tc main_arg10) : S4096.Idx → Ideal .f32) shapeCasts_S4096_S1x4096 := by
  after_results; rfl
theorem glue_v3 : (StableHlo.after hostOps0 W (Proc.devRef .tc main_v3) : S1x4096.Idx → Ideal .f32)
    = shapeCast S1x4096 (W (Proc.devRef .tc main_arg12) : S4096.Idx → Ideal .f32) shapeCasts_S4096_S1x4096 := by
  after_results; rfl
theorem glue_v4 : (StableHlo.after hostOps0 W (Proc.devRef .tc main_v4) : S1x4096.Idx → Ideal .f32)
    = shapeCast S1x4096 (W (Proc.devRef .tc main_arg14) : S4096.Idx → Ideal .f32) shapeCasts_S4096_S1x4096 := by
  after_results; rfl
theorem glue_v5 : (StableHlo.after hostOps0 W (Proc.devRef .tc main_v5) : S1x4096.Idx → Ideal .f32)
    = shapeCast S1x4096 (W (Proc.devRef .tc main_arg16) : S4096.Idx → Ideal .f32) shapeCasts_S4096_S1x4096 := by
  after_results; rfl
theorem glue_v6 : (StableHlo.after hostOps0 W (Proc.devRef .tc main_v6) : S1x4096.Idx → Ideal .f32)
    = shapeCast S1x4096 (W (Proc.devRef .tc main_arg18) : S4096.Idx → Ideal .f32) shapeCasts_S4096_S1x4096 := by
  after_results; rfl
theorem glue_v7 : (StableHlo.after hostOps0 W (Proc.devRef .tc main_v7) : S1x4096.Idx → Ideal .f32)
    = shapeCast S1x4096 (W (Proc.devRef .tc main_arg20) : S4096.Idx → Ideal .f32) shapeCasts_S4096_S1x4096 := by
  after_results; rfl

end Cert.KernelIdeal.Glue

end
-- ==== Proof.Ideal.KernelValue.lean ====
import proofs.«169774_j34978213659000_2_alg».proof.Proof.Ideal.Results
import proofs.«169774_j34978213659000_2_alg».proof.Proof.Ideal.Phase1Spec
import proofs.«169774_j34978213659000_2_alg».proof.Proof.Ideal.Phase2Value
import proofs.«169774_j34978213659000_2_alg».proof.Proof.Ideal.HostGlue
import proofs.«169774_j34978213659000_2_alg».proof.Proof.Ideal.Glue0

set_option maxRecDepth 16384

noncomputable section

namespace Cert.KernelIdeal.Run

open Cert.KernelIdeal Cert.KernelIdeal.Gen Cert.KernelIdeal.Phase1 Cert.KernelIdeal.Phase2 Cert.KernelIdeal.Glue
open Idealize.ShloMosaic Idealize.ShloMosaic.TcCoe Idealize.ShloMosaic.ValueIdx
open Idealize.SL Idealize.SL.Sem

/-! # The kernel's results are the specification's

Phase 1 finds the arguments as launched and the eight biases as rows, so its three outputs are the specification's
h, new cell state and input-gate activation. The host lines then form the specification's modulation row from that
activation, and phase 2, finding the two traces as launched, stores the specification's two new traces. -/

variable (m : (ℓ : Loc nD τ sig) → Buf (Elt Ideal) ℓ) (ρ : Dev nD → PrngReg)

/-- The kernel's argument arrays on core c, as the specification's bundle. -/
def argsOf (c : Dev nD) : Cert.Spec.Args where
  x := m ((c.tc : Thread nD τ).loc main_arg0)
  r := m ((c.tc : Thread nD τ).loc main_arg1)
  cell := m ((c.tc : Thread nD τ).loc main_arg2)
  hebb := m ((c.tc : Thread nD τ).loc main_arg3)
  elig := m ((c.tc : Thread nD τ).loc main_arg4)
  Wi := m ((c.tc : Thread nD τ).loc main_arg5)
  bi := m ((c.tc : Thread nD τ).loc main_arg6)
  Wj := m ((c.tc : Thread nD τ).loc main_arg7)
  bj := m ((c.tc : Thread nD τ).loc main_arg8)
  Wf := m ((c.tc : Thread nD τ).loc main_arg9)
  bf := m ((c.tc : Thread nD τ).loc main_arg10)
  Wo := m ((c.tc : Thread nD τ).loc main_arg11)
  bo := m ((c.tc : Thread nD τ).loc main_arg12)
  Whi := m ((c.tc : Thread nD τ).loc main_arg13)
  bhi := m ((c.tc : Thread nD τ).loc main_arg14)
  Whj := m ((c.tc : Thread nD τ).loc main_arg15)
  bhj := m ((c.tc : Thread nD τ).loc main_arg16)
  Whf := m ((c.tc : Thread nD τ).loc main_arg17)
  bhf := m ((c.tc : Thread nD τ).loc main_arg18)
  Who := m ((c.tc : Thread nD τ).loc main_arg19)
  bho := m ((c.tc : Thread nD τ).loc main_arg20)
  Wmi := m ((c.tc : Thread nD τ).loc main_arg21)
  bmi := m ((c.tc : Thread nD τ).loc main_arg22)
  Wmo := m ((c.tc : Thread nD τ).loc main_arg23)
  bmo := m ((c.tc : Thread nD τ).loc main_arg24)
  eta := m ((c.tc : Thread nD τ).loc main_arg25)
  alpha := m ((c.tc : Thread nD τ).loc main_arg26)

/-- A row is determined by its entries (0, j). -/
theorem row_ext (f g : Cert.Spec.Row) (h : ∀ j : Fin 4096, f (ix2 0 j) = g (ix2 0 j)) : f = g := by
  funext i
  have h0 : (i 0).val = 0 := by have := idx2_lt0 i; omega
  have hi : ix2 (0 : Fin 1) (i 1) = i := by
    funext a
    match a with
    | ⟨0, _⟩ => exact Fin.ext h0.symm
    | ⟨1, _⟩ => rfl
  exact (congrArg f hi.symm).trans ((h (i 1)).trans (congrArg g hi))

/-! ## The bias rows phase 1 finds -/

theorem bi_row (c : Dev nD) (j : Fin 4096) : (U1 m c main_v0 : Cert.Spec.Row) (ix2 0 j) = (argsOf m c).bi (ix1 j) := by
  show (StableHlo.after hostOps0 (W0 m c) (Proc.devRef .tc main_v0) : S1x4096.Idx → Ideal .f32) (ix2 0 j) = _
  rw [glue_v0, row_of_vec]; rfl
theorem bj_row (c : Dev nD) (j : Fin 4096) : (U1 m c main_v1 : Cert.Spec.Row) (ix2 0 j) = (argsOf m c).bj (ix1 j) := by
  show (StableHlo.after hostOps0 (W0 m c) (Proc.devRef .tc main_v1) : S1x4096.Idx → Ideal .f32) (ix2 0 j) = _
  rw [glue_v1, row_of_vec]; rfl
theorem bf_row (c : Dev nD) (j : Fin 4096) : (U1 m c main_v2 : Cert.Spec.Row) (ix2 0 j) = (argsOf m c).bf (ix1 j) := by
  show (StableHlo.after hostOps0 (W0 m c) (Proc.devRef .tc main_v2) : S1x4096.Idx → Ideal .f32) (ix2 0 j) = _
  rw [glue_v2, row_of_vec]; rfl
theorem bo_row (c : Dev nD) (j : Fin 4096) : (U1 m c main_v3 : Cert.Spec.Row) (ix2 0 j) = (argsOf m c).bo (ix1 j) := by
  show (StableHlo.after hostOps0 (W0 m c) (Proc.devRef .tc main_v3) : S1x4096.Idx → Ideal .f32) (ix2 0 j) = _
  rw [glue_v3, row_of_vec]; rfl
theorem bhi_row (c : Dev nD) (j : Fin 4096) : (U1 m c main_v4 : Cert.Spec.Row) (ix2 0 j) = (argsOf m c).bhi (ix1 j) := by
  show (StableHlo.after hostOps0 (W0 m c) (Proc.devRef .tc main_v4) : S1x4096.Idx → Ideal .f32) (ix2 0 j) = _
  rw [glue_v4, row_of_vec]; rfl
theorem bhj_row (c : Dev nD) (j : Fin 4096) : (U1 m c main_v5 : Cert.Spec.Row) (ix2 0 j) = (argsOf m c).bhj (ix1 j) := by
  show (StableHlo.after hostOps0 (W0 m c) (Proc.devRef .tc main_v5) : S1x4096.Idx → Ideal .f32) (ix2 0 j) = _
  rw [glue_v5, row_of_vec]; rfl
theorem bhf_row (c : Dev nD) (j : Fin 4096) : (U1 m c main_v6 : Cert.Spec.Row) (ix2 0 j) = (argsOf m c).bhf (ix1 j) := by
  show (StableHlo.after hostOps0 (W0 m c) (Proc.devRef .tc main_v6) : S1x4096.Idx → Ideal .f32) (ix2 0 j) = _
  rw [glue_v6, row_of_vec]; rfl
theorem bho_row (c : Dev nD) (j : Fin 4096) : (U1 m c main_v7 : Cert.Spec.Row) (ix2 0 j) = (argsOf m c).bho (ix1 j) := by
  show (StableHlo.after hostOps0 (W0 m c) (Proc.devRef .tc main_v7) : S1x4096.Idx → Ideal .f32) (ix2 0 j) = _
  rw [glue_v7, row_of_vec]; rfl

/-! ## Phase 1's gates are the specification's -/

theorem P_spec (c : Dev nD) (j : Fin 4096) : Phase1.gP (U1 m) c j = Cert.Spec.post (argsOf m c) j :=
  gP_eq (U1 m) c (argsOf m c) (U1_arg m c main_arg0 (by decide)) (U1_arg m c main_arg1 (by decide)) (U1_arg m c main_arg5 (by decide))
    (U1_arg m c main_arg13 (by decide)) (U1_arg m c main_arg26 (by decide)) (U1_arg m c main_arg3 (by decide)) (bi_row m c) (bhi_row m c) j
theorem J_spec (c : Dev nD) (j : Fin 4096) : Phase1.gJ (U1 m) c j = Cert.Spec.gJ (argsOf m c) j :=
  gJ_eq (U1 m) c (argsOf m c) (U1_arg m c main_arg0 (by decide)) (U1_arg m c main_arg1 (by decide)) (U1_arg m c main_arg7 (by decide))
    (U1_arg m c main_arg15 (by decide)) (bj_row m c) (bhj_row m c) j
theorem F_spec (c : Dev nD) (j : Fin 4096) : Phase1.gF (U1 m) c j = Cert.Spec.gF (argsOf m c) j :=
  gF_eq (U1 m) c (argsOf m c) (U1_arg m c main_arg0 (by decide)) (U1_arg m c main_arg1 (by decide)) (U1_arg m c main_arg9 (by decide))
    (U1_arg m c main_arg17 (by decide)) (bf_row m c) (bhf_row m c) j
theorem O_spec (c : Dev nD) (j : Fin 4096) : Phase1.gO (U1 m) c j = Cert.Spec.gO (argsOf m c) j :=
  gO_eq (U1 m) c (argsOf m c) (U1_arg m c main_arg0 (by decide)) (U1_arg m c main_arg1 (by decide)) (U1_arg m c main_arg11 (by decide))
    (U1_arg m c main_arg19 (by decide)) (bo_row m c) (bho_row m c) j

/-! ## The first and the fourth result, and the activation -/

/-- The input gate's activation as phase 1 leaves it. -/
theorem post_arr (c : Dev nD) : (W2 m c (Proc.devRef .tc main_v8_2) : Cert.Spec.Row) = Cert.Spec.postArr (argsOf m c) := by
  rw [W2_post]
  exact row_ext _ _ fun j => (post_val (U1 m) c j).trans (P_spec m c j)

/-- h. -/
theorem h_arr (c : Dev nD) : (W4 m c (Proc.devRef .tc main_v8_0) : Cert.Spec.Row) = Cert.Spec.hArr (argsOf m c) := by
  rw [W4_h]
  refine row_ext _ _ fun j => (h_val (U1 m) c j).trans ?_
  rw [P_spec, J_spec, F_spec, O_spec, show (U1 m c main_arg2 : Cert.Spec.Row) = (argsOf m c).cell from U1_arg m c main_arg2 (by decide)]
  rfl

/-- The new cell state. -/
theorem c_arr (c : Dev nD) : (W4 m c (Proc.devRef .tc main_v8_1) : Cert.Spec.Row) = Cert.Spec.cArr (argsOf m c) := by
  rw [W4_c]
  refine row_ext _ _ fun j => (c_val (U1 m) c j).trans ?_
  rw [P_spec, J_spec, F_spec, show (U1 m c main_arg2 : Cert.Spec.Row) = (argsOf m c).cell from U1_arg m c main_arg2 (by decide)]
  rfl

/-! ## The modulation, and the two new traces -/

/-- The modulation row as phase 2 finds it. -/
theorem mod_arr (c : Dev nD) : (U3 m c main_v15 : Cert.Spec.Row) = Cert.Spec.modArr (argsOf m c) := by
  show StableHlo.after (hostOps1 (F := Ideal)) (W2 m c) (Proc.devRef .tc main_v15) = _
  rw [glue_mod, post_arr, W2_arg m c main_arg21 (by decide) (by decide), W2_arg m c main_arg22 (by decide) (by decide),
    W2_arg m c main_arg23 (by decide) (by decide), W2_arg m c main_arg24 (by decide) (by decide)]
  rfl

/-- The activation as phase 2 finds it: the host lines between the regions do not write it. -/
theorem post_arr3 (c : Dev nD) : (U3 m c main_v8_2 : Cert.Spec.Row) = Cert.Spec.postArr (argsOf m c) :=
  (StableHlo.after_of_writes_sub hostOps1 _ hostOps1_writes (by decide)).trans (post_arr m c)

/-- The new Hebbian trace. -/
theorem hebb_arr (c : Dev nD) : (W4 m c (Proc.devRef .tc main_v18_0) : Cert.Spec.Mat) = Cert.Spec.hebbArr (argsOf m c) := by
  rw [W4_hebb, final6, mod_arr, U3_arg m c main_arg3 (by decide) (by decide) (by decide), U3_arg m c main_arg4 (by decide) (by decide) (by decide)]
  funext i
  obtain ⟨p, q, rfl⟩ : ∃ (p : Fin 4096) (q : Fin 4096), i = ix2 p q := ⟨i 0, i 1, eq_ix2 i⟩
  rfl

/-- The new eligibility trace. -/
theorem elig_arr (c : Dev nD) : (W4 m c (Proc.devRef .tc main_v18_1) : Cert.Spec.Mat) = Cert.Spec.eligArr (argsOf m c) := by
  rw [W4_elig, final7, post_arr3, U3_arg m c main_arg4 (by decide) (by decide) (by decide)]
  rw [show (U3 m c main_v16 : S4096x1.Idx → Ideal .f32) = xCol (argsOf m c).x from by
        show StableHlo.after (hostOps1 (F := Ideal)) (W2 m c) (Proc.devRef .tc main_v16) = _
        rw [glue_xcol, W2_arg m c main_arg0 (by decide) (by decide)]; rfl,
      show (U3 m c main_v17 : S1x1.Idx → Ideal .f32) = etaOne (argsOf m c).eta from by
        show StableHlo.after (hostOps1 (F := Ideal)) (W2 m c) (Proc.devRef .tc main_v17) = _
        rw [glue_eta, W2_arg m c main_arg25 (by decide) (by decide)]; rfl]
  funext i
  obtain ⟨p, q, rfl⟩ : ∃ (p : Fin 4096) (q : Fin 4096), i = ix2 p q := ⟨i 0, i 1, eq_ix2 i⟩
  rfl

/-! ## The kernel's run -/

/-- THE KERNEL'S RUN AT THE IDEAL VALUES: every weakly fair execution terminates, nothing faulting, with the four
    results at the specification's arrays of the launch arguments and every argument as launched. -/
theorem kernel_run : θ_run defs (onTc (τ := τ) (main (F := Ideal))) ⟨m, fun _ => 0, ρ⟩ (fun r => ∀ c : Dev nD,
      r.2.mem ((c.tc : Thread nD τ).loc main_v8_0) = Cert.Spec.hArr (argsOf m c)
      ∧ r.2.mem ((c.tc : Thread nD τ).loc main_v18_0) = Cert.Spec.hebbArr (argsOf m c)
      ∧ r.2.mem ((c.tc : Thread nD τ).loc main_v18_1) = Cert.Spec.eligArr (argsOf m c)
      ∧ r.2.mem ((c.tc : Thread nD τ).loc main_v8_1) = Cert.Spec.cArr (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun r h c => ⟨
    (h c _ (mem_uc main_v8_0 (by decide))).trans (h_arr m c),
    (h c _ (mem_uc main_v18_0 (by decide))).trans (hebb_arr m c),
    (h c _ (mem_uc main_v18_1 (by decide))).trans (elig_arr m c),
    (h c _ (mem_uc main_v8_1 (by decide))).trans (c_arr m c),
    (h c _ (mem_uc main_arg0 (by decide))).trans (W4_untouched m c main_arg0 (by decide) (by decide) (by decide) (by decide)),
    (h c _ (mem_uc main_arg1 (by decide))).trans (W4_untouched m c main_arg1 (by decide) (by decide) (by decide) (by decide)),
    (h c _ (mem_uc main_arg2 (by decide))).trans (W4_untouched m c main_arg2 (by decide) (by decide) (by decide) (by decide)),
    (h c _ (mem_uc main_arg3 (by decide))).trans (W4_untouched m c main_arg3 (by decide) (by decide) (by decide) (by decide)),
    (h c _ (mem_uc main_arg4 (by decide))).trans (W4_untouched m c main_arg4 (by decide) (by decide) (by decide) (by decide)),
    (h c _ (mem_uc main_arg5 (by decide))).trans (W4_untouched m c main_arg5 (by decide) (by decide) (by decide) (by decide)),
    (h c _ (mem_uc main_arg6 (by decide))).trans (W4_untouched m c main_arg6 (by decide) (by decide) (by decide) (by decide)),
    (h c _ (mem_uc main_arg7 (by decide))).trans (W4_untouched m c main_arg7 (by decide) (by decide) (by decide) (by decide)),
    (h c _ (mem_uc main_arg8 (by decide))).trans (W4_untouched m c main_arg8 (by decide) (by decide) (by decide) (by decide)),
    (h c _ (mem_uc main_arg9 (by decide))).trans (W4_untouched m c main_arg9 (by decide) (by decide) (by decide) (by decide)),
    (h c _ (mem_uc main_arg10 (by decide))).trans (W4_untouched m c main_arg10 (by decide) (by decide) (by decide) (by decide)),
    (h c _ (mem_uc main_arg11 (by decide))).trans (W4_untouched m c main_arg11 (by decide) (by decide) (by decide) (by decide)),
    (h c _ (mem_uc main_arg12 (by decide))).trans (W4_untouched m c main_arg12 (by decide) (by decide) (by decide) (by decide)),
    (h c _ (mem_uc main_arg13 (by decide))).trans (W4_untouched m c main_arg13 (by decide) (by decide) (by decide) (by decide)),
    (h c _ (mem_uc main_arg14 (by decide))).trans (W4_untouched m c main_arg14 (by decide) (by decide) (by decide) (by decide)),
    (h c _ (mem_uc main_arg15 (by decide))).trans (W4_untouched m c main_arg15 (by decide) (by decide) (by decide) (by decide)),
    (h c _ (mem_uc main_arg16 (by decide))).trans (W4_untouched m c main_arg16 (by decide) (by decide) (by decide) (by decide)),
    (h c _ (mem_uc main_arg17 (by decide))).trans (W4_untouched m c main_arg17 (by decide) (by decide) (by decide) (by decide)),
    (h c _ (mem_uc main_arg18 (by decide))).trans (W4_untouched m c main_arg18 (by decide) (by decide) (by decide) (by decide)),
    (h c _ (mem_uc main_arg19 (by decide))).trans (W4_untouched m c main_arg19 (by decide) (by decide) (by decide) (by decide)),
    (h c _ (mem_uc main_arg20 (by decide))).trans (W4_untouched m c main_arg20 (by decide) (by decide) (by decide) (by decide)),
    (h c _ (mem_uc main_arg21 (by decide))).trans (W4_untouched m c main_arg21 (by decide) (by decide) (by decide) (by decide)),
    (h c _ (mem_uc main_arg22 (by decide))).trans (W4_untouched m c main_arg22 (by decide) (by decide) (by decide) (by decide)),
    (h c _ (mem_uc main_arg23 (by decide))).trans (W4_untouched m c main_arg23 (by decide) (by decide) (by decide) (by decide)),
    (h c _ (mem_uc main_arg24 (by decide))).trans (W4_untouched m c main_arg24 (by decide) (by decide) (by decide) (by decide)),
    (h c _ (mem_uc main_arg25 (by decide))).trans (W4_untouched m c main_arg25 (by decide) (by decide) (by decide) (by decide)),
    (h c _ (mem_uc main_arg26 (by decide))).trans (W4_untouched m c main_arg26 (by decide) (by decide) (by decide) (by decide))⟩)
    (run_all m ρ)

end Cert.KernelIdeal.Run

end
-- ==== Proof.Ref.Gates.lean ====
import proofs.«169774_j34978213659000_2_alg».proof.Proof.Gen.ReferenceIdeal.Read
import proofs.«169774_j34978213659000_2_alg».proof.Proof.Spec

noncomputable section

namespace Cert.ReferenceIdeal.RefValue

open Cert.ReferenceIdeal Cert.ReferenceIdeal.Read Cert.Spec Idealize.ShloMosaic Idealize.ShloMosaic.ValueIdx

/-! # The reference's four gates are the specification's

The reference computes each gate as a chain of whole-row operations: a row times a matrix, a bias spread along the
row, sums, and tanh. Read at column j of a row (the index (0, j)), a row-times-matrix contraction is the sum over k of
x(0,k)·W(k,j), which is the specification's `dot`, and a spread bias is b(j). The sums are taken in the grouping the
specification writes, so each gate agrees with it term by term; no law of arithmetic is used. -/

/-- Every index of a row [1, 4096] is (0, j). -/
theorem row_ix (i : (⟨2, ![1, 4096]⟩ : Shape).Idx) : i = ix2 (0 : Fin 1) (i 1) := by
  have h := idx2_lt0 i
  funext a
  match a with
  | ⟨0, _⟩ => exact Fin.ext (by show (i 0).val = 0; omega)
  | ⟨1, _⟩ => rfl

/-- In a row-times-matrix contraction read at column j, the row operand sits at (0, k) … -/
theorem rowL (j k : Fin 4096) : lidx_main_v2 (ix2 (0 : Fin 1) j) k = ix2 (0 : Fin 1) k :=
  funext fun a => by match a with | ⟨0, _⟩ => rfl | ⟨1, _⟩ => rfl
/-- … and the matrix operand at (k, j). -/
theorem rowR (j k : Fin 4096) : ridx_main_v2 (ix2 (0 : Fin 1) j) k = ix2 k j :=
  funext fun a => by match a with | ⟨0, _⟩ => rfl | ⟨1, _⟩ => rfl
/-- A bias spread along the row is read at j. -/
theorem biasIdx (j : Fin 4096) : idx_main_v4 (ix2 (0 : Fin 1) j) = ix1 j :=
  funext fun a => by match a with | ⟨0, _⟩ => rfl

/-- A row times a matrix, at column j, is the specification's `dot`. -/
theorem rowDot_at (x : Row) (W : Mat) (j : Fin 4096) :
    val_main_v2 (F := Ideal) x W (ix2 (0 : Fin 1) j) = dot x W j := by
  rw [val_main_v2_apply]
  unfold dot
  exact Finset.sum_congr rfl fun k _ => by rw [rowL, rowR]

/-- A spread bias at column j is the bias's entry j. -/
theorem bias_at (b : Bias) (j : Fin 4096) : val_main_v4 (F := Ideal) b (ix2 (0 : Fin 1) j) = b (ix1 j) := by
  rw [val_main_v4_apply, biasIdx]

/-- The plastic term: the row times the entrywise product alpha ∘ hebb. -/
theorem plastic_at (A : Args) (j : Fin 4096) :
    val_main_v1 (F := Ideal) A.x A.hebb A.alpha (ix2 (0 : Fin 1) j) = dot A.x (plastic A) j :=
  rowDot_at A.x (plastic A) j

/-- A plain gate before its tanh, as the reference computes it on whole rows: ((x·W + b) + r·Wh) + bh. -/
def gateOps (x r : Row) (W Wh : Mat) (b bh : Bias) : Row :=
  addf (addf (addf (val_main_v2 (F := Ideal) x W) (val_main_v4 (F := Ideal) b)) (val_main_v2 (F := Ideal) r Wh))
    (val_main_v4 (F := Ideal) bh)

/-- At column j it is the specification's `gatePre`. -/
theorem gateOps_at (A : Args) (W Wh : Mat) (b bh : Bias) (j : Fin 4096) :
    gateOps A.x A.r W Wh b bh (ix2 (0 : Fin 1) j) = gatePre A W Wh b bh j := by
  show ((val_main_v2 (F := Ideal) A.x W (ix2 (0 : Fin 1) j) + val_main_v4 (F := Ideal) b (ix2 (0 : Fin 1) j))
      + val_main_v2 (F := Ideal) A.r Wh (ix2 (0 : Fin 1) j)) + val_main_v4 (F := Ideal) bh (ix2 (0 : Fin 1) j) = _
  rw [rowDot_at, rowDot_at, bias_at, bias_at]
  rfl

variable (A : Args)

/-- The four gates as the reference computes them: the input gate's activation (its tenth operation) and the
    gates j, f, o (operations 18, 26, 34), at the bundle's arrays. -/
abbrev stPost : Row := val_main_v10 (F := Ideal) A.x A.r A.hebb A.Wi A.bi A.Whi A.bhi A.alpha
abbrev stJ : Row := val_main_v18 (F := Ideal) A.x A.r A.Wj A.bj A.Whj A.bhj
abbrev stF : Row := val_main_v26 (F := Ideal) A.x A.r A.Wf A.bf A.Whf A.bhf
abbrev stO : Row := val_main_v34 (F := Ideal) A.x A.r A.Wo A.bo A.Who A.bho

theorem stJ_at (j : Fin 4096) : stJ A (ix2 (0 : Fin 1) j) = gJ A j :=
  congrArg Ideal.tanh (gateOps_at A A.Wj A.Whj A.bj A.bhj j)
theorem stF_at (j : Fin 4096) : stF A (ix2 (0 : Fin 1) j) = gF A j :=
  congrArg Ideal.tanh (gateOps_at A A.Wf A.Whf A.bf A.bhf j)
theorem stO_at (j : Fin 4096) : stO A (ix2 (0 : Fin 1) j) = gO A j :=
  congrArg Ideal.tanh (gateOps_at A A.Wo A.Who A.bo A.bho j)

/-- The input gate carries the plastic term in front: ((((x·(alpha ∘ hebb) + x·Wi) + bi) + r·Whi) + bhi. -/
theorem stPost_at (j : Fin 4096) : stPost A (ix2 (0 : Fin 1) j) = post A j := by
  show Ideal.tanh ((((val_main_v1 (F := Ideal) A.x A.hebb A.alpha (ix2 (0 : Fin 1) j)
      + val_main_v2 (F := Ideal) A.x A.Wi (ix2 (0 : Fin 1) j)) + val_main_v4 (F := Ideal) A.bi (ix2 (0 : Fin 1) j))
      + val_main_v2 (F := Ideal) A.r A.Whi (ix2 (0 : Fin 1) j)) + val_main_v4 (F := Ideal) A.bhi (ix2 (0 : Fin 1) j)) = _
  rw [plastic_at, rowDot_at, rowDot_at, bias_at, bias_at]
  rfl

end Cert.ReferenceIdeal.RefValue

end
-- ==== Proof.Ref.Cell.lean ====
import proofs.«169774_j34978213659000_2_alg».proof.Proof.Ref.Gates

noncomputable section

namespace Cert.ReferenceIdeal.RefValue

open Cert.ReferenceIdeal Cert.ReferenceIdeal.Read Cert.Spec Idealize.ShloMosaic Idealize.ShloMosaic.ValueIdx

/-! # The new cell state and the output

Entrywise in the four gates: c' = f ∘ cell + post ∘ j and h = tanh(c') ∘ o, column by column. -/

variable (A : Args)

/-- The new cell state and the output as the reference computes them (its operations 37 and 39). -/
abbrev stC : Row :=
  val_main_v37 (F := Ideal) A.x A.r A.cell A.hebb A.Wi A.bi A.Wj A.bj A.Wf A.bf A.Whi A.bhi A.Whj A.bhj A.Whf A.bhf A.alpha
abbrev stH : Row :=
  val_main_v39 (F := Ideal) A.x A.r A.cell A.hebb A.Wi A.bi A.Wj A.bj A.Wf A.bf A.Wo A.bo A.Whi A.bhi A.Whj A.bhj A.Whf A.bhf
    A.Who A.bho A.alpha

theorem stC_at (j : Fin 4096) : stC A (ix2 (0 : Fin 1) j) = cNew A j := by
  show stF A (ix2 (0 : Fin 1) j) * A.cell (ix2 (0 : Fin 1) j) + stPost A (ix2 (0 : Fin 1) j) * stJ A (ix2 (0 : Fin 1) j) = _
  rw [stF_at, stPost_at, stJ_at]
  rfl

theorem stH_at (j : Fin 4096) : stH A (ix2 (0 : Fin 1) j) = hNew A j := by
  show Ideal.tanh (stC A (ix2 (0 : Fin 1) j)) * stO A (ix2 (0 : Fin 1) j) = _
  rw [stC_at, stO_at]
  rfl

/-- The reference's new cell state is the specification's array. -/
theorem stC_eq : stC A = cArr A := by
  funext i
  obtain ⟨j, rfl⟩ : ∃ j : Fin 4096, i = ix2 (0 : Fin 1) j := ⟨i 1, row_ix i⟩
  exact stC_at A j

/-- The reference's output is the specification's array. -/
theorem stH_eq : stH A = hArr A := by
  funext i
  obtain ⟨j, rfl⟩ : ∃ j : Fin 4096, i = ix2 (0 : Fin 1) j := ⟨i 1, row_ix i⟩
  exact stH_at A j

end Cert.ReferenceIdeal.RefValue

end
-- ==== Proof.Ref.Hebb.lean ====
import proofs.«169774_j34978213659000_2_alg».proof.Proof.Ref.Gates

noncomputable section

namespace Cert.ReferenceIdeal.RefValue

open Cert.ReferenceIdeal Cert.ReferenceIdeal.Read Cert.Spec Idealize.ShloMosaic Idealize.ShloMosaic.ValueIdx

/-! # The new Hebbian trace

The modulation is one number: the input gate's activation times the column Wmi, plus bmi, through tanh. The reference
spreads it over the row Wmo by a contraction over an axis of extent one, which is a sum with a single term, adds bmo,
repeats that row down the matrix, multiplies entrywise by the eligibility trace, adds the old Hebbian trace, and clips
to [−1, 1] by a maximum with −1 followed by a minimum with 1. -/

variable (A : Args)

/-- In the contraction with the column Wmi the row operand sits at (0, k) … -/
theorem colL (k : Fin 4096) : lidx_main_v40 (ix2 (0 : Fin 1) (0 : Fin 1)) k = ix2 (0 : Fin 1) k :=
  funext fun a => by match a with | ⟨0, _⟩ => rfl | ⟨1, _⟩ => rfl
/-- … and the column at (k, 0). -/
theorem colR (k : Fin 4096) : ridx_main_v40 (ix2 (0 : Fin 1) (0 : Fin 1)) k = ix2 k (0 : Fin 1) :=
  funext fun a => by match a with | ⟨0, _⟩ => rfl | ⟨1, _⟩ => rfl
/-- A one-entry bias spread to [1, 1] is read at its entry. -/
theorem oneIdx : idx_main_v41 (ix2 (0 : Fin 1) (0 : Fin 1)) = ix1 (0 : Fin 1) :=
  funext fun a => by match a with | ⟨0, _⟩ => rfl
/-- In the contraction over the axis of extent one, the [1, 1] operand sits at (0, 0) … -/
theorem spreadL (j : Fin 4096) : lidx_main_v44 (ix2 (0 : Fin 1) j) (0 : Fin 1) = ix2 (0 : Fin 1) (0 : Fin 1) :=
  funext fun a => by match a with | ⟨0, _⟩ => rfl | ⟨1, _⟩ => rfl
/-- … and the row Wmo at (0, j). -/
theorem spreadR (j : Fin 4096) : ridx_main_v44 (ix2 (0 : Fin 1) j) (0 : Fin 1) = ix2 (0 : Fin 1) j :=
  funext fun a => by match a with | ⟨0, _⟩ => rfl | ⟨1, _⟩ => rfl
/-- A row repeated down the matrix is read at (0, j). -/
theorem downIdx (i j : Fin 4096) : idx_main_v47 (ix2 i j) = ix2 (0 : Fin 1) j :=
  funext fun a => by match a with | ⟨0, _⟩ => rfl | ⟨1, _⟩ => rfl

/-- The modulation's number before tanh: post·Wmi + bmi. -/
theorem modPre_at :
    val_main_v42 (F := Ideal) A.x A.r A.hebb A.Wi A.bi A.Whi A.bhi A.Wmi A.bmi A.alpha (ix2 (0 : Fin 1) (0 : Fin 1))
      = modPre A := by
  rw [val_main_v42_apply, val_main_v40_apply, val_main_v41_apply, oneIdx]
  exact congrArg (· + A.bmi (ix1 (0 : Fin 1))) (Finset.sum_congr rfl fun k _ => by
    rw [colL, colR]
    exact congrArg (· * A.Wmi (ix2 k (0 : Fin 1))) (stPost_at A k))

/-- The modulation row: tanh of that number along Wmo, plus bmo. -/
theorem modRow_at (j : Fin 4096) :
    val_main_v46 (F := Ideal) A.x A.r A.hebb A.Wi A.bi A.Whi A.bhi A.Wmi A.bmi A.Wmo A.bmo A.alpha (ix2 (0 : Fin 1) j)
      = modRow A j := by
  have hb : val_main_v45 (F := Ideal) A.bmo (ix2 (0 : Fin 1) j) = A.bmo (ix1 j) := bias_at A.bmo j
  rw [val_main_v46_apply, val_main_v44_apply, Fin.sum_univ_one, hb, spreadL, spreadR, val_main_v43_apply, modPre_at]
  rfl

/-- The new Hebbian trace as the reference computes it (the result of its clip). -/
abbrev stHebb : Mat :=
  val_main_v50 (F := Ideal) A.x A.r A.hebb A.elig A.Wi A.bi A.Whi A.bhi A.Wmi A.bmi A.Wmo A.bmo A.alpha

theorem stHebb_at (i j : Fin 4096) : stHebb A (ix2 i j) = hebbNew A i j := by
  unfold stHebb
  rw [val_main_v50_apply, val_main_call0_v2_apply, val_main_v49_apply, val_main_v48_apply, val_main_v47_apply, downIdx,
    modRow_at, val_main_call0_v4_apply, val_main_call0_v3_apply, val_main_cst_0_apply, val_main_call0_v1_apply,
    val_main_call0_v0_apply, val_main_cst_apply]
  rfl

/-- The reference's new Hebbian trace is the specification's array. -/
theorem stHebb_eq : stHebb A = hebbArr A := by
  funext i
  obtain ⟨p, q, rfl⟩ : ∃ (p q : Fin 4096), i = ix2 p q := ⟨i 0, i 1, eq_ix2 i⟩
  exact stHebb_at A p q

end Cert.ReferenceIdeal.RefValue

end
-- ==== Proof.Ref.Elig.lean ====
import proofs.«169774_j34978213659000_2_alg».proof.Proof.Ref.Gates

noncomputable section

namespace Cert.ReferenceIdeal.RefValue

open Cert.ReferenceIdeal Cert.ReferenceIdeal.Read Cert.Spec Idealize.ShloMosaic Idealize.ShloMosaic.ValueIdx

/-! # The new eligibility trace

(1 − eta)·elig + eta·(xᵀ post). The one-entry array eta (and 1 − eta) is spread to [1, 1] and then over the whole
matrix, so every entry reads eta's single entry. The outer product xᵀ post is a contraction of the column xᵀ [4096, 1]
with the row post [1, 4096] over an axis of extent one: a sum with a single term, x(0,i)·post(j). -/

variable (A : Args)

/-- A [1, 1] array spread over the matrix is read at (0, 0). -/
theorem allIdx (i j : Fin 4096) : idx_main_v54 (ix2 i j) = ix2 (0 : Fin 1) (0 : Fin 1) :=
  funext fun a => by match a with | ⟨0, _⟩ => rfl | ⟨1, _⟩ => rfl
/-- A one-entry array spread to [1, 1] is read at its entry. -/
theorem entryIdx : idx_main_v53 (ix2 (0 : Fin 1) (0 : Fin 1)) = ix1 (0 : Fin 1) :=
  funext fun a => by match a with | ⟨0, _⟩ => rfl
/-- In the outer product the column operand sits at (i, 0) … -/
theorem outerL (i j : Fin 4096) : lidx_main_v57 (ix2 i j) (0 : Fin 1) = ix2 i (0 : Fin 1) :=
  funext fun a => by match a with | ⟨0, _⟩ => rfl | ⟨1, _⟩ => rfl
/-- … and the row operand at (0, j). -/
theorem outerR (i j : Fin 4096) : ridx_main_v57 (ix2 i j) (0 : Fin 1) = ix2 (0 : Fin 1) j :=
  funext fun a => by match a with | ⟨0, _⟩ => rfl | ⟨1, _⟩ => rfl
/-- The transposed row at (i, 0) is the row at (0, i). -/
theorem transIdx (i : Fin 4096) : idx_main_v56 (ix2 i (0 : Fin 1)) = ix2 (0 : Fin 1) i :=
  funext fun a => by match a with | ⟨0, _⟩ => rfl | ⟨1, _⟩ => rfl

/-- 1 − eta, spread over the matrix. -/
theorem oneMinusEta_at (i j : Fin 4096) :
    val_main_v54 (F := Ideal) A.eta (ix2 i j) = one - A.eta (ix1 (0 : Fin 1)) := by
  rw [val_main_v54_apply, allIdx, val_main_v53_apply, entryIdx, val_main_v52_apply, val_main_v51_apply, val_main_cst_1_apply]
  rfl

/-- eta, spread over the matrix. -/
theorem eta_at (i j : Fin 4096) : val_main_v59 (F := Ideal) A.eta (ix2 i j) = A.eta (ix1 (0 : Fin 1)) := by
  have h1 : val_main_v59 (F := Ideal) A.eta (ix2 i j) = val_main_v58 (F := Ideal) A.eta (ix2 (0 : Fin 1) (0 : Fin 1)) :=
    (val_main_v59_apply (F := Ideal) A.eta (ix2 i j)).trans (congrArg (val_main_v58 (F := Ideal) A.eta) (allIdx i j))
  have h2 : val_main_v58 (F := Ideal) A.eta (ix2 (0 : Fin 1) (0 : Fin 1)) = A.eta (ix1 (0 : Fin 1)) :=
    (val_main_v58_apply (F := Ideal) A.eta (ix2 (0 : Fin 1) (0 : Fin 1))).trans (congrArg A.eta entryIdx)
  exact h1.trans h2

/-- The outer product xᵀ post at (i, j). -/
theorem outer_at (i j : Fin 4096) :
    val_main_v57 (F := Ideal) A.x A.r A.hebb A.Wi A.bi A.Whi A.bhi A.alpha (ix2 i j) = A.x (ix2 (0 : Fin 1) i) * post A j := by
  rw [val_main_v57_apply, Fin.sum_univ_one, outerL, outerR, val_main_v56_apply, transIdx]
  exact congrArg (A.x (ix2 (0 : Fin 1) i) * ·) (stPost_at A j)

/-- The new eligibility trace as the reference computes it (its last operation). -/
abbrev stElig : Mat := val_main_v61 (F := Ideal) A.x A.r A.hebb A.elig A.Wi A.bi A.Whi A.bhi A.eta A.alpha

theorem stElig_at (i j : Fin 4096) : stElig A (ix2 i j) = eligNew A i j := by
  unfold stElig
  rw [val_main_v61_apply, val_main_v55_apply, oneMinusEta_at, val_main_v60_apply, eta_at, outer_at]
  rfl

/-- The reference's new eligibility trace is the specification's array. -/
theorem stElig_eq : stElig A = eligArr A := by
  funext i
  obtain ⟨p, q, rfl⟩ : ∃ (p q : Fin 4096), i = ix2 p q := ⟨i 0, i 1, eq_ix2 i⟩
  exact stElig_at A p q

end Cert.ReferenceIdeal.RefValue

end
-- ==== Proof.Ref.RefValue.lean ====
import proofs.«169774_j34978213659000_2_alg».proof.Proof.Ref.Cell
import proofs.«169774_j34978213659000_2_alg».proof.Proof.Ref.Hebb
import proofs.«169774_j34978213659000_2_alg».proof.Proof.Ref.Elig

noncomputable section

namespace Cert.ReferenceIdeal.RefValue

open Cert.ReferenceIdeal Cert.ReferenceIdeal.Gen Cert.ReferenceIdeal.Read Idealize.ShloMosaic Idealize.ShloMosaic.TcCoe
  Idealize.SL.Sem

/-! # The reference's run ends at the specification

Every weakly fair execution of the reference terminates with its four results — the output h, the new Hebbian trace,
the new eligibility trace, the new cell state — at the specification's functions of the argument arrays it was
started on, and with those arrays unchanged. The run itself is the generated one; each result's term is identified
with the specification by the lemmas on the gates, the cell, and the two traces. -/

open Cert.ReferenceIdeal in
/-- The reference's argument arrays on core c, as the specification's bundle. -/
def argsOf (m : (ℓ : Loc nD τ sig) → Buf (Elt Ideal) ℓ) (c : Dev nD) : Cert.Spec.Args where
  x := m ((c.tc : Thread nD τ).loc main_arg0)
  r := m ((c.tc : Thread nD τ).loc main_arg1)
  cell := m ((c.tc : Thread nD τ).loc main_arg2)
  hebb := m ((c.tc : Thread nD τ).loc main_arg3)
  elig := m ((c.tc : Thread nD τ).loc main_arg4)
  Wi := m ((c.tc : Thread nD τ).loc main_arg5)
  bi := m ((c.tc : Thread nD τ).loc main_arg6)
  Wj := m ((c.tc : Thread nD τ).loc main_arg7)
  bj := m ((c.tc : Thread nD τ).loc main_arg8)
  Wf := m ((c.tc : Thread nD τ).loc main_arg9)
  bf := m ((c.tc : Thread nD τ).loc main_arg10)
  Wo := m ((c.tc : Thread nD τ).loc main_arg11)
  bo := m ((c.tc : Thread nD τ).loc main_arg12)
  Whi := m ((c.tc : Thread nD τ).loc main_arg13)
  bhi := m ((c.tc : Thread nD τ).loc main_arg14)
  Whj := m ((c.tc : Thread nD τ).loc main_arg15)
  bhj := m ((c.tc : Thread nD τ).loc main_arg16)
  Whf := m ((c.tc : Thread nD τ).loc main_arg17)
  bhf := m ((c.tc : Thread nD τ).loc main_arg18)
  Who := m ((c.tc : Thread nD τ).loc main_arg19)
  bho := m ((c.tc : Thread nD τ).loc main_arg20)
  Wmi := m ((c.tc : Thread nD τ).loc main_arg21)
  bmi := m ((c.tc : Thread nD τ).loc main_arg22)
  Wmo := m ((c.tc : Thread nD τ).loc main_arg23)
  bmo := m ((c.tc : Thread nD τ).loc main_arg24)
  eta := m ((c.tc : Thread nD τ).loc main_arg25)
  alpha := m ((c.tc : Thread nD τ).loc main_arg26)

/-- The run of the reference: results at the specification, arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
        r.2.mem ((c.tc : Thread nD τ).loc main_v39) = Cert.Spec.hArr (argsOf m c)
      ∧ r.2.mem ((c.tc : Thread nD τ).loc main_v50) = Cert.Spec.hebbArr (argsOf m c)
      ∧ r.2.mem ((c.tc : Thread nD τ).loc main_v61) = Cert.Spec.eligArr (argsOf m c)
      ∧ r.2.mem ((c.tc : Thread nD τ).loc main_v37) = Cert.Spec.cArr (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun _ h c =>
    ⟨((h c).1.trans (val_main_v39_eq _ _ _ _ _ _ _ _ _ _ _ _ _ _ _ _ _ _ _ _ _)).trans (stH_eq (argsOf m c)),
     ((h c).2.1.trans (val_main_v50_eq _ _ _ _ _ _ _ _ _ _ _ _ _)).trans (stHebb_eq (argsOf m c)),
     ((h c).2.2.1.trans (val_main_v61_eq _ _ _ _ _ _ _ _ _ _)).trans (stElig_eq (argsOf m c)),
     ((h c).2.2.2.1.trans (val_main_v37_eq _ _ _ _ _ _ _ _ _ _ _ _ _ _ _ _ _)).trans (stC_eq (argsOf m c)),
     (h c).2.2.2.2⟩)
    (Cert.ReferenceIdeal.Value.run (F := Ideal) m ρ)

/-- The reference's frame: it runs to the end and leaves its twenty-seven argument arrays unchanged. -/
theorem ref_frame (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
        r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun _ h c => (h c).2.2.2.2) (ref_run m ρ)

end Cert.ReferenceIdeal.RefValue

end
-- ==== Proof.lean ====
/-
  One step of an LSTM-like cell of width 4096 with a plastic input gate, and the update of its Hebbian and eligibility
  traces: a Pallas kernel in two phases against the plain reference.

  Phase 1 accumulates the four gates' pre-activations over 32 row blocks of the eight gate matrices (and of
  alpha ∘ hebb) in four accumulators it carries from one grid point to the next, then adds the biases, applies the
  nonlinearities and stores h, the new cell state and the input gate's activation. Between the phases the host forms
  the modulation row from that activation. Phase 2 updates the two traces block by block on a 4 × 4 grid.

  The frames (each program runs to the end, faults nowhere and leaves its arguments unchanged) are proved once,
  generic in the float instance, from the two regions' body obligations: phase 1's in its three cases (first point,
  a middle point, last point) with the accumulators' contents named point by point, phase 2's in its one. On the
  extended reals both programs compute the same four arrays: a change of float format is the identity, a matrix
  product into the zero accumulator is the plain sum, and the kernel's blocked, differently grouped sums agree with
  the reference's whole dot products because addition of extended reals is commutative and associative. No entry is
  assumed finite anywhere.
-/
import proofs.«169774_j34978213659000_2_alg».proof.Defs
import proofs.«169774_j34978213659000_2_alg».proof.Proof.Gen.Kernel
import proofs.«169774_j34978213659000_2_alg».proof.Proof.Gen.KernelIdeal
import proofs.«169774_j34978213659000_2_alg».proof.Proof.Gen.ReferenceIdeal
import proofs.«169774_j34978213659000_2_alg».proof.Proof.Gen.Pre_finite_inputs
import proofs.«169774_j34978213659000_2_alg».proof.Proof.Bits.Results
import proofs.«169774_j34978213659000_2_alg».proof.Proof.Ideal.KernelValue
import proofs.«169774_j34978213659000_2_alg».proof.Proof.Ref.RefValue
import Idealize.ShloMosaic.Adequacy
import Idealize.ShloMosaic.Init

noncomputable section

namespace Cert.Proof

open Idealize.ShloMosaic Idealize.SL.Sem

/-- The word-level kernel runs, faults nowhere and leaves its arguments unchanged. -/
theorem frame_k : Cert.frame_Kernel (hKernel := Cert.Kernel.Gen.facts) (hPre_finite_inputs := Cert.Pre_finite_inputs.Gen.facts) :=
  fun m ρ _ => Cert.Kernel.Run.frame m ρ

/-- So does the kernel read at the ideal values. -/
theorem frame_ki : Cert.frame_KernelIdeal (hKernelIdeal := Cert.KernelIdeal.Gen.facts) (hPre_finite_inputs := Cert.Pre_finite_inputs.Gen.facts) :=
  fun m ρ _ => Cert.KernelIdeal.Run.frame m ρ

/-- And the reference. -/
theorem frame_r : Cert.frame_ReferenceIdeal (hReferenceIdeal := Cert.ReferenceIdeal.Gen.facts) (hPre_finite_inputs := Cert.Pre_finite_inputs.Gen.facts) :=
  fun m ρ _ => Cert.ReferenceIdeal.RefValue.ref_frame m ρ

/-- The idealization rewrote no operation. -/
theorem preserves : Cert.preserves_Kernel_KernelIdeal := trivial

set_option maxHeartbeats 4000000 in
/-- Memories that agree on the arguments give the same bundle of argument arrays. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) :
    Cert.ReferenceIdeal.RefValue.argsOf m' c = Cert.KernelIdeal.Run.argsOf m c := by
  obtain ⟨h0, h1, h2, h3, h4, h5, h6, h7, h8, h9, h10, h11, h12, h13, h14, h15, h16, h17, h18, h19, h20, h21, h22, h23, h24, h25, h26⟩ := h
  unfold Cert.ReferenceIdeal.RefValue.argsOf Cert.KernelIdeal.Run.argsOf
  rw [h0, h1, h2, h3, h4, h5, h6, h7, h8, h9, h10, h11, h12, h13, h14, h15, h16, h17, h18, h19, h20, h21, h22, h23, h24, h25, h26]

/-- At the ideal values, from memories agreeing on the arguments, both programs run and end with the same four
    arrays: the specification's, of the one bundle of arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' _ hagree
  refine ⟨fun c => Cert.Spec.hArr (Cert.KernelIdeal.Run.argsOf m c), fun c => Cert.Spec.hebbArr (Cert.KernelIdeal.Run.argsOf m c),
    fun c => Cert.Spec.eligArr (Cert.KernelIdeal.Run.argsOf m c), fun c => Cert.Spec.cArr (Cert.KernelIdeal.Run.argsOf m c),
    Cert.KernelIdeal.Run.kernel_run m g, ?_⟩
  refine (θ_run (Cert.ReferenceIdeal.defs (F := Ideal)) _ _).mono (fun r h c => ?_) (Cert.ReferenceIdeal.RefValue.ref_run m' g')
  have e := args_agree m m' c (hagree c)
  have hc := h c
  rw [e] at hc
  exact hc

/-- The certificate. -/
theorem claim : Cert.Claim := ⟨Cert.Kernel.Gen.facts, Cert.KernelIdeal.Gen.facts, Cert.ReferenceIdeal.Gen.facts, Cert.Pre_finite_inputs.Gen.facts,
  frame_k, frame_ki, frame_r, preserves, algebraic⟩

end Cert.Proof

end
